-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S640x640 : Shape := ⟨2, ![640, 640]⟩
abbrev S640 : Shape := ⟨1, ![640]⟩
abbrev S640x1 : Shape := ⟨2, ![640, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640x640 : S_.BroadcastsInDim S640x640 (![] : Fin 0 → Fin S640x640.rank)
  reducesTo_S640x640_S_d0_1 : S640x640.ReducesTo [0, 1] S_
  bcast_S_S640 : S_.BroadcastsInDim S640 (![] : Fin 0 → Fin S640.rank)
  reducesTo_S640_S_d0 : S640.ReducesTo [0] S_
  bcast_S_S640x1 : S_.BroadcastsInDim S640x1 (![] : Fin 0 → Fin S640x1.rank)
  reducesTo_S640x1_S_d0_1 : S640x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S640x1 .f32) (main_arg14 : FVec F S1 .f32) (main_v48 : IVec S_ 1) (main_v49 : FVec F S640 .f32) (main_v50 : FVec F S640 .f32) : IVec S_ 1 :=
  let main_v51 : IVec S640 1 := cmpf .olt main_v49 main_v50
  let main_c_19 : IVec S_ 1 := constantI S_ 1 1#1
  let main_v52 : IVec S_ 1 := (fun x v => Host.reduce IntOp.andi x v reducesTo_S640_S_d0 h_S_) main_v51 main_c_19
  let main_v53 : IVec S_ 1 := andi main_v48 main_v52
  let main_v54 : FVec F S640x1 .f32 := Host.absf main_arg13
  let main_cst_20 : FVec F S_ .f32 := constant S_ .f32 0x7F800000#32
  let main_v55 : FVec F S640x1 .f32 := broadcastInDim S640x1 ![] bcast_S_S640x1 main_cst_20
  let main_v56 : IVec S640x1 1 := cmpf .olt main_v54 main_v55
  let main_c_21 : IVec S_ 1 := constantI S_ 1 1#1
  let main_v57 : IVec S_ 1 := (fun x v => Host.reduce IntOp.andi x v reducesTo_S640x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S640x640 .f32) (main_arg12 : FVec F S640 .f32) (main_arg13 : FVec F S640x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S640x640 .f32 := Host.absf main_arg11
  let main_cst_16 : FVec F S_ .f32 := constant S_ .f32 0x7F800000#32
  let main_v45 : FVec F S640x640 .f32 := broadcastInDim S640x640 ![] bcast_S_S640x640 main_cst_16
  let main_v46 : IVec S640x640 1 := cmpf .olt main_v44 main_v45
  let main_c_17 : IVec S_ 1 := constantI S_ 1 1#1
  let main_v47 : IVec S_ 1 := (fun x v => Host.reduce IntOp.andi x v reducesTo_S640x640_S_d0_1 h_S_) main_v46 main_c_17
  let main_v48 : IVec S_ 1 := andi main_v43 main_v47
  let main_v49 : FVec F S640 .f32 := Host.absf main_arg12
  let main_cst_18 : FVec F S_ .f32 := constant S_ .f32 0x7F800000#32
  let main_v50 : FVec F S640 .f32 := broadcastInDim S640 ![] bcast_S_S640 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S640x640 .f32) (main_arg12 : FVec F S640 .f32) (main_arg13 : FVec F S640x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S640x640 .f32) (main_arg12 : FVec F S640 .f32) (main_arg13 : FVec F S640x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S640x640 : Shape := ⟨2, ![640, 640]⟩
abbrev S640 : Shape := ⟨1, ![640]⟩
abbrev S640x1 : Shape := ⟨2, ![640, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S512 : Shape := ⟨1, ![512]⟩
abbrev S512x1 : Shape := ⟨2, ![512, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S512x128 : Shape := ⟨2, ![512, 128]⟩
abbrev S512x640 : Shape := ⟨2, ![512, 640]⟩
abbrev S1x640 : Shape := ⟨2, ![1, 640]⟩
abbrev S1x1 : Shape := ⟨2, ![1, 1]⟩

abbrev nBuf : Space → Nat
  | .hbm => 173
  | .vmem => 60
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S640x640, .f32⟩
  | 12 => ⟨S640, .f32⟩
  | 13 => ⟨S640x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S100000x1, .f32⟩
  | 40 => ⟨S_, .f32⟩
  | 41 => ⟨S100000, .f32⟩
  | 42 => ⟨S_, .f32⟩
  | 43 => ⟨S512, .f32⟩
  | 44 => ⟨S100000x1, .i32⟩
  | 45 => ⟨S512, .f32⟩
  | 46 => ⟨S_, .f32⟩
  | 47 => ⟨S512, .f32⟩
  | 48 => ⟨S512, .f32⟩
  | 49 => ⟨S_, .f32⟩
  | 50 => ⟨S512, .f32⟩
  | 51 => ⟨S512, .f32⟩
  | 52 => ⟨S512x1, .f32⟩
  | 53 => ⟨S100000x128, .bf16⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .bf16⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .bf16⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .bf16⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S1x128, .f32⟩
  | 86 => ⟨S100000x128, .f32⟩
  | 87 => ⟨S100000x128, .bf16⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x128, .bf16⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S1x128, .f32⟩
  | 103 => ⟨S100000x128, .f32⟩
  | 104 => ⟨S100000x128, .bf16⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .bf16⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .bf16⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000x128, .bf16⟩
  | 3 => ⟨S1700000x128, .f32⟩
  | 4 => ⟨S_, .f32⟩
  | 5 => ⟨S100000x128, .f32⟩
  | 6 => ⟨S1700000x1, .i32⟩
  | 7 => ⟨S100000x128, .f32⟩
  | 8 => ⟨S1x128, .f32⟩
  | 9 => ⟨S100000x128, .f32⟩
  | 10 => ⟨S_, .f32⟩
  | 11 => ⟨S512x128, .f32⟩
  | 12 => ⟨S100000x1, .i32⟩
  | 13 => ⟨S512x128, .f32⟩
  | 14 => ⟨S512x128, .f32⟩
  | 15 => ⟨S512x128, .f32⟩
  | 16 => ⟨S_, .f32⟩
  | 17 => ⟨S512x128, .f32⟩
  | 18 => ⟨S100000x1, .i32⟩
  | 19 => ⟨S512x128, .f32⟩
  | 20 => ⟨S512x128, .f32⟩
  | 21 => ⟨S512x128, .f32⟩
  | 22 => ⟨S_, .f32⟩
  | 23 => ⟨S512x128, .f32⟩
  | 24 => ⟨S100000x1, .i32⟩
  | 25 => ⟨S512x128, .f32⟩
  | 26 => ⟨S512x128, .f32⟩
  | 27 => ⟨S512x128, .f32⟩
  | 28 => ⟨S_, .f32⟩
  | 29 => ⟨S512x128, .f32⟩
  | 30 => ⟨S100000x1, .i32⟩
  | 31 => ⟨S512x128, .f32⟩
  | 32 => ⟨S512x128, .f32⟩
  | 33 => ⟨S512x128, .f32⟩
  | 34 => ⟨S_, .f32⟩
  | 35 => ⟨S512x128, .f32⟩
  | 36 => ⟨S100000x1, .i32⟩
  | 37 => ⟨S512x128, .f32⟩
  | 38 => ⟨S512x128, .f32⟩
  | 39 => ⟨S512x128, .f32⟩
  | 40 => ⟨S512x640, .f32⟩
  | 41 => ⟨S1x640, .f32⟩
  | 42 => ⟨S1x1, .f32⟩
  | 43 => ⟨S512x1, .f32⟩
  | 44 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .bf16⟩
  | .local _ .vmem, ⟨36, _⟩ => ⟨S5000x128, .bf16⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .bf16⟩
  | .local _ .vmem, ⟨46, _⟩ => ⟨S5000x128, .bf16⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S512x640, .f32⟩
  | .local _ .vmem, ⟨55, _⟩ => ⟨S640x640, .f32⟩
  | .local _ .vmem, ⟨56, _⟩ => ⟨S1x640, .f32⟩
  | .local _ .vmem, ⟨57, _⟩ => ⟨S640x1, .f32⟩
  | .local _ .vmem, ⟨58, _⟩ => ⟨S1x1, .f32⟩
  | .local _ .vmem, ⟨59, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c : Ref sig .tc := ⟨.hbm, 54, rfl⟩
abbrev main_v28 : Ref sig .tc := ⟨.hbm, 55, rfl⟩
abbrev main_v29 : Ref sig .tc := ⟨.hbm, 56, rfl⟩
abbrev main_c_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_c_10 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53_0 : Ref sig .tc := ⟨.hbm, 86, rfl⟩
abbrev main_v53_1 : Ref sig .tc := ⟨.hbm, 87, rfl⟩
abbrev main_c_13 : Ref sig .tc := ⟨.hbm, 88, rfl⟩
abbrev main_v54 : Ref sig .tc := ⟨.hbm, 89, rfl⟩
abbrev main_v55 : Ref sig .tc := ⟨.hbm, 90, rfl⟩
abbrev main_c_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66_0 : Ref sig .tc := ⟨.hbm, 103, rfl⟩
abbrev main_v66_1 : Ref sig .tc := ⟨.hbm, 104, rfl⟩
abbrev main_c_16 : Ref sig .tc := ⟨.hbm, 105, rfl⟩
abbrev main_v67 : Ref sig .tc := ⟨.hbm, 106, rfl⟩
abbrev main_v68 : Ref sig .tc := ⟨.hbm, 107, rfl⟩
abbrev main_c_17 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79_0 : Ref sig .tc := ⟨.hbm, 120, rfl⟩
abbrev main_v79_1 : Ref sig .tc := ⟨.hbm, 121, rfl⟩
abbrev main_c_19 : Ref sig .tc := ⟨.hbm, 122, rfl⟩
abbrev main_v80 : Ref sig .tc := ⟨.hbm, 123, rfl⟩
abbrev main_v81 : Ref sig .tc := ⟨.hbm, 124, rfl⟩
abbrev main_c_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_21 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_24 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem4_1 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem3_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x640 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S640x640 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x640 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S640x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S512 : S_.BroadcastsInDim S512 (![] : Fin 0 → Fin S512.rank)
  bcast_S100000_S100000x1_0 : S100000.BroadcastsInDim S100000x1 (![0] : Fin 1 → Fin S100000x1.rank)
  shapeCasts_S512_S512x1 : S512.ShapeCasts S512x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S512x1_S512x128_0_1 : S512x1.BroadcastsInDim S512x128 (![0, 1] : Fin 2 → Fin S512x128.rank)
  concatenates_S512x128_S512x128_S512x128_S512x128_S512x128_S512x640_d1 : Shape.Concatenates [S512x128, S512x128, S512x128, S512x128, S512x128] S512x640 1
  shapeCasts_S640_S1x640 : S640.ShapeCasts S1x640
  shapeCasts_S1_S1x1 : S1.ShapeCasts S1x1
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x640_S640x640_0_0 : ∀ a, (![0, 0] : Fin 2 → Nat) a + S640x640.size a ≤ S640x640.size a
  h_S640x640 : 0 < S640x640.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S640x1_S640x1_0_0 : ∀ a, (![0, 0] : Fin 2 → Nat) a + S640x1.size a ≤ S640x1.size a
  h_S640x1 : 0 < S640x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S100000_S1700000x1_S1700000_n_0_0_1_wf : ScatterDims.WF S100000 S1700000x1 S1700000 [] [0] [0] 1
  scatter_S512_S100000x1_S100000_n_0_0_1_wf : ScatterDims.WF S512 S100000x1 S100000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x640_S640x640_S512x640_1_0_0_1_n_n_wf : DotDims.WF S512x640 S640x640 S512x640 [1] [0] [0] [1] [] []
  dot_S512x640_S640x1_S512x1_1_0_0_1_n_n_wf : DotDims.WF S512x640 S640x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .bf16 = 32 ∨ (Rect.block (s := S100000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .bf16 = 32 ∨ (Rect.block (s := S100000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .bf16 = 32 ∨ (Rect.block (s := S100000x128) S5000x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x640.size a ≤ S512x640.size a
  hwx6_0 : ∀ i : grid6.Coords, EltTy.bits .f32 = 32 ∨ (Rect.block (s := S512x640) S512x640.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S640x640.size a ≤ S640x640.size a
  hwx6_1 : ∀ i : grid6.Coords, EltTy.bits .f32 = 32 ∨ (Rect.block (s := S640x640) S640x640.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x640.size a ≤ S1x640.size a
  hwx6_2 : ∀ i : grid6.Coords, EltTy.bits .f32 = 32 ∨ (Rect.block (s := S1x640) S1x640.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S640x1.size a ≤ S640x1.size a
  hwx6_3 : ∀ i : grid6.Coords, EltTy.bits .f32 = 32 ∨ (Rect.block (s := S640x1) S640x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S512x1.size a
  hwx6_5 : ∀ i : grid6.Coords, EltTy.bits .f32 = 32 ∨ (Rect.block (s := S512x1) S512x1.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x640_S640x640_S512x640_1_0_0_1_n_n : DotDims S512x640 S640x640 S512x640 where
  lhsContracting := [1]
  rhsContracting := [0]
  lhsNonContracting := [0]
  rhsNonContracting := [1]
  lhsBatch := []
  rhsBatch := []
  wf := dot_S512x640_S640x640_S512x640_1_0_0_1_n_n_wf
def dot_S512x640_S640x1_S512x1_1_0_0_1_n_n : DotDims S512x640 S640x1 S512x1 where
  lhsContracting := [1]
  rhsContracting := [0]
  lhsNonContracting := [0]
  rhsNonContracting := [1]
  lhsBatch := []
  rhsBatch := []
  wf := dot_S512x640_S640x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v53_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v66_1) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v79_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v90) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v118) S512x640.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S640x640.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v119) S1x640.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S640x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v120) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v121) S512x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S640x640 : Shape := ⟨2, ![640, 640]⟩
abbrev S640 : Shape := ⟨1, ![640]⟩
abbrev S640x1 : Shape := ⟨2, ![640, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x640 : Shape := ⟨2, ![512, 640]⟩
abbrev S1x640 : Shape := ⟨2, ![1, 640]⟩
abbrev S1x1 : Shape := ⟨2, ![1, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S640x640, .f32⟩
  | 12 => ⟨S640, .f32⟩
  | 13 => ⟨S640x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x128, .f32⟩
  | 91 => ⟨S1700000x1, .f32⟩
  | 92 => ⟨S1700000x128, .f32⟩
  | 93 => ⟨S1700000x128, .f32⟩
  | 94 => ⟨S_, .f32⟩
  | 95 => ⟨S100000x128, .f32⟩
  | 96 => ⟨S1700000x1, .i32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x128, .f32⟩
  | 9 => ⟨S1700000x1, .f32⟩
  | 10 => ⟨S1700000x128, .f32⟩
  | 11 => ⟨S1700000x128, .f32⟩
  | 12 => ⟨S_, .f32⟩
  | 13 => ⟨S100000x128, .f32⟩
  | 14 => ⟨S1700000x1, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x128, .f32⟩
  | 32 => ⟨S1700000x1, .f32⟩
  | 33 => ⟨S1700000x128, .f32⟩
  | 34 => ⟨S1700000x128, .f32⟩
  | 35 => ⟨S_, .f32⟩
  | 36 => ⟨S100000x128, .f32⟩
  | 37 => ⟨S1700000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S512x128, .f32⟩
  | 47 => ⟨S100000x1, .i32⟩
  | 48 => ⟨S512x128, .f32⟩
  | 49 => ⟨S_, .f32⟩
  | 50 => ⟨S100000, .f32⟩
  | 51 => ⟨S_, .f32⟩
  | 52 => ⟨S512, .f32⟩
  | 53 => ⟨S100000x1, .i32⟩
  | 54 => ⟨S512, .f32⟩
  | 55 => ⟨S_, .f32⟩
  | 56 => ⟨S512, .f32⟩
  | 57 => ⟨S512, .f32⟩
  | 58 => ⟨S512x1, .f32⟩
  | 59 => ⟨S512x128, .f32⟩
  | 60 => ⟨S512x128, .f32⟩
  | 61 => ⟨S_, .f32⟩
  | 62 => ⟨S512x128, .f32⟩
  | 63 => ⟨S100000x1, .i32⟩
  | 64 => ⟨S512x128, .f32⟩
  | 65 => ⟨S_, .f32⟩
  | 66 => ⟨S100000, .f32⟩
  | 67 => ⟨S_, .f32⟩
  | 68 => ⟨S512, .f32⟩
  | 69 => ⟨S100000x1, .i32⟩
  | 70 => ⟨S512, .f32⟩
  | 71 => ⟨S_, .f32⟩
  | 72 => ⟨S512, .f32⟩
  | 73 => ⟨S512, .f32⟩
  | 74 => ⟨S512x1, .f32⟩
  | 75 => ⟨S512x128, .f32⟩
  | 76 => ⟨S512x128, .f32⟩
  | 77 => ⟨S_, .f32⟩
  | 78 => ⟨S512x128, .f32⟩
  | 79 => ⟨S100000x1, .i32⟩
  | 80 => ⟨S512x128, .f32⟩
  | 81 => ⟨S_, .f32⟩
  | 82 => ⟨S100000, .f32⟩
  | 83 => ⟨S_, .f32⟩
  | 84 => ⟨S512, .f32⟩
  | 85 => ⟨S100000x1, .i32⟩
  | 86 => ⟨S512, .f32⟩
  | 87 => ⟨S_, .f32⟩
  | 88 => ⟨S512, .f32⟩
  | 89 => ⟨S512, .f32⟩
  | 90 => ⟨S512x1, .f32⟩
  | 91 => ⟨S512x128, .f32⟩
  | 92 => ⟨S512x128, .f32⟩
  | 93 => ⟨S_, .f32⟩
  | 94 => ⟨S512x128, .f32⟩
  | 95 => ⟨S100000x1, .i32⟩
  | 96 => ⟨S512x128, .f32⟩
  | 97 => ⟨S_, .f32⟩
  | 98 => ⟨S100000, .f32⟩
  | 99 => ⟨S_, .f32⟩
  | 100 => ⟨S512, .f32⟩
  | 101 => ⟨S100000x1, .i32⟩
  | 102 => ⟨S512, .f32⟩
  | 103 => ⟨S_, .f32⟩
  | 104 => ⟨S512, .f32⟩
  | 105 => ⟨S512, .f32⟩
  | 106 => ⟨S512x1, .f32⟩
  | 107 => ⟨S512x128, .f32⟩
  | 108 => ⟨S512x128, .f32⟩
  | 109 => ⟨S_, .f32⟩
  | 110 => ⟨S512x128, .f32⟩
  | 111 => ⟨S100000x1, .i32⟩
  | 112 => ⟨S512x128, .f32⟩
  | 113 => ⟨S_, .f32⟩
  | 114 => ⟨S100000, .f32⟩
  | 115 => ⟨S_, .f32⟩
  | 116 => ⟨S512, .f32⟩
  | 117 => ⟨S100000x1, .i32⟩
  | 118 => ⟨S512, .f32⟩
  | 119 => ⟨S_, .f32⟩
  | 120 => ⟨S512, .f32⟩
  | 121 => ⟨S512, .f32⟩
  | 122 => ⟨S512x1, .f32⟩
  | 123 => ⟨S512x128, .f32⟩
  | 124 => ⟨S512x128, .f32⟩
  | 125 => ⟨S512x640, .f32⟩
  | 126 => ⟨S512x640, .f32⟩
  | 127 => ⟨S1x640, .f32⟩
  | _ => ⟨S100000x128, .f32⟩

abbrev hbmTy0_2 (i : Nat) : BufTy := match i % 128 with
  | 0 => ⟨S512x640, .f32⟩
  | 1 => ⟨S512x640, .f32⟩
  | 2 => ⟨S_, .f32⟩
  | 3 => ⟨S512x640, .f32⟩
  | 4 => ⟨S512x640, .f32⟩
  | 5 => ⟨S512x1, .f32⟩
  | 6 => ⟨S1x1, .f32⟩
  | 7 => ⟨S512x1, .f32⟩
  | 8 => ⟨S512x1, .f32⟩
  | 9 => ⟨S512, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call3_cst : Ref sig .tc := ⟨.hbm, 124, rfl⟩
abbrev main_call3_v0 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_c_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_18 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call4_cst : Ref sig .tc := ⟨.hbm, 147, rfl⟩
abbrev main_call4_v0 : Ref sig .tc := ⟨.hbm, 148, rfl⟩
abbrev main_v103 : Ref sig .tc := ⟨.hbm, 149, rfl⟩
abbrev main_v104 : Ref sig .tc := ⟨.hbm, 150, rfl⟩
abbrev main_c_19 : Ref sig .tc := ⟨.hbm, 151, rfl⟩
abbrev main_v105 : Ref sig .tc := ⟨.hbm, 152, rfl⟩
abbrev main_v106 : Ref sig .tc := ⟨.hbm, 153, rfl⟩
abbrev main_c_20 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_21 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call5_cst : Ref sig .tc := ⟨.hbm, 170, rfl⟩
abbrev main_call5_v0 : Ref sig .tc := ⟨.hbm, 171, rfl⟩
abbrev main_v121 : Ref sig .tc := ⟨.hbm, 172, rfl⟩
abbrev main_cst_22 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_23 : Ref sig .tc := ⟨.hbm, 177, rfl⟩
abbrev main_v125 : Ref sig .tc := ⟨.hbm, 178, rfl⟩
abbrev main_cst_24 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_25 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_26 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_27 : Ref sig .tc := ⟨.hbm, 193, rfl⟩
abbrev main_v137 : Ref sig .tc := ⟨.hbm, 194, rfl⟩
abbrev main_cst_28 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_29 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_30 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_31 : Ref sig .tc := ⟨.hbm, 209, rfl⟩
abbrev main_v149 : Ref sig .tc := ⟨.hbm, 210, rfl⟩
abbrev main_cst_32 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_33 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_cst_34 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_35 : Ref sig .tc := ⟨.hbm, 225, rfl⟩
abbrev main_v161 : Ref sig .tc := ⟨.hbm, 226, rfl⟩
abbrev main_cst_36 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_cst_37 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_38 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_39 : Ref sig .tc := ⟨.hbm, 241, rfl⟩
abbrev main_v173 : Ref sig .tc := ⟨.hbm, 242, rfl⟩
abbrev main_cst_40 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_41 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_call6_cst : Ref sig .tc := ⟨.hbm, 258, rfl⟩
abbrev main_call6_v0 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S512x128_S512x128_S512x128_S512x640_d1 : Shape.Concatenates [S512x128, S512x128, S512x128, S512x128, S512x128] S512x640 1
  bcast_S640_S1x640_1 : S640.BroadcastsInDim S1x640 (![1] : Fin 1 → Fin S1x640.rank)
  bcast_S1x640_S512x640_0_1 : S1x640.BroadcastsInDim S512x640 (![0, 1] : Fin 2 → Fin S512x640.rank)
  bcast_S_S512x640 : S_.BroadcastsInDim S512x640 (![] : Fin 0 → Fin S512x640.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x640_S640x640_S512x640_1_0_0_1_n_n_wf : DotDims.WF S512x640 S640x640 S512x640 [1] [0] [0] [1] [] []
  dot_S512x640_S640x1_S512x1_1_0_0_1_n_n_wf : DotDims.WF S512x640 S640x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x640_S640x640_S512x640_1_0_0_1_n_n : DotDims S512x640 S640x640 S512x640 where
  lhsContracting := [1]
  rhsContracting := [0]
  lhsNonContracting := [0]
  rhsNonContracting := [1]
  lhsBatch := []
  rhsBatch := []
  wf := dot_S512x640_S640x640_S512x640_1_0_0_1_n_n_wf
def dot_S512x640_S640x1_S512x1_1_0_0_1_n_n : DotDims S512x640 S640x1 S512x1 where
  lhsContracting := [1]
  rhsContracting := [0]
  lhsNonContracting := [0]
  rhsNonContracting := [1]
  lhsBatch := []
  rhsBatch := []
  wf := dot_S512x640_S640x1_S512x1_1_0_0_1_n_n_wf

class Facts : Prop extends Facts₀ where

variable [Facts]
-- ==== Proof.K.R0.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents fills its shape recurses once per coordinate of the long axis
set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # Region 0: the scaled feature transform, one row tile of 5000 nodes per grid point

At point `t` the body reads three blocks — rows `5000 t … 5000 t + 4999` of the node features (5000×128), the
whole 128×128 weight matrix (the same block at every point), and the same rows of the per-node scale column
(5000×1) — and stores one block: those rows of the result (5000×128, bf16), every entry of it. -/

/-! ## The windows' blocks -/

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether or not a transfer
    landed there: where none did, the block index is the previous point's, and the body leaves the block as found.
    Stated for any proof data whose array is `V`'s and whose `after` on this window is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether or not a transfer
    landed there: where none did, the block index is the previous point's, and the body leaves the block as found.
    Stated for any proof data whose array is `V`'s and whose `after` on this window is the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every grid point, whether or not a transfer
    landed there: where none did, the block index is the previous point's, and the body leaves the block as found.
    Stated for any proof data whose array is `V`'s and whose `after` on this window is the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

/-! ## What the body leaves in the output window's buffer -/

/-- The output buffer after the body, as a function of the three input blocks: one store over the whole buffer,
    of the payload (features and weights rounded to bf16, multiplied, scaled row by row, rounded to bf16). -/
def out0_3 (x0 : Vec F S5000x128 .f32) (x1 : Vec F S128x128 .f32) (x2 : Vec F S5000x1 .f32) : Vec F S5000x128 .bf16 :=
  View.canon [⟨r0_3, k0_pay1 (View.ld x0 r0_0) (View.ld x1 r0_1) (View.ld x2 r0_2)⟩]

/-- The one store's rectangle is the whole buffer, so every index is covered. -/
theorem cover0_3 (p0 : Vec F S5000x128 .bf16) (y : S5000x128.Idx) :
    ∃ pc ∈ ([⟨r0_3, p0⟩] : List (View.Piece (Elt F) S5000x128 .bf16)), y ∈ pc.1.set :=
  View.cover_of_tiled [⟨r0_3, p0⟩] S5000x128.size (by rfl) y

/-! ## The body's triple -/

set_option maxHeartbeats 1000000 in
/-- The body on whole staging buffers — the three inputs' holding `x0`, `x1`, `x2`, the output's holding anything —
    runs to a state where the inputs' hold what they held and the output's holds `out0_3 x0 x1 x2`. -/
theorem sound_kernel0 (c : Dev nD) (E : Set ℕ) (i : grid0.Coords)
    (arg0 : Memref sig .tc .vmem S5000x128 .f32) (harg0 : arg0.IsWhole) (arg1 : Memref sig .tc .vmem S128x128 .f32) (harg1 : arg1.IsWhole)
    (arg2 : Memref sig .tc .vmem S5000x1 .f32) (harg2 : arg2.IsWhole) (arg3 : Memref sig .tc .vmem S5000x128 .bf16) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_scaled_kernel i arg0 harg0 arg1 harg1 arg2 harg2 arg3 harg3) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core `c`: the arrays as the region finds them; after the body at point `t` each
    input's buffer still at its block and the output's at `out0_3` of the three input blocks; the invariant is the
    untouched rest of the core's memory; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.R1.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the fused layer kernel `cc1__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the window is fetched there
    or not (an unfetched window's block index has not moved since its last fetch), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the window is fetched there
    or not (an unfetched window's block index has not moved since its last fetch), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the window is fetched there
    or not (an unfetched window's block index has not moved since its last fetch), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the window is fetched there
    or not (an unfetched window's block index has not moved since its last fetch), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole buffer -/

abbrev r1_0 : Rect S5000x1 := Rect.unit (s := S5000x1) ![0, 0] S5000x1.size inb_S5000x1_S5000x1_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out1_4 (x0 : Vec F S5000x128 .f32) (x1 : Vec F S5000x1 .f32) (x2 : Vec F S1x128 .f32) : Vec F S5000x128 .f32 :=
  View.canon [⟨r1_1, k1_pay1 (View.ld x1 r1_0) (View.ld x0 r1_1) (View.ld x2 r1_2)⟩]

/-- The one store is of the whole buffer, so it covers every index. -/
theorem cover1_4 (p0 : Vec F S5000x128 .f32) (y : S5000x128.Idx) :
    ∃ pc ∈ ([⟨r1_1, p0⟩] : List (View.Piece (Elt F) S5000x128 .f32)), y ∈ pc.1.set :=
  View.cover_of_tiled [⟨r1_1, p0⟩] S5000x128.size (by rfl) y

/-- Window 5's staging buffer after the body, from the input blocks: one store of the whole block, of the payload
    computed from the row scales `x1` (read twice), the aggregated rows `x0`, the bias `x2` and the weights `x3`. -/
def out1_5 (x0 : Vec F S5000x128 .f32) (x1 : Vec F S5000x1 .f32) (x2 : Vec F S1x128 .f32) (x3 : Vec F S128x128 .f32) : Vec F S5000x128 .bf16 :=
  View.canon [⟨r1_1, k1_pay2 (View.ld x1 r1_0) (View.ld x0 r1_1) (View.ld x2 r1_2) (View.ld x3 r1_3) (View.ld x1 r1_0)⟩]

/-- The one store is of the whole buffer, so it covers every index. -/
theorem cover1_5 (p0 : Vec F S5000x128 .bf16) (y : S5000x128.Idx) :
    ∃ pc ∈ ([⟨r1_1, p0⟩] : List (View.Piece (Elt F) S5000x128 .bf16)), y ∈ pc.1.set :=
  View.cover_of_tiled [⟨r1_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out1_4 x0 x1 x2` and `out1_5 x0 x1 x2 x3`:
    loads of the inputs, a load of each output buffer whose value is unused, and one whole-block store per output. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2) ∗ owns (c : Thread nD τ) arg6 fullShare (out1_5 x0 x1 x2 x3)) -∗ K ⟨⟩))
      ⊢ wp frame (wpE (defs₀ (F := F)) Variants.none c none) E (cc1__conv_fused_kernel i arg1 harg1 arg2 harg2 arg3 harg3 arg4 harg4 arg5 harg5 arg6 harg6) K := by
  simp only [cc1__conv_fused_kernel_eq_skeleton]; unfold cc1__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and each output's at `out1_W` of the input blocks; the invariant keeps the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.R2.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the fused layer kernel `cc2__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the window is fetched there
    or not (an unfetched window's block index has not moved since its last fetch), for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the window is fetched there
    or not (an unfetched window's block index has not moved since its last fetch), for any proof data whose
    array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the window is fetched there
    or not (an unfetched window's block index has not moved since its last fetch), for any proof data whose
    array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the window is fetched there
    or not (an unfetched window's block index has not moved since its last fetch), for any proof data whose
    array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_0 : Rect S5000x1 := Rect.unit (s := S5000x1) ![0, 0] S5000x1.size inb_S5000x1_S5000x1_0_0
abbrev r2_1 : Rect S5000x128 := Rect.unit (s := S5000x128) ![0, 0] S5000x128.size inb_S5000x128_S5000x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out2_4 (x0 : Vec F S5000x128 .f32) (x1 : Vec F S5000x1 .f32) (x2 : Vec F S1x128 .f32) : Vec F S5000x128 .f32 :=
  View.canon [⟨r2_1, k2_pay1 (View.ld x1 r2_0) (View.ld x0 r2_1) (View.ld x2 r2_2)⟩]

/-- The one store is of the whole buffer, so it covers every index. -/
theorem cover2_4 (p0 : Vec F S5000x128 .f32) (y : S5000x128.Idx) :
    ∃ pc ∈ ([⟨r2_1, p0⟩] : List (View.Piece (Elt F) S5000x128 .f32)), y ∈ pc.1.set :=
  View.cover_of_tiled [⟨r2_1, p0⟩] S5000x128.size (by rfl) y

/-- Window 5's staging buffer after the body, from the input blocks: one store of the whole block, of the payload
    computed from the row scales `x1` (read twice), the aggregated rows `x0`, the bias `x2` and the weights `x3`. -/
def out2_5 (x0 : Vec F S5000x128 .f32) (x1 : Vec F S5000x1 .f32) (x2 : Vec F S1x128 .f32) (x3 : Vec F S128x128 .f32) : Vec F S5000x128 .bf16 :=
  View.canon [⟨r2_1, k2_pay2 (View.ld x1 r2_0) (View.ld x0 r2_1) (View.ld x2 r2_2) (View.ld x3 r2_3) (View.ld x1 r2_0)⟩]

/-- The one store is of the whole buffer, so it covers every index. -/
theorem cover2_5 (p0 : Vec F S5000x128 .bf16) (y : S5000x128.Idx) :
    ∃ pc ∈ ([⟨r2_1, p0⟩] : List (View.Piece (Elt F) S5000x128 .bf16)), y ∈ pc.1.set :=
  View.cover_of_tiled [⟨r2_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out2_4 x0 x1 x2` and `out2_5 x0 x1 x2 x3`:
    loads of the inputs, a load of each output buffer whose value is unused, and one whole-block store per output. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E (cc2__conv_fused_kernel i arg1 harg1 arg2 harg2 arg3 harg3 arg4 harg4 arg5 harg5 arg6 harg6) K := by
  simp only [cc2__conv_fused_kernel_eq_skeleton]; unfold cc2__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at `out2_W` of the input blocks; the invariant keeps the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.R3.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the fused layer kernel `cc3__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the window is fetched there
    or not (an unfetched window's block index has not moved since its last fetch), for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the window is fetched there
    or not (an unfetched window's block index has not moved since its last fetch), for any proof data whose
    array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the window is fetched there
    or not (an unfetched window's block index has not moved since its last fetch), for any proof data whose
    array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the window is fetched there
    or not (an unfetched window's block index has not moved since its last fetch), for any proof data whose
    array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_0 : Rect S5000x1 := Rect.unit (s := S5000x1) ![0, 0] S5000x1.size inb_S5000x1_S5000x1_0_0
abbrev r3_1 : Rect S5000x128 := Rect.unit (s := S5000x128) ![0, 0] S5000x128.size inb_S5000x128_S5000x128_0_0
abbrev r3_2 : Rect S1x128 := Rect.unit (s := S1x128) ![0, 0] S1x128.size inb_S1x128_S1x128_0_0
abbrev r3_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out3_4 (x0 : Vec F S5000x128 .f32) (x1 : Vec F S5000x1 .f32) (x2 : Vec F S1x128 .f32) : Vec F S5000x128 .f32 :=
  View.canon [⟨r3_1, k3_pay1 (View.ld x1 r3_0) (View.ld x0 r3_1) (View.ld x2 r3_2)⟩]

/-- The one store is of the whole buffer, so it covers every index. -/
theorem cover3_4 (p0 : Vec F S5000x128 .f32) (y : S5000x128.Idx) :
    ∃ pc ∈ ([⟨r3_1, p0⟩] : List (View.Piece (Elt F) S5000x128 .f32)), y ∈ pc.1.set :=
  View.cover_of_tiled [⟨r3_1, p0⟩] S5000x128.size (by rfl) y

/-- Window 5's staging buffer after the body, from the input blocks: one store of the whole block, of the payload
    computed from the row scales `x1` (read twice), the aggregated rows `x0`, the bias `x2` and the weights `x3`. -/
def out3_5 (x0 : Vec F S5000x128 .f32) (x1 : Vec F S5000x1 .f32) (x2 : Vec F S1x128 .f32) (x3 : Vec F S128x128 .f32) : Vec F S5000x128 .bf16 :=
  View.canon [⟨r3_1, k3_pay2 (View.ld x1 r3_0) (View.ld x0 r3_1) (View.ld x2 r3_2) (View.ld x3 r3_3) (View.ld x1 r3_0)⟩]

/-- The one store is of the whole buffer, so it covers every index. -/
theorem cover3_5 (p0 : Vec F S5000x128 .bf16) (y : S5000x128.Idx) :
    ∃ pc ∈ ([⟨r3_1, p0⟩] : List (View.Piece (Elt F) S5000x128 .bf16)), y ∈ pc.1.set :=
  View.cover_of_tiled [⟨r3_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out3_4 x0 x1 x2` and `out3_5 x0 x1 x2 x3`:
    loads of the inputs, a load of each output buffer whose value is unused, and one whole-block store per output. -/
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2) ∗ owns (c : Thread nD τ) arg6 fullShare (out3_5 x0 x1 x2 x3)) -∗ K ⟨⟩))
      ⊢ wp frame (wpE (defs₀ (F := F)) Variants.none c none) E (cc3__conv_fused_kernel i arg1 harg1 arg2 harg2 arg3 harg3 arg4 harg4 arg5 harg5 arg6 harg6) K := by
  simp only [cc3__conv_fused_kernel_eq_skeleton]; unfold cc3__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and each output's at `out3_W` of the input blocks; the invariant keeps the scoped
    rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.H

end
-- ==== Proof.K.R4.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the fused layer kernel `cc4__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the window is fetched there
    or not (an unfetched window's block index has not moved since its last fetch), for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the window is fetched there
    or not (an unfetched window's block index has not moved since its last fetch), for any proof data whose
    array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the window is fetched there
    or not (an unfetched window's block index has not moved since its last fetch), for any proof data whose
    array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the window is fetched there
    or not (an unfetched window's block index has not moved since its last fetch), for any proof data whose
    array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is a whole buffer -/

abbrev r4_0 : Rect S5000x1 := Rect.unit (s := S5000x1) ![0, 0] S5000x1.size inb_S5000x1_S5000x1_0_0
abbrev r4_1 : Rect S5000x128 := Rect.unit (s := S5000x128) ![0, 0] S5000x128.size inb_S5000x128_S5000x128_0_0
abbrev r4_2 : Rect S1x128 := Rect.unit (s := S1x128) ![0, 0] S1x128.size inb_S1x128_S1x128_0_0
abbrev r4_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out4_4 (x0 : Vec F S5000x128 .f32) (x1 : Vec F S5000x1 .f32) (x2 : Vec F S1x128 .f32) : Vec F S5000x128 .f32 :=
  View.canon [⟨r4_1, k4_pay1 (View.ld x1 r4_0) (View.ld x0 r4_1) (View.ld x2 r4_2)⟩]

/-- The one store is of the whole buffer, so it covers every index. -/
theorem cover4_4 (p0 : Vec F S5000x128 .f32) (y : S5000x128.Idx) :
    ∃ pc ∈ ([⟨r4_1, p0⟩] : List (View.Piece (Elt F) S5000x128 .f32)), y ∈ pc.1.set :=
  View.cover_of_tiled [⟨r4_1, p0⟩] S5000x128.size (by rfl) y

/-- Window 5's staging buffer after the body, from the input blocks: one store of the whole block, of the payload
    computed from the row scales `x1` (read twice), the aggregated rows `x0`, the bias `x2` and the weights `x3`. -/
def out4_5 (x0 : Vec F S5000x128 .f32) (x1 : Vec F S5000x1 .f32) (x2 : Vec F S1x128 .f32) (x3 : Vec F S128x128 .f32) : Vec F S5000x128 .bf16 :=
  View.canon [⟨r4_1, k4_pay2 (View.ld x1 r4_0) (View.ld x0 r4_1) (View.ld x2 r4_2) (View.ld x3 r4_3) (View.ld x1 r4_0)⟩]

/-- The one store is of the whole buffer, so it covers every index. -/
theorem cover4_5 (p0 : Vec F S5000x128 .bf16) (y : S5000x128.Idx) :
    ∃ pc ∈ ([⟨r4_1, p0⟩] : List (View.Piece (Elt F) S5000x128 .bf16)), y ∈ pc.1.set :=
  View.cover_of_tiled [⟨r4_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out4_4 x0 x1 x2` and `out4_5 x0 x1 x2 x3`:
    loads of the inputs, a load of each output buffer whose value is unused, and one whole-block store per output. -/
theorem sound_kernel4 (c : Dev nD) (E : Set ℕ) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2) ∗ owns (c : Thread nD τ) arg6 fullShare (out4_5 x0 x1 x2 x3)) -∗ K ⟨⟩))
      ⊢ wp frame (wpE (defs₀ (F := F)) Variants.none c none) E (cc4__conv_fused_kernel i arg1 harg1 arg2 harg2 arg3 harg3 arg4 harg4 arg5 harg5 arg6 harg6) K := by
  simp only [cc4__conv_fused_kernel_eq_skeleton]; unfold cc4__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

/-! ## The pipeline's proof data -/

/-- The proof data of pipeline 4 on core `c`: the arrays as the region finds them; after the body at point `t` each
    input's buffer at its block and each output's at `out4_W` of the input blocks; the invariant keeps the scoped
    rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t)
    | ⟨5, _⟩ => out4_5 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the kernel's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.H

end
-- ==== Proof.K.R5.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the bias-and-ReLU kernel `cc5__bias_relu_scaled_kernel`, at the entry contents `V`

At every grid point the body reads the whole 5000x128 block of aggregated rows (window 0), the whole 5000x1
block of row scales (window 1) and the whole 1x128 bias (window 2), and stores, over the whole 5000x128 output
block (window 3), `max (scale * rows + bias) 0`. -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the window is fetched there
    or not (an unfetched window's block index has not moved since its last fetch), for any proof data whose
    array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the window is fetched there
    or not (an unfetched window's block index has not moved since its last fetch), for any proof data whose
    array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the window is fetched there
    or not (an unfetched window's block index has not moved since its last fetch), for any proof data whose
    array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_0 : Rect S5000x1 := Rect.unit (s := S5000x1) ![0, 0] S5000x1.size inb_S5000x1_S5000x1_0_0
abbrev r5_1 : Rect S5000x128 := Rect.unit (s := S5000x128) ![0, 0] S5000x128.size inb_S5000x128_S5000x128_0_0
abbrev r5_2 : Rect S1x128 := Rect.unit (s := S1x128) ![0, 0] S1x128.size inb_S1x128_S1x128_0_0

/-! ## What the body leaves in the output window's buffer -/

/-- Window 3's staging buffer after the body, from the three input blocks: one store of the whole block, of the
    payload computed from the row scales `x1`, the aggregated rows `x0` and the bias `x2`. -/
def out5_3 (x0 : Vec F S5000x128 .f32) (x1 : Vec F S5000x1 .f32) (x2 : Vec F S1x128 .f32) : Vec F S5000x128 .f32 :=
  View.canon [⟨r5_1, k5_pay1 (View.ld x1 r5_0) (View.ld x0 r5_1) (View.ld x2 r5_2)⟩]

/-- The one store is of the whole buffer, so it covers every index. -/
theorem cover5_3 (p0 : Vec F S5000x128 .f32) (y : S5000x128.Idx) :
    ∃ pc ∈ ([⟨r5_1, p0⟩] : List (View.Piece (Elt F) S5000x128 .f32)), y ∈ pc.1.set :=
  View.cover_of_tiled [⟨r5_1, p0⟩] S5000x128.size (by rfl) y

/-! ## The body's triple -/

set_option maxHeartbeats 1000000 in
/-- The kernel body on whole staging memrefs, the inputs' holding `x0`, `x1`, `x2` and the output's holding anything,
    runs to the continuation with the inputs' unchanged and the output's at `out5_3 x0 x1 x2`: three loads of the
    inputs, a load of the output buffer whose value is unused, and the one store. -/
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bias_relu_scaled_kernel i arg1 harg1 arg2 harg2 arg3 harg3 arg4 harg4) K := by
  simp only [cc5__bias_relu_scaled_kernel_eq_skeleton]; unfold cc5__bias_relu_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them; after the body at point `t` each
    input's buffer at its block and the output's at `out5_3` of the input blocks; the invariant keeps the scoped
    rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.H

end
-- ==== Proof.K.R6.lean ====
import proofs.«105302_j51668456571568_2_alg».proof.Proof.Gen.Kernel.Launch
import proofs.«105302_j51668456571568_2_alg».proof.Proof.Gen.Kernel.Skeleton
import proofs.«105302_j51668456571568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents fills its shape recurses once per coordinate of the long axis
set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # Region 6: the two-layer readout on the pooled features, a single grid point

The one point reads five blocks, each the whole of its array — the pooled features (512×640), the first layer's
weights (640×640) and bias row (1×640), the second layer's weights (640×1) and bias (1×1) — and stores one block,
the whole 512×1 result, every entry of it. -/

/-! ## The windows' blocks -/

/-- Window `w`'s block at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether or not a transfer
    landed there: where none did, the block index is the previous point's, and the body leaves the block as found.
    Stated for any proof data whose array is `V`'s and whose `after` on this window is the block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether or not a transfer
    landed there: where none did, the block index is the previous point's, and the body leaves the block as found.
    Stated for any proof data whose array is `V`'s and whose `after` on this window is the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether or not a transfer
    landed there: where none did, the block index is the previous point's, and the body leaves the block as found.
    Stated for any proof data whose array is `V`'s and whose `after` on this window is the block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds the window's block at every grid point, whether or not a transfer
    landed there: where none did, the block index is the previous point's, and the body leaves the block as found.
    Stated for any proof data whose array is `V`'s and whose `after` on this window is the block. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds the window's block at every grid point, whether or not a transfer
    landed there: where none did, the block index is the previous point's, and the body leaves the block as found.
    Stated for any proof data whose array is `V`'s and whose `after` on this window is the block. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S512x640 := Rect.unit (s := S512x640) ![0, 0] S512x640.size inb_S512x640_S512x640_0_0
abbrev r6_1 : Rect S640x640 := Rect.unit (s := S640x640) ![0, 0] S640x640.size inb_S640x640_S640x640_0_0
abbrev r6_2 : Rect S1x640 := Rect.unit (s := S1x640) ![0, 0] S1x640.size inb_S1x640_S1x640_0_0
abbrev r6_3 : Rect S640x1 := Rect.unit (s := S640x1) ![0, 0] S640x1.size inb_S640x1_S640x1_0_0
abbrev r6_4 : Rect S1x1 := Rect.unit (s := S1x1) ![0, 0] S1x1.size inb_S1x1_S1x1_0_0
abbrev r6_5 : Rect S512x1 := Rect.unit (s := S512x1) ![0, 0] S512x1.size inb_S512x1_S512x1_0_0

/-! ## What the body leaves in the output window's buffer -/

/-- The output buffer after the body, as a function of the five input blocks: one store over the whole buffer, of
    the payload (first layer in bf16 with f32 accumulation, bias, rectifier; second layer likewise, bias). -/
def out6_5 (x0 : Vec F S512x640 .f32) (x1 : Vec F S640x640 .f32) (x2 : Vec F S1x640 .f32) (x3 : Vec F S640x1 .f32) (x4 : Vec F S1x1 .f32) :
    Vec F S512x1 .f32 :=
  View.canon [⟨r6_5, k6_pay1 (View.ld x0 r6_0) (View.ld x1 r6_1) (View.ld x2 r6_2) (View.ld x3 r6_3) (View.ld x4 r6_4)⟩]

/-- The one store's rectangle is the whole buffer, so every index is covered. -/
theorem cover6_5 (p0 : Vec F S512x1 .f32) (y : S512x1.Idx) :
    ∃ pc ∈ ([⟨r6_5, p0⟩] : List (View.Piece (Elt F) S512x1 .f32)), y ∈ pc.1.set :=
  View.cover_of_tiled [⟨r6_5, p0⟩] S512x1.size (by rfl) y

/-! ## The body's triple -/

set_option maxHeartbeats 1000000 in
/-- The body on whole staging buffers — the five inputs' holding `x0` … `x4`, the output's holding anything — runs to
    a state where the inputs' hold what they held and the output's holds `out6_5 x0 x1 x2 x3 x4`. -/
theorem sound_kernel6 (c : Dev nD) (E : Set ℕ) (i : grid6.Coords)
    (arg0 : Memref sig .tc .vmem S512x640 .f32) (harg0 : arg0.IsWhole) (arg1 : Memref sig .tc .vmem S640x640 .f32) (harg1 : arg1.IsWhole)
    (arg2 : Memref sig .tc .vmem S1x640 .f32) (harg2 : arg2.IsWhole) (arg3 : Memref sig .tc .vmem S640x1 .f32) (harg3 : arg3.IsWhole)
    (arg4 : Memref sig .tc .vmem S1x1 .f32) (harg4 : arg4.IsWhole) (arg5 : Memref sig .tc .vmem S512x1 .f32) (harg5 : arg5.IsWhole)
    (x0 : Vec F S512x640 .f32) (x1 : Vec F S640x640 .f32) (x2 : Vec F S1x640 .f32) (x3 : Vec F S640x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out6_5 x0 x1 x2 x3 x4)) -∗ K ⟨⟩))
      ⊢ wp frame (wpE (defs₀ (F := F)) Variants.none c none) E
          (cc6__mlp_kernel i arg0 harg0 arg1 harg1 arg2 harg2 arg3 harg3 arg4 harg4 arg5 harg5) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of region 6 on core `c`: the arrays as the region finds them; after the body each input's buffer
    still at its block and the output's at `out6_5` of the five input blocks; the invariant is the untouched rest
    of the core's memory; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

/-- Each input's staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`: the invariant, what is owed, and each window's current staging buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it returns: the same, each buffer at what the body leaves there. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.H

end
-- ==== Proof.K.Run.lean ====
/-
  The run of the word-level kernel program's @main, read as a chain of segments: ten stretches of host operations and
  the seven pipelined regions between them.  The contents of every unscoped buffer are followed through the chain as a
  fold `W0 … W17` from the launch memory: a host stretch applies its operations, a region leaves each of its output
  arrays at what its grid points wrote back (the fold of the blocks, `Dat.arrAt … N`) and every other buffer as it
  found it.  Each region's record says: entered with the unscoped buffers at the fold's contents before it, the region
  runs (its body obligation is the region's own module) and leaves them at the fold's contents after it.  The run's
  conclusion: every weakly fair execution terminates without a fault, the result buffer ends at `W17`'s value and every
  argument array ends as launched (no stretch writes an argument and no region has one as an output).
-/
import proofs.«105302_j51668456571568_2_alg».proof.Proof.K.R0
import proofs.«105302_j51668456571568_2_alg».proof.Proof.K.R1
import proofs.«105302_j51668456571568_2_alg».proof.Proof.K.R2
import proofs.«105302_j51668456571568_2_alg».proof.Proof.K.R3
import proofs.«105302_j51668456571568_2_alg».proof.Proof.K.R4
import proofs.«105302_j51668456571568_2_alg».proof.Proof.K.R5
import proofs.«105302_j51668456571568_2_alg».proof.Proof.K.R6
import proofs.«105302_j51668456571568_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)

/-- After the host stretch `hostOps0_1`. -/
abbrev W2 : Dev nD → Valuation τ sig (Elt F) := fun c => StableHlo.after hostOps0_1 (W1 m ρ c)

/-- After the host stretch `hostOps0_2`. -/
abbrev W3 : Dev nD → Valuation τ sig (Elt F) := fun c => StableHlo.after hostOps0_2 (W2 m ρ c)

/-- The contents region 0 is entered with, read at the TensorCore's references. -/
abbrev T3 : (c : Dev nD) → (b : Ref sig .tc) → Buf (Elt F) ((c : Thread nD τ).loc b) := fun c b => W3 m ρ c b
/-- At region 0's exit: each of its arrays at what its grid points leave (an input as entered, an output the fold of the
    blocks written back), every other buffer as entered. -/
def W4 (c : Dev nD) : Valuation τ sig (Elt F) :=
  Pipeline.withArrays spec0 c (W3 m ρ c) fun w => (dat0 (T3 m ρ) c).arrAt w cfg0.N
theorem W4_arr (c : Dev nD) (w : Fin cfg0.W) :
    W4 m ρ c (Proc.devRef .tc (Pipeline.arrRef spec0 w)) = (dat0 (T3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev T4 : (c : Dev nD) → (b : Ref sig .tc) → Buf (Elt F) ((c : Thread nD τ).loc b) := fun c b => W4 m ρ c b
theorem hF0 (c : Dev nD) (w : Fin cfg0.W) : (dat0 (T3 m ρ) c).arrAt w cfg0.N = T4 m ρ c (Pipeline.arrRef spec0 w) :=
  (W4_arr m ρ c w).symm
theorem hrest0 (c : Dev nD) : ∀ b, b ∉ Finset.univ.image (Pipeline.arrRef spec0) → T4 m ρ c b = T3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)

/-- The contents region 1 is entered with, read at the TensorCore's references. -/
abbrev T5 : (c : Dev nD) → (b : Ref sig .tc) → Buf (Elt F) ((c : Thread nD τ).loc b) := fun c b => W5 m ρ c b
/-- At region 1's exit: each of its arrays at what its grid points leave (an input as entered, an output the fold of the
    blocks written back), every other buffer as entered. -/
def W6 (c : Dev nD) : Valuation τ sig (Elt F) :=
  Pipeline.withArrays spec1 c (W5 m ρ c) fun w => (dat1 (T5 m ρ) c).arrAt w cfg1.N
theorem W6_arr (c : Dev nD) (w : Fin cfg1.W) :
    W6 m ρ c (Proc.devRef .tc (Pipeline.arrRef spec1 w)) = (dat1 (T5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev T6 : (c : Dev nD) → (b : Ref sig .tc) → Buf (Elt F) ((c : Thread nD τ).loc b) := fun c b => W6 m ρ c b
theorem hF1 (c : Dev nD) (w : Fin cfg1.W) : (dat1 (T5 m ρ) c).arrAt w cfg1.N = T6 m ρ c (Pipeline.arrRef spec1 w) :=
  (W6_arr m ρ c w).symm
theorem hrest1 (c : Dev nD) : ∀ b, b ∉ Finset.univ.image (Pipeline.arrRef spec1) → T6 m ρ c b = T5 m ρ c b :=
  fun b hb => W6_of_ne m ρ c b fun w e => hb (Finset.mem_image.mpr ⟨w, Finset.mem_univ _, e⟩)

/-- After the host stretch `hostOps2`. -/
abbrev W7 : Dev nD → Valuation τ sig (Elt F) := fun c => StableHlo.after hostOps2 (W6 m ρ c)

/-- The contents region 2 is entered with, read at the TensorCore's references. -/
abbrev T7 : (c : Dev nD) → (b : Ref sig .tc) → Buf (Elt F) ((c : Thread nD τ).loc b) := fun c b => W7 m ρ c b
/-- At region 2's exit: each of its arrays at what its grid points leave (an input as entered, an output the fold of the
    blocks written back), every other buffer as entered. -/
def W8 (c : Dev nD) : Valuation τ sig (Elt F) :=
  Pipeline.withArrays spec2 c (W7 m ρ c) fun w => (dat2 (T7 m ρ) c).arrAt w cfg2.N
theorem W8_arr (c : Dev nD) (w : Fin cfg2.W) :
    W8 m ρ c (Proc.devRef .tc (Pipeline.arrRef spec2 w)) = (dat2 (T7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev T8 : (c : Dev nD) → (b : Ref sig .tc) → Buf (Elt F) ((c : Thread nD τ).loc b) := fun c b => W8 m ρ c b
theorem hF2 (c : Dev nD) (w : Fin cfg2.W) : (dat2 (T7 m ρ) c).arrAt w cfg2.N = T8 m ρ c (Pipeline.arrRef spec2 w) :=
  (W8_arr m ρ c w).symm
theorem hrest2 (c : Dev nD) : ∀ b, b ∉ Finset.univ.image (Pipeline.arrRef spec2) → T8 m ρ c b = T7 m ρ c b :=
  fun b hb => W8_of_ne m ρ c b fun w e => hb (Finset.mem_image.mpr ⟨w, Finset.mem_univ _, e⟩)

/-- After the host stretch `hostOps3`. -/
abbrev W9 : Dev nD → Valuation τ sig (Elt F) := fun c => StableHlo.after hostOps3 (W8 m ρ c)

/-- The contents region 3 is entered with, read at the TensorCore's references. -/
abbrev T9 : (c : Dev nD) → (b : Ref sig .tc) → Buf (Elt F) ((c : Thread nD τ).loc b) := fun c b => W9 m ρ c b
/-- At region 3's exit: each of its arrays at what its grid points leave (an input as entered, an output the fold of the
    blocks written back), every other buffer as entered. -/
def W10 (c : Dev nD) : Valuation τ sig (Elt F) :=
  Pipeline.withArrays spec3 c (W9 m ρ c) fun w => (dat3 (T9 m ρ) c).arrAt w cfg3.N
theorem W10_arr (c : Dev nD) (w : Fin cfg3.W) :
    W10 m ρ c (Proc.devRef .tc (Pipeline.arrRef spec3 w)) = (dat3 (T9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references. -/
abbrev T10 : (c : Dev nD) → (b : Ref sig .tc) → Buf (Elt F) ((c : Thread nD τ).loc b) := fun c b => W10 m ρ c b
theorem hF3 (c : Dev nD) (w : Fin cfg3.W) : (dat3 (T9 m ρ) c).arrAt w cfg3.N = T10 m ρ c (Pipeline.arrRef spec3 w) :=
  (W10_arr m ρ c w).symm
theorem hrest3 (c : Dev nD) : ∀ b, b ∉ Finset.univ.image (Pipeline.arrRef spec3) → T10 m ρ c b = T9 m ρ c b :=
  fun b hb => W10_of_ne m ρ c b fun w e => hb (Finset.mem_image.mpr ⟨w, Finset.mem_univ _, e⟩)

/-- After the host stretch `hostOps4`. -/
abbrev W11 : Dev nD → Valuation τ sig (Elt F) := fun c => StableHlo.after hostOps4 (W10 m ρ c)

/-- The contents region 4 is entered with, read at the TensorCore's references. -/
abbrev T11 : (c : Dev nD) → (b : Ref sig .tc) → Buf (Elt F) ((c : Thread nD τ).loc b) := fun c b => W11 m ρ c b
/-- At region 4's exit: each of its arrays at what its grid points leave (an input as entered, an output the fold of the
    blocks written back), every other buffer as entered. -/
def W12 (c : Dev nD) : Valuation τ sig (Elt F) :=
  Pipeline.withArrays spec4 c (W11 m ρ c) fun w => (dat4 (T11 m ρ) c).arrAt w cfg4.N
theorem W12_arr (c : Dev nD) (w : Fin cfg4.W) :
    W12 m ρ c (Proc.devRef .tc (Pipeline.arrRef spec4 w)) = (dat4 (T11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- The same read at the TensorCore's references. -/
abbrev T12 : (c : Dev nD) → (b : Ref sig .tc) → Buf (Elt F) ((c : Thread nD τ).loc b) := fun c b => W12 m ρ c b
theorem hF4 (c : Dev nD) (w : Fin cfg4.W) : (dat4 (T11 m ρ) c).arrAt w cfg4.N = T12 m ρ c (Pipeline.arrRef spec4 w) :=
  (W12_arr m ρ c w).symm
theorem hrest4 (c : Dev nD) : ∀ b, b ∉ Finset.univ.image (Pipeline.arrRef spec4) → T12 m ρ c b = T11 m ρ c b :=
  fun b hb => W12_of_ne m ρ c b fun w e => hb (Finset.mem_image.mpr ⟨w, Finset.mem_univ _, e⟩)

/-- After the host stretch `hostOps5`. -/
abbrev W13 : Dev nD → Valuation τ sig (Elt F) := fun c => StableHlo.after hostOps5 (W12 m ρ c)

/-- The contents region 5 is entered with, read at the TensorCore's references. -/
abbrev T13 : (c : Dev nD) → (b : Ref sig .tc) → Buf (Elt F) ((c : Thread nD τ).loc b) := fun c b => W13 m ρ c b
/-- At region 5's exit: each of its arrays at what its grid points leave (an input as entered, an output the fold of the
    blocks written back), every other buffer as entered. -/
def W14 (c : Dev nD) : Valuation τ sig (Elt F) :=
  Pipeline.withArrays spec5 c (W13 m ρ c) fun w => (dat5 (T13 m ρ) c).arrAt w cfg5.N
theorem W14_arr (c : Dev nD) (w : Fin cfg5.W) :
    W14 m ρ c (Proc.devRef .tc (Pipeline.arrRef spec5 w)) = (dat5 (T13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- The same read at the TensorCore's references. -/
abbrev T14 : (c : Dev nD) → (b : Ref sig .tc) → Buf (Elt F) ((c : Thread nD τ).loc b) := fun c b => W14 m ρ c b
theorem hF5 (c : Dev nD) (w : Fin cfg5.W) : (dat5 (T13 m ρ) c).arrAt w cfg5.N = T14 m ρ c (Pipeline.arrRef spec5 w) :=
  (W14_arr m ρ c w).symm
theorem hrest5 (c : Dev nD) : ∀ b, b ∉ Finset.univ.image (Pipeline.arrRef spec5) → T14 m ρ c b = T13 m ρ c b :=
  fun b hb => W14_of_ne m ρ c b fun w e => hb (Finset.mem_image.mpr ⟨w, Finset.mem_univ _, e⟩)

/-- After the host stretch `hostOps6`. -/
abbrev W15 : Dev nD → Valuation τ sig (Elt F) := fun c => StableHlo.after hostOps6 (W14 m ρ c)

/-- The contents region 6 is entered with, read at the TensorCore's references. -/
abbrev T15 : (c : Dev nD) → (b : Ref sig .tc) → Buf (Elt F) ((c : Thread nD τ).loc b) := fun c b => W15 m ρ c b
/-- At region 6's exit: each of its arrays at what its grid points leave (an input as entered, an output the fold of the
    blocks written back), every other buffer as entered. -/
def W16 (c : Dev nD) : Valuation τ sig (Elt F) :=
  Pipeline.withArrays spec6 c (W15 m ρ c) fun w => (dat6 (T15 m ρ) c).arrAt w cfg6.N
theorem W16_arr (c : Dev nD) (w : Fin cfg6.W) :
    W16 m ρ c (Proc.devRef .tc (Pipeline.arrRef spec6 w)) = (dat6 (T15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
/-- The same read at the TensorCore's references. -/
abbrev T16 : (c : Dev nD) → (b : Ref sig .tc) → Buf (Elt F) ((c : Thread nD τ).loc b) := fun c b => W16 m ρ c b
theorem hF6 (c : Dev nD) (w : Fin cfg6.W) : (dat6 (T15 m ρ) c).arrAt w cfg6.N = T16 m ρ c (Pipeline.arrRef spec6 w) :=
  (W16_arr m ρ c w).symm
theorem hrest6 (c : Dev nD) : ∀ b, b ∉ Finset.univ.image (Pipeline.arrRef spec6) → T16 m ρ c b = T15 m ρ c b :=
  fun b hb => W16_of_ne m ρ c b fun w e => hb (Finset.mem_image.mpr ⟨w, Finset.mem_univ _, e⟩)

/-- After the host stretch `hostOps7`. -/
abbrev W17 : Dev nD → Valuation τ sig (Elt F) := fun c => StableHlo.after hostOps7 (W16 m ρ c)

/-- Region 0 changes none of the buffers but its output arrays: an input window's array is left as entered, a buffer that is
    no window's array is not touched. -/
theorem W4_keep (c : Dev nD) (b : Ref sig .tc) (h : b ∉ ([main_v27] : List (Ref sig .tc))) :
    W4 m ρ c (Proc.devRef .tc b) = W3 m ρ c (Proc.devRef .tc b) := by
  by_cases hw : ∃ w, Pipeline.arrRef spec0 w = b
  · obtain ⟨w, rfl⟩ := hw
    revert h
    exact match w with
    | ⟨0, _⟩ => fun _ => (W4_arr m ρ c 0).trans (((dat0 (T3 m ρ) c).arrAt_in 0 rfl _).trans (A_eq0 (T3 m ρ) c 0))
    | ⟨1, _⟩ => fun _ => (W4_arr m ρ c 1).trans (((dat0 (T3 m ρ) c).arrAt_in 1 rfl _).trans (A_eq0 (T3 m ρ) c 1))
    | ⟨2, _⟩ => fun _ => (W4_arr m ρ c 2).trans (((dat0 (T3 m ρ) c).arrAt_in 2 rfl _).trans (A_eq0 (T3 m ρ) c 2))
    | ⟨3, _⟩ => fun h => absurd (by decide +revert) h
    | ⟨_ + 4, hlt⟩ => absurd hlt (Nat.not_lt.2 (Nat.le_add_left _ _))
  · exact W4_of_ne m ρ c b fun w e => hw ⟨w, e⟩

/-- Region 1 changes none of the buffers but its output arrays: an input window's array is left as entered, a buffer that is
    no window's array is not touched. -/
theorem W6_keep (c : Dev nD) (b : Ref sig .tc) (h : b ∉ ([main_v40_0, main_v40_1] : List (Ref sig .tc))) :
    W6 m ρ c (Proc.devRef .tc b) = W5 m ρ c (Proc.devRef .tc b) := by
  by_cases hw : ∃ w, Pipeline.arrRef spec1 w = b
  · obtain ⟨w, rfl⟩ := hw
    revert h
    exact match w with
    | ⟨0, _⟩ => fun _ => (W6_arr m ρ c 0).trans (((dat1 (T5 m ρ) c).arrAt_in 0 rfl _).trans (A_eq1 (T5 m ρ) c 0))
    | ⟨1, _⟩ => fun _ => (W6_arr m ρ c 1).trans (((dat1 (T5 m ρ) c).arrAt_in 1 rfl _).trans (A_eq1 (T5 m ρ) c 1))
    | ⟨2, _⟩ => fun _ => (W6_arr m ρ c 2).trans (((dat1 (T5 m ρ) c).arrAt_in 2 rfl _).trans (A_eq1 (T5 m ρ) c 2))
    | ⟨3, _⟩ => fun _ => (W6_arr m ρ c 3).trans (((dat1 (T5 m ρ) c).arrAt_in 3 rfl _).trans (A_eq1 (T5 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W6_of_ne m ρ c b fun w e => hw ⟨w, e⟩

/-- Region 2 changes none of the buffers but its output arrays: an input window's array is left as entered, a buffer that is
    no window's array is not touched. -/
theorem W8_keep (c : Dev nD) (b : Ref sig .tc) (h : b ∉ ([main_v53_0, main_v53_1] : List (Ref sig .tc))) :
    W8 m ρ c (Proc.devRef .tc b) = W7 m ρ c (Proc.devRef .tc b) := by
  by_cases hw : ∃ w, Pipeline.arrRef spec2 w = b
  · obtain ⟨w, rfl⟩ := hw
    revert h
    exact match w with
    | ⟨0, _⟩ => fun _ => (W8_arr m ρ c 0).trans (((dat2 (T7 m ρ) c).arrAt_in 0 rfl _).trans (A_eq2 (T7 m ρ) c 0))
    | ⟨1, _⟩ => fun _ => (W8_arr m ρ c 1).trans (((dat2 (T7 m ρ) c).arrAt_in 1 rfl _).trans (A_eq2 (T7 m ρ) c 1))
    | ⟨2, _⟩ => fun _ => (W8_arr m ρ c 2).trans (((dat2 (T7 m ρ) c).arrAt_in 2 rfl _).trans (A_eq2 (T7 m ρ) c 2))
    | ⟨3, _⟩ => fun _ => (W8_arr m ρ c 3).trans (((dat2 (T7 m ρ) c).arrAt_in 3 rfl _).trans (A_eq2 (T7 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W8_of_ne m ρ c b fun w e => hw ⟨w, e⟩

/-- Region 3 changes none of the buffers but its output arrays: an input window's array is left as entered, a buffer that is
    no window's array is not touched. -/
theorem W10_keep (c : Dev nD) (b : Ref sig .tc) (h : b ∉ ([main_v66_0, main_v66_1] : List (Ref sig .tc))) :
    W10 m ρ c (Proc.devRef .tc b) = W9 m ρ c (Proc.devRef .tc b) := by
  by_cases hw : ∃ w, Pipeline.arrRef spec3 w = b
  · obtain ⟨w, rfl⟩ := hw
    revert h
    exact match w with
    | ⟨0, _⟩ => fun _ => (W10_arr m ρ c 0).trans (((dat3 (T9 m ρ) c).arrAt_in 0 rfl _).trans (A_eq3 (T9 m ρ) c 0))
    | ⟨1, _⟩ => fun _ => (W10_arr m ρ c 1).trans (((dat3 (T9 m ρ) c).arrAt_in 1 rfl _).trans (A_eq3 (T9 m ρ) c 1))
    | ⟨2, _⟩ => fun _ => (W10_arr m ρ c 2).trans (((dat3 (T9 m ρ) c).arrAt_in 2 rfl _).trans (A_eq3 (T9 m ρ) c 2))
    | ⟨3, _⟩ => fun _ => (W10_arr m ρ c 3).trans (((dat3 (T9 m ρ) c).arrAt_in 3 rfl _).trans (A_eq3 (T9 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W10_of_ne m ρ c b fun w e => hw ⟨w, e⟩

/-- Region 4 changes none of the buffers but its output arrays: an input window's array is left as entered, a buffer that is
    no window's array is not touched. -/
theorem W12_keep (c : Dev nD) (b : Ref sig .tc) (h : b ∉ ([main_v79_0, main_v79_1] : List (Ref sig .tc))) :
    W12 m ρ c (Proc.devRef .tc b) = W11 m ρ c (Proc.devRef .tc b) := by
  by_cases hw : ∃ w, Pipeline.arrRef spec4 w = b
  · obtain ⟨w, rfl⟩ := hw
    revert h
    exact match w with
    | ⟨0, _⟩ => fun _ => (W12_arr m ρ c 0).trans (((dat4 (T11 m ρ) c).arrAt_in 0 rfl _).trans (A_eq4 (T11 m ρ) c 0))
    | ⟨1, _⟩ => fun _ => (W12_arr m ρ c 1).trans (((dat4 (T11 m ρ) c).arrAt_in 1 rfl _).trans (A_eq4 (T11 m ρ) c 1))
    | ⟨2, _⟩ => fun _ => (W12_arr m ρ c 2).trans (((dat4 (T11 m ρ) c).arrAt_in 2 rfl _).trans (A_eq4 (T11 m ρ) c 2))
    | ⟨3, _⟩ => fun _ => (W12_arr m ρ c 3).trans (((dat4 (T11 m ρ) c).arrAt_in 3 rfl _).trans (A_eq4 (T11 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W12_of_ne m ρ c b fun w e => hw ⟨w, e⟩

/-- Region 5 changes none of the buffers but its output arrays: an input window's array is left as entered, a buffer that is
    no window's array is not touched. -/
theorem W14_keep (c : Dev nD) (b : Ref sig .tc) (h : b ∉ ([main_v92] : List (Ref sig .tc))) :
    W14 m ρ c (Proc.devRef .tc b) = W13 m ρ c (Proc.devRef .tc b) := by
  by_cases hw : ∃ w, Pipeline.arrRef spec5 w = b
  · obtain ⟨w, rfl⟩ := hw
    revert h
    exact match w with
    | ⟨0, _⟩ => fun _ => (W14_arr m ρ c 0).trans (((dat5 (T13 m ρ) c).arrAt_in 0 rfl _).trans (A_eq5 (T13 m ρ) c 0))
    | ⟨1, _⟩ => fun _ => (W14_arr m ρ c 1).trans (((dat5 (T13 m ρ) c).arrAt_in 1 rfl _).trans (A_eq5 (T13 m ρ) c 1))
    | ⟨2, _⟩ => fun _ => (W14_arr m ρ c 2).trans (((dat5 (T13 m ρ) c).arrAt_in 2 rfl _).trans (A_eq5 (T13 m ρ) c 2))
    | ⟨3, _⟩ => fun h => absurd (by decide +revert) h
    | ⟨_ + 4, hlt⟩ => absurd hlt (Nat.not_lt.2 (Nat.le_add_left _ _))
  · exact W14_of_ne m ρ c b fun w e => hw ⟨w, e⟩

/-- Region 6 changes none of the buffers but its output arrays: an input window's array is left as entered, a buffer that is
    no window's array is not touched. -/
theorem W16_keep (c : Dev nD) (b : Ref sig .tc) (h : b ∉ ([main_v121] : List (Ref sig .tc))) :
    W16 m ρ c (Proc.devRef .tc b) = W15 m ρ c (Proc.devRef .tc b) := by
  by_cases hw : ∃ w, Pipeline.arrRef spec6 w = b
  · obtain ⟨w, rfl⟩ := hw
    revert h
    exact match w with
    | ⟨0, _⟩ => fun _ => (W16_arr m ρ c 0).trans (((dat6 (T15 m ρ) c).arrAt_in 0 rfl _).trans (A_eq6 (T15 m ρ) c 0))
    | ⟨1, _⟩ => fun _ => (W16_arr m ρ c 1).trans (((dat6 (T15 m ρ) c).arrAt_in 1 rfl _).trans (A_eq6 (T15 m ρ) c 1))
    | ⟨2, _⟩ => fun _ => (W16_arr m ρ c 2).trans (((dat6 (T15 m ρ) c).arrAt_in 2 rfl _).trans (A_eq6 (T15 m ρ) c 2))
    | ⟨3, _⟩ => fun _ => (W16_arr m ρ c 3).trans (((dat6 (T15 m ρ) c).arrAt_in 3 rfl _).trans (A_eq6 (T15 m ρ) c 3))
    | ⟨4, _⟩ => fun _ => (W16_arr m ρ c 4).trans (((dat6 (T15 m ρ) c).arrAt_in 4 rfl _).trans (A_eq6 (T15 m ρ) c 4))
    | ⟨5, _⟩ => fun h => absurd (by decide +revert) h
    | ⟨_ + 6, hlt⟩ => absurd hlt (Nat.not_lt.2 (Nat.le_add_left _ _))
  · exact W16_of_ne m ρ c b fun w e => hw ⟨w, e⟩

/-! ## The arguments end as launched

No host stretch writes an argument array, and a region either does not touch it or reads it through an input window (whose
array the region leaves as entered): the fold at an argument's buffer walks back to the launch memory. -/

theorem W17_main_arg0 (c : Dev nD) : W17 m ρ c (Proc.devRef .tc main_arg0) = m ((c : Thread nD τ).loc main_arg0) :=
  calc W17 m ρ c (Proc.devRef .tc main_arg0)
    _ = W16 m ρ c (Proc.devRef .tc main_arg0) := StableHlo.after_of_writes_sub hostOps7 _ hostOps7_writes (by decide : main_arg0 ∉ hostOps7_W)
    _ = W15 m ρ c (Proc.devRef .tc main_arg0) := W16_of_ne m ρ c main_arg0 (by decide)
    _ = W14 m ρ c (Proc.devRef .tc main_arg0) := StableHlo.after_of_writes_sub hostOps6 _ hostOps6_writes (by decide : main_arg0 ∉ hostOps6_W)
    _ = W13 m ρ c (Proc.devRef .tc main_arg0) := W14_of_ne m ρ c main_arg0 (by decide)
    _ = W12 m ρ c (Proc.devRef .tc main_arg0) := StableHlo.after_of_writes_sub hostOps5 _ hostOps5_writes (by decide : main_arg0 ∉ hostOps5_W)
    _ = W11 m ρ c (Proc.devRef .tc main_arg0) := W12_of_ne m ρ c main_arg0 (by decide)
    _ = W10 m ρ c (Proc.devRef .tc main_arg0) := StableHlo.after_of_writes_sub hostOps4 _ hostOps4_writes (by decide : main_arg0 ∉ hostOps4_W)
    _ = W9 m ρ c (Proc.devRef .tc main_arg0) := W10_of_ne m ρ c main_arg0 (by decide)
    _ = W8 m ρ c (Proc.devRef .tc main_arg0) := StableHlo.after_of_writes_sub hostOps3 _ hostOps3_writes (by decide : main_arg0 ∉ hostOps3_W)
    _ = W7 m ρ c (Proc.devRef .tc main_arg0) := W8_of_ne m ρ c main_arg0 (by decide)
    _ = W6 m ρ c (Proc.devRef .tc main_arg0) := StableHlo.after_of_writes_sub hostOps2 _ hostOps2_writes (by decide : main_arg0 ∉ hostOps2_W)
    _ = W5 m ρ c (Proc.devRef .tc main_arg0) := W6_of_ne m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := (W4_arr m ρ c 0).trans (((dat0 (T3 m ρ) c).arrAt_in 0 rfl _).trans (A_eq0 (T3 m ρ) c 0))
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W17_main_arg1 (c : Dev nD) : W17 m ρ c (Proc.devRef .tc main_arg1) = m ((c : Thread nD τ).loc main_arg1) :=
  calc W17 m ρ c (Proc.devRef .tc main_arg1)
    _ = W16 m ρ c (Proc.devRef .tc main_arg1) := StableHlo.after_of_writes_sub hostOps7 _ hostOps7_writes (by decide : main_arg1 ∉ hostOps7_W)
    _ = W15 m ρ c (Proc.devRef .tc main_arg1) := W16_of_ne m ρ c main_arg1 (by decide)
    _ = W14 m ρ c (Proc.devRef .tc main_arg1) := StableHlo.after_of_writes_sub hostOps6 _ hostOps6_writes (by decide : main_arg1 ∉ hostOps6_W)
    _ = W13 m ρ c (Proc.devRef .tc main_arg1) := W14_of_ne m ρ c main_arg1 (by decide)
    _ = W12 m ρ c (Proc.devRef .tc main_arg1) := StableHlo.after_of_writes_sub hostOps5 _ hostOps5_writes (by decide : main_arg1 ∉ hostOps5_W)
    _ = W11 m ρ c (Proc.devRef .tc main_arg1) := W12_of_ne m ρ c main_arg1 (by decide)
    _ = W10 m ρ c (Proc.devRef .tc main_arg1) := StableHlo.after_of_writes_sub hostOps4 _ hostOps4_writes (by decide : main_arg1 ∉ hostOps4_W)
    _ = W9 m ρ c (Proc.devRef .tc main_arg1) := W10_of_ne m ρ c main_arg1 (by decide)
    _ = W8 m ρ c (Proc.devRef .tc main_arg1) := StableHlo.after_of_writes_sub hostOps3 _ hostOps3_writes (by decide : main_arg1 ∉ hostOps3_W)
    _ = W7 m ρ c (Proc.devRef .tc main_arg1) := W8_of_ne m ρ c main_arg1 (by decide)
    _ = W6 m ρ c (Proc.devRef .tc main_arg1) := StableHlo.after_of_writes_sub hostOps2 _ hostOps2_writes (by decide : main_arg1 ∉ hostOps2_W)
    _ = W5 m ρ c (Proc.devRef .tc main_arg1) := W6_of_ne m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W17_main_arg2 (c : Dev nD) : W17 m ρ c (Proc.devRef .tc main_arg2) = m ((c : Thread nD τ).loc main_arg2) :=
  calc W17 m ρ c (Proc.devRef .tc main_arg2)
    _ = W16 m ρ c (Proc.devRef .tc main_arg2) := StableHlo.after_of_writes_sub hostOps7 _ hostOps7_writes (by decide : main_arg2 ∉ hostOps7_W)
    _ = W15 m ρ c (Proc.devRef .tc main_arg2) := W16_of_ne m ρ c main_arg2 (by decide)
    _ = W14 m ρ c (Proc.devRef .tc main_arg2) := StableHlo.after_of_writes_sub hostOps6 _ hostOps6_writes (by decide : main_arg2 ∉ hostOps6_W)
    _ = W13 m ρ c (Proc.devRef .tc main_arg2) := W14_of_ne m ρ c main_arg2 (by decide)
    _ = W12 m ρ c (Proc.devRef .tc main_arg2) := StableHlo.after_of_writes_sub hostOps5 _ hostOps5_writes (by decide : main_arg2 ∉ hostOps5_W)
    _ = W11 m ρ c (Proc.devRef .tc main_arg2) := W12_of_ne m ρ c main_arg2 (by decide)
    _ = W10 m ρ c (Proc.devRef .tc main_arg2) := StableHlo.after_of_writes_sub hostOps4 _ hostOps4_writes (by decide : main_arg2 ∉ hostOps4_W)
    _ = W9 m ρ c (Proc.devRef .tc main_arg2) := W10_of_ne m ρ c main_arg2 (by decide)
    _ = W8 m ρ c (Proc.devRef .tc main_arg2) := StableHlo.after_of_writes_sub hostOps3 _ hostOps3_writes (by decide : main_arg2 ∉ hostOps3_W)
    _ = W7 m ρ c (Proc.devRef .tc main_arg2) := W8_of_ne m ρ c main_arg2 (by decide)
    _ = W6 m ρ c (Proc.devRef .tc main_arg2) := StableHlo.after_of_writes_sub hostOps2 _ hostOps2_writes (by decide : main_arg2 ∉ hostOps2_W)
    _ = W5 m ρ c (Proc.devRef .tc main_arg2) := W6_of_ne m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W17_main_arg3 (c : Dev nD) : W17 m ρ c (Proc.devRef .tc main_arg3) = m ((c : Thread nD τ).loc main_arg3) :=
  calc W17 m ρ c (Proc.devRef .tc main_arg3)
    _ = W16 m ρ c (Proc.devRef .tc main_arg3) := StableHlo.after_of_writes_sub hostOps7 _ hostOps7_writes (by decide : main_arg3 ∉ hostOps7_W)
    _ = W15 m ρ c (Proc.devRef .tc main_arg3) := W16_of_ne m ρ c main_arg3 (by decide)
    _ = W14 m ρ c (Proc.devRef .tc main_arg3) := StableHlo.after_of_writes_sub hostOps6 _ hostOps6_writes (by decide : main_arg3 ∉ hostOps6_W)
    _ = W13 m ρ c (Proc.devRef .tc main_arg3) := W14_of_ne m ρ c main_arg3 (by decide)
    _ = W12 m ρ c (Proc.devRef .tc main_arg3) := StableHlo.after_of_writes_sub hostOps5 _ hostOps5_writes (by decide : main_arg3 ∉ hostOps5_W)
    _ = W11 m ρ c (Proc.devRef .tc main_arg3) := W12_of_ne m ρ c main_arg3 (by decide)
    _ = W10 m ρ c (Proc.devRef .tc main_arg3) := StableHlo.after_of_writes_sub hostOps4 _ hostOps4_writes (by decide : main_arg3 ∉ hostOps4_W)
    _ = W9 m ρ c (Proc.devRef .tc main_arg3) := W10_of_ne m ρ c main_arg3 (by decide)
    _ = W8 m ρ c (Proc.devRef .tc main_arg3) := StableHlo.after_of_writes_sub hostOps3 _ hostOps3_writes (by decide : main_arg3 ∉ hostOps3_W)
    _ = W7 m ρ c (Proc.devRef .tc main_arg3) := W8_of_ne m ρ c main_arg3 (by decide)
    _ = W6 m ρ c (Proc.devRef .tc main_arg3) := StableHlo.after_of_writes_sub hostOps2 _ hostOps2_writes (by decide : main_arg3 ∉ hostOps2_W)
    _ = W5 m ρ c (Proc.devRef .tc main_arg3) := W6_of_ne m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := (W4_arr m ρ c 1).trans (((dat0 (T3 m ρ) c).arrAt_in 1 rfl _).trans (A_eq0 (T3 m ρ) c 1))
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W17_main_arg4 (c : Dev nD) : W17 m ρ c (Proc.devRef .tc main_arg4) = m ((c : Thread nD τ).loc main_arg4) :=
  calc W17 m ρ c (Proc.devRef .tc main_arg4)
    _ = W16 m ρ c (Proc.devRef .tc main_arg4) := StableHlo.after_of_writes_sub hostOps7 _ hostOps7_writes (by decide : main_arg4 ∉ hostOps7_W)
    _ = W15 m ρ c (Proc.devRef .tc main_arg4) := W16_of_ne m ρ c main_arg4 (by decide)
    _ = W14 m ρ c (Proc.devRef .tc main_arg4) := StableHlo.after_of_writes_sub hostOps6 _ hostOps6_writes (by decide : main_arg4 ∉ hostOps6_W)
    _ = W13 m ρ c (Proc.devRef .tc main_arg4) := W14_of_ne m ρ c main_arg4 (by decide)
    _ = W12 m ρ c (Proc.devRef .tc main_arg4) := StableHlo.after_of_writes_sub hostOps5 _ hostOps5_writes (by decide : main_arg4 ∉ hostOps5_W)
    _ = W11 m ρ c (Proc.devRef .tc main_arg4) := W12_of_ne m ρ c main_arg4 (by decide)
    _ = W10 m ρ c (Proc.devRef .tc main_arg4) := StableHlo.after_of_writes_sub hostOps4 _ hostOps4_writes (by decide : main_arg4 ∉ hostOps4_W)
    _ = W9 m ρ c (Proc.devRef .tc main_arg4) := W10_of_ne m ρ c main_arg4 (by decide)
    _ = W8 m ρ c (Proc.devRef .tc main_arg4) := StableHlo.after_of_writes_sub hostOps3 _ hostOps3_writes (by decide : main_arg4 ∉ hostOps3_W)
    _ = W7 m ρ c (Proc.devRef .tc main_arg4) := W8_of_ne m ρ c main_arg4 (by decide)
    _ = W6 m ρ c (Proc.devRef .tc main_arg4) := StableHlo.after_of_writes_sub hostOps2 _ hostOps2_writes (by decide : main_arg4 ∉ hostOps2_W)
    _ = W5 m ρ c (Proc.devRef .tc main_arg4) := W6_of_ne m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W17_main_arg5 (c : Dev nD) : W17 m ρ c (Proc.devRef .tc main_arg5) = m ((c : Thread nD τ).loc main_arg5) :=
  calc W17 m ρ c (Proc.devRef .tc main_arg5)
    _ = W16 m ρ c (Proc.devRef .tc main_arg5) := StableHlo.after_of_writes_sub hostOps7 _ hostOps7_writes (by decide : main_arg5 ∉ hostOps7_W)
    _ = W15 m ρ c (Proc.devRef .tc main_arg5) := W16_of_ne m ρ c main_arg5 (by decide)
    _ = W14 m ρ c (Proc.devRef .tc main_arg5) := StableHlo.after_of_writes_sub hostOps6 _ hostOps6_writes (by decide : main_arg5 ∉ hostOps6_W)
    _ = W13 m ρ c (Proc.devRef .tc main_arg5) := W14_of_ne m ρ c main_arg5 (by decide)
    _ = W12 m ρ c (Proc.devRef .tc main_arg5) := StableHlo.after_of_writes_sub hostOps5 _ hostOps5_writes (by decide : main_arg5 ∉ hostOps5_W)
    _ = W11 m ρ c (Proc.devRef .tc main_arg5) := W12_of_ne m ρ c main_arg5 (by decide)
    _ = W10 m ρ c (Proc.devRef .tc main_arg5) := StableHlo.after_of_writes_sub hostOps4 _ hostOps4_writes (by decide : main_arg5 ∉ hostOps4_W)
    _ = W9 m ρ c (Proc.devRef .tc main_arg5) := W10_of_ne m ρ c main_arg5 (by decide)
    _ = W8 m ρ c (Proc.devRef .tc main_arg5) := StableHlo.after_of_writes_sub hostOps3 _ hostOps3_writes (by decide : main_arg5 ∉ hostOps3_W)
    _ = W7 m ρ c (Proc.devRef .tc main_arg5) := W8_of_ne m ρ c main_arg5 (by decide)
    _ = W6 m ρ c (Proc.devRef .tc main_arg5) := StableHlo.after_of_writes_sub hostOps2 _ hostOps2_writes (by decide : main_arg5 ∉ hostOps2_W)
    _ = W5 m ρ c (Proc.devRef .tc main_arg5) := (W6_arr m ρ c 3).trans (((dat1 (T5 m ρ) c).arrAt_in 3 rfl _).trans (A_eq1 (T5 m ρ) c 3))
    _ = W4 m ρ c (Proc.devRef .tc main_arg5) := StableHlo.after_of_writes_sub hostOps1 _ hostOps1_writes (by decide : main_arg5 ∉ hostOps1_W)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

theorem W17_main_arg6 (c : Dev nD) : W17 m ρ c (Proc.devRef .tc main_arg6) = m ((c : Thread nD τ).loc main_arg6) :=
  calc W17 m ρ c (Proc.devRef .tc main_arg6)
    _ = W16 m ρ c (Proc.devRef .tc main_arg6) := StableHlo.after_of_writes_sub hostOps7 _ hostOps7_writes (by decide : main_arg6 ∉ hostOps7_W)
    _ = W15 m ρ c (Proc.devRef .tc main_arg6) := W16_of_ne m ρ c main_arg6 (by decide)
    _ = W14 m ρ c (Proc.devRef .tc main_arg6) := StableHlo.after_of_writes_sub hostOps6 _ hostOps6_writes (by decide : main_arg6 ∉ hostOps6_W)
    _ = W13 m ρ c (Proc.devRef .tc main_arg6) := W14_of_ne m ρ c main_arg6 (by decide)
    _ = W12 m ρ c (Proc.devRef .tc main_arg6) := StableHlo.after_of_writes_sub hostOps5 _ hostOps5_writes (by decide : main_arg6 ∉ hostOps5_W)
    _ = W11 m ρ c (Proc.devRef .tc main_arg6) := W12_of_ne m ρ c main_arg6 (by decide)
    _ = W10 m ρ c (Proc.devRef .tc main_arg6) := StableHlo.after_of_writes_sub hostOps4 _ hostOps4_writes (by decide : main_arg6 ∉ hostOps4_W)
    _ = W9 m ρ c (Proc.devRef .tc main_arg6) := W10_of_ne m ρ c main_arg6 (by decide)
    _ = W8 m ρ c (Proc.devRef .tc main_arg6) := StableHlo.after_of_writes_sub hostOps3 _ hostOps3_writes (by decide : main_arg6 ∉ hostOps3_W)
    _ = W7 m ρ c (Proc.devRef .tc main_arg6) := W8_of_ne m ρ c main_arg6 (by decide)
    _ = W6 m ρ c (Proc.devRef .tc main_arg6) := StableHlo.after_of_writes_sub hostOps2 _ hostOps2_writes (by decide : main_arg6 ∉ hostOps2_W)
    _ = W5 m ρ c (Proc.devRef .tc main_arg6) := W6_of_ne m ρ c main_arg6 (by decide)
    _ = W4 m ρ c (Proc.devRef .tc main_arg6) := StableHlo.after_of_writes_sub hostOps1 _ hostOps1_writes (by decide : main_arg6 ∉ hostOps1_W)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide : main_arg6 ∉ hostOps0_2_W)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

theorem W17_main_arg7 (c : Dev nD) : W17 m ρ c (Proc.devRef .tc main_arg7) = m ((c : Thread nD τ).loc main_arg7) :=
  calc W17 m ρ c (Proc.devRef .tc main_arg7)
    _ = W16 m ρ c (Proc.devRef .tc main_arg7) := StableHlo.after_of_writes_sub hostOps7 _ hostOps7_writes (by decide : main_arg7 ∉ hostOps7_W)
    _ = W15 m ρ c (Proc.devRef .tc main_arg7) := W16_of_ne m ρ c main_arg7 (by decide)
    _ = W14 m ρ c (Proc.devRef .tc main_arg7) := StableHlo.after_of_writes_sub hostOps6 _ hostOps6_writes (by decide : main_arg7 ∉ hostOps6_W)
    _ = W13 m ρ c (Proc.devRef .tc main_arg7) := W14_of_ne m ρ c main_arg7 (by decide)
    _ = W12 m ρ c (Proc.devRef .tc main_arg7) := StableHlo.after_of_writes_sub hostOps5 _ hostOps5_writes (by decide : main_arg7 ∉ hostOps5_W)
    _ = W11 m ρ c (Proc.devRef .tc main_arg7) := W12_of_ne m ρ c main_arg7 (by decide)
    _ = W10 m ρ c (Proc.devRef .tc main_arg7) := StableHlo.after_of_writes_sub hostOps4 _ hostOps4_writes (by decide : main_arg7 ∉ hostOps4_W)
    _ = W9 m ρ c (Proc.devRef .tc main_arg7) := W10_of_ne m ρ c main_arg7 (by decide)
    _ = W8 m ρ c (Proc.devRef .tc main_arg7) := StableHlo.after_of_writes_sub hostOps3 _ hostOps3_writes (by decide : main_arg7 ∉ hostOps3_W)
    _ = W7 m ρ c (Proc.devRef .tc main_arg7) := (W8_arr m ρ c 3).trans (((dat2 (T7 m ρ) c).arrAt_in 3 rfl _).trans (A_eq2 (T7 m ρ) c 3))
    _ = W6 m ρ c (Proc.devRef .tc main_arg7) := StableHlo.after_of_writes_sub hostOps2 _ hostOps2_writes (by decide : main_arg7 ∉ hostOps2_W)
    _ = W5 m ρ c (Proc.devRef .tc main_arg7) := W6_of_ne m ρ c main_arg7 (by decide)
    _ = W4 m ρ c (Proc.devRef .tc main_arg7) := StableHlo.after_of_writes_sub hostOps1 _ hostOps1_writes (by decide : main_arg7 ∉ hostOps1_W)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide : main_arg7 ∉ hostOps0_2_W)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

theorem W17_main_arg8 (c : Dev nD) : W17 m ρ c (Proc.devRef .tc main_arg8) = m ((c : Thread nD τ).loc main_arg8) :=
  calc W17 m ρ c (Proc.devRef .tc main_arg8)
    _ = W16 m ρ c (Proc.devRef .tc main_arg8) := StableHlo.after_of_writes_sub hostOps7 _ hostOps7_writes (by decide : main_arg8 ∉ hostOps7_W)
    _ = W15 m ρ c (Proc.devRef .tc main_arg8) := W16_of_ne m ρ c main_arg8 (by decide)
    _ = W14 m ρ c (Proc.devRef .tc main_arg8) := StableHlo.after_of_writes_sub hostOps6 _ hostOps6_writes (by decide : main_arg8 ∉ hostOps6_W)
    _ = W13 m ρ c (Proc.devRef .tc main_arg8) := W14_of_ne m ρ c main_arg8 (by decide)
    _ = W12 m ρ c (Proc.devRef .tc main_arg8) := StableHlo.after_of_writes_sub hostOps5 _ hostOps5_writes (by decide : main_arg8 ∉ hostOps5_W)
    _ = W11 m ρ c (Proc.devRef .tc main_arg8) := W12_of_ne m ρ c main_arg8 (by decide)
    _ = W10 m ρ c (Proc.devRef .tc main_arg8) := StableHlo.after_of_writes_sub hostOps4 _ hostOps4_writes (by decide : main_arg8 ∉ hostOps4_W)
    _ = W9 m ρ c (Proc.devRef .tc main_arg8) := W10_of_ne m ρ c main_arg8 (by decide)
    _ = W8 m ρ c (Proc.devRef .tc main_arg8) := StableHlo.after_of_writes_sub hostOps3 _ hostOps3_writes (by decide : main_arg8 ∉ hostOps3_W)
    _ = W7 m ρ c (Proc.devRef .tc main_arg8) := W8_of_ne m ρ c main_arg8 (by decide)
    _ = W6 m ρ c (Proc.devRef .tc main_arg8) := StableHlo.after_of_writes_sub hostOps2 _ hostOps2_writes (by decide : main_arg8 ∉ hostOps2_W)
    _ = W5 m ρ c (Proc.devRef .tc main_arg8) := W6_of_ne m ρ c main_arg8 (by decide)
    _ = W4 m ρ c (Proc.devRef .tc main_arg8) := StableHlo.after_of_writes_sub hostOps1 _ hostOps1_writes (by decide : main_arg8 ∉ hostOps1_W)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide : main_arg8 ∉ hostOps0_2_W)
    _ = W1 m ρ c (Proc.devRef .tc main_arg8) := StableHlo.after_of_writes_sub hostOps0_1 _ hostOps0_1_writes (by decide : main_arg8 ∉ hostOps0_1_W)
    _ = W0 m ρ c (Proc.devRef .tc main_arg8) := StableHlo.after_of_writes_sub hostOps0 _ hostOps0_writes (by decide : main_arg8 ∉ hostOps0_W)
    _ = m ((c : Thread nD τ).loc main_arg8) := rfl

theorem W17_main_arg9 (c : Dev nD) : W17 m ρ c (Proc.devRef .tc main_arg9) = m ((c : Thread nD τ).loc main_arg9) :=
  calc W17 m ρ c (Proc.devRef .tc main_arg9)
    _ = W16 m ρ c (Proc.devRef .tc main_arg9) := StableHlo.after_of_writes_sub hostOps7 _ hostOps7_writes (by decide : main_arg9 ∉ hostOps7_W)
    _ = W15 m ρ c (Proc.devRef .tc main_arg9) := W16_of_ne m ρ c main_arg9 (by decide)
    _ = W14 m ρ c (Proc.devRef .tc main_arg9) := StableHlo.after_of_writes_sub hostOps6 _ hostOps6_writes (by decide : main_arg9 ∉ hostOps6_W)
    _ = W13 m ρ c (Proc.devRef .tc main_arg9) := W14_of_ne m ρ c main_arg9 (by decide)
    _ = W12 m ρ c (Proc.devRef .tc main_arg9) := StableHlo.after_of_writes_sub hostOps5 _ hostOps5_writes (by decide : main_arg9 ∉ hostOps5_W)
    _ = W11 m ρ c (Proc.devRef .tc main_arg9) := (W12_arr m ρ c 3).trans (((dat4 (T11 m ρ) c).arrAt_in 3 rfl _).trans (A_eq4 (T11 m ρ) c 3))
    _ = W10 m ρ c (Proc.devRef .tc main_arg9) := StableHlo.after_of_writes_sub hostOps4 _ hostOps4_writes (by decide : main_arg9 ∉ hostOps4_W)
    _ = W9 m ρ c (Proc.devRef .tc main_arg9) := (W10_arr m ρ c 3).trans (((dat3 (T9 m ρ) c).arrAt_in 3 rfl _).trans (A_eq3 (T9 m ρ) c 3))
    _ = W8 m ρ c (Proc.devRef .tc main_arg9) := StableHlo.after_of_writes_sub hostOps3 _ hostOps3_writes (by decide : main_arg9 ∉ hostOps3_W)
    _ = W7 m ρ c (Proc.devRef .tc main_arg9) := W8_of_ne m ρ c main_arg9 (by decide)
    _ = W6 m ρ c (Proc.devRef .tc main_arg9) := StableHlo.after_of_writes_sub hostOps2 _ hostOps2_writes (by decide : main_arg9 ∉ hostOps2_W)
    _ = W5 m ρ c (Proc.devRef .tc main_arg9) := W6_of_ne m ρ c main_arg9 (by decide)
    _ = W4 m ρ c (Proc.devRef .tc main_arg9) := StableHlo.after_of_writes_sub hostOps1 _ hostOps1_writes (by decide : main_arg9 ∉ hostOps1_W)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide : main_arg9 ∉ hostOps0_2_W)
    _ = W1 m ρ c (Proc.devRef .tc main_arg9) := StableHlo.after_of_writes_sub hostOps0_1 _ hostOps0_1_writes (by decide : main_arg9 ∉ hostOps0_1_W)
    _ = W0 m ρ c (Proc.devRef .tc main_arg9) := StableHlo.after_of_writes_sub hostOps0 _ hostOps0_writes (by decide : main_arg9 ∉ hostOps0_W)
    _ = m ((c : Thread nD τ).loc main_arg9) := rfl

theorem W17_main_arg10 (c : Dev nD) : W17 m ρ c (Proc.devRef .tc main_arg10) = m ((c : Thread nD τ).loc main_arg10) :=
  calc W17 m ρ c (Proc.devRef .tc main_arg10)
    _ = W16 m ρ c (Proc.devRef .tc main_arg10) := StableHlo.after_of_writes_sub hostOps7 _ hostOps7_writes (by decide : main_arg10 ∉ hostOps7_W)
    _ = W15 m ρ c (Proc.devRef .tc main_arg10) := W16_of_ne m ρ c main_arg10 (by decide)
    _ = W14 m ρ c (Proc.devRef .tc main_arg10) := StableHlo.after_of_writes_sub hostOps6 _ hostOps6_writes (by decide : main_arg10 ∉ hostOps6_W)
    _ = W13 m ρ c (Proc.devRef .tc main_arg10) := W14_of_ne m ρ c main_arg10 (by decide)
    _ = W12 m ρ c (Proc.devRef .tc main_arg10) := StableHlo.after_of_writes_sub hostOps5 _ hostOps5_writes (by decide : main_arg10 ∉ hostOps5_W)
    _ = W11 m ρ c (Proc.devRef .tc main_arg10) := W12_of_ne m ρ c main_arg10 (by decide)
    _ = W10 m ρ c (Proc.devRef .tc main_arg10) := StableHlo.after_of_writes_sub hostOps4 _ hostOps4_writes (by decide : main_arg10 ∉ hostOps4_W)
    _ = W9 m ρ c (Proc.devRef .tc main_arg10) := W10_of_ne m ρ c main_arg10 (by decide)
    _ = W8 m ρ c (Proc.devRef .tc main_arg10) := StableHlo.after_of_writes_sub hostOps3 _ hostOps3_writes (by decide : main_arg10 ∉ hostOps3_W)
    _ = W7 m ρ c (Proc.devRef .tc main_arg10) := W8_of_ne m ρ c main_arg10 (by decide)
    _ = W6 m ρ c (Proc.devRef .tc main_arg10) := StableHlo.after_of_writes_sub hostOps2 _ hostOps2_writes (by decide : main_arg10 ∉ hostOps2_W)
    _ = W5 m ρ c (Proc.devRef .tc main_arg10) := W6_of_ne m ρ c main_arg10 (by decide)
    _ = W4 m ρ c (Proc.devRef .tc main_arg10) := StableHlo.after_of_writes_sub hostOps1 _ hostOps1_writes (by decide : main_arg10 ∉ hostOps1_W)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide : main_arg10 ∉ hostOps0_2_W)
    _ = W1 m ρ c (Proc.devRef .tc main_arg10) := StableHlo.after_of_writes_sub hostOps0_1 _ hostOps0_1_writes (by decide : main_arg10 ∉ hostOps0_1_W)
    _ = W0 m ρ c (Proc.devRef .tc main_arg10) := StableHlo.after_of_writes_sub hostOps0 _ hostOps0_writes (by decide : main_arg10 ∉ hostOps0_W)
    _ = m ((c : Thread nD τ).loc main_arg10) := rfl

theorem W17_main_arg11 (c : Dev nD) : W17 m ρ c (Proc.devRef .tc main_arg11) = m ((c : Thread nD τ).loc main_arg11) :=
  calc W17 m ρ c (Proc.devRef .tc main_arg11)
    _ = W16 m ρ c (Proc.devRef .tc main_arg11) := StableHlo.after_of_writes_sub hostOps7 _ hostOps7_writes (by decide : main_arg11 ∉ hostOps7_W)
    _ = W15 m ρ c (Proc.devRef .tc main_arg11) := (W16_arr m ρ c 1).trans (((dat6 (T15 m ρ) c).arrAt_in 1 rfl _).trans (A_eq6 (T15 m ρ) c 1))
    _ = W14 m ρ c (Proc.devRef .tc main_arg11) := StableHlo.after_of_writes_sub hostOps6 _ hostOps6_writes (by decide : main_arg11 ∉ hostOps6_W)
    _ = W13 m ρ c (Proc.devRef .tc main_arg11) := W14_of_ne m ρ c main_arg11 (by decide)
    _ = W12 m ρ c (Proc.devRef .tc main_arg11) := StableHlo.after_of_writes_sub hostOps5 _ hostOps5_writes (by decide : main_arg11 ∉ hostOps5_W)
    _ = W11 m ρ c (Proc.devRef .tc main_arg11) := W12_of_ne m ρ c main_arg11 (by decide)
    _ = W10 m ρ c (Proc.devRef .tc main_arg11) := StableHlo.after_of_writes_sub hostOps4 _ hostOps4_writes (by decide : main_arg11 ∉ hostOps4_W)
    _ = W9 m ρ c (Proc.devRef .tc main_arg11) := W10_of_ne m ρ c main_arg11 (by decide)
    _ = W8 m ρ c (Proc.devRef .tc main_arg11) := StableHlo.after_of_writes_sub hostOps3 _ hostOps3_writes (by decide : main_arg11 ∉ hostOps3_W)
    _ = W7 m ρ c (Proc.devRef .tc main_arg11) := W8_of_ne m ρ c main_arg11 (by decide)
    _ = W6 m ρ c (Proc.devRef .tc main_arg11) := StableHlo.after_of_writes_sub hostOps2 _ hostOps2_writes (by decide : main_arg11 ∉ hostOps2_W)
    _ = W5 m ρ c (Proc.devRef .tc main_arg11) := W6_of_ne m ρ c main_arg11 (by decide)
    _ = W4 m ρ c (Proc.devRef .tc main_arg11) := StableHlo.after_of_writes_sub hostOps1 _ hostOps1_writes (by decide : main_arg11 ∉ hostOps1_W)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide : main_arg11 ∉ hostOps0_2_W)
    _ = W1 m ρ c (Proc.devRef .tc main_arg11) := StableHlo.after_of_writes_sub hostOps0_1 _ hostOps0_1_writes (by decide : main_arg11 ∉ hostOps0_1_W)
    _ = W0 m ρ c (Proc.devRef .tc main_arg11) := StableHlo.after_of_writes_sub hostOps0 _ hostOps0_writes (by decide : main_arg11 ∉ hostOps0_W)
    _ = m ((c : Thread nD τ).loc main_arg11) := rfl

theorem W17_main_arg12 (c : Dev nD) : W17 m ρ c (Proc.devRef .tc main_arg12) = m ((c : Thread nD τ).loc main_arg12) :=
  calc W17 m ρ c (Proc.devRef .tc main_arg12)
    _ = W16 m ρ c (Proc.devRef .tc main_arg12) := StableHlo.after_of_writes_sub hostOps7 _ hostOps7_writes (by decide : main_arg12 ∉ hostOps7_W)
    _ = W15 m ρ c (Proc.devRef .tc main_arg12) := W16_of_ne m ρ c main_arg12 (by decide)
    _ = W14 m ρ c (Proc.devRef .tc main_arg12) := StableHlo.after_of_writes_sub hostOps6 _ hostOps6_writes (by decide : main_arg12 ∉ hostOps6_W)
    _ = W13 m ρ c (Proc.devRef .tc main_arg12) := W14_of_ne m ρ c main_arg12 (by decide)
    _ = W12 m ρ c (Proc.devRef .tc main_arg12) := StableHlo.after_of_writes_sub hostOps5 _ hostOps5_writes (by decide : main_arg12 ∉ hostOps5_W)
    _ = W11 m ρ c (Proc.devRef .tc main_arg12) := W12_of_ne m ρ c main_arg12 (by decide)
    _ = W10 m ρ c (Proc.devRef .tc main_arg12) := StableHlo.after_of_writes_sub hostOps4 _ hostOps4_writes (by decide : main_arg12 ∉ hostOps4_W)
    _ = W9 m ρ c (Proc.devRef .tc main_arg12) := W10_of_ne m ρ c main_arg12 (by decide)
    _ = W8 m ρ c (Proc.devRef .tc main_arg12) := StableHlo.after_of_writes_sub hostOps3 _ hostOps3_writes (by decide : main_arg12 ∉ hostOps3_W)
    _ = W7 m ρ c (Proc.devRef .tc main_arg12) := W8_of_ne m ρ c main_arg12 (by decide)
    _ = W6 m ρ c (Proc.devRef .tc main_arg12) := StableHlo.after_of_writes_sub hostOps2 _ hostOps2_writes (by decide : main_arg12 ∉ hostOps2_W)
    _ = W5 m ρ c (Proc.devRef .tc main_arg12) := W6_of_ne m ρ c main_arg12 (by decide)
    _ = W4 m ρ c (Proc.devRef .tc main_arg12) := StableHlo.after_of_writes_sub hostOps1 _ hostOps1_writes (by decide : main_arg12 ∉ hostOps1_W)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide : main_arg12 ∉ hostOps0_2_W)
    _ = W1 m ρ c (Proc.devRef .tc main_arg12) := StableHlo.after_of_writes_sub hostOps0_1 _ hostOps0_1_writes (by decide : main_arg12 ∉ hostOps0_1_W)
    _ = W0 m ρ c (Proc.devRef .tc main_arg12) := StableHlo.after_of_writes_sub hostOps0 _ hostOps0_writes (by decide : main_arg12 ∉ hostOps0_W)
    _ = m ((c : Thread nD τ).loc main_arg12) := rfl

theorem W17_main_arg13 (c : Dev nD) : W17 m ρ c (Proc.devRef .tc main_arg13) = m ((c : Thread nD τ).loc main_arg13) :=
  calc W17 m ρ c (Proc.devRef .tc main_arg13)
    _ = W16 m ρ c (Proc.devRef .tc main_arg13) := StableHlo.after_of_writes_sub hostOps7 _ hostOps7_writes (by decide : main_arg13 ∉ hostOps7_W)
    _ = W15 m ρ c (Proc.devRef .tc main_arg13) := (W16_arr m ρ c 3).trans (((dat6 (T15 m ρ) c).arrAt_in 3 rfl _).trans (A_eq6 (T15 m ρ) c 3))
    _ = W14 m ρ c (Proc.devRef .tc main_arg13) := StableHlo.after_of_writes_sub hostOps6 _ hostOps6_writes (by decide : main_arg13 ∉ hostOps6_W)
    _ = W13 m ρ c (Proc.devRef .tc main_arg13) := W14_of_ne m ρ c main_arg13 (by decide)
    _ = W12 m ρ c (Proc.devRef .tc main_arg13) := StableHlo.after_of_writes_sub hostOps5 _ hostOps5_writes (by decide : main_arg13 ∉ hostOps5_W)
    _ = W11 m ρ c (Proc.devRef .tc main_arg13) := W12_of_ne m ρ c main_arg13 (by decide)
    _ = W10 m ρ c (Proc.devRef .tc main_arg13) := StableHlo.after_of_writes_sub hostOps4 _ hostOps4_writes (by decide : main_arg13 ∉ hostOps4_W)
    _ = W9 m ρ c (Proc.devRef .tc main_arg13) := W10_of_ne m ρ c main_arg13 (by decide)
    _ = W8 m ρ c (Proc.devRef .tc main_arg13) := StableHlo.after_of_writes_sub hostOps3 _ hostOps3_writes (by decide : main_arg13 ∉ hostOps3_W)
    _ = W7 m ρ c (Proc.devRef .tc main_arg13) := W8_of_ne m ρ c main_arg13 (by decide)
    _ = W6 m ρ c (Proc.devRef .tc main_arg13) := StableHlo.after_of_writes_sub hostOps2 _ hostOps2_writes (by decide : main_arg13 ∉ hostOps2_W)
    _ = W5 m ρ c (Proc.devRef .tc main_arg13) := W6_of_ne m ρ c main_arg13 (by decide)
    _ = W4 m ρ c (Proc.devRef .tc main_arg13) := StableHlo.after_of_writes_sub hostOps1 _ hostOps1_writes (by decide : main_arg13 ∉ hostOps1_W)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide : main_arg13 ∉ hostOps0_2_W)
    _ = W1 m ρ c (Proc.devRef .tc main_arg13) := StableHlo.after_of_writes_sub hostOps0_1 _ hostOps0_1_writes (by decide : main_arg13 ∉ hostOps0_1_W)
    _ = W0 m ρ c (Proc.devRef .tc main_arg13) := StableHlo.after_of_writes_sub hostOps0 _ hostOps0_writes (by decide : main_arg13 ∉ hostOps0_W)
    _ = m ((c : Thread nD τ).loc main_arg13) := rfl

theorem W17_main_arg14 (c : Dev nD) : W17 m ρ c (Proc.devRef .tc main_arg14) = m ((c : Thread nD τ).loc main_arg14) :=
  calc W17 m ρ c (Proc.devRef .tc main_arg14)
    _ = W16 m ρ c (Proc.devRef .tc main_arg14) := StableHlo.after_of_writes_sub hostOps7 _ hostOps7_writes (by decide : main_arg14 ∉ hostOps7_W)
    _ = W15 m ρ c (Proc.devRef .tc main_arg14) := W16_of_ne m ρ c main_arg14 (by decide)
    _ = W14 m ρ c (Proc.devRef .tc main_arg14) := StableHlo.after_of_writes_sub hostOps6 _ hostOps6_writes (by decide : main_arg14 ∉ hostOps6_W)
    _ = W13 m ρ c (Proc.devRef .tc main_arg14) := W14_of_ne m ρ c main_arg14 (by decide)
    _ = W12 m ρ c (Proc.devRef .tc main_arg14) := StableHlo.after_of_writes_sub hostOps5 _ hostOps5_writes (by decide : main_arg14 ∉ hostOps5_W)
    _ = W11 m ρ c (Proc.devRef .tc main_arg14) := W12_of_ne m ρ c main_arg14 (by decide)
    _ = W10 m ρ c (Proc.devRef .tc main_arg14) := StableHlo.after_of_writes_sub hostOps4 _ hostOps4_writes (by decide : main_arg14 ∉ hostOps4_W)
    _ = W9 m ρ c (Proc.devRef .tc main_arg14) := W10_of_ne m ρ c main_arg14 (by decide)
    _ = W8 m ρ c (Proc.devRef .tc main_arg14) := StableHlo.after_of_writes_sub hostOps3 _ hostOps3_writes (by decide : main_arg14 ∉ hostOps3_W)
    _ = W7 m ρ c (Proc.devRef .tc main_arg14) := W8_of_ne m ρ c main_arg14 (by decide)
    _ = W6 m ρ c (Proc.devRef .tc main_arg14) := StableHlo.after_of_writes_sub hostOps2 _ hostOps2_writes (by decide : main_arg14 ∉ hostOps2_W)
    _ = W5 m ρ c (Proc.devRef .tc main_arg14) := W6_of_ne m ρ c main_arg14 (by decide)
    _ = W4 m ρ c (Proc.devRef .tc main_arg14) := StableHlo.after_of_writes_sub hostOps1 _ hostOps1_writes (by decide : main_arg14 ∉ hostOps1_W)
    _ = W3 m ρ c (Proc.devRef .tc main_arg14) := W4_of_ne m ρ c main_arg14 (by decide)
    _ = W2 m ρ c (Proc.devRef .tc main_arg14) := StableHlo.after_of_writes_sub hostOps0_2 _ hostOps0_2_writes (by decide : main_arg14 ∉ hostOps0_2_W)
    _ = W1 m ρ c (Proc.devRef .tc main_arg14) := StableHlo.after_of_writes_sub hostOps0_1 _ hostOps0_1_writes (by decide : main_arg14 ∉ hostOps0_1_W)
    _ = W0 m ρ c (Proc.devRef .tc main_arg14) := StableHlo.after_of_writes_sub hostOps0 _ hostOps0_writes (by decide : main_arg14 ∉ hostOps0_W)
    _ = m ((c : Thread nD τ).loc main_arg14) := rfl

/-! ## The proof data family and what rides beside the buffers -/

/-- No pallas_call has a prefetched table. -/
abbrev kadm : (p : Fin 7) → (pcfgs (F := F) p).Adm := fun p => (cfgs p).toPCfg_adm
/-- Every region's proof data, each at the contents the region is entered with: a literal match on the region's number. -/
def kdats : (p : Fin 7) → (c : Dev nD) → Dat τ (Elt F) Unit ℕ (UR sig nD τ) ℕ (Pipeline.pin (pcfgs (F := F)) kadm p) c
  | ⟨0, _⟩ => fun c => dat0 (T3 m ρ) c
  | ⟨1, _⟩ => fun c => dat1 (T5 m ρ) c
  | ⟨2, _⟩ => fun c => dat2 (T7 m ρ) c
  | ⟨3, _⟩ => fun c => dat3 (T9 m ρ) c
  | ⟨4, _⟩ => fun c => dat4 (T11 m ρ) c
  | ⟨5, _⟩ => fun c => dat5 (T13 m ρ) c
  | ⟨6, _⟩ => fun c => dat6 (T15 m ρ) c
abbrev k𝒱 : Variants := Variants.none
/-- No core waits for another: no level is assigned. -/
abbrev kL : GSem nD τ sig → Finset Unit := fun _ => ∅
abbrev klv : GSem nD τ sig → Unit → ℕ := fun _ _ => 0
/-- What rides beside the buffers through every segment: the core's generator register at some state, and the core owing nothing. -/
abbrev Rest (c : Dev nD) : sProp 𝕄 := iprop((∃ r, prngReg c r) ∗ ∃ W, owes (c : Thread nD τ) (0 : CellTallies nD τ sig Unit) W)
/-- A stretch of host operations as a segment: from the unscoped buffers at `W` to the same buffers after the operations, `Rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱 kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments

Each region is entered with every unscoped buffer at the fold's contents before it and left with them at the contents
after it: its arrays are split out of the unscoped buffers on entry and put back on exit; the generator register passes
into the pipeline's invariant and out; the core owes nothing; the kernel has no semaphore of its own. -/

set_option backward.isDefEq.respectTransparency.types false in
/-- Region 0: entered at `W3`, left at `W4`. -/
def reg0 : Pipeline.RegionSeg (pcfgs (F := F)) kadm (kdats m ρ) () defs₀ k𝒱 kL klv 0 where
  win := launch0.win.to₀
  block_pos := launch0.block_pos
  stage_whole := launch0.stage_whole
  K := PEmpty
  osem k := k.elim
  ho := Pipeline.OwnSemFacts.none _
  hbody c := (body_obligation0 (T3 m ρ) c).loose
  hwaits := Pipeline.hwaits_of_owed_zero _ _ _ _ kL klv 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (T3 m ρ c)
  hentry c := by
    rw [Pipeline.ownSems0_none]
    have hsplit := Pipeline.arrays_of_unscopedBufs (p := 0) (pcfgs (F := F)) kadm (kdats m ρ) launch0.win launch0.arr_whole c
      ((kdats m ρ 0 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (kdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kdats m ρ) ((kdats m ρ 0 c).share_full fun _ => rfl)
      (T3 m ρ c) (T4 m ρ c) ((kdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W5`, left at `W6`. -/
def reg1 : Pipeline.RegionSeg (pcfgs (F := F)) kadm (kdats m ρ) () defs₀ k𝒱 kL klv 1 where
  win := launch1.win.to₀
  block_pos := launch1.block_pos
  stage_whole := launch1.stage_whole
  K := PEmpty
  osem k := k.elim
  ho := Pipeline.OwnSemFacts.none _
  hbody c := (body_obligation1 (T5 m ρ) c).loose
  hwaits := Pipeline.hwaits_of_owed_zero _ _ _ _ kL klv 1 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec1 c (T5 m ρ c)
  hentry c := by
    rw [Pipeline.ownSems0_none]
    have hsplit := Pipeline.arrays_of_unscopedBufs (p := 1) (pcfgs (F := F)) kadm (kdats m ρ) launch1.win launch1.arr_whole c
      ((kdats m ρ 1 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (kdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kdats m ρ) ((kdats m ρ 1 c).share_full fun _ => rfl)
      (T5 m ρ c) (T6 m ρ c) ((kdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W7`, left at `W8`. -/
def reg2 : Pipeline.RegionSeg (pcfgs (F := F)) kadm (kdats m ρ) () defs₀ k𝒱 kL klv 2 where
  win := launch2.win.to₀
  block_pos := launch2.block_pos
  stage_whole := launch2.stage_whole
  K := PEmpty
  osem k := k.elim
  ho := Pipeline.OwnSemFacts.none _
  hbody c := (body_obligation2 (T7 m ρ) c).loose
  hwaits := Pipeline.hwaits_of_owed_zero _ _ _ _ kL klv 2 fun _ _ => rfl
  pre c := iprop(StableHlo.held (c : Thread nD τ) (Pipeline.ucRefs τ sig) (W7 m ρ c) ∗ Rest c)
  post c := iprop(StableHlo.held (c : Thread nD τ) (Pipeline.ucRefs τ sig) (W8 m ρ c) ∗ Rest c)
  X c := iprop(∃ r, prngReg c r)
  Y c := iprop(∃ r, prngReg c r)
  Z c := Pipeline.unscopedRest (Ix := Unit) (Name := ℕ) (U := UR sig nD τ) (Lvl := ℕ) spec2 c (T7 m ρ c)
  hentry c := by
    rw [Pipeline.ownSems0_none]
    have hsplit := Pipeline.arrays_of_unscopedBufs (p := 2) (pcfgs (F := F)) kadm (kdats m ρ) launch2.win launch2.arr_whole c
      ((kdats m ρ 2 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (kdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) kadm (Ix := Unit) (Name := ℕ) (U := UR sig nD τ) (Lvl := ℕ)
      launch2.win launch2.arr_whole c (kdats m ρ) ((kdats m ρ 2 c).share_full fun _ => rfl)
      (T7 m ρ c) (T8 m ρ c) ((kdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered at `W9`, left at `W10`. -/
def reg3 : Pipeline.RegionSeg (pcfgs (F := F)) kadm (kdats m ρ) () defs₀ k𝒱 kL klv 3 where
  win := launch3.win.to₀
  block_pos := launch3.block_pos
  stage_whole := launch3.stage_whole
  K := PEmpty
  osem k := k.elim
  ho := Pipeline.OwnSemFacts.none _
  hbody c := (body_obligation3 (T9 m ρ) c).loose
  hwaits := Pipeline.hwaits_of_owed_zero _ _ _ _ kL klv 3 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec3 c (T9 m ρ c)
  hentry c := by
    rw [Pipeline.ownSems0_none]
    have hsplit := Pipeline.arrays_of_unscopedBufs (p := 3) (pcfgs (F := F)) kadm (kdats m ρ) launch3.win launch3.arr_whole c
      ((kdats m ρ 3 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (kdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) kadm (Ix := Unit) (Name := ℕ) (U := UR sig nD τ) (Lvl := ℕ)
      launch3.win launch3.arr_whole c (kdats m ρ) ((kdats m ρ 3 c).share_full fun _ => rfl)
      (T9 m ρ c) (T10 m ρ c) ((kdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered at `W11`, left at `W12`. -/
def reg4 : Pipeline.RegionSeg (pcfgs (F := F)) kadm (kdats m ρ) () defs₀ k𝒱 kL klv 4 where
  win := launch4.win.to₀
  block_pos := launch4.block_pos
  stage_whole := launch4.stage_whole
  K := PEmpty
  osem k := k.elim
  ho := Pipeline.OwnSemFacts.none _
  hbody c := (body_obligation4 (T11 m ρ) c).loose
  hwaits := Pipeline.hwaits_of_owed_zero _ _ _ _ kL klv 4 fun _ _ => rfl
  pre c := iprop(StableHlo.held (c : Thread nD τ) (Pipeline.ucRefs τ sig) (W11 m ρ c) ∗ Rest c)
  post c := iprop(StableHlo.held (c : Thread nD τ) (Pipeline.ucRefs τ sig) (W12 m ρ c) ∗ Rest c)
  X c := iprop(∃ r, prngReg c r)
  Y c := iprop(∃ r, prngReg c r)
  Z c := Pipeline.unscopedRest (Ix := Unit) (Name := ℕ) (U := UR sig nD τ) (Lvl := ℕ) spec4 c (T11 m ρ c)
  hentry c := by
    rw [Pipeline.ownSems0_none]
    have hsplit := Pipeline.arrays_of_unscopedBufs (p := 4) (pcfgs (F := F)) kadm (kdats m ρ) launch4.win launch4.arr_whole c
      ((kdats m ρ 4 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (kdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) kadm (Ix := Unit) (Name := ℕ) (U := UR sig nD τ) (Lvl := ℕ)
      launch4.win launch4.arr_whole c (kdats m ρ) ((kdats m ρ 4 c).share_full fun _ => rfl)
      (T11 m ρ c) (T12 m ρ c) ((kdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered at `W13`, left at `W14`. -/
def reg5 : Pipeline.RegionSeg (pcfgs (F := F)) kadm (kdats m ρ) () defs₀ k𝒱 kL klv 5 where
  win := launch5.win.to₀
  block_pos := launch5.block_pos
  stage_whole := launch5.stage_whole
  K := PEmpty
  osem k := k.elim
  ho := Pipeline.OwnSemFacts.none _
  hbody c := (body_obligation5 (T13 m ρ) c).loose
  hwaits := Pipeline.hwaits_of_owed_zero _ _ _ _ kL klv 5 fun _ _ => rfl
  pre c := iprop(StableHlo.held (c : Thread nD τ) (Pipeline.ucRefs τ sig) (W13 m ρ c) ∗ Rest c)
  post c := iprop(StableHlo.held (c : Thread nD τ) (Pipeline.ucRefs τ sig) (W14 m ρ c) ∗ Rest c)
  X c := iprop(∃ r, prngReg c r)
  Y c := iprop(∃ r, prngReg c r)
  Z c := Pipeline.unscopedRest (Ix := Unit) (Name := ℕ) (U := UR sig nD τ) (Lvl := ℕ) spec5 c (T13 m ρ c)
  hentry c := by
    rw [Pipeline.ownSems0_none]
    have hsplit := Pipeline.arrays_of_unscopedBufs (p := 5) (pcfgs (F := F)) kadm (kdats m ρ) launch5.win launch5.arr_whole c
      ((kdats m ρ 5 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (kdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) kadm (Ix := Unit) (Name := ℕ) (U := UR sig nD τ) (Lvl := ℕ)
      launch5.win launch5.arr_whole c (kdats m ρ) ((kdats m ρ 5 c).share_full fun _ => rfl)
      (T13 m ρ c) (T14 m ρ c) ((kdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered at `W15`, left at `W16`. -/
def reg6 : Pipeline.RegionSeg (pcfgs (F := F)) kadm (kdats m ρ) () defs₀ k𝒱 kL klv 6 where
  win := launch6.win.to₀
  block_pos := launch6.block_pos
  stage_whole := launch6.stage_whole
  K := PEmpty
  osem k := k.elim
  ho := Pipeline.OwnSemFacts.none _
  hbody c := (body_obligation6 (T15 m ρ) c).loose
  hwaits := Pipeline.hwaits_of_owed_zero _ _ _ _ kL klv 6 fun _ _ => rfl
  pre c := iprop(StableHlo.held (c : Thread nD τ) (Pipeline.ucRefs τ sig) (W15 m ρ c) ∗ Rest c)
  post c := iprop(StableHlo.held (c : Thread nD τ) (Pipeline.ucRefs τ sig) (W16 m ρ c) ∗ Rest c)
  X c := iprop(∃ r, prngReg c r)
  Y c := iprop(∃ r, prngReg c r)
  Z c := Pipeline.unscopedRest (Ix := Unit) (Name := ℕ) (U := UR sig nD τ) (Lvl := ℕ) spec6 c (T15 m ρ c)
  hentry c := by
    rw [Pipeline.ownSems0_none]
    have hsplit := Pipeline.arrays_of_unscopedBufs (p := 6) (pcfgs (F := F)) kadm (kdats m ρ) launch6.win launch6.arr_whole c
      ((kdats m ρ 6 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (kdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) kadm (Ix := Unit) (Name := ℕ) (U := UR sig nD τ) (Lvl := ℕ)
      launch6.win launch6.arr_whole c (kdats m ρ) ((kdats m ρ 6 c).share_full fun _ => rfl)
      (T15 m ρ c) (T16 m ρ c) ((kdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's seventeen segments in order. -/
abbrev ksegs : List (Pipeline.Seg (pcfgs (F := F)) kadm (kdats m ρ) () defs₀ k𝒱 kL klv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)) ]

/-- @main is the run of its segments. -/
theorem main_run (c : Dev nD) : main (F := F) c = Pipeline.Seg.run (ksegs m ρ) := (main_chain c).trans (by chain_rfl)

set_option backward.isDefEq.respectTransparency.types false in
/-- The run: from any memory with zero counters every weakly fair execution of @main on the TensorCores terminates, nothing
    faulting; the result buffer ends at the fold's last contents and every argument array as launched. -/
theorem run : θ_run defs (onTc (τ := τ) (main (F := F))) ⟨m, fun _ => 0, ρ⟩ (fun r => ∀ c : Dev nD,
      r.2.mem ((c.tc : Thread nD τ).loc main_v122) = W17 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) kadm (kdats m ρ) () cellOf_inj emb₁ defs₀ k𝒱 kL klv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c))
    (Tₙ := fun c => StableHlo.held (c : Thread nD τ) (Pipeline.ucRefs τ sig) (W17 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W17 m ρ c) ∗ Rest c) ⊢ _
        iintro ⟨Hh, -, HO⟩
        isplitl [Hh]; · iexact Hh
        iexact HO⟩)
    (hinit := by
      refine Pipeline.initEach kL klv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨Hh, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v122 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.Kernel.H

end
-- ==== Proof.KI.R0.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents fills its shape recurses once per coordinate of the long axis
set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # Region 0: the scaled feature transform, one row tile of 5000 nodes per grid point

At point `t` the body reads three blocks — rows `5000 t … 5000 t + 4999` of the node features (5000×128), the
whole 128×128 weight matrix (the same block at every point), and the same rows of the per-node scale column
(5000×1) — and stores one block: those rows of the result (5000×128, bf16), every entry of it. -/

/-! ## The windows' blocks -/

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether or not a transfer
    landed there: where none did, the block index is the previous point's, and the body leaves the block as found.
    Stated for any proof data whose array is `V`'s and whose `after` on this window is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether or not a transfer
    landed there: where none did, the block index is the previous point's, and the body leaves the block as found.
    Stated for any proof data whose array is `V`'s and whose `after` on this window is the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every grid point, whether or not a transfer
    landed there: where none did, the block index is the previous point's, and the body leaves the block as found.
    Stated for any proof data whose array is `V`'s and whose `after` on this window is the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

/-! ## What the body leaves in the output window's buffer -/

/-- The output buffer after the body, as a function of the three input blocks: one store over the whole buffer,
    of the payload (features and weights rounded to bf16, multiplied, scaled row by row, rounded to bf16). -/
def out0_3 (x0 : Vec F S5000x128 .f32) (x1 : Vec F S128x128 .f32) (x2 : Vec F S5000x1 .f32) : Vec F S5000x128 .bf16 :=
  View.canon [⟨r0_3, k0_pay1 (View.ld x0 r0_0) (View.ld x1 r0_1) (View.ld x2 r0_2)⟩]

/-- The one store's rectangle is the whole buffer, so every index is covered. -/
theorem cover0_3 (p0 : Vec F S5000x128 .bf16) (y : S5000x128.Idx) :
    ∃ pc ∈ ([⟨r0_3, p0⟩] : List (View.Piece (Elt F) S5000x128 .bf16)), y ∈ pc.1.set :=
  View.cover_of_tiled [⟨r0_3, p0⟩] S5000x128.size (by rfl) y

/-! ## The body's triple -/

set_option maxHeartbeats 1000000 in
/-- The body on whole staging buffers — the three inputs' holding `x0`, `x1`, `x2`, the output's holding anything —
    runs to a state where the inputs' hold what they held and the output's holds `out0_3 x0 x1 x2`. -/
theorem sound_kernel0 (c : Dev nD) (E : Set ℕ) (i : grid0.Coords)
    (arg0 : Memref sig .tc .vmem S5000x128 .f32) (harg0 : arg0.IsWhole) (arg1 : Memref sig .tc .vmem S128x128 .f32) (harg1 : arg1.IsWhole)
    (arg2 : Memref sig .tc .vmem S5000x1 .f32) (harg2 : arg2.IsWhole) (arg3 : Memref sig .tc .vmem S5000x128 .bf16) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_scaled_kernel i arg0 harg0 arg1 harg1 arg2 harg2 arg3 harg3) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core `c`: the arrays as the region finds them; after the body at point `t` each
    input's buffer still at its block and the output's at `out0_3` of the three input blocks; the invariant is the
    untouched rest of the core's memory; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.R1.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the fused layer kernel `cc1__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the window is fetched there
    or not (an unfetched window's block index has not moved since its last fetch), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the window is fetched there
    or not (an unfetched window's block index has not moved since its last fetch), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the window is fetched there
    or not (an unfetched window's block index has not moved since its last fetch), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the window is fetched there
    or not (an unfetched window's block index has not moved since its last fetch), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole buffer -/

abbrev r1_0 : Rect S5000x1 := Rect.unit (s := S5000x1) ![0, 0] S5000x1.size inb_S5000x1_S5000x1_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out1_4 (x0 : Vec F S5000x128 .f32) (x1 : Vec F S5000x1 .f32) (x2 : Vec F S1x128 .f32) : Vec F S5000x128 .f32 :=
  View.canon [⟨r1_1, k1_pay1 (View.ld x1 r1_0) (View.ld x0 r1_1) (View.ld x2 r1_2)⟩]

/-- The one store is of the whole buffer, so it covers every index. -/
theorem cover1_4 (p0 : Vec F S5000x128 .f32) (y : S5000x128.Idx) :
    ∃ pc ∈ ([⟨r1_1, p0⟩] : List (View.Piece (Elt F) S5000x128 .f32)), y ∈ pc.1.set :=
  View.cover_of_tiled [⟨r1_1, p0⟩] S5000x128.size (by rfl) y

/-- Window 5's staging buffer after the body, from the input blocks: one store of the whole block, of the payload
    computed from the row scales `x1` (read twice), the aggregated rows `x0`, the bias `x2` and the weights `x3`. -/
def out1_5 (x0 : Vec F S5000x128 .f32) (x1 : Vec F S5000x1 .f32) (x2 : Vec F S1x128 .f32) (x3 : Vec F S128x128 .f32) : Vec F S5000x128 .bf16 :=
  View.canon [⟨r1_1, k1_pay2 (View.ld x1 r1_0) (View.ld x0 r1_1) (View.ld x2 r1_2) (View.ld x3 r1_3) (View.ld x1 r1_0)⟩]

/-- The one store is of the whole buffer, so it covers every index. -/
theorem cover1_5 (p0 : Vec F S5000x128 .bf16) (y : S5000x128.Idx) :
    ∃ pc ∈ ([⟨r1_1, p0⟩] : List (View.Piece (Elt F) S5000x128 .bf16)), y ∈ pc.1.set :=
  View.cover_of_tiled [⟨r1_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out1_4 x0 x1 x2` and `out1_5 x0 x1 x2 x3`:
    loads of the inputs, a load of each output buffer whose value is unused, and one whole-block store per output. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2) ∗ owns (c : Thread nD τ) arg6 fullShare (out1_5 x0 x1 x2 x3)) -∗ K ⟨⟩))
      ⊢ wp frame (wpE (defs₀ (F := F)) Variants.none c none) E (cc1__conv_fused_kernel i arg1 harg1 arg2 harg2 arg3 harg3 arg4 harg4 arg5 harg5 arg6 harg6) K := by
  simp only [cc1__conv_fused_kernel_eq_skeleton]; unfold cc1__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and each output's at `out1_W` of the input blocks; the invariant keeps the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.R2.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the fused layer kernel `cc2__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the window is fetched there
    or not (an unfetched window's block index has not moved since its last fetch), for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the window is fetched there
    or not (an unfetched window's block index has not moved since its last fetch), for any proof data whose
    array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the window is fetched there
    or not (an unfetched window's block index has not moved since its last fetch), for any proof data whose
    array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the window is fetched there
    or not (an unfetched window's block index has not moved since its last fetch), for any proof data whose
    array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_0 : Rect S5000x1 := Rect.unit (s := S5000x1) ![0, 0] S5000x1.size inb_S5000x1_S5000x1_0_0
abbrev r2_1 : Rect S5000x128 := Rect.unit (s := S5000x128) ![0, 0] S5000x128.size inb_S5000x128_S5000x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out2_4 (x0 : Vec F S5000x128 .f32) (x1 : Vec F S5000x1 .f32) (x2 : Vec F S1x128 .f32) : Vec F S5000x128 .f32 :=
  View.canon [⟨r2_1, k2_pay1 (View.ld x1 r2_0) (View.ld x0 r2_1) (View.ld x2 r2_2)⟩]

/-- The one store is of the whole buffer, so it covers every index. -/
theorem cover2_4 (p0 : Vec F S5000x128 .f32) (y : S5000x128.Idx) :
    ∃ pc ∈ ([⟨r2_1, p0⟩] : List (View.Piece (Elt F) S5000x128 .f32)), y ∈ pc.1.set :=
  View.cover_of_tiled [⟨r2_1, p0⟩] S5000x128.size (by rfl) y

/-- Window 5's staging buffer after the body, from the input blocks: one store of the whole block, of the payload
    computed from the row scales `x1` (read twice), the aggregated rows `x0`, the bias `x2` and the weights `x3`. -/
def out2_5 (x0 : Vec F S5000x128 .f32) (x1 : Vec F S5000x1 .f32) (x2 : Vec F S1x128 .f32) (x3 : Vec F S128x128 .f32) : Vec F S5000x128 .bf16 :=
  View.canon [⟨r2_1, k2_pay2 (View.ld x1 r2_0) (View.ld x0 r2_1) (View.ld x2 r2_2) (View.ld x3 r2_3) (View.ld x1 r2_0)⟩]

/-- The one store is of the whole buffer, so it covers every index. -/
theorem cover2_5 (p0 : Vec F S5000x128 .bf16) (y : S5000x128.Idx) :
    ∃ pc ∈ ([⟨r2_1, p0⟩] : List (View.Piece (Elt F) S5000x128 .bf16)), y ∈ pc.1.set :=
  View.cover_of_tiled [⟨r2_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out2_4 x0 x1 x2` and `out2_5 x0 x1 x2 x3`:
    loads of the inputs, a load of each output buffer whose value is unused, and one whole-block store per output. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E (cc2__conv_fused_kernel i arg1 harg1 arg2 harg2 arg3 harg3 arg4 harg4 arg5 harg5 arg6 harg6) K := by
  simp only [cc2__conv_fused_kernel_eq_skeleton]; unfold cc2__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at `out2_W` of the input blocks; the invariant keeps the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.R3.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the fused layer kernel `cc3__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the window is fetched there
    or not (an unfetched window's block index has not moved since its last fetch), for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the window is fetched there
    or not (an unfetched window's block index has not moved since its last fetch), for any proof data whose
    array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the window is fetched there
    or not (an unfetched window's block index has not moved since its last fetch), for any proof data whose
    array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the window is fetched there
    or not (an unfetched window's block index has not moved since its last fetch), for any proof data whose
    array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_0 : Rect S5000x1 := Rect.unit (s := S5000x1) ![0, 0] S5000x1.size inb_S5000x1_S5000x1_0_0
abbrev r3_1 : Rect S5000x128 := Rect.unit (s := S5000x128) ![0, 0] S5000x128.size inb_S5000x128_S5000x128_0_0
abbrev r3_2 : Rect S1x128 := Rect.unit (s := S1x128) ![0, 0] S1x128.size inb_S1x128_S1x128_0_0
abbrev r3_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out3_4 (x0 : Vec F S5000x128 .f32) (x1 : Vec F S5000x1 .f32) (x2 : Vec F S1x128 .f32) : Vec F S5000x128 .f32 :=
  View.canon [⟨r3_1, k3_pay1 (View.ld x1 r3_0) (View.ld x0 r3_1) (View.ld x2 r3_2)⟩]

/-- The one store is of the whole buffer, so it covers every index. -/
theorem cover3_4 (p0 : Vec F S5000x128 .f32) (y : S5000x128.Idx) :
    ∃ pc ∈ ([⟨r3_1, p0⟩] : List (View.Piece (Elt F) S5000x128 .f32)), y ∈ pc.1.set :=
  View.cover_of_tiled [⟨r3_1, p0⟩] S5000x128.size (by rfl) y

/-- Window 5's staging buffer after the body, from the input blocks: one store of the whole block, of the payload
    computed from the row scales `x1` (read twice), the aggregated rows `x0`, the bias `x2` and the weights `x3`. -/
def out3_5 (x0 : Vec F S5000x128 .f32) (x1 : Vec F S5000x1 .f32) (x2 : Vec F S1x128 .f32) (x3 : Vec F S128x128 .f32) : Vec F S5000x128 .bf16 :=
  View.canon [⟨r3_1, k3_pay2 (View.ld x1 r3_0) (View.ld x0 r3_1) (View.ld x2 r3_2) (View.ld x3 r3_3) (View.ld x1 r3_0)⟩]

/-- The one store is of the whole buffer, so it covers every index. -/
theorem cover3_5 (p0 : Vec F S5000x128 .bf16) (y : S5000x128.Idx) :
    ∃ pc ∈ ([⟨r3_1, p0⟩] : List (View.Piece (Elt F) S5000x128 .bf16)), y ∈ pc.1.set :=
  View.cover_of_tiled [⟨r3_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out3_4 x0 x1 x2` and `out3_5 x0 x1 x2 x3`:
    loads of the inputs, a load of each output buffer whose value is unused, and one whole-block store per output. -/
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2) ∗ owns (c : Thread nD τ) arg6 fullShare (out3_5 x0 x1 x2 x3)) -∗ K ⟨⟩))
      ⊢ wp frame (wpE (defs₀ (F := F)) Variants.none c none) E (cc3__conv_fused_kernel i arg1 harg1 arg2 harg2 arg3 harg3 arg4 harg4 arg5 harg5 arg6 harg6) K := by
  simp only [cc3__conv_fused_kernel_eq_skeleton]; unfold cc3__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and each output's at `out3_W` of the input blocks; the invariant keeps the scoped
    rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.H

end
-- ==== Proof.KI.R4.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the fused layer kernel `cc4__conv_fused_kernel`, at the entry contents `V`

At every grid point the body reads the whole 5000x128 block of aggregated rows (window 0), the whole 5000x1
block of row scales (window 1), the whole 1x128 bias (window 2) and the whole 128x128 weight matrix (window 3).
It stores `h = max (scale * rows + bias) 0` over the whole 5000x128 block of window 4, and then, over the whole
5000x128 block of window 5, the bf16 rounding of `(bf16 h ⬝ bf16 weights) * scale`. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the window is fetched there
    or not (an unfetched window's block index has not moved since its last fetch), for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the window is fetched there
    or not (an unfetched window's block index has not moved since its last fetch), for any proof data whose
    array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the window is fetched there
    or not (an unfetched window's block index has not moved since its last fetch), for any proof data whose
    array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the window is fetched there
    or not (an unfetched window's block index has not moved since its last fetch), for any proof data whose
    array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is a whole buffer -/

abbrev r4_0 : Rect S5000x1 := Rect.unit (s := S5000x1) ![0, 0] S5000x1.size inb_S5000x1_S5000x1_0_0
abbrev r4_1 : Rect S5000x128 := Rect.unit (s := S5000x128) ![0, 0] S5000x128.size inb_S5000x128_S5000x128_0_0
abbrev r4_2 : Rect S1x128 := Rect.unit (s := S1x128) ![0, 0] S1x128.size inb_S1x128_S1x128_0_0
abbrev r4_3 : Rect S128x128 := Rect.unit (s := S128x128) ![0, 0] S128x128.size inb_S128x128_S128x128_0_0

/-! ## What the body leaves in each output window's buffer -/

/-- Window 4's staging buffer after the body, from the input blocks: one store of the whole block, of the payload
    computed from the row scales `x1`, the aggregated rows `x0` and the bias `x2`. -/
def out4_4 (x0 : Vec F S5000x128 .f32) (x1 : Vec F S5000x1 .f32) (x2 : Vec F S1x128 .f32) : Vec F S5000x128 .f32 :=
  View.canon [⟨r4_1, k4_pay1 (View.ld x1 r4_0) (View.ld x0 r4_1) (View.ld x2 r4_2)⟩]

/-- The one store is of the whole buffer, so it covers every index. -/
theorem cover4_4 (p0 : Vec F S5000x128 .f32) (y : S5000x128.Idx) :
    ∃ pc ∈ ([⟨r4_1, p0⟩] : List (View.Piece (Elt F) S5000x128 .f32)), y ∈ pc.1.set :=
  View.cover_of_tiled [⟨r4_1, p0⟩] S5000x128.size (by rfl) y

/-- Window 5's staging buffer after the body, from the input blocks: one store of the whole block, of the payload
    computed from the row scales `x1` (read twice), the aggregated rows `x0`, the bias `x2` and the weights `x3`. -/
def out4_5 (x0 : Vec F S5000x128 .f32) (x1 : Vec F S5000x1 .f32) (x2 : Vec F S1x128 .f32) (x3 : Vec F S128x128 .f32) : Vec F S5000x128 .bf16 :=
  View.canon [⟨r4_1, k4_pay2 (View.ld x1 r4_0) (View.ld x0 r4_1) (View.ld x2 r4_2) (View.ld x3 r4_3) (View.ld x1 r4_0)⟩]

/-- The one store is of the whole buffer, so it covers every index. -/
theorem cover4_5 (p0 : Vec F S5000x128 .bf16) (y : S5000x128.Idx) :
    ∃ pc ∈ ([⟨r4_1, p0⟩] : List (View.Piece (Elt F) S5000x128 .bf16)), y ∈ pc.1.set :=
  View.cover_of_tiled [⟨r4_1, p0⟩] S5000x128.size (by rfl) y

/-! ## The body's triple -/

set_option maxHeartbeats 1000000 in
/-- The kernel body on whole staging memrefs, the inputs' holding `x0` … `x3` and the outputs' holding anything, runs
    to the continuation with the inputs' unchanged and the outputs' at `out4_4 x0 x1 x2` and `out4_5 x0 x1 x2 x3`:
    loads of the inputs, a load of each output buffer whose value is unused, and one whole-block store per output. -/
theorem sound_kernel4 (c : Dev nD) (E : Set ℕ) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S5000x128 .bf16) (harg6 : arg6.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2) ∗ owns (c : Thread nD τ) arg6 fullShare (out4_5 x0 x1 x2 x3)) -∗ K ⟨⟩))
      ⊢ wp frame (wpE (defs₀ (F := F)) Variants.none c none) E (cc4__conv_fused_kernel i arg1 harg1 arg2 harg2 arg3 harg3 arg4 harg4 arg5 harg5 arg6 harg6) K := by
  simp only [cc4__conv_fused_kernel_eq_skeleton]; unfold cc4__conv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

/-! ## The pipeline's proof data -/

/-- The proof data of pipeline 4 on core `c`: the arrays as the region finds them; after the body at point `t` each
    input's buffer at its block and each output's at `out4_W` of the input blocks; the invariant keeps the scoped
    rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t)
    | ⟨5, _⟩ => out4_5 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the kernel's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.H

end
-- ==== Proof.KI.R5.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle with thousands of rows recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the bias-and-ReLU kernel `cc5__bias_relu_scaled_kernel`, at the entry contents `V`

At every grid point the body reads the whole 5000x128 block of aggregated rows (window 0), the whole 5000x1
block of row scales (window 1) and the whole 1x128 bias (window 2), and stores, over the whole 5000x128 output
block (window 3), `max (scale * rows + bias) 0`. -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the window is fetched there
    or not (an unfetched window's block index has not moved since its last fetch), for any proof data whose
    array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the window is fetched there
    or not (an unfetched window's block index has not moved since its last fetch), for any proof data whose
    array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the window is fetched there
    or not (an unfetched window's block index has not moved since its last fetch), for any proof data whose
    array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_0 : Rect S5000x1 := Rect.unit (s := S5000x1) ![0, 0] S5000x1.size inb_S5000x1_S5000x1_0_0
abbrev r5_1 : Rect S5000x128 := Rect.unit (s := S5000x128) ![0, 0] S5000x128.size inb_S5000x128_S5000x128_0_0
abbrev r5_2 : Rect S1x128 := Rect.unit (s := S1x128) ![0, 0] S1x128.size inb_S1x128_S1x128_0_0

/-! ## What the body leaves in the output window's buffer -/

/-- Window 3's staging buffer after the body, from the three input blocks: one store of the whole block, of the
    payload computed from the row scales `x1`, the aggregated rows `x0` and the bias `x2`. -/
def out5_3 (x0 : Vec F S5000x128 .f32) (x1 : Vec F S5000x1 .f32) (x2 : Vec F S1x128 .f32) : Vec F S5000x128 .f32 :=
  View.canon [⟨r5_1, k5_pay1 (View.ld x1 r5_0) (View.ld x0 r5_1) (View.ld x2 r5_2)⟩]

/-- The one store is of the whole buffer, so it covers every index. -/
theorem cover5_3 (p0 : Vec F S5000x128 .f32) (y : S5000x128.Idx) :
    ∃ pc ∈ ([⟨r5_1, p0⟩] : List (View.Piece (Elt F) S5000x128 .f32)), y ∈ pc.1.set :=
  View.cover_of_tiled [⟨r5_1, p0⟩] S5000x128.size (by rfl) y

/-! ## The body's triple -/

set_option maxHeartbeats 1000000 in
/-- The kernel body on whole staging memrefs, the inputs' holding `x0`, `x1`, `x2` and the output's holding anything,
    runs to the continuation with the inputs' unchanged and the output's at `out5_3 x0 x1 x2`: three loads of the
    inputs, a load of the output buffer whose value is unused, and the one store. -/
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bias_relu_scaled_kernel i arg1 harg1 arg2 harg2 arg3 harg3 arg4 harg4) K := by
  simp only [cc5__bias_relu_scaled_kernel_eq_skeleton]; unfold cc5__bias_relu_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them; after the body at point `t` each
    input's buffer at its block and the output's at `out5_3` of the input blocks; the invariant keeps the scoped
    rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.H

end
-- ==== Proof.KI.R6.lean ====
import proofs.«105302_j51668456571568_2_alg».proof.Proof.Gen.KernelIdeal.Launch
import proofs.«105302_j51668456571568_2_alg».proof.Proof.Gen.KernelIdeal.Skeleton
import proofs.«105302_j51668456571568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents fills its shape recurses once per coordinate of the long axis
set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # Region 6: the two-layer readout on the pooled features, a single grid point

The one point reads five blocks, each the whole of its array — the pooled features (512×640), the first layer's
weights (640×640) and bias row (1×640), the second layer's weights (640×1) and bias (1×1) — and stores one block,
the whole 512×1 result, every entry of it. -/

/-! ## The windows' blocks -/

/-- Window `w`'s block at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether or not a transfer
    landed there: where none did, the block index is the previous point's, and the body leaves the block as found.
    Stated for any proof data whose array is `V`'s and whose `after` on this window is the block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether or not a transfer
    landed there: where none did, the block index is the previous point's, and the body leaves the block as found.
    Stated for any proof data whose array is `V`'s and whose `after` on this window is the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether or not a transfer
    landed there: where none did, the block index is the previous point's, and the body leaves the block as found.
    Stated for any proof data whose array is `V`'s and whose `after` on this window is the block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds the window's block at every grid point, whether or not a transfer
    landed there: where none did, the block index is the previous point's, and the body leaves the block as found.
    Stated for any proof data whose array is `V`'s and whose `after` on this window is the block. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds the window's block at every grid point, whether or not a transfer
    landed there: where none did, the block index is the previous point's, and the body leaves the block as found.
    Stated for any proof data whose array is `V`'s and whose `after` on this window is the block. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S512x640 := Rect.unit (s := S512x640) ![0, 0] S512x640.size inb_S512x640_S512x640_0_0
abbrev r6_1 : Rect S640x640 := Rect.unit (s := S640x640) ![0, 0] S640x640.size inb_S640x640_S640x640_0_0
abbrev r6_2 : Rect S1x640 := Rect.unit (s := S1x640) ![0, 0] S1x640.size inb_S1x640_S1x640_0_0
abbrev r6_3 : Rect S640x1 := Rect.unit (s := S640x1) ![0, 0] S640x1.size inb_S640x1_S640x1_0_0
abbrev r6_4 : Rect S1x1 := Rect.unit (s := S1x1) ![0, 0] S1x1.size inb_S1x1_S1x1_0_0
abbrev r6_5 : Rect S512x1 := Rect.unit (s := S512x1) ![0, 0] S512x1.size inb_S512x1_S512x1_0_0

/-! ## What the body leaves in the output window's buffer -/

/-- The output buffer after the body, as a function of the five input blocks: one store over the whole buffer, of
    the payload (first layer in bf16 with f32 accumulation, bias, rectifier; second layer likewise, bias). -/
def out6_5 (x0 : Vec F S512x640 .f32) (x1 : Vec F S640x640 .f32) (x2 : Vec F S1x640 .f32) (x3 : Vec F S640x1 .f32) (x4 : Vec F S1x1 .f32) :
    Vec F S512x1 .f32 :=
  View.canon [⟨r6_5, k6_pay1 (View.ld x0 r6_0) (View.ld x1 r6_1) (View.ld x2 r6_2) (View.ld x3 r6_3) (View.ld x4 r6_4)⟩]

/-- The one store's rectangle is the whole buffer, so every index is covered. -/
theorem cover6_5 (p0 : Vec F S512x1 .f32) (y : S512x1.Idx) :
    ∃ pc ∈ ([⟨r6_5, p0⟩] : List (View.Piece (Elt F) S512x1 .f32)), y ∈ pc.1.set :=
  View.cover_of_tiled [⟨r6_5, p0⟩] S512x1.size (by rfl) y

/-! ## The body's triple -/

set_option maxHeartbeats 1000000 in
/-- The body on whole staging buffers — the five inputs' holding `x0` … `x4`, the output's holding anything — runs to
    a state where the inputs' hold what they held and the output's holds `out6_5 x0 x1 x2 x3 x4`. -/
theorem sound_kernel6 (c : Dev nD) (E : Set ℕ) (i : grid6.Coords)
    (arg0 : Memref sig .tc .vmem S512x640 .f32) (harg0 : arg0.IsWhole) (arg1 : Memref sig .tc .vmem S640x640 .f32) (harg1 : arg1.IsWhole)
    (arg2 : Memref sig .tc .vmem S1x640 .f32) (harg2 : arg2.IsWhole) (arg3 : Memref sig .tc .vmem S640x1 .f32) (harg3 : arg3.IsWhole)
    (arg4 : Memref sig .tc .vmem S1x1 .f32) (harg4 : arg4.IsWhole) (arg5 : Memref sig .tc .vmem S512x1 .f32) (harg5 : arg5.IsWhole)
    (x0 : Vec F S512x640 .f32) (x1 : Vec F S640x640 .f32) (x2 : Vec F S1x640 .f32) (x3 : Vec F S640x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out6_5 x0 x1 x2 x3 x4)) -∗ K ⟨⟩))
      ⊢ wp frame (wpE (defs₀ (F := F)) Variants.none c none) E
          (cc6__mlp_kernel i arg0 harg0 arg1 harg1 arg2 harg2 arg3 harg3 arg4 harg4 arg5 harg5) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of region 6 on core `c`: the arrays as the region finds them; after the body each input's buffer
    still at its block and the output's at `out6_5` of the five input blocks; the invariant is the untouched rest
    of the core's memory; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

/-- Each input's staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`: the invariant, what is owed, and each window's current staging buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it returns: the same, each buffer at what the body leaves there. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.H

end
-- ==== Proof.KI.Run.lean ====
/-
  The run of the idealized kernel program's @main, read as a chain of segments: ten stretches of host operations and
  the seven pipelined regions between them.  The contents of every unscoped buffer are followed through the chain as a
  fold `W0 … W17` from the launch memory: a host stretch applies its operations, a region leaves each of its output
  arrays at what its grid points wrote back (the fold of the blocks, `Dat.arrAt … N`) and every other buffer as it
  found it.  Each region's record says: entered with the unscoped buffers at the fold's contents before it, the region
  runs (its body obligation is the region's own module) and leaves them at the fold's contents after it.  The run's
  conclusion: every weakly fair execution terminates without a fault, the result buffer ends at `W17`'s value and every
  argument array ends as launched (no stretch writes an argument and no region has one as an output).
-/
import proofs.«105302_j51668456571568_2_alg».proof.Proof.KI.R0
import proofs.«105302_j51668456571568_2_alg».proof.Proof.KI.R1
import proofs.«105302_j51668456571568_2_alg».proof.Proof.KI.R2
import proofs.«105302_j51668456571568_2_alg».proof.Proof.KI.R3
import proofs.«105302_j51668456571568_2_alg».proof.Proof.KI.R4
import proofs.«105302_j51668456571568_2_alg».proof.Proof.KI.R5
import proofs.«105302_j51668456571568_2_alg».proof.Proof.KI.R6
import proofs.«105302_j51668456571568_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)

/-- After the host stretch `hostOps0_1`. -/
abbrev W2 : Dev nD → Valuation τ sig (Elt F) := fun c => StableHlo.after hostOps0_1 (W1 m ρ c)

/-- After the host stretch `hostOps0_2`. -/
abbrev W3 : Dev nD → Valuation τ sig (Elt F) := fun c => StableHlo.after hostOps0_2 (W2 m ρ c)

/-- The contents region 0 is entered with, read at the TensorCore's references. -/
abbrev T3 : (c : Dev nD) → (b : Ref sig .tc) → Buf (Elt F) ((c : Thread nD τ).loc b) := fun c b => W3 m ρ c b
/-- At region 0's exit: each of its arrays at what its grid points leave (an input as entered, an output the fold of the
    blocks written back), every other buffer as entered. -/
def W4 (c : Dev nD) : Valuation τ sig (Elt F) :=
  Pipeline.withArrays spec0 c (W3 m ρ c) fun w => (dat0 (T3 m ρ) c).arrAt w cfg0.N
theorem W4_arr (c : Dev nD) (w : Fin cfg0.W) :
    W4 m ρ c (Proc.devRef .tc (Pipeline.arrRef spec0 w)) = (dat0 (T3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev T4 : (c : Dev nD) → (b : Ref sig .tc) → Buf (Elt F) ((c : Thread nD τ).loc b) := fun c b => W4 m ρ c b
theorem hF0 (c : Dev nD) (w : Fin cfg0.W) : (dat0 (T3 m ρ) c).arrAt w cfg0.N = T4 m ρ c (Pipeline.arrRef spec0 w) :=
  (W4_arr m ρ c w).symm
theorem hrest0 (c : Dev nD) : ∀ b, b ∉ Finset.univ.image (Pipeline.arrRef spec0) → T4 m ρ c b = T3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)

/-- The contents region 1 is entered with, read at the TensorCore's references. -/
abbrev T5 : (c : Dev nD) → (b : Ref sig .tc) → Buf (Elt F) ((c : Thread nD τ).loc b) := fun c b => W5 m ρ c b
/-- At region 1's exit: each of its arrays at what its grid points leave (an input as entered, an output the fold of the
    blocks written back), every other buffer as entered. -/
def W6 (c : Dev nD) : Valuation τ sig (Elt F) :=
  Pipeline.withArrays spec1 c (W5 m ρ c) fun w => (dat1 (T5 m ρ) c).arrAt w cfg1.N
theorem W6_arr (c : Dev nD) (w : Fin cfg1.W) :
    W6 m ρ c (Proc.devRef .tc (Pipeline.arrRef spec1 w)) = (dat1 (T5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev T6 : (c : Dev nD) → (b : Ref sig .tc) → Buf (Elt F) ((c : Thread nD τ).loc b) := fun c b => W6 m ρ c b
theorem hF1 (c : Dev nD) (w : Fin cfg1.W) : (dat1 (T5 m ρ) c).arrAt w cfg1.N = T6 m ρ c (Pipeline.arrRef spec1 w) :=
  (W6_arr m ρ c w).symm
theorem hrest1 (c : Dev nD) : ∀ b, b ∉ Finset.univ.image (Pipeline.arrRef spec1) → T6 m ρ c b = T5 m ρ c b :=
  fun b hb => W6_of_ne m ρ c b fun w e => hb (Finset.mem_image.mpr ⟨w, Finset.mem_univ _, e⟩)

/-- After the host stretch `hostOps2`. -/
abbrev W7 : Dev nD → Valuation τ sig (Elt F) := fun c => StableHlo.after hostOps2 (W6 m ρ c)

/-- The contents region 2 is entered with, read at the TensorCore's references. -/
abbrev T7 : (c : Dev nD) → (b : Ref sig .tc) → Buf (Elt F) ((c : Thread nD τ).loc b) := fun c b => W7 m ρ c b
/-- At region 2's exit: each of its arrays at what its grid points leave (an input as entered, an output the fold of the
    blocks written back), every other buffer as entered. -/
def W8 (c : Dev nD) : Valuation τ sig (Elt F) :=
  Pipeline.withArrays spec2 c (W7 m ρ c) fun w => (dat2 (T7 m ρ) c).arrAt w cfg2.N
theorem W8_arr (c : Dev nD) (w : Fin cfg2.W) :
    W8 m ρ c (Proc.devRef .tc (Pipeline.arrRef spec2 w)) = (dat2 (T7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev T8 : (c : Dev nD) → (b : Ref sig .tc) → Buf (Elt F) ((c : Thread nD τ).loc b) := fun c b => W8 m ρ c b
theorem hF2 (c : Dev nD) (w : Fin cfg2.W) : (dat2 (T7 m ρ) c).arrAt w cfg2.N = T8 m ρ c (Pipeline.arrRef spec2 w) :=
  (W8_arr m ρ c w).symm
theorem hrest2 (c : Dev nD) : ∀ b, b ∉ Finset.univ.image (Pipeline.arrRef spec2) → T8 m ρ c b = T7 m ρ c b :=
  fun b hb => W8_of_ne m ρ c b fun w e => hb (Finset.mem_image.mpr ⟨w, Finset.mem_univ _, e⟩)

/-- After the host stretch `hostOps3`. -/
abbrev W9 : Dev nD → Valuation τ sig (Elt F) := fun c => StableHlo.after hostOps3 (W8 m ρ c)

/-- The contents region 3 is entered with, read at the TensorCore's references. -/
abbrev T9 : (c : Dev nD) → (b : Ref sig .tc) → Buf (Elt F) ((c : Thread nD τ).loc b) := fun c b => W9 m ρ c b
/-- At region 3's exit: each of its arrays at what its grid points leave (an input as entered, an output the fold of the
    blocks written back), every other buffer as entered. -/
def W10 (c : Dev nD) : Valuation τ sig (Elt F) :=
  Pipeline.withArrays spec3 c (W9 m ρ c) fun w => (dat3 (T9 m ρ) c).arrAt w cfg3.N
theorem W10_arr (c : Dev nD) (w : Fin cfg3.W) :
    W10 m ρ c (Proc.devRef .tc (Pipeline.arrRef spec3 w)) = (dat3 (T9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references. -/
abbrev T10 : (c : Dev nD) → (b : Ref sig .tc) → Buf (Elt F) ((c : Thread nD τ).loc b) := fun c b => W10 m ρ c b
theorem hF3 (c : Dev nD) (w : Fin cfg3.W) : (dat3 (T9 m ρ) c).arrAt w cfg3.N = T10 m ρ c (Pipeline.arrRef spec3 w) :=
  (W10_arr m ρ c w).symm
theorem hrest3 (c : Dev nD) : ∀ b, b ∉ Finset.univ.image (Pipeline.arrRef spec3) → T10 m ρ c b = T9 m ρ c b :=
  fun b hb => W10_of_ne m ρ c b fun w e => hb (Finset.mem_image.mpr ⟨w, Finset.mem_univ _, e⟩)

/-- After the host stretch `hostOps4`. -/
abbrev W11 : Dev nD → Valuation τ sig (Elt F) := fun c => StableHlo.after hostOps4 (W10 m ρ c)

/-- The contents region 4 is entered with, read at the TensorCore's references. -/
abbrev T11 : (c : Dev nD) → (b : Ref sig .tc) → Buf (Elt F) ((c : Thread nD τ).loc b) := fun c b => W11 m ρ c b
/-- At region 4's exit: each of its arrays at what its grid points leave (an input as entered, an output the fold of the
    blocks written back), every other buffer as entered. -/
def W12 (c : Dev nD) : Valuation τ sig (Elt F) :=
  Pipeline.withArrays spec4 c (W11 m ρ c) fun w => (dat4 (T11 m ρ) c).arrAt w cfg4.N
theorem W12_arr (c : Dev nD) (w : Fin cfg4.W) :
    W12 m ρ c (Proc.devRef .tc (Pipeline.arrRef spec4 w)) = (dat4 (T11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- The same read at the TensorCore's references. -/
abbrev T12 : (c : Dev nD) → (b : Ref sig .tc) → Buf (Elt F) ((c : Thread nD τ).loc b) := fun c b => W12 m ρ c b
theorem hF4 (c : Dev nD) (w : Fin cfg4.W) : (dat4 (T11 m ρ) c).arrAt w cfg4.N = T12 m ρ c (Pipeline.arrRef spec4 w) :=
  (W12_arr m ρ c w).symm
theorem hrest4 (c : Dev nD) : ∀ b, b ∉ Finset.univ.image (Pipeline.arrRef spec4) → T12 m ρ c b = T11 m ρ c b :=
  fun b hb => W12_of_ne m ρ c b fun w e => hb (Finset.mem_image.mpr ⟨w, Finset.mem_univ _, e⟩)

/-- After the host stretch `hostOps5`. -/
abbrev W13 : Dev nD → Valuation τ sig (Elt F) := fun c => StableHlo.after hostOps5 (W12 m ρ c)

/-- The contents region 5 is entered with, read at the TensorCore's references. -/
abbrev T13 : (c : Dev nD) → (b : Ref sig .tc) → Buf (Elt F) ((c : Thread nD τ).loc b) := fun c b => W13 m ρ c b
/-- At region 5's exit: each of its arrays at what its grid points leave (an input as entered, an output the fold of the
    blocks written back), every other buffer as entered. -/
def W14 (c : Dev nD) : Valuation τ sig (Elt F) :=
  Pipeline.withArrays spec5 c (W13 m ρ c) fun w => (dat5 (T13 m ρ) c).arrAt w cfg5.N
theorem W14_arr (c : Dev nD) (w : Fin cfg5.W) :
    W14 m ρ c (Proc.devRef .tc (Pipeline.arrRef spec5 w)) = (dat5 (T13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- The same read at the TensorCore's references. -/
abbrev T14 : (c : Dev nD) → (b : Ref sig .tc) → Buf (Elt F) ((c : Thread nD τ).loc b) := fun c b => W14 m ρ c b
theorem hF5 (c : Dev nD) (w : Fin cfg5.W) : (dat5 (T13 m ρ) c).arrAt w cfg5.N = T14 m ρ c (Pipeline.arrRef spec5 w) :=
  (W14_arr m ρ c w).symm
theorem hrest5 (c : Dev nD) : ∀ b, b ∉ Finset.univ.image (Pipeline.arrRef spec5) → T14 m ρ c b = T13 m ρ c b :=
  fun b hb => W14_of_ne m ρ c b fun w e => hb (Finset.mem_image.mpr ⟨w, Finset.mem_univ _, e⟩)

/-- After the host stretch `hostOps6`. -/
abbrev W15 : Dev nD → Valuation τ sig (Elt F) := fun c => StableHlo.after hostOps6 (W14 m ρ c)

/-- The contents region 6 is entered with, read at the TensorCore's references. -/
abbrev T15 : (c : Dev nD) → (b : Ref sig .tc) → Buf (Elt F) ((c : Thread nD τ).loc b) := fun c b => W15 m ρ c b
/-- At region 6's exit: each of its arrays at what its grid points leave (an input as entered, an output the fold of the
    blocks written back), every other buffer as entered. -/
def W16 (c : Dev nD) : Valuation τ sig (Elt F) :=
  Pipeline.withArrays spec6 c (W15 m ρ c) fun w => (dat6 (T15 m ρ) c).arrAt w cfg6.N
theorem W16_arr (c : Dev nD) (w : Fin cfg6.W) :
    W16 m ρ c (Proc.devRef .tc (Pipeline.arrRef spec6 w)) = (dat6 (T15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
/-- The same read at the TensorCore's references. -/
abbrev T16 : (c : Dev nD) → (b : Ref sig .tc) → Buf (Elt F) ((c : Thread nD τ).loc b) := fun c b => W16 m ρ c b
theorem hF6 (c : Dev nD) (w : Fin cfg6.W) : (dat6 (T15 m ρ) c).arrAt w cfg6.N = T16 m ρ c (Pipeline.arrRef spec6 w) :=
  (W16_arr m ρ c w).symm
theorem hrest6 (c : Dev nD) : ∀ b, b ∉ Finset.univ.image (Pipeline.arrRef spec6) → T16 m ρ c b = T15 m ρ c b :=
  fun b hb => W16_of_ne m ρ c b fun w e => hb (Finset.mem_image.mpr ⟨w, Finset.mem_univ _, e⟩)

/-- After the host stretch `hostOps7`. -/
abbrev W17 : Dev nD → Valuation τ sig (Elt F) := fun c => StableHlo.after hostOps7 (W16 m ρ c)

/-- Region 0 changes none of the buffers but its output arrays: an input window's array is left as entered, a buffer that is
    no window's array is not touched. -/
theorem W4_keep (c : Dev nD) (b : Ref sig .tc) (h : b ∉ ([main_v27] : List (Ref sig .tc))) :
    W4 m ρ c (Proc.devRef .tc b) = W3 m ρ c (Proc.devRef .tc b) := by
  by_cases hw : ∃ w, Pipeline.arrRef spec0 w = b
  · obtain ⟨w, rfl⟩ := hw
    revert h
    exact match w with
    | ⟨0, _⟩ => fun _ => (W4_arr m ρ c 0).trans (((dat0 (T3 m ρ) c).arrAt_in 0 rfl _).trans (A_eq0 (T3 m ρ) c 0))
    | ⟨1, _⟩ => fun _ => (W4_arr m ρ c 1).trans (((dat0 (T3 m ρ) c).arrAt_in 1 rfl _).trans (A_eq0 (T3 m ρ) c 1))
    | ⟨2, _⟩ => fun _ => (W4_arr m ρ c 2).trans (((dat0 (T3 m ρ) c).arrAt_in 2 rfl _).trans (A_eq0 (T3 m ρ) c 2))
    | ⟨3, _⟩ => fun h => absurd (by decide +revert) h
    | ⟨_ + 4, hlt⟩ => absurd hlt (Nat.not_lt.2 (Nat.le_add_left _ _))
  · exact W4_of_ne m ρ c b fun w e => hw ⟨w, e⟩

/-- Region 1 changes none of the buffers but its output arrays: an input window's array is left as entered, a buffer that is
    no window's array is not touched. -/
theorem W6_keep (c : Dev nD) (b : Ref sig .tc) (h : b ∉ ([main_v40_0, main_v40_1] : List (Ref sig .tc))) :
    W6 m ρ c (Proc.devRef .tc b) = W5 m ρ c (Proc.devRef .tc b) := by
  by_cases hw : ∃ w, Pipeline.arrRef spec1 w = b
  · obtain ⟨w, rfl⟩ := hw
    revert h
    exact match w with
    | ⟨0, _⟩ => fun _ => (W6_arr m ρ c 0).trans (((dat1 (T5 m ρ) c).arrAt_in 0 rfl _).trans (A_eq1 (T5 m ρ) c 0))
    | ⟨1, _⟩ => fun _ => (W6_arr m ρ c 1).trans (((dat1 (T5 m ρ) c).arrAt_in 1 rfl _).trans (A_eq1 (T5 m ρ) c 1))
    | ⟨2, _⟩ => fun _ => (W6_arr m ρ c 2).trans (((dat1 (T5 m ρ) c).arrAt_in 2 rfl _).trans (A_eq1 (T5 m ρ) c 2))
    | ⟨3, _⟩ => fun _ => (W6_arr m ρ c 3).trans (((dat1 (T5 m ρ) c).arrAt_in 3 rfl _).trans (A_eq1 (T5 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W6_of_ne m ρ c b fun w e => hw ⟨w, e⟩

/-- Region 2 changes none of the buffers but its output arrays: an input window's array is left as entered, a buffer that is
    no window's array is not touched. -/
theorem W8_keep (c : Dev nD) (b : Ref sig .tc) (h : b ∉ ([main_v53_0, main_v53_1] : List (Ref sig .tc))) :
    W8 m ρ c (Proc.devRef .tc b) = W7 m ρ c (Proc.devRef .tc b) := by
  by_cases hw : ∃ w, Pipeline.arrRef spec2 w = b
  · obtain ⟨w, rfl⟩ := hw
    revert h
    exact match w with
    | ⟨0, _⟩ => fun _ => (W8_arr m ρ c 0).trans (((dat2 (T7 m ρ) c).arrAt_in 0 rfl _).trans (A_eq2 (T7 m ρ) c 0))
    | ⟨1, _⟩ => fun _ => (W8_arr m ρ c 1).trans (((dat2 (T7 m ρ) c).arrAt_in 1 rfl _).trans (A_eq2 (T7 m ρ) c 1))
    | ⟨2, _⟩ => fun _ => (W8_arr m ρ c 2).trans (((dat2 (T7 m ρ) c).arrAt_in 2 rfl _).trans (A_eq2 (T7 m ρ) c 2))
    | ⟨3, _⟩ => fun _ => (W8_arr m ρ c 3).trans (((dat2 (T7 m ρ) c).arrAt_in 3 rfl _).trans (A_eq2 (T7 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W8_of_ne m ρ c b fun w e => hw ⟨w, e⟩

/-- Region 3 changes none of the buffers but its output arrays: an input window's array is left as entered, a buffer that is
    no window's array is not touched. -/
theorem W10_keep (c : Dev nD) (b : Ref sig .tc) (h : b ∉ ([main_v66_0, main_v66_1] : List (Ref sig .tc))) :
    W10 m ρ c (Proc.devRef .tc b) = W9 m ρ c (Proc.devRef .tc b) := by
  by_cases hw : ∃ w, Pipeline.arrRef spec3 w = b
  · obtain ⟨w, rfl⟩ := hw
    revert h
    exact match w with
    | ⟨0, _⟩ => fun _ => (W10_arr m ρ c 0).trans (((dat3 (T9 m ρ) c).arrAt_in 0 rfl _).trans (A_eq3 (T9 m ρ) c 0))
    | ⟨1, _⟩ => fun _ => (W10_arr m ρ c 1).trans (((dat3 (T9 m ρ) c).arrAt_in 1 rfl _).trans (A_eq3 (T9 m ρ) c 1))
    | ⟨2, _⟩ => fun _ => (W10_arr m ρ c 2).trans (((dat3 (T9 m ρ) c).arrAt_in 2 rfl _).trans (A_eq3 (T9 m ρ) c 2))
    | ⟨3, _⟩ => fun _ => (W10_arr m ρ c 3).trans (((dat3 (T9 m ρ) c).arrAt_in 3 rfl _).trans (A_eq3 (T9 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W10_of_ne m ρ c b fun w e => hw ⟨w, e⟩

/-- Region 4 changes none of the buffers but its output arrays: an input window's array is left as entered, a buffer that is
    no window's array is not touched. -/
theorem W12_keep (c : Dev nD) (b : Ref sig .tc) (h : b ∉ ([main_v79_0, main_v79_1] : List (Ref sig .tc))) :
    W12 m ρ c (Proc.devRef .tc b) = W11 m ρ c (Proc.devRef .tc b) := by
  by_cases hw : ∃ w, Pipeline.arrRef spec4 w = b
  · obtain ⟨w, rfl⟩ := hw
    revert h
    exact match w with
    | ⟨0, _⟩ => fun _ => (W12_arr m ρ c 0).trans (((dat4 (T11 m ρ) c).arrAt_in 0 rfl _).trans (A_eq4 (T11 m ρ) c 0))
    | ⟨1, _⟩ => fun _ => (W12_arr m ρ c 1).trans (((dat4 (T11 m ρ) c).arrAt_in 1 rfl _).trans (A_eq4 (T11 m ρ) c 1))
    | ⟨2, _⟩ => fun _ => (W12_arr m ρ c 2).trans (((dat4 (T11 m ρ) c).arrAt_in 2 rfl _).trans (A_eq4 (T11 m ρ) c 2))
    | ⟨3, _⟩ => fun _ => (W12_arr m ρ c 3).trans (((dat4 (T11 m ρ) c).arrAt_in 3 rfl _).trans (A_eq4 (T11 m ρ) c 3))
    | ⟨4, _⟩ => fun h => absurd (by decide +revert) h
    | ⟨5, _⟩ => fun h => absurd (by decide +revert) h
    | ⟨_ + 6, hlt⟩ => absurd hlt (Nat.not_lt.2 (Nat.le_add_left _ _))
  · exact W12_of_ne m ρ c b fun w e => hw ⟨w, e⟩

/-- Region 5 changes none of the buffers but its output arrays: an input window's array is left as entered, a buffer that is
    no window's array is not touched. -/
theorem W14_keep (c : Dev nD) (b : Ref sig .tc) (h : b ∉ ([main_v92] : List (Ref sig .tc))) :
    W14 m ρ c (Proc.devRef .tc b) = W13 m ρ c (Proc.devRef .tc b) := by
  by_cases hw : ∃ w, Pipeline.arrRef spec5 w = b
  · obtain ⟨w, rfl⟩ := hw
    revert h
    exact match w with
    | ⟨0, _⟩ => fun _ => (W14_arr m ρ c 0).trans (((dat5 (T13 m ρ) c).arrAt_in 0 rfl _).trans (A_eq5 (T13 m ρ) c 0))
    | ⟨1, _⟩ => fun _ => (W14_arr m ρ c 1).trans (((dat5 (T13 m ρ) c).arrAt_in 1 rfl _).trans (A_eq5 (T13 m ρ) c 1))
    | ⟨2, _⟩ => fun _ => (W14_arr m ρ c 2).trans (((dat5 (T13 m ρ) c).arrAt_in 2 rfl _).trans (A_eq5 (T13 m ρ) c 2))
    | ⟨3, _⟩ => fun h => absurd (by decide +revert) h
    | ⟨_ + 4, hlt⟩ => absurd hlt (Nat.not_lt.2 (Nat.le_add_left _ _))
  · exact W14_of_ne m ρ c b fun w e => hw ⟨w, e⟩

/-- Region 6 changes none of the buffers but its output arrays: an input window's array is left as entered, a buffer that is
    no window's array is not touched. -/
theorem W16_keep (c : Dev nD) (b : Ref sig .tc) (h : b ∉ ([main_v121] : List (Ref sig .tc))) :
    W16 m ρ c (Proc.devRef .tc b) = W15 m ρ c (Proc.devRef .tc b) := by
  by_cases hw : ∃ w, Pipeline.arrRef spec6 w = b
  · obtain ⟨w, rfl⟩ := hw
    revert h
    exact match w with
    | ⟨0, _⟩ => fun _ => (W16_arr m ρ c 0).trans (((dat6 (T15 m ρ) c).arrAt_in 0 rfl _).trans (A_eq6 (T15 m ρ) c 0))
    | ⟨1, _⟩ => fun _ => (W16_arr m ρ c 1).trans (((dat6 (T15 m ρ) c).arrAt_in 1 rfl _).trans (A_eq6 (T15 m ρ) c 1))
    | ⟨2, _⟩ => fun _ => (W16_arr m ρ c 2).trans (((dat6 (T15 m ρ) c).arrAt_in 2 rfl _).trans (A_eq6 (T15 m ρ) c 2))
    | ⟨3, _⟩ => fun _ => (W16_arr m ρ c 3).trans (((dat6 (T15 m ρ) c).arrAt_in 3 rfl _).trans (A_eq6 (T15 m ρ) c 3))
    | ⟨4, _⟩ => fun _ => (W16_arr m ρ c 4).trans (((dat6 (T15 m ρ) c).arrAt_in 4 rfl _).trans (A_eq6 (T15 m ρ) c 4))
    | ⟨5, _⟩ => fun h => absurd (by decide +revert) h
    | ⟨_ + 6, hlt⟩ => absurd hlt (Nat.not_lt.2 (Nat.le_add_left _ _))
  · exact W16_of_ne m ρ c b fun w e => hw ⟨w, e⟩

/-! ## The arguments end as launched

No host stretch writes an argument array, and a region either does not touch it or reads it through an input window (whose
array the region leaves as entered): the fold at an argument's buffer walks back to the launch memory. -/

theorem W17_main_arg0 (c : Dev nD) : W17 m ρ c (Proc.devRef .tc main_arg0) = m ((c : Thread nD τ).loc main_arg0) :=
  calc W17 m ρ c (Proc.devRef .tc main_arg0)
    _ = W16 m ρ c (Proc.devRef .tc main_arg0) := StableHlo.after_of_writes_sub hostOps7 _ hostOps7_writes (by decide : main_arg0 ∉ hostOps7_W)
    _ = W15 m ρ c (Proc.devRef .tc main_arg0) := W16_of_ne m ρ c main_arg0 (by decide)
    _ = W14 m ρ c (Proc.devRef .tc main_arg0) := StableHlo.after_of_writes_sub hostOps6 _ hostOps6_writes (by decide : main_arg0 ∉ hostOps6_W)
    _ = W13 m ρ c (Proc.devRef .tc main_arg0) := W14_of_ne m ρ c main_arg0 (by decide)
    _ = W12 m ρ c (Proc.devRef .tc main_arg0) := StableHlo.after_of_writes_sub hostOps5 _ hostOps5_writes (by decide : main_arg0 ∉ hostOps5_W)
    _ = W11 m ρ c (Proc.devRef .tc main_arg0) := W12_of_ne m ρ c main_arg0 (by decide)
    _ = W10 m ρ c (Proc.devRef .tc main_arg0) := StableHlo.after_of_writes_sub hostOps4 _ hostOps4_writes (by decide : main_arg0 ∉ hostOps4_W)
    _ = W9 m ρ c (Proc.devRef .tc main_arg0) := W10_of_ne m ρ c main_arg0 (by decide)
    _ = W8 m ρ c (Proc.devRef .tc main_arg0) := StableHlo.after_of_writes_sub hostOps3 _ hostOps3_writes (by decide : main_arg0 ∉ hostOps3_W)
    _ = W7 m ρ c (Proc.devRef .tc main_arg0) := W8_of_ne m ρ c main_arg0 (by decide)
    _ = W6 m ρ c (Proc.devRef .tc main_arg0) := StableHlo.after_of_writes_sub hostOps2 _ hostOps2_writes (by decide : main_arg0 ∉ hostOps2_W)
    _ = W5 m ρ c (Proc.devRef .tc main_arg0) := W6_of_ne m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := (W4_arr m ρ c 0).trans (((dat0 (T3 m ρ) c).arrAt_in 0 rfl _).trans (A_eq0 (T3 m ρ) c 0))
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W17_main_arg1 (c : Dev nD) : W17 m ρ c (Proc.devRef .tc main_arg1) = m ((c : Thread nD τ).loc main_arg1) :=
  calc W17 m ρ c (Proc.devRef .tc main_arg1)
    _ = W16 m ρ c (Proc.devRef .tc main_arg1) := StableHlo.after_of_writes_sub hostOps7 _ hostOps7_writes (by decide : main_arg1 ∉ hostOps7_W)
    _ = W15 m ρ c (Proc.devRef .tc main_arg1) := W16_of_ne m ρ c main_arg1 (by decide)
    _ = W14 m ρ c (Proc.devRef .tc main_arg1) := StableHlo.after_of_writes_sub hostOps6 _ hostOps6_writes (by decide : main_arg1 ∉ hostOps6_W)
    _ = W13 m ρ c (Proc.devRef .tc main_arg1) := W14_of_ne m ρ c main_arg1 (by decide)
    _ = W12 m ρ c (Proc.devRef .tc main_arg1) := StableHlo.after_of_writes_sub hostOps5 _ hostOps5_writes (by decide : main_arg1 ∉ hostOps5_W)
    _ = W11 m ρ c (Proc.devRef .tc main_arg1) := W12_of_ne m ρ c main_arg1 (by decide)
    _ = W10 m ρ c (Proc.devRef .tc main_arg1) := StableHlo.after_of_writes_sub hostOps4 _ hostOps4_writes (by decide : main_arg1 ∉ hostOps4_W)
    _ = W9 m ρ c (Proc.devRef .tc main_arg1) := W10_of_ne m ρ c main_arg1 (by decide)
    _ = W8 m ρ c (Proc.devRef .tc main_arg1) := StableHlo.after_of_writes_sub hostOps3 _ hostOps3_writes (by decide : main_arg1 ∉ hostOps3_W)
    _ = W7 m ρ c (Proc.devRef .tc main_arg1) := W8_of_ne m ρ c main_arg1 (by decide)
    _ = W6 m ρ c (Proc.devRef .tc main_arg1) := StableHlo.after_of_writes_sub hostOps2 _ hostOps2_writes (by decide : main_arg1 ∉ hostOps2_W)
    _ = W5 m ρ c (Proc.devRef .tc main_arg1) := W6_of_ne m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W17_main_arg2 (c : Dev nD) : W17 m ρ c (Proc.devRef .tc main_arg2) = m ((c : Thread nD τ).loc main_arg2) :=
  calc W17 m ρ c (Proc.devRef .tc main_arg2)
    _ = W16 m ρ c (Proc.devRef .tc main_arg2) := StableHlo.after_of_writes_sub hostOps7 _ hostOps7_writes (by decide : main_arg2 ∉ hostOps7_W)
    _ = W15 m ρ c (Proc.devRef .tc main_arg2) := W16_of_ne m ρ c main_arg2 (by decide)
    _ = W14 m ρ c (Proc.devRef .tc main_arg2) := StableHlo.after_of_writes_sub hostOps6 _ hostOps6_writes (by decide : main_arg2 ∉ hostOps6_W)
    _ = W13 m ρ c (Proc.devRef .tc main_arg2) := W14_of_ne m ρ c main_arg2 (by decide)
    _ = W12 m ρ c (Proc.devRef .tc main_arg2) := StableHlo.after_of_writes_sub hostOps5 _ hostOps5_writes (by decide : main_arg2 ∉ hostOps5_W)
    _ = W11 m ρ c (Proc.devRef .tc main_arg2) := W12_of_ne m ρ c main_arg2 (by decide)
    _ = W10 m ρ c (Proc.devRef .tc main_arg2) := StableHlo.after_of_writes_sub hostOps4 _ hostOps4_writes (by decide : main_arg2 ∉ hostOps4_W)
    _ = W9 m ρ c (Proc.devRef .tc main_arg2) := W10_of_ne m ρ c main_arg2 (by decide)
    _ = W8 m ρ c (Proc.devRef .tc main_arg2) := StableHlo.after_of_writes_sub hostOps3 _ hostOps3_writes (by decide : main_arg2 ∉ hostOps3_W)
    _ = W7 m ρ c (Proc.devRef .tc main_arg2) := W8_of_ne m ρ c main_arg2 (by decide)
    _ = W6 m ρ c (Proc.devRef .tc main_arg2) := StableHlo.after_of_writes_sub hostOps2 _ hostOps2_writes (by decide : main_arg2 ∉ hostOps2_W)
    _ = W5 m ρ c (Proc.devRef .tc main_arg2) := W6_of_ne m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W17_main_arg3 (c : Dev nD) : W17 m ρ c (Proc.devRef .tc main_arg3) = m ((c : Thread nD τ).loc main_arg3) :=
  calc W17 m ρ c (Proc.devRef .tc main_arg3)
    _ = W16 m ρ c (Proc.devRef .tc main_arg3) := StableHlo.after_of_writes_sub hostOps7 _ hostOps7_writes (by decide : main_arg3 ∉ hostOps7_W)
    _ = W15 m ρ c (Proc.devRef .tc main_arg3) := W16_of_ne m ρ c main_arg3 (by decide)
    _ = W14 m ρ c (Proc.devRef .tc main_arg3) := StableHlo.after_of_writes_sub hostOps6 _ hostOps6_writes (by decide : main_arg3 ∉ hostOps6_W)
    _ = W13 m ρ c (Proc.devRef .tc main_arg3) := W14_of_ne m ρ c main_arg3 (by decide)
    _ = W12 m ρ c (Proc.devRef .tc main_arg3) := StableHlo.after_of_writes_sub hostOps5 _ hostOps5_writes (by decide : main_arg3 ∉ hostOps5_W)
    _ = W11 m ρ c (Proc.devRef .tc main_arg3) := W12_of_ne m ρ c main_arg3 (by decide)
    _ = W10 m ρ c (Proc.devRef .tc main_arg3) := StableHlo.after_of_writes_sub hostOps4 _ hostOps4_writes (by decide : main_arg3 ∉ hostOps4_W)
    _ = W9 m ρ c (Proc.devRef .tc main_arg3) := W10_of_ne m ρ c main_arg3 (by decide)
    _ = W8 m ρ c (Proc.devRef .tc main_arg3) := StableHlo.after_of_writes_sub hostOps3 _ hostOps3_writes (by decide : main_arg3 ∉ hostOps3_W)
    _ = W7 m ρ c (Proc.devRef .tc main_arg3) := W8_of_ne m ρ c main_arg3 (by decide)
    _ = W6 m ρ c (Proc.devRef .tc main_arg3) := StableHlo.after_of_writes_sub hostOps2 _ hostOps2_writes (by decide : main_arg3 ∉ hostOps2_W)
    _ = W5 m ρ c (Proc.devRef .tc main_arg3) := W6_of_ne m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := (W4_arr m ρ c 1).trans (((dat0 (T3 m ρ) c).arrAt_in 1 rfl _).trans (A_eq0 (T3 m ρ) c 1))
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W17_main_arg4 (c : Dev nD) : W17 m ρ c (Proc.devRef .tc main_arg4) = m ((c : Thread nD τ).loc main_arg4) :=
  calc W17 m ρ c (Proc.devRef .tc main_arg4)
    _ = W16 m ρ c (Proc.devRef .tc main_arg4) := StableHlo.after_of_writes_sub hostOps7 _ hostOps7_writes (by decide : main_arg4 ∉ hostOps7_W)
    _ = W15 m ρ c (Proc.devRef .tc main_arg4) := W16_of_ne m ρ c main_arg4 (by decide)
    _ = W14 m ρ c (Proc.devRef .tc main_arg4) := StableHlo.after_of_writes_sub hostOps6 _ hostOps6_writes (by decide : main_arg4 ∉ hostOps6_W)
    _ = W13 m ρ c (Proc.devRef .tc main_arg4) := W14_of_ne m ρ c main_arg4 (by decide)
    _ = W12 m ρ c (Proc.devRef .tc main_arg4) := StableHlo.after_of_writes_sub hostOps5 _ hostOps5_writes (by decide : main_arg4 ∉ hostOps5_W)
    _ = W11 m ρ c (Proc.devRef .tc main_arg4) := W12_of_ne m ρ c main_arg4 (by decide)
    _ = W10 m ρ c (Proc.devRef .tc main_arg4) := StableHlo.after_of_writes_sub hostOps4 _ hostOps4_writes (by decide : main_arg4 ∉ hostOps4_W)
    _ = W9 m ρ c (Proc.devRef .tc main_arg4) := W10_of_ne m ρ c main_arg4 (by decide)
    _ = W8 m ρ c (Proc.devRef .tc main_arg4) := StableHlo.after_of_writes_sub hostOps3 _ hostOps3_writes (by decide : main_arg4 ∉ hostOps3_W)
    _ = W7 m ρ c (Proc.devRef .tc main_arg4) := W8_of_ne m ρ c main_arg4 (by decide)
    _ = W6 m ρ c (Proc.devRef .tc main_arg4) := StableHlo.after_of_writes_sub hostOps2 _ hostOps2_writes (by decide : main_arg4 ∉ hostOps2_W)
    _ = W5 m ρ c (Proc.devRef .tc main_arg4) := W6_of_ne m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W17_main_arg5 (c : Dev nD) : W17 m ρ c (Proc.devRef .tc main_arg5) = m ((c : Thread nD τ).loc main_arg5) :=
  calc W17 m ρ c (Proc.devRef .tc main_arg5)
    _ = W16 m ρ c (Proc.devRef .tc main_arg5) := StableHlo.after_of_writes_sub hostOps7 _ hostOps7_writes (by decide : main_arg5 ∉ hostOps7_W)
    _ = W15 m ρ c (Proc.devRef .tc main_arg5) := W16_of_ne m ρ c main_arg5 (by decide)
    _ = W14 m ρ c (Proc.devRef .tc main_arg5) := StableHlo.after_of_writes_sub hostOps6 _ hostOps6_writes (by decide : main_arg5 ∉ hostOps6_W)
    _ = W13 m ρ c (Proc.devRef .tc main_arg5) := W14_of_ne m ρ c main_arg5 (by decide)
    _ = W12 m ρ c (Proc.devRef .tc main_arg5) := StableHlo.after_of_writes_sub hostOps5 _ hostOps5_writes (by decide : main_arg5 ∉ hostOps5_W)
    _ = W11 m ρ c (Proc.devRef .tc main_arg5) := W12_of_ne m ρ c main_arg5 (by decide)
    _ = W10 m ρ c (Proc.devRef .tc main_arg5) := StableHlo.after_of_writes_sub hostOps4 _ hostOps4_writes (by decide : main_arg5 ∉ hostOps4_W)
    _ = W9 m ρ c (Proc.devRef .tc main_arg5) := W10_of_ne m ρ c main_arg5 (by decide)
    _ = W8 m ρ c (Proc.devRef .tc main_arg5) := StableHlo.after_of_writes_sub hostOps3 _ hostOps3_writes (by decide : main_arg5 ∉ hostOps3_W)
    _ = W7 m ρ c (Proc.devRef .tc main_arg5) := W8_of_ne m ρ c main_arg5 (by decide)
    _ = W6 m ρ c (Proc.devRef .tc main_arg5) := StableHlo.after_of_writes_sub hostOps2 _ hostOps2_writes (by decide : main_arg5 ∉ hostOps2_W)
    _ = W5 m ρ c (Proc.devRef .tc main_arg5) := (W6_arr m ρ c 3).trans (((dat1 (T5 m ρ) c).arrAt_in 3 rfl _).trans (A_eq1 (T5 m ρ) c 3))
    _ = W4 m ρ c (Proc.devRef .tc main_arg5) := StableHlo.after_of_writes_sub hostOps1 _ hostOps1_writes (by decide : main_arg5 ∉ hostOps1_W)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

theorem W17_main_arg6 (c : Dev nD) : W17 m ρ c (Proc.devRef .tc main_arg6) = m ((c : Thread nD τ).loc main_arg6) :=
  calc W17 m ρ c (Proc.devRef .tc main_arg6)
    _ = W16 m ρ c (Proc.devRef .tc main_arg6) := StableHlo.after_of_writes_sub hostOps7 _ hostOps7_writes (by decide : main_arg6 ∉ hostOps7_W)
    _ = W15 m ρ c (Proc.devRef .tc main_arg6) := W16_of_ne m ρ c main_arg6 (by decide)
    _ = W14 m ρ c (Proc.devRef .tc main_arg6) := StableHlo.after_of_writes_sub hostOps6 _ hostOps6_writes (by decide : main_arg6 ∉ hostOps6_W)
    _ = W13 m ρ c (Proc.devRef .tc main_arg6) := W14_of_ne m ρ c main_arg6 (by decide)
    _ = W12 m ρ c (Proc.devRef .tc main_arg6) := StableHlo.after_of_writes_sub hostOps5 _ hostOps5_writes (by decide : main_arg6 ∉ hostOps5_W)
    _ = W11 m ρ c (Proc.devRef .tc main_arg6) := W12_of_ne m ρ c main_arg6 (by decide)
    _ = W10 m ρ c (Proc.devRef .tc main_arg6) := StableHlo.after_of_writes_sub hostOps4 _ hostOps4_writes (by decide : main_arg6 ∉ hostOps4_W)
    _ = W9 m ρ c (Proc.devRef .tc main_arg6) := W10_of_ne m ρ c main_arg6 (by decide)
    _ = W8 m ρ c (Proc.devRef .tc main_arg6) := StableHlo.after_of_writes_sub hostOps3 _ hostOps3_writes (by decide : main_arg6 ∉ hostOps3_W)
    _ = W7 m ρ c (Proc.devRef .tc main_arg6) := W8_of_ne m ρ c main_arg6 (by decide)
    _ = W6 m ρ c (Proc.devRef .tc main_arg6) := StableHlo.after_of_writes_sub hostOps2 _ hostOps2_writes (by decide : main_arg6 ∉ hostOps2_W)
    _ = W5 m ρ c (Proc.devRef .tc main_arg6) := W6_of_ne m ρ c main_arg6 (by decide)
    _ = W4 m ρ c (Proc.devRef .tc main_arg6) := StableHlo.after_of_writes_sub hostOps1 _ hostOps1_writes (by decide : main_arg6 ∉ hostOps1_W)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide : main_arg6 ∉ hostOps0_2_W)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

theorem W17_main_arg7 (c : Dev nD) : W17 m ρ c (Proc.devRef .tc main_arg7) = m ((c : Thread nD τ).loc main_arg7) :=
  calc W17 m ρ c (Proc.devRef .tc main_arg7)
    _ = W16 m ρ c (Proc.devRef .tc main_arg7) := StableHlo.after_of_writes_sub hostOps7 _ hostOps7_writes (by decide : main_arg7 ∉ hostOps7_W)
    _ = W15 m ρ c (Proc.devRef .tc main_arg7) := W16_of_ne m ρ c main_arg7 (by decide)
    _ = W14 m ρ c (Proc.devRef .tc main_arg7) := StableHlo.after_of_writes_sub hostOps6 _ hostOps6_writes (by decide : main_arg7 ∉ hostOps6_W)
    _ = W13 m ρ c (Proc.devRef .tc main_arg7) := W14_of_ne m ρ c main_arg7 (by decide)
    _ = W12 m ρ c (Proc.devRef .tc main_arg7) := StableHlo.after_of_writes_sub hostOps5 _ hostOps5_writes (by decide : main_arg7 ∉ hostOps5_W)
    _ = W11 m ρ c (Proc.devRef .tc main_arg7) := W12_of_ne m ρ c main_arg7 (by decide)
    _ = W10 m ρ c (Proc.devRef .tc main_arg7) := StableHlo.after_of_writes_sub hostOps4 _ hostOps4_writes (by decide : main_arg7 ∉ hostOps4_W)
    _ = W9 m ρ c (Proc.devRef .tc main_arg7) := W10_of_ne m ρ c main_arg7 (by decide)
    _ = W8 m ρ c (Proc.devRef .tc main_arg7) := StableHlo.after_of_writes_sub hostOps3 _ hostOps3_writes (by decide : main_arg7 ∉ hostOps3_W)
    _ = W7 m ρ c (Proc.devRef .tc main_arg7) := (W8_arr m ρ c 3).trans (((dat2 (T7 m ρ) c).arrAt_in 3 rfl _).trans (A_eq2 (T7 m ρ) c 3))
    _ = W6 m ρ c (Proc.devRef .tc main_arg7) := StableHlo.after_of_writes_sub hostOps2 _ hostOps2_writes (by decide : main_arg7 ∉ hostOps2_W)
    _ = W5 m ρ c (Proc.devRef .tc main_arg7) := W6_of_ne m ρ c main_arg7 (by decide)
    _ = W4 m ρ c (Proc.devRef .tc main_arg7) := StableHlo.after_of_writes_sub hostOps1 _ hostOps1_writes (by decide : main_arg7 ∉ hostOps1_W)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide : main_arg7 ∉ hostOps0_2_W)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

theorem W17_main_arg8 (c : Dev nD) : W17 m ρ c (Proc.devRef .tc main_arg8) = m ((c : Thread nD τ).loc main_arg8) :=
  calc W17 m ρ c (Proc.devRef .tc main_arg8)
    _ = W16 m ρ c (Proc.devRef .tc main_arg8) := StableHlo.after_of_writes_sub hostOps7 _ hostOps7_writes (by decide : main_arg8 ∉ hostOps7_W)
    _ = W15 m ρ c (Proc.devRef .tc main_arg8) := W16_of_ne m ρ c main_arg8 (by decide)
    _ = W14 m ρ c (Proc.devRef .tc main_arg8) := StableHlo.after_of_writes_sub hostOps6 _ hostOps6_writes (by decide : main_arg8 ∉ hostOps6_W)
    _ = W13 m ρ c (Proc.devRef .tc main_arg8) := W14_of_ne m ρ c main_arg8 (by decide)
    _ = W12 m ρ c (Proc.devRef .tc main_arg8) := StableHlo.after_of_writes_sub hostOps5 _ hostOps5_writes (by decide : main_arg8 ∉ hostOps5_W)
    _ = W11 m ρ c (Proc.devRef .tc main_arg8) := W12_of_ne m ρ c main_arg8 (by decide)
    _ = W10 m ρ c (Proc.devRef .tc main_arg8) := StableHlo.after_of_writes_sub hostOps4 _ hostOps4_writes (by decide : main_arg8 ∉ hostOps4_W)
    _ = W9 m ρ c (Proc.devRef .tc main_arg8) := W10_of_ne m ρ c main_arg8 (by decide)
    _ = W8 m ρ c (Proc.devRef .tc main_arg8) := StableHlo.after_of_writes_sub hostOps3 _ hostOps3_writes (by decide : main_arg8 ∉ hostOps3_W)
    _ = W7 m ρ c (Proc.devRef .tc main_arg8) := W8_of_ne m ρ c main_arg8 (by decide)
    _ = W6 m ρ c (Proc.devRef .tc main_arg8) := StableHlo.after_of_writes_sub hostOps2 _ hostOps2_writes (by decide : main_arg8 ∉ hostOps2_W)
    _ = W5 m ρ c (Proc.devRef .tc main_arg8) := W6_of_ne m ρ c main_arg8 (by decide)
    _ = W4 m ρ c (Proc.devRef .tc main_arg8) := StableHlo.after_of_writes_sub hostOps1 _ hostOps1_writes (by decide : main_arg8 ∉ hostOps1_W)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide : main_arg8 ∉ hostOps0_2_W)
    _ = W1 m ρ c (Proc.devRef .tc main_arg8) := StableHlo.after_of_writes_sub hostOps0_1 _ hostOps0_1_writes (by decide : main_arg8 ∉ hostOps0_1_W)
    _ = W0 m ρ c (Proc.devRef .tc main_arg8) := StableHlo.after_of_writes_sub hostOps0 _ hostOps0_writes (by decide : main_arg8 ∉ hostOps0_W)
    _ = m ((c : Thread nD τ).loc main_arg8) := rfl

theorem W17_main_arg9 (c : Dev nD) : W17 m ρ c (Proc.devRef .tc main_arg9) = m ((c : Thread nD τ).loc main_arg9) :=
  calc W17 m ρ c (Proc.devRef .tc main_arg9)
    _ = W16 m ρ c (Proc.devRef .tc main_arg9) := StableHlo.after_of_writes_sub hostOps7 _ hostOps7_writes (by decide : main_arg9 ∉ hostOps7_W)
    _ = W15 m ρ c (Proc.devRef .tc main_arg9) := W16_of_ne m ρ c main_arg9 (by decide)
    _ = W14 m ρ c (Proc.devRef .tc main_arg9) := StableHlo.after_of_writes_sub hostOps6 _ hostOps6_writes (by decide : main_arg9 ∉ hostOps6_W)
    _ = W13 m ρ c (Proc.devRef .tc main_arg9) := W14_of_ne m ρ c main_arg9 (by decide)
    _ = W12 m ρ c (Proc.devRef .tc main_arg9) := StableHlo.after_of_writes_sub hostOps5 _ hostOps5_writes (by decide : main_arg9 ∉ hostOps5_W)
    _ = W11 m ρ c (Proc.devRef .tc main_arg9) := (W12_arr m ρ c 3).trans (((dat4 (T11 m ρ) c).arrAt_in 3 rfl _).trans (A_eq4 (T11 m ρ) c 3))
    _ = W10 m ρ c (Proc.devRef .tc main_arg9) := StableHlo.after_of_writes_sub hostOps4 _ hostOps4_writes (by decide : main_arg9 ∉ hostOps4_W)
    _ = W9 m ρ c (Proc.devRef .tc main_arg9) := (W10_arr m ρ c 3).trans (((dat3 (T9 m ρ) c).arrAt_in 3 rfl _).trans (A_eq3 (T9 m ρ) c 3))
    _ = W8 m ρ c (Proc.devRef .tc main_arg9) := StableHlo.after_of_writes_sub hostOps3 _ hostOps3_writes (by decide : main_arg9 ∉ hostOps3_W)
    _ = W7 m ρ c (Proc.devRef .tc main_arg9) := W8_of_ne m ρ c main_arg9 (by decide)
    _ = W6 m ρ c (Proc.devRef .tc main_arg9) := StableHlo.after_of_writes_sub hostOps2 _ hostOps2_writes (by decide : main_arg9 ∉ hostOps2_W)
    _ = W5 m ρ c (Proc.devRef .tc main_arg9) := W6_of_ne m ρ c main_arg9 (by decide)
    _ = W4 m ρ c (Proc.devRef .tc main_arg9) := StableHlo.after_of_writes_sub hostOps1 _ hostOps1_writes (by decide : main_arg9 ∉ hostOps1_W)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide : main_arg9 ∉ hostOps0_2_W)
    _ = W1 m ρ c (Proc.devRef .tc main_arg9) := StableHlo.after_of_writes_sub hostOps0_1 _ hostOps0_1_writes (by decide : main_arg9 ∉ hostOps0_1_W)
    _ = W0 m ρ c (Proc.devRef .tc main_arg9) := StableHlo.after_of_writes_sub hostOps0 _ hostOps0_writes (by decide : main_arg9 ∉ hostOps0_W)
    _ = m ((c : Thread nD τ).loc main_arg9) := rfl

theorem W17_main_arg10 (c : Dev nD) : W17 m ρ c (Proc.devRef .tc main_arg10) = m ((c : Thread nD τ).loc main_arg10) :=
  calc W17 m ρ c (Proc.devRef .tc main_arg10)
    _ = W16 m ρ c (Proc.devRef .tc main_arg10) := StableHlo.after_of_writes_sub hostOps7 _ hostOps7_writes (by decide : main_arg10 ∉ hostOps7_W)
    _ = W15 m ρ c (Proc.devRef .tc main_arg10) := W16_of_ne m ρ c main_arg10 (by decide)
    _ = W14 m ρ c (Proc.devRef .tc main_arg10) := StableHlo.after_of_writes_sub hostOps6 _ hostOps6_writes (by decide : main_arg10 ∉ hostOps6_W)
    _ = W13 m ρ c (Proc.devRef .tc main_arg10) := W14_of_ne m ρ c main_arg10 (by decide)
    _ = W12 m ρ c (Proc.devRef .tc main_arg10) := StableHlo.after_of_writes_sub hostOps5 _ hostOps5_writes (by decide : main_arg10 ∉ hostOps5_W)
    _ = W11 m ρ c (Proc.devRef .tc main_arg10) := W12_of_ne m ρ c main_arg10 (by decide)
    _ = W10 m ρ c (Proc.devRef .tc main_arg10) := StableHlo.after_of_writes_sub hostOps4 _ hostOps4_writes (by decide : main_arg10 ∉ hostOps4_W)
    _ = W9 m ρ c (Proc.devRef .tc main_arg10) := W10_of_ne m ρ c main_arg10 (by decide)
    _ = W8 m ρ c (Proc.devRef .tc main_arg10) := StableHlo.after_of_writes_sub hostOps3 _ hostOps3_writes (by decide : main_arg10 ∉ hostOps3_W)
    _ = W7 m ρ c (Proc.devRef .tc main_arg10) := W8_of_ne m ρ c main_arg10 (by decide)
    _ = W6 m ρ c (Proc.devRef .tc main_arg10) := StableHlo.after_of_writes_sub hostOps2 _ hostOps2_writes (by decide : main_arg10 ∉ hostOps2_W)
    _ = W5 m ρ c (Proc.devRef .tc main_arg10) := W6_of_ne m ρ c main_arg10 (by decide)
    _ = W4 m ρ c (Proc.devRef .tc main_arg10) := StableHlo.after_of_writes_sub hostOps1 _ hostOps1_writes (by decide : main_arg10 ∉ hostOps1_W)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide : main_arg10 ∉ hostOps0_2_W)
    _ = W1 m ρ c (Proc.devRef .tc main_arg10) := StableHlo.after_of_writes_sub hostOps0_1 _ hostOps0_1_writes (by decide : main_arg10 ∉ hostOps0_1_W)
    _ = W0 m ρ c (Proc.devRef .tc main_arg10) := StableHlo.after_of_writes_sub hostOps0 _ hostOps0_writes (by decide : main_arg10 ∉ hostOps0_W)
    _ = m ((c : Thread nD τ).loc main_arg10) := rfl

theorem W17_main_arg11 (c : Dev nD) : W17 m ρ c (Proc.devRef .tc main_arg11) = m ((c : Thread nD τ).loc main_arg11) :=
  calc W17 m ρ c (Proc.devRef .tc main_arg11)
    _ = W16 m ρ c (Proc.devRef .tc main_arg11) := StableHlo.after_of_writes_sub hostOps7 _ hostOps7_writes (by decide : main_arg11 ∉ hostOps7_W)
    _ = W15 m ρ c (Proc.devRef .tc main_arg11) := (W16_arr m ρ c 1).trans (((dat6 (T15 m ρ) c).arrAt_in 1 rfl _).trans (A_eq6 (T15 m ρ) c 1))
    _ = W14 m ρ c (Proc.devRef .tc main_arg11) := StableHlo.after_of_writes_sub hostOps6 _ hostOps6_writes (by decide : main_arg11 ∉ hostOps6_W)
    _ = W13 m ρ c (Proc.devRef .tc main_arg11) := W14_of_ne m ρ c main_arg11 (by decide)
    _ = W12 m ρ c (Proc.devRef .tc main_arg11) := StableHlo.after_of_writes_sub hostOps5 _ hostOps5_writes (by decide : main_arg11 ∉ hostOps5_W)
    _ = W11 m ρ c (Proc.devRef .tc main_arg11) := W12_of_ne m ρ c main_arg11 (by decide)
    _ = W10 m ρ c (Proc.devRef .tc main_arg11) := StableHlo.after_of_writes_sub hostOps4 _ hostOps4_writes (by decide : main_arg11 ∉ hostOps4_W)
    _ = W9 m ρ c (Proc.devRef .tc main_arg11) := W10_of_ne m ρ c main_arg11 (by decide)
    _ = W8 m ρ c (Proc.devRef .tc main_arg11) := StableHlo.after_of_writes_sub hostOps3 _ hostOps3_writes (by decide : main_arg11 ∉ hostOps3_W)
    _ = W7 m ρ c (Proc.devRef .tc main_arg11) := W8_of_ne m ρ c main_arg11 (by decide)
    _ = W6 m ρ c (Proc.devRef .tc main_arg11) := StableHlo.after_of_writes_sub hostOps2 _ hostOps2_writes (by decide : main_arg11 ∉ hostOps2_W)
    _ = W5 m ρ c (Proc.devRef .tc main_arg11) := W6_of_ne m ρ c main_arg11 (by decide)
    _ = W4 m ρ c (Proc.devRef .tc main_arg11) := StableHlo.after_of_writes_sub hostOps1 _ hostOps1_writes (by decide : main_arg11 ∉ hostOps1_W)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide : main_arg11 ∉ hostOps0_2_W)
    _ = W1 m ρ c (Proc.devRef .tc main_arg11) := StableHlo.after_of_writes_sub hostOps0_1 _ hostOps0_1_writes (by decide : main_arg11 ∉ hostOps0_1_W)
    _ = W0 m ρ c (Proc.devRef .tc main_arg11) := StableHlo.after_of_writes_sub hostOps0 _ hostOps0_writes (by decide : main_arg11 ∉ hostOps0_W)
    _ = m ((c : Thread nD τ).loc main_arg11) := rfl

theorem W17_main_arg12 (c : Dev nD) : W17 m ρ c (Proc.devRef .tc main_arg12) = m ((c : Thread nD τ).loc main_arg12) :=
  calc W17 m ρ c (Proc.devRef .tc main_arg12)
    _ = W16 m ρ c (Proc.devRef .tc main_arg12) := StableHlo.after_of_writes_sub hostOps7 _ hostOps7_writes (by decide : main_arg12 ∉ hostOps7_W)
    _ = W15 m ρ c (Proc.devRef .tc main_arg12) := W16_of_ne m ρ c main_arg12 (by decide)
    _ = W14 m ρ c (Proc.devRef .tc main_arg12) := StableHlo.after_of_writes_sub hostOps6 _ hostOps6_writes (by decide : main_arg12 ∉ hostOps6_W)
    _ = W13 m ρ c (Proc.devRef .tc main_arg12) := W14_of_ne m ρ c main_arg12 (by decide)
    _ = W12 m ρ c (Proc.devRef .tc main_arg12) := StableHlo.after_of_writes_sub hostOps5 _ hostOps5_writes (by decide : main_arg12 ∉ hostOps5_W)
    _ = W11 m ρ c (Proc.devRef .tc main_arg12) := W12_of_ne m ρ c main_arg12 (by decide)
    _ = W10 m ρ c (Proc.devRef .tc main_arg12) := StableHlo.after_of_writes_sub hostOps4 _ hostOps4_writes (by decide : main_arg12 ∉ hostOps4_W)
    _ = W9 m ρ c (Proc.devRef .tc main_arg12) := W10_of_ne m ρ c main_arg12 (by decide)
    _ = W8 m ρ c (Proc.devRef .tc main_arg12) := StableHlo.after_of_writes_sub hostOps3 _ hostOps3_writes (by decide : main_arg12 ∉ hostOps3_W)
    _ = W7 m ρ c (Proc.devRef .tc main_arg12) := W8_of_ne m ρ c main_arg12 (by decide)
    _ = W6 m ρ c (Proc.devRef .tc main_arg12) := StableHlo.after_of_writes_sub hostOps2 _ hostOps2_writes (by decide : main_arg12 ∉ hostOps2_W)
    _ = W5 m ρ c (Proc.devRef .tc main_arg12) := W6_of_ne m ρ c main_arg12 (by decide)
    _ = W4 m ρ c (Proc.devRef .tc main_arg12) := StableHlo.after_of_writes_sub hostOps1 _ hostOps1_writes (by decide : main_arg12 ∉ hostOps1_W)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide : main_arg12 ∉ hostOps0_2_W)
    _ = W1 m ρ c (Proc.devRef .tc main_arg12) := StableHlo.after_of_writes_sub hostOps0_1 _ hostOps0_1_writes (by decide : main_arg12 ∉ hostOps0_1_W)
    _ = W0 m ρ c (Proc.devRef .tc main_arg12) := StableHlo.after_of_writes_sub hostOps0 _ hostOps0_writes (by decide : main_arg12 ∉ hostOps0_W)
    _ = m ((c : Thread nD τ).loc main_arg12) := rfl

theorem W17_main_arg13 (c : Dev nD) : W17 m ρ c (Proc.devRef .tc main_arg13) = m ((c : Thread nD τ).loc main_arg13) :=
  calc W17 m ρ c (Proc.devRef .tc main_arg13)
    _ = W16 m ρ c (Proc.devRef .tc main_arg13) := StableHlo.after_of_writes_sub hostOps7 _ hostOps7_writes (by decide : main_arg13 ∉ hostOps7_W)
    _ = W15 m ρ c (Proc.devRef .tc main_arg13) := (W16_arr m ρ c 3).trans (((dat6 (T15 m ρ) c).arrAt_in 3 rfl _).trans (A_eq6 (T15 m ρ) c 3))
    _ = W14 m ρ c (Proc.devRef .tc main_arg13) := StableHlo.after_of_writes_sub hostOps6 _ hostOps6_writes (by decide : main_arg13 ∉ hostOps6_W)
    _ = W13 m ρ c (Proc.devRef .tc main_arg13) := W14_of_ne m ρ c main_arg13 (by decide)
    _ = W12 m ρ c (Proc.devRef .tc main_arg13) := StableHlo.after_of_writes_sub hostOps5 _ hostOps5_writes (by decide : main_arg13 ∉ hostOps5_W)
    _ = W11 m ρ c (Proc.devRef .tc main_arg13) := W12_of_ne m ρ c main_arg13 (by decide)
    _ = W10 m ρ c (Proc.devRef .tc main_arg13) := StableHlo.after_of_writes_sub hostOps4 _ hostOps4_writes (by decide : main_arg13 ∉ hostOps4_W)
    _ = W9 m ρ c (Proc.devRef .tc main_arg13) := W10_of_ne m ρ c main_arg13 (by decide)
    _ = W8 m ρ c (Proc.devRef .tc main_arg13) := StableHlo.after_of_writes_sub hostOps3 _ hostOps3_writes (by decide : main_arg13 ∉ hostOps3_W)
    _ = W7 m ρ c (Proc.devRef .tc main_arg13) := W8_of_ne m ρ c main_arg13 (by decide)
    _ = W6 m ρ c (Proc.devRef .tc main_arg13) := StableHlo.after_of_writes_sub hostOps2 _ hostOps2_writes (by decide : main_arg13 ∉ hostOps2_W)
    _ = W5 m ρ c (Proc.devRef .tc main_arg13) := W6_of_ne m ρ c main_arg13 (by decide)
    _ = W4 m ρ c (Proc.devRef .tc main_arg13) := StableHlo.after_of_writes_sub hostOps1 _ hostOps1_writes (by decide : main_arg13 ∉ hostOps1_W)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide : main_arg13 ∉ hostOps0_2_W)
    _ = W1 m ρ c (Proc.devRef .tc main_arg13) := StableHlo.after_of_writes_sub hostOps0_1 _ hostOps0_1_writes (by decide : main_arg13 ∉ hostOps0_1_W)
    _ = W0 m ρ c (Proc.devRef .tc main_arg13) := StableHlo.after_of_writes_sub hostOps0 _ hostOps0_writes (by decide : main_arg13 ∉ hostOps0_W)
    _ = m ((c : Thread nD τ).loc main_arg13) := rfl

theorem W17_main_arg14 (c : Dev nD) : W17 m ρ c (Proc.devRef .tc main_arg14) = m ((c : Thread nD τ).loc main_arg14) :=
  calc W17 m ρ c (Proc.devRef .tc main_arg14)
    _ = W16 m ρ c (Proc.devRef .tc main_arg14) := StableHlo.after_of_writes_sub hostOps7 _ hostOps7_writes (by decide : main_arg14 ∉ hostOps7_W)
    _ = W15 m ρ c (Proc.devRef .tc main_arg14) := W16_of_ne m ρ c main_arg14 (by decide)
    _ = W14 m ρ c (Proc.devRef .tc main_arg14) := StableHlo.after_of_writes_sub hostOps6 _ hostOps6_writes (by decide : main_arg14 ∉ hostOps6_W)
    _ = W13 m ρ c (Proc.devRef .tc main_arg14) := W14_of_ne m ρ c main_arg14 (by decide)
    _ = W12 m ρ c (Proc.devRef .tc main_arg14) := StableHlo.after_of_writes_sub hostOps5 _ hostOps5_writes (by decide : main_arg14 ∉ hostOps5_W)
    _ = W11 m ρ c (Proc.devRef .tc main_arg14) := W12_of_ne m ρ c main_arg14 (by decide)
    _ = W10 m ρ c (Proc.devRef .tc main_arg14) := StableHlo.after_of_writes_sub hostOps4 _ hostOps4_writes (by decide : main_arg14 ∉ hostOps4_W)
    _ = W9 m ρ c (Proc.devRef .tc main_arg14) := W10_of_ne m ρ c main_arg14 (by decide)
    _ = W8 m ρ c (Proc.devRef .tc main_arg14) := StableHlo.after_of_writes_sub hostOps3 _ hostOps3_writes (by decide : main_arg14 ∉ hostOps3_W)
    _ = W7 m ρ c (Proc.devRef .tc main_arg14) := W8_of_ne m ρ c main_arg14 (by decide)
    _ = W6 m ρ c (Proc.devRef .tc main_arg14) := StableHlo.after_of_writes_sub hostOps2 _ hostOps2_writes (by decide : main_arg14 ∉ hostOps2_W)
    _ = W5 m ρ c (Proc.devRef .tc main_arg14) := W6_of_ne m ρ c main_arg14 (by decide)
    _ = W4 m ρ c (Proc.devRef .tc main_arg14) := StableHlo.after_of_writes_sub hostOps1 _ hostOps1_writes (by decide : main_arg14 ∉ hostOps1_W)
    _ = W3 m ρ c (Proc.devRef .tc main_arg14) := W4_of_ne m ρ c main_arg14 (by decide)
    _ = W2 m ρ c (Proc.devRef .tc main_arg14) := StableHlo.after_of_writes_sub hostOps0_2 _ hostOps0_2_writes (by decide : main_arg14 ∉ hostOps0_2_W)
    _ = W1 m ρ c (Proc.devRef .tc main_arg14) := StableHlo.after_of_writes_sub hostOps0_1 _ hostOps0_1_writes (by decide : main_arg14 ∉ hostOps0_1_W)
    _ = W0 m ρ c (Proc.devRef .tc main_arg14) := StableHlo.after_of_writes_sub hostOps0 _ hostOps0_writes (by decide : main_arg14 ∉ hostOps0_W)
    _ = m ((c : Thread nD τ).loc main_arg14) := rfl

/-! ## The proof data family and what rides beside the buffers -/

/-- No pallas_call has a prefetched table. -/
abbrev kadm : (p : Fin 7) → (pcfgs (F := F) p).Adm := fun p => (cfgs p).toPCfg_adm
/-- Every region's proof data, each at the contents the region is entered with: a literal match on the region's number. -/
def kdats : (p : Fin 7) → (c : Dev nD) → Dat τ (Elt F) Unit ℕ (UR sig nD τ) ℕ (Pipeline.pin (pcfgs (F := F)) kadm p) c
  | ⟨0, _⟩ => fun c => dat0 (T3 m ρ) c
  | ⟨1, _⟩ => fun c => dat1 (T5 m ρ) c
  | ⟨2, _⟩ => fun c => dat2 (T7 m ρ) c
  | ⟨3, _⟩ => fun c => dat3 (T9 m ρ) c
  | ⟨4, _⟩ => fun c => dat4 (T11 m ρ) c
  | ⟨5, _⟩ => fun c => dat5 (T13 m ρ) c
  | ⟨6, _⟩ => fun c => dat6 (T15 m ρ) c
abbrev k𝒱 : Variants := Variants.none
/-- No core waits for another: no level is assigned. -/
abbrev kL : GSem nD τ sig → Finset Unit := fun _ => ∅
abbrev klv : GSem nD τ sig → Unit → ℕ := fun _ _ => 0
/-- What rides beside the buffers through every segment: the core's generator register at some state, and the core owing nothing. -/
abbrev Rest (c : Dev nD) : sProp 𝕄 := iprop((∃ r, prngReg c r) ∗ ∃ W, owes (c : Thread nD τ) (0 : CellTallies nD τ sig Unit) W)
/-- A stretch of host operations as a segment: from the unscoped buffers at `W` to the same buffers after the operations, `Rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱 kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments

Each region is entered with every unscoped buffer at the fold's contents before it and left with them at the contents
after it: its arrays are split out of the unscoped buffers on entry and put back on exit; the generator register passes
into the pipeline's invariant and out; the core owes nothing; the kernel has no semaphore of its own. -/

set_option backward.isDefEq.respectTransparency.types false in
/-- Region 0: entered at `W3`, left at `W4`. -/
def reg0 : Pipeline.RegionSeg (pcfgs (F := F)) kadm (kdats m ρ) () defs₀ k𝒱 kL klv 0 where
  win := launch0.win.to₀
  block_pos := launch0.block_pos
  stage_whole := launch0.stage_whole
  K := PEmpty
  osem k := k.elim
  ho := Pipeline.OwnSemFacts.none _
  hbody c := (body_obligation0 (T3 m ρ) c).loose
  hwaits := Pipeline.hwaits_of_owed_zero _ _ _ _ kL klv 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (T3 m ρ c)
  hentry c := by
    rw [Pipeline.ownSems0_none]
    have hsplit := Pipeline.arrays_of_unscopedBufs (p := 0) (pcfgs (F := F)) kadm (kdats m ρ) launch0.win launch0.arr_whole c
      ((kdats m ρ 0 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (kdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kdats m ρ) ((kdats m ρ 0 c).share_full fun _ => rfl)
      (T3 m ρ c) (T4 m ρ c) ((kdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W5`, left at `W6`. -/
def reg1 : Pipeline.RegionSeg (pcfgs (F := F)) kadm (kdats m ρ) () defs₀ k𝒱 kL klv 1 where
  win := launch1.win.to₀
  block_pos := launch1.block_pos
  stage_whole := launch1.stage_whole
  K := PEmpty
  osem k := k.elim
  ho := Pipeline.OwnSemFacts.none _
  hbody c := (body_obligation1 (T5 m ρ) c).loose
  hwaits := Pipeline.hwaits_of_owed_zero _ _ _ _ kL klv 1 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec1 c (T5 m ρ c)
  hentry c := by
    rw [Pipeline.ownSems0_none]
    have hsplit := Pipeline.arrays_of_unscopedBufs (p := 1) (pcfgs (F := F)) kadm (kdats m ρ) launch1.win launch1.arr_whole c
      ((kdats m ρ 1 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (kdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kdats m ρ) ((kdats m ρ 1 c).share_full fun _ => rfl)
      (T5 m ρ c) (T6 m ρ c) ((kdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W7`, left at `W8`. -/
def reg2 : Pipeline.RegionSeg (pcfgs (F := F)) kadm (kdats m ρ) () defs₀ k𝒱 kL klv 2 where
  win := launch2.win.to₀
  block_pos := launch2.block_pos
  stage_whole := launch2.stage_whole
  K := PEmpty
  osem k := k.elim
  ho := Pipeline.OwnSemFacts.none _
  hbody c := (body_obligation2 (T7 m ρ) c).loose
  hwaits := Pipeline.hwaits_of_owed_zero _ _ _ _ kL klv 2 fun _ _ => rfl
  pre c := iprop(StableHlo.held (c : Thread nD τ) (Pipeline.ucRefs τ sig) (W7 m ρ c) ∗ Rest c)
  post c := iprop(StableHlo.held (c : Thread nD τ) (Pipeline.ucRefs τ sig) (W8 m ρ c) ∗ Rest c)
  X c := iprop(∃ r, prngReg c r)
  Y c := iprop(∃ r, prngReg c r)
  Z c := Pipeline.unscopedRest (Ix := Unit) (Name := ℕ) (U := UR sig nD τ) (Lvl := ℕ) spec2 c (T7 m ρ c)
  hentry c := by
    rw [Pipeline.ownSems0_none]
    have hsplit := Pipeline.arrays_of_unscopedBufs (p := 2) (pcfgs (F := F)) kadm (kdats m ρ) launch2.win launch2.arr_whole c
      ((kdats m ρ 2 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (kdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) kadm (Ix := Unit) (Name := ℕ) (U := UR sig nD τ) (Lvl := ℕ)
      launch2.win launch2.arr_whole c (kdats m ρ) ((kdats m ρ 2 c).share_full fun _ => rfl)
      (T7 m ρ c) (T8 m ρ c) ((kdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered at `W9`, left at `W10`. -/
def reg3 : Pipeline.RegionSeg (pcfgs (F := F)) kadm (kdats m ρ) () defs₀ k𝒱 kL klv 3 where
  win := launch3.win.to₀
  block_pos := launch3.block_pos
  stage_whole := launch3.stage_whole
  K := PEmpty
  osem k := k.elim
  ho := Pipeline.OwnSemFacts.none _
  hbody c := (body_obligation3 (T9 m ρ) c).loose
  hwaits := Pipeline.hwaits_of_owed_zero _ _ _ _ kL klv 3 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec3 c (T9 m ρ c)
  hentry c := by
    rw [Pipeline.ownSems0_none]
    have hsplit := Pipeline.arrays_of_unscopedBufs (p := 3) (pcfgs (F := F)) kadm (kdats m ρ) launch3.win launch3.arr_whole c
      ((kdats m ρ 3 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (kdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) kadm (Ix := Unit) (Name := ℕ) (U := UR sig nD τ) (Lvl := ℕ)
      launch3.win launch3.arr_whole c (kdats m ρ) ((kdats m ρ 3 c).share_full fun _ => rfl)
      (T9 m ρ c) (T10 m ρ c) ((kdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered at `W11`, left at `W12`. -/
def reg4 : Pipeline.RegionSeg (pcfgs (F := F)) kadm (kdats m ρ) () defs₀ k𝒱 kL klv 4 where
  win := launch4.win.to₀
  block_pos := launch4.block_pos
  stage_whole := launch4.stage_whole
  K := PEmpty
  osem k := k.elim
  ho := Pipeline.OwnSemFacts.none _
  hbody c := (body_obligation4 (T11 m ρ) c).loose
  hwaits := Pipeline.hwaits_of_owed_zero _ _ _ _ kL klv 4 fun _ _ => rfl
  pre c := iprop(StableHlo.held (c : Thread nD τ) (Pipeline.ucRefs τ sig) (W11 m ρ c) ∗ Rest c)
  post c := iprop(StableHlo.held (c : Thread nD τ) (Pipeline.ucRefs τ sig) (W12 m ρ c) ∗ Rest c)
  X c := iprop(∃ r, prngReg c r)
  Y c := iprop(∃ r, prngReg c r)
  Z c := Pipeline.unscopedRest (Ix := Unit) (Name := ℕ) (U := UR sig nD τ) (Lvl := ℕ) spec4 c (T11 m ρ c)
  hentry c := by
    rw [Pipeline.ownSems0_none]
    have hsplit := Pipeline.arrays_of_unscopedBufs (p := 4) (pcfgs (F := F)) kadm (kdats m ρ) launch4.win launch4.arr_whole c
      ((kdats m ρ 4 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (kdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) kadm (Ix := Unit) (Name := ℕ) (U := UR sig nD τ) (Lvl := ℕ)
      launch4.win launch4.arr_whole c (kdats m ρ) ((kdats m ρ 4 c).share_full fun _ => rfl)
      (T11 m ρ c) (T12 m ρ c) ((kdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered at `W13`, left at `W14`. -/
def reg5 : Pipeline.RegionSeg (pcfgs (F := F)) kadm (kdats m ρ) () defs₀ k𝒱 kL klv 5 where
  win := launch5.win.to₀
  block_pos := launch5.block_pos
  stage_whole := launch5.stage_whole
  K := PEmpty
  osem k := k.elim
  ho := Pipeline.OwnSemFacts.none _
  hbody c := (body_obligation5 (T13 m ρ) c).loose
  hwaits := Pipeline.hwaits_of_owed_zero _ _ _ _ kL klv 5 fun _ _ => rfl
  pre c := iprop(StableHlo.held (c : Thread nD τ) (Pipeline.ucRefs τ sig) (W13 m ρ c) ∗ Rest c)
  post c := iprop(StableHlo.held (c : Thread nD τ) (Pipeline.ucRefs τ sig) (W14 m ρ c) ∗ Rest c)
  X c := iprop(∃ r, prngReg c r)
  Y c := iprop(∃ r, prngReg c r)
  Z c := Pipeline.unscopedRest (Ix := Unit) (Name := ℕ) (U := UR sig nD τ) (Lvl := ℕ) spec5 c (T13 m ρ c)
  hentry c := by
    rw [Pipeline.ownSems0_none]
    have hsplit := Pipeline.arrays_of_unscopedBufs (p := 5) (pcfgs (F := F)) kadm (kdats m ρ) launch5.win launch5.arr_whole c
      ((kdats m ρ 5 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (kdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) kadm (Ix := Unit) (Name := ℕ) (U := UR sig nD τ) (Lvl := ℕ)
      launch5.win launch5.arr_whole c (kdats m ρ) ((kdats m ρ 5 c).share_full fun _ => rfl)
      (T13 m ρ c) (T14 m ρ c) ((kdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered at `W15`, left at `W16`. -/
def reg6 : Pipeline.RegionSeg (pcfgs (F := F)) kadm (kdats m ρ) () defs₀ k𝒱 kL klv 6 where
  win := launch6.win.to₀
  block_pos := launch6.block_pos
  stage_whole := launch6.stage_whole
  K := PEmpty
  osem k := k.elim
  ho := Pipeline.OwnSemFacts.none _
  hbody c := (body_obligation6 (T15 m ρ) c).loose
  hwaits := Pipeline.hwaits_of_owed_zero _ _ _ _ kL klv 6 fun _ _ => rfl
  pre c := iprop(StableHlo.held (c : Thread nD τ) (Pipeline.ucRefs τ sig) (W15 m ρ c) ∗ Rest c)
  post c := iprop(StableHlo.held (c : Thread nD τ) (Pipeline.ucRefs τ sig) (W16 m ρ c) ∗ Rest c)
  X c := iprop(∃ r, prngReg c r)
  Y c := iprop(∃ r, prngReg c r)
  Z c := Pipeline.unscopedRest (Ix := Unit) (Name := ℕ) (U := UR sig nD τ) (Lvl := ℕ) spec6 c (T15 m ρ c)
  hentry c := by
    rw [Pipeline.ownSems0_none]
    have hsplit := Pipeline.arrays_of_unscopedBufs (p := 6) (pcfgs (F := F)) kadm (kdats m ρ) launch6.win launch6.arr_whole c
      ((kdats m ρ 6 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (kdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) kadm (Ix := Unit) (Name := ℕ) (U := UR sig nD τ) (Lvl := ℕ)
      launch6.win launch6.arr_whole c (kdats m ρ) ((kdats m ρ 6 c).share_full fun _ => rfl)
      (T15 m ρ c) (T16 m ρ c) ((kdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's seventeen segments in order. -/
abbrev ksegs : List (Pipeline.Seg (pcfgs (F := F)) kadm (kdats m ρ) () defs₀ k𝒱 kL klv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)) ]

/-- @main is the run of its segments. -/
theorem main_run (c : Dev nD) : main (F := F) c = Pipeline.Seg.run (ksegs m ρ) := (main_chain c).trans (by chain_rfl)

set_option backward.isDefEq.respectTransparency.types false in
/-- The run: from any memory with zero counters every weakly fair execution of @main on the TensorCores terminates, nothing
    faulting; the result buffer ends at the fold's last contents and every argument array as launched. -/
theorem run : θ_run defs (onTc (τ := τ) (main (F := F))) ⟨m, fun _ => 0, ρ⟩ (fun r => ∀ c : Dev nD,
      r.2.mem ((c.tc : Thread nD τ).loc main_v122) = W17 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) kadm (kdats m ρ) () cellOf_inj emb₁ defs₀ k𝒱 kL klv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c))
    (Tₙ := fun c => StableHlo.held (c : Thread nD τ) (Pipeline.ucRefs τ sig) (W17 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W17 m ρ c) ∗ Rest c) ⊢ _
        iintro ⟨Hh, -, HO⟩
        isplitl [Hh]; · iexact Hh
        iexact HO⟩)
    (hinit := by
      refine Pipeline.initEach kL klv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨Hh, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v122 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.KernelIdeal.H

end
-- ==== Proof.KI.Keep.lean ====
/-
  A buffer that no segment between two boundaries writes holds at the later boundary what it held at the earlier one: the
  index vectors, the normalisation column, the reciprocal counts, the layer outputs kept for the pooling, and the arguments,
  each between the boundary that makes it and the boundary that reads it.
-/
import proofs.«105302_j51668456571568_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem back_main_v3_4_1 (c : Dev nD) : W4 m ρ c (Proc.devRef .tc main_v3) = W1 m ρ c (Proc.devRef .tc main_v3) :=
    (W4_keep m ρ c main_v3 (by decide)).trans <|
    (StableHlo.after_of_writes_sub hostOps0_2 _ hostOps0_2_writes (by decide : main_v3 ∉ hostOps0_2_W)).trans <|
    (StableHlo.after_of_writes_sub hostOps0_1 _ hostOps0_1_writes (by decide : main_v3 ∉ hostOps0_1_W))

theorem back_main_v6_4_1 (c : Dev nD) : W4 m ρ c (Proc.devRef .tc main_v6) = W1 m ρ c (Proc.devRef .tc main_v6) :=
    (W4_keep m ρ c main_v6 (by decide)).trans <|
    (StableHlo.after_of_writes_sub hostOps0_2 _ hostOps0_2_writes (by decide : main_v6 ∉ hostOps0_2_W)).trans <|
    (StableHlo.after_of_writes_sub hostOps0_1 _ hostOps0_1_writes (by decide : main_v6 ∉ hostOps0_1_W))

theorem back_main_v3_6_1 (c : Dev nD) : W6 m ρ c (Proc.devRef .tc main_v3) = W1 m ρ c (Proc.devRef .tc main_v3) :=
    (W6_keep m ρ c main_v3 (by decide)).trans <|
    (StableHlo.after_of_writes_sub hostOps1 _ hostOps1_writes (by decide : main_v3 ∉ hostOps1_W)).trans <|
    (W4_keep m ρ c main_v3 (by decide)).trans <|
    (StableHlo.after_of_writes_sub hostOps0_2 _ hostOps0_2_writes (by decide : main_v3 ∉ hostOps0_2_W)).trans <|
    (StableHlo.after_of_writes_sub hostOps0_1 _ hostOps0_1_writes (by decide : main_v3 ∉ hostOps0_1_W))

theorem back_main_v6_6_1 (c : Dev nD) : W6 m ρ c (Proc.devRef .tc main_v6) = W1 m ρ c (Proc.devRef .tc main_v6) :=
    (W6_keep m ρ c main_v6 (by decide)).trans <|
    (StableHlo.after_of_writes_sub hostOps1 _ hostOps1_writes (by decide : main_v6 ∉ hostOps1_W)).trans <|
    (W4_keep m ρ c main_v6 (by decide)).trans <|
    (StableHlo.after_of_writes_sub hostOps0_2 _ hostOps0_2_writes (by decide : main_v6 ∉ hostOps0_2_W)).trans <|
    (StableHlo.after_of_writes_sub hostOps0_1 _ hostOps0_1_writes (by decide : main_v6 ∉ hostOps0_1_W))

theorem back_main_v3_8_1 (c : Dev nD) : W8 m ρ c (Proc.devRef .tc main_v3) = W1 m ρ c (Proc.devRef .tc main_v3) :=
    (W8_keep m ρ c main_v3 (by decide)).trans <|
    (StableHlo.after_of_writes_sub hostOps2 _ hostOps2_writes (by decide : main_v3 ∉ hostOps2_W)).trans <|
    (W6_keep m ρ c main_v3 (by decide)).trans <|
    (StableHlo.after_of_writes_sub hostOps1 _ hostOps1_writes (by decide : main_v3 ∉ hostOps1_W)).trans <|
    (W4_keep m ρ c main_v3 (by decide)).trans <|
    (StableHlo.after_of_writes_sub hostOps0_2 _ hostOps0_2_writes (by decide : main_v3 ∉ hostOps0_2_W)).trans <|
    (StableHlo.after_of_writes_sub hostOps0_1 _ hostOps0_1_writes (by decide : main_v3 ∉ hostOps0_1_W))

theorem back_main_v6_8_1 (c : Dev nD) : W8 m ρ c (Proc.devRef .tc main_v6) = W1 m ρ c (Proc.devRef .tc main_v6) :=
    (W8_keep m ρ c main_v6 (by decide)).trans <|
    (StableHlo.after_of_writes_sub hostOps2 _ hostOps2_writes (by decide : main_v6 ∉ hostOps2_W)).trans <|
    (W6_keep m ρ c main_v6 (by decide)).trans <|
    (StableHlo.after_of_writes_sub hostOps1 _ hostOps1_writes (by decide : main_v6 ∉ hostOps1_W)).trans <|
    (W4_keep m ρ c main_v6 (by decide)).trans <|
    (StableHlo.after_of_writes_sub hostOps0_2 _ hostOps0_2_writes (by decide : main_v6 ∉ hostOps0_2_W)).trans <|
    (StableHlo.after_of_writes_sub hostOps0_1 _ hostOps0_1_writes (by decide : main_v6 ∉ hostOps0_1_W))

theorem back_main_v3_10_1 (c : Dev nD) : W10 m ρ c (Proc.devRef .tc main_v3) = W1 m ρ c (Proc.devRef .tc main_v3) :=
    (W10_keep m ρ c main_v3 (by decide)).trans <|
    (StableHlo.after_of_writes_sub hostOps3 _ hostOps3_writes (by decide : main_v3 ∉ hostOps3_W)).trans <|
    (W8_keep m ρ c main_v3 (by decide)).trans <|
    (StableHlo.after_of_writes_sub hostOps2 _ hostOps2_writes (by decide : main_v3 ∉ hostOps2_W)).trans <|
    (W6_keep m ρ c main_v3 (by decide)).trans <|
    (StableHlo.after_of_writes_sub hostOps1 _ hostOps1_writes (by decide : main_v3 ∉ hostOps1_W)).trans <|
    (W4_keep m ρ c main_v3 (by decide)).trans <|
    (StableHlo.after_of_writes_sub hostOps0_2 _ hostOps0_2_writes (by decide : main_v3 ∉ hostOps0_2_W)).trans <|
    (StableHlo.after_of_writes_sub hostOps0_1 _ hostOps0_1_writes (by decide : main_v3 ∉ hostOps0_1_W))

theorem back_main_v6_10_1 (c : Dev nD) : W10 m ρ c (Proc.devRef .tc main_v6) = W1 m ρ c (Proc.devRef .tc main_v6) :=
    (W10_keep m ρ c main_v6 (by decide)).trans <|
    (StableHlo.after_of_writes_sub hostOps3 _ hostOps3_writes (by decide : main_v6 ∉ hostOps3_W)).trans <|
    (W8_keep m ρ c main_v6 (by decide)).trans <|
    (StableHlo.after_of_writes_sub hostOps2 _ hostOps2_writes (by decide : main_v6 ∉ hostOps2_W)).trans <|
    (W6_keep m ρ c main_v6 (by decide)).trans <|
    (StableHlo.after_of_writes_sub hostOps1 _ hostOps1_writes (by decide : main_v6 ∉ hostOps1_W)).trans <|
    (W4_keep m ρ c main_v6 (by decide)).trans <|
    (StableHlo.after_of_writes_sub hostOps0_2 _ hostOps0_2_writes (by decide : main_v6 ∉ hostOps0_2_W)).trans <|
    (StableHlo.after_of_writes_sub hostOps0_1 _ hostOps0_1_writes (by decide : main_v6 ∉ hostOps0_1_W))

theorem back_main_v3_12_1 (c : Dev nD) : W12 m ρ c (Proc.devRef .tc main_v3) = W1 m ρ c (Proc.devRef .tc main_v3) :=
    (W12_keep m ρ c main_v3 (by decide)).trans <|
    (StableHlo.after_of_writes_sub hostOps4 _ hostOps4_writes (by decide : main_v3 ∉ hostOps4_W)).trans <|
    (W10_keep m ρ c main_v3 (by decide)).trans <|
    (StableHlo.after_of_writes_sub hostOps3 _ hostOps3_writes (by decide : main_v3 ∉ hostOps3_W)).trans <|
    (W8_keep m ρ c main_v3 (by decide)).trans <|
    (StableHlo.after_of_writes_sub hostOps2 _ hostOps2_writes (by decide : main_v3 ∉ hostOps2_W)).trans <|
    (W6_keep m ρ c main_v3 (by decide)).trans <|
    (StableHlo.after_of_writes_sub hostOps1 _ hostOps1_writes (by decide : main_v3 ∉ hostOps1_W)).trans <|
    (W4_keep m ρ c main_v3 (by decide)).trans <|
    (StableHlo.after_of_writes_sub hostOps0_2 _ hostOps0_2_writes (by decide : main_v3 ∉ hostOps0_2_W)).trans <|
    (StableHlo.after_of_writes_sub hostOps0_1 _ hostOps0_1_writes (by decide : main_v3 ∉ hostOps0_1_W))

theorem back_main_v6_12_1 (c : Dev nD) : W12 m ρ c (Proc.devRef .tc main_v6) = W1 m ρ c (Proc.devRef .tc main_v6) :=
    (W12_keep m ρ c main_v6 (by decide)).trans <|
    (StableHlo.after_of_writes_sub hostOps4 _ hostOps4_writes (by decide : main_v6 ∉ hostOps4_W)).trans <|
    (W10_keep m ρ c main_v6 (by decide)).trans <|
    (StableHlo.after_of_writes_sub hostOps3 _ hostOps3_writes (by decide : main_v6 ∉ hostOps3_W)).trans <|
    (W8_keep m ρ c main_v6 (by decide)).trans <|
    (StableHlo.after_of_writes_sub hostOps2 _ hostOps2_writes (by decide : main_v6 ∉ hostOps2_W)).trans <|
    (W6_keep m ρ c main_v6 (by decide)).trans <|
    (StableHlo.after_of_writes_sub hostOps1 _ hostOps1_writes (by decide : main_v6 ∉ hostOps1_W)).trans <|
    (W4_keep m ρ c main_v6 (by decide)).trans <|
    (StableHlo.after_of_writes_sub hostOps0_2 _ hostOps0_2_writes (by decide : main_v6 ∉ hostOps0_2_W)).trans <|
    (StableHlo.after_of_writes_sub hostOps0_1 _ hostOps0_1_writes (by decide : main_v6 ∉ hostOps0_1_W))

theorem back_main_v17_5_3 (c : Dev nD) : W5 m ρ c (Proc.devRef .tc main_v17) = W3 m ρ c (Proc.devRef .tc main_v17) :=
    (StableHlo.after_of_writes_sub hostOps1 _ hostOps1_writes (by decide : main_v17 ∉ hostOps1_W)).trans <|
    (W4_keep m ρ c main_v17 (by decide))

theorem back_main_v17_7_3 (c : Dev nD) : W7 m ρ c (Proc.devRef .tc main_v17) = W3 m ρ c (Proc.devRef .tc main_v17) :=
    (StableHlo.after_of_writes_sub hostOps2 _ hostOps2_writes (by decide : main_v17 ∉ hostOps2_W)).trans <|
    (W6_keep m ρ c main_v17 (by decide)).trans <|
    (StableHlo.after_of_writes_sub hostOps1 _ hostOps1_writes (by decide : main_v17 ∉ hostOps1_W)).trans <|
    (W4_keep m ρ c main_v17 (by decide))

theorem back_main_v17_9_3 (c : Dev nD) : W9 m ρ c (Proc.devRef .tc main_v17) = W3 m ρ c (Proc.devRef .tc main_v17) :=
    (StableHlo.after_of_writes_sub hostOps3 _ hostOps3_writes (by decide : main_v17 ∉ hostOps3_W)).trans <|
    (W8_keep m ρ c main_v17 (by decide)).trans <|
    (StableHlo.after_of_writes_sub hostOps2 _ hostOps2_writes (by decide : main_v17 ∉ hostOps2_W)).trans <|
    (W6_keep m ρ c main_v17 (by decide)).trans <|
    (StableHlo.after_of_writes_sub hostOps1 _ hostOps1_writes (by decide : main_v17 ∉ hostOps1_W)).trans <|
    (W4_keep m ρ c main_v17 (by decide))

theorem back_main_v17_11_3 (c : Dev nD) : W11 m ρ c (Proc.devRef .tc main_v17) = W3 m ρ c (Proc.devRef .tc main_v17) :=
    (StableHlo.after_of_writes_sub hostOps4 _ hostOps4_writes (by decide : main_v17 ∉ hostOps4_W)).trans <|
    (W10_keep m ρ c main_v17 (by decide)).trans <|
    (StableHlo.after_of_writes_sub hostOps3 _ hostOps3_writes (by decide : main_v17 ∉ hostOps3_W)).trans <|
    (W8_keep m ρ c main_v17 (by decide)).trans <|
    (StableHlo.after_of_writes_sub hostOps2 _ hostOps2_writes (by decide : main_v17 ∉ hostOps2_W)).trans <|
    (W6_keep m ρ c main_v17 (by decide)).trans <|
    (StableHlo.after_of_writes_sub hostOps1 _ hostOps1_writes (by decide : main_v17 ∉ hostOps1_W)).trans <|
    (W4_keep m ρ c main_v17 (by decide))

theorem back_main_v17_13_3 (c : Dev nD) : W13 m ρ c (Proc.devRef .tc main_v17) = W3 m ρ c (Proc.devRef .tc main_v17) :=
    (StableHlo.after_of_writes_sub hostOps5 _ hostOps5_writes (by decide : main_v17 ∉ hostOps5_W)).trans <|
    (W12_keep m ρ c main_v17 (by decide)).trans <|
    (StableHlo.after_of_writes_sub hostOps4 _ hostOps4_writes (by decide : main_v17 ∉ hostOps4_W)).trans <|
    (W10_keep m ρ c main_v17 (by decide)).trans <|
    (StableHlo.after_of_writes_sub hostOps3 _ hostOps3_writes (by decide : main_v17 ∉ hostOps3_W)).trans <|
    (W8_keep m ρ c main_v17 (by decide)).trans <|
    (StableHlo.after_of_writes_sub hostOps2 _ hostOps2_writes (by decide : main_v17 ∉ hostOps2_W)).trans <|
    (W6_keep m ρ c main_v17 (by decide)).trans <|
    (StableHlo.after_of_writes_sub hostOps1 _ hostOps1_writes (by decide : main_v17 ∉ hostOps1_W)).trans <|
    (W4_keep m ρ c main_v17 (by decide))

theorem back_main_v26_14_3 (c : Dev nD) : W14 m ρ c (Proc.devRef .tc main_v26) = W3 m ρ c (Proc.devRef .tc main_v26) :=
    (W14_keep m ρ c main_v26 (by decide)).trans <|
    (StableHlo.after_of_writes_sub hostOps5 _ hostOps5_writes (by decide : main_v26 ∉ hostOps5_W)).trans <|
    (W12_keep m ρ c main_v26 (by decide)).trans <|
    (StableHlo.after_of_writes_sub hostOps4 _ hostOps4_writes (by decide : main_v26 ∉ hostOps4_W)).trans <|
    (W10_keep m ρ c main_v26 (by decide)).trans <|
    (StableHlo.after_of_writes_sub hostOps3 _ hostOps3_writes (by decide : main_v26 ∉ hostOps3_W)).trans <|
    (W8_keep m ρ c main_v26 (by decide)).trans <|
    (StableHlo.after_of_writes_sub hostOps2 _ hostOps2_writes (by decide : main_v26 ∉ hostOps2_W)).trans <|
    (W6_keep m ρ c main_v26 (by decide)).trans <|
    (StableHlo.after_of_writes_sub hostOps1 _ hostOps1_writes (by decide : main_v26 ∉ hostOps1_W)).trans <|
    (W4_keep m ρ c main_v26 (by decide))

theorem back_main_arg0_3_0 (c : Dev nD) : W3 m ρ c (Proc.devRef .tc main_arg0) = m ((c : Thread nD τ).loc main_arg0) :=
    (StableHlo.after_of_writes_sub hostOps0_2 _ hostOps0_2_writes (by decide : main_arg0 ∉ hostOps0_2_W)).trans <|
    (StableHlo.after_of_writes_sub hostOps0_1 _ hostOps0_1_writes (by decide : main_arg0 ∉ hostOps0_1_W)).trans <|
    (StableHlo.after_of_writes_sub hostOps0 _ hostOps0_writes (by decide : main_arg0 ∉ hostOps0_W))

theorem back_main_arg3_3_0 (c : Dev nD) : W3 m ρ c (Proc.devRef .tc main_arg3) = m ((c : Thread nD τ).loc main_arg3) :=
    (StableHlo.after_of_writes_sub hostOps0_2 _ hostOps0_2_writes (by decide : main_arg3 ∉ hostOps0_2_W)).trans <|
    (StableHlo.after_of_writes_sub hostOps0_1 _ hostOps0_1_writes (by decide : main_arg3 ∉ hostOps0_1_W)).trans <|
    (StableHlo.after_of_writes_sub hostOps0 _ hostOps0_writes (by decide : main_arg3 ∉ hostOps0_W))

theorem back_main_arg4_4_0 (c : Dev nD) : W4 m ρ c (Proc.devRef .tc main_arg4) = m ((c : Thread nD τ).loc main_arg4) :=
    (W4_keep m ρ c main_arg4 (by decide)).trans <|
    (StableHlo.after_of_writes_sub hostOps0_2 _ hostOps0_2_writes (by decide : main_arg4 ∉ hostOps0_2_W)).trans <|
    (StableHlo.after_of_writes_sub hostOps0_1 _ hostOps0_1_writes (by decide : main_arg4 ∉ hostOps0_1_W)).trans <|
    (StableHlo.after_of_writes_sub hostOps0 _ hostOps0_writes (by decide : main_arg4 ∉ hostOps0_W))

theorem back_main_arg5_5_0 (c : Dev nD) : W5 m ρ c (Proc.devRef .tc main_arg5) = m ((c : Thread nD τ).loc main_arg5) :=
    (StableHlo.after_of_writes_sub hostOps1 _ hostOps1_writes (by decide : main_arg5 ∉ hostOps1_W)).trans <|
    (W4_keep m ρ c main_arg5 (by decide)).trans <|
    (StableHlo.after_of_writes_sub hostOps0_2 _ hostOps0_2_writes (by decide : main_arg5 ∉ hostOps0_2_W)).trans <|
    (StableHlo.after_of_writes_sub hostOps0_1 _ hostOps0_1_writes (by decide : main_arg5 ∉ hostOps0_1_W)).trans <|
    (StableHlo.after_of_writes_sub hostOps0 _ hostOps0_writes (by decide : main_arg5 ∉ hostOps0_W))

theorem back_main_arg6_6_0 (c : Dev nD) : W6 m ρ c (Proc.devRef .tc main_arg6) = m ((c : Thread nD τ).loc main_arg6) :=
    (W6_keep m ρ c main_arg6 (by decide)).trans <|
    (StableHlo.after_of_writes_sub hostOps1 _ hostOps1_writes (by decide : main_arg6 ∉ hostOps1_W)).trans <|
    (W4_keep m ρ c main_arg6 (by decide)).trans <|
    (StableHlo.after_of_writes_sub hostOps0_2 _ hostOps0_2_writes (by decide : main_arg6 ∉ hostOps0_2_W)).trans <|
    (StableHlo.after_of_writes_sub hostOps0_1 _ hostOps0_1_writes (by decide : main_arg6 ∉ hostOps0_1_W)).trans <|
    (StableHlo.after_of_writes_sub hostOps0 _ hostOps0_writes (by decide : main_arg6 ∉ hostOps0_W))

theorem back_main_arg7_7_0 (c : Dev nD) : W7 m ρ c (Proc.devRef .tc main_arg7) = m ((c : Thread nD τ).loc main_arg7) :=
    (StableHlo.after_of_writes_sub hostOps2 _ hostOps2_writes (by decide : main_arg7 ∉ hostOps2_W)).trans <|
    (W6_keep m ρ c main_arg7 (by decide)).trans <|
    (StableHlo.after_of_writes_sub hostOps1 _ hostOps1_writes (by decide : main_arg7 ∉ hostOps1_W)).trans <|
    (W4_keep m ρ c main_arg7 (by decide)).trans <|
    (StableHlo.after_of_writes_sub hostOps0_2 _ hostOps0_2_writes (by decide : main_arg7 ∉ hostOps0_2_W)).trans <|
    (StableHlo.after_of_writes_sub hostOps0_1 _ hostOps0_1_writes (by decide : main_arg7 ∉ hostOps0_1_W)).trans <|
    (StableHlo.after_of_writes_sub hostOps0 _ hostOps0_writes (by decide : main_arg7 ∉ hostOps0_W))

theorem back_main_arg8_8_0 (c : Dev nD) : W8 m ρ c (Proc.devRef .tc main_arg8) = m ((c : Thread nD τ).loc main_arg8) :=
    (W8_keep m ρ c main_arg8 (by decide)).trans <|
    (StableHlo.after_of_writes_sub hostOps2 _ hostOps2_writes (by decide : main_arg8 ∉ hostOps2_W)).trans <|
    (W6_keep m ρ c main_arg8 (by decide)).trans <|
    (StableHlo.after_of_writes_sub hostOps1 _ hostOps1_writes (by decide : main_arg8 ∉ hostOps1_W)).trans <|
    (W4_keep m ρ c main_arg8 (by decide)).trans <|
    (StableHlo.after_of_writes_sub hostOps0_2 _ hostOps0_2_writes (by decide : main_arg8 ∉ hostOps0_2_W)).trans <|
    (StableHlo.after_of_writes_sub hostOps0_1 _ hostOps0_1_writes (by decide : main_arg8 ∉ hostOps0_1_W)).trans <|
    (StableHlo.after_of_writes_sub hostOps0 _ hostOps0_writes (by decide : main_arg8 ∉ hostOps0_W))

theorem back_main_arg9_9_0 (c : Dev nD) : W9 m ρ c (Proc.devRef .tc main_arg9) = m ((c : Thread nD τ).loc main_arg9) :=
    (StableHlo.after_of_writes_sub hostOps3 _ hostOps3_writes (by decide : main_arg9 ∉ hostOps3_W)).trans <|
    (W8_keep m ρ c main_arg9 (by decide)).trans <|
    (StableHlo.after_of_writes_sub hostOps2 _ hostOps2_writes (by decide : main_arg9 ∉ hostOps2_W)).trans <|
    (W6_keep m ρ c main_arg9 (by decide)).trans <|
    (StableHlo.after_of_writes_sub hostOps1 _ hostOps1_writes (by decide : main_arg9 ∉ hostOps1_W)).trans <|
    (W4_keep m ρ c main_arg9 (by decide)).trans <|
    (StableHlo.after_of_writes_sub hostOps0_2 _ hostOps0_2_writes (by decide : main_arg9 ∉ hostOps0_2_W)).trans <|
    (StableHlo.after_of_writes_sub hostOps0_1 _ hostOps0_1_writes (by decide : main_arg9 ∉ hostOps0_1_W)).trans <|
    (StableHlo.after_of_writes_sub hostOps0 _ hostOps0_writes (by decide : main_arg9 ∉ hostOps0_W))

theorem back_main_arg9_11_0 (c : Dev nD) : W11 m ρ c (Proc.devRef .tc main_arg9) = m ((c : Thread nD τ).loc main_arg9) :=
    (StableHlo.after_of_writes_sub hostOps4 _ hostOps4_writes (by decide : main_arg9 ∉ hostOps4_W)).trans <|
    (W10_keep m ρ c main_arg9 (by decide)).trans <|
    (StableHlo.after_of_writes_sub hostOps3 _ hostOps3_writes (by decide : main_arg9 ∉ hostOps3_W)).trans <|
    (W8_keep m ρ c main_arg9 (by decide)).trans <|
    (StableHlo.after_of_writes_sub hostOps2 _ hostOps2_writes (by decide : main_arg9 ∉ hostOps2_W)).trans <|
    (W6_keep m ρ c main_arg9 (by decide)).trans <|
    (StableHlo.after_of_writes_sub hostOps1 _ hostOps1_writes (by decide : main_arg9 ∉ hostOps1_W)).trans <|
    (W4_keep m ρ c main_arg9 (by decide)).trans <|
    (StableHlo.after_of_writes_sub hostOps0_2 _ hostOps0_2_writes (by decide : main_arg9 ∉ hostOps0_2_W)).trans <|
    (StableHlo.after_of_writes_sub hostOps0_1 _ hostOps0_1_writes (by decide : main_arg9 ∉ hostOps0_1_W)).trans <|
    (StableHlo.after_of_writes_sub hostOps0 _ hostOps0_writes (by decide : main_arg9 ∉ hostOps0_W))

theorem back_main_arg10_10_0 (c : Dev nD) : W10 m ρ c (Proc.devRef .tc main_arg10) = m ((c : Thread nD τ).loc main_arg10) :=
    (W10_keep m ρ c main_arg10 (by decide)).trans <|
    (StableHlo.after_of_writes_sub hostOps3 _ hostOps3_writes (by decide : main_arg10 ∉ hostOps3_W)).trans <|
    (W8_keep m ρ c main_arg10 (by decide)).trans <|
    (StableHlo.after_of_writes_sub hostOps2 _ hostOps2_writes (by decide : main_arg10 ∉ hostOps2_W)).trans <|
    (W6_keep m ρ c main_arg10 (by decide)).trans <|
    (StableHlo.after_of_writes_sub hostOps1 _ hostOps1_writes (by decide : main_arg10 ∉ hostOps1_W)).trans <|
    (W4_keep m ρ c main_arg10 (by decide)).trans <|
    (StableHlo.after_of_writes_sub hostOps0_2 _ hostOps0_2_writes (by decide : main_arg10 ∉ hostOps0_2_W)).trans <|
    (StableHlo.after_of_writes_sub hostOps0_1 _ hostOps0_1_writes (by decide : main_arg10 ∉ hostOps0_1_W)).trans <|
    (StableHlo.after_of_writes_sub hostOps0 _ hostOps0_writes (by decide : main_arg10 ∉ hostOps0_W))

theorem back_main_arg10_12_0 (c : Dev nD) : W12 m ρ c (Proc.devRef .tc main_arg10) = m ((c : Thread nD τ).loc main_arg10) :=
    (W12_keep m ρ c main_arg10 (by decide)).trans <|
    (StableHlo.after_of_writes_sub hostOps4 _ hostOps4_writes (by decide : main_arg10 ∉ hostOps4_W)).trans <|
    (W10_keep m ρ c main_arg10 (by decide)).trans <|
    (StableHlo.after_of_writes_sub hostOps3 _ hostOps3_writes (by decide : main_arg10 ∉ hostOps3_W)).trans <|
    (W8_keep m ρ c main_arg10 (by decide)).trans <|
    (StableHlo.after_of_writes_sub hostOps2 _ hostOps2_writes (by decide : main_arg10 ∉ hostOps2_W)).trans <|
    (W6_keep m ρ c main_arg10 (by decide)).trans <|
    (StableHlo.after_of_writes_sub hostOps1 _ hostOps1_writes (by decide : main_arg10 ∉ hostOps1_W)).trans <|
    (W4_keep m ρ c main_arg10 (by decide)).trans <|
    (StableHlo.after_of_writes_sub hostOps0_2 _ hostOps0_2_writes (by decide : main_arg10 ∉ hostOps0_2_W)).trans <|
    (StableHlo.after_of_writes_sub hostOps0_1 _ hostOps0_1_writes (by decide : main_arg10 ∉ hostOps0_1_W)).trans <|
    (StableHlo.after_of_writes_sub hostOps0 _ hostOps0_writes (by decide : main_arg10 ∉ hostOps0_W))

theorem back_main_arg2_2_0 (c : Dev nD) : W2 m ρ c (Proc.devRef .tc main_arg2) = m ((c : Thread nD τ).loc main_arg2) :=
    (StableHlo.after_of_writes_sub hostOps0_1 _ hostOps0_1_writes (by decide : main_arg2 ∉ hostOps0_1_W)).trans <|
    (StableHlo.after_of_writes_sub hostOps0 _ hostOps0_writes (by decide : main_arg2 ∉ hostOps0_W))

theorem back_main_arg2_14_0 (c : Dev nD) : W14 m ρ c (Proc.devRef .tc main_arg2) = m ((c : Thread nD τ).loc main_arg2) :=
    (W14_keep m ρ c main_arg2 (by decide)).trans <|
    (StableHlo.after_of_writes_sub hostOps5 _ hostOps5_writes (by decide : main_arg2 ∉ hostOps5_W)).trans <|
    (W12_keep m ρ c main_arg2 (by decide)).trans <|
    (StableHlo.after_of_writes_sub hostOps4 _ hostOps4_writes (by decide : main_arg2 ∉ hostOps4_W)).trans <|
    (W10_keep m ρ c main_arg2 (by decide)).trans <|
    (StableHlo.after_of_writes_sub hostOps3 _ hostOps3_writes (by decide : main_arg2 ∉ hostOps3_W)).trans <|
    (W8_keep m ρ c main_arg2 (by decide)).trans <|
    (StableHlo.after_of_writes_sub hostOps2 _ hostOps2_writes (by decide : main_arg2 ∉ hostOps2_W)).trans <|
    (W6_keep m ρ c main_arg2 (by decide)).trans <|
    (StableHlo.after_of_writes_sub hostOps1 _ hostOps1_writes (by decide : main_arg2 ∉ hostOps1_W)).trans <|
    (W4_keep m ρ c main_arg2 (by decide)).trans <|
    (StableHlo.after_of_writes_sub hostOps0_2 _ hostOps0_2_writes (by decide : main_arg2 ∉ hostOps0_2_W)).trans <|
    (StableHlo.after_of_writes_sub hostOps0_1 _ hostOps0_1_writes (by decide : main_arg2 ∉ hostOps0_1_W)).trans <|
    (StableHlo.after_of_writes_sub hostOps0 _ hostOps0_writes (by decide : main_arg2 ∉ hostOps0_W))

theorem back_main_arg12_14_0 (c : Dev nD) : W14 m ρ c (Proc.devRef .tc main_arg12) = m ((c : Thread nD τ).loc main_arg12) :=
    (W14_keep m ρ c main_arg12 (by decide)).trans <|
    (StableHlo.after_of_writes_sub hostOps5 _ hostOps5_writes (by decide : main_arg12 ∉ hostOps5_W)).trans <|
    (W12_keep m ρ c main_arg12 (by decide)).trans <|
    (StableHlo.after_of_writes_sub hostOps4 _ hostOps4_writes (by decide : main_arg12 ∉ hostOps4_W)).trans <|
    (W10_keep m ρ c main_arg12 (by decide)).trans <|
    (StableHlo.after_of_writes_sub hostOps3 _ hostOps3_writes (by decide : main_arg12 ∉ hostOps3_W)).trans <|
    (W8_keep m ρ c main_arg12 (by decide)).trans <|
    (StableHlo.after_of_writes_sub hostOps2 _ hostOps2_writes (by decide : main_arg12 ∉ hostOps2_W)).trans <|
    (W6_keep m ρ c main_arg12 (by decide)).trans <|
    (StableHlo.after_of_writes_sub hostOps1 _ hostOps1_writes (by decide : main_arg12 ∉ hostOps1_W)).trans <|
    (W4_keep m ρ c main_arg12 (by decide)).trans <|
    (StableHlo.after_of_writes_sub hostOps0_2 _ hostOps0_2_writes (by decide : main_arg12 ∉ hostOps0_2_W)).trans <|
    (StableHlo.after_of_writes_sub hostOps0_1 _ hostOps0_1_writes (by decide : main_arg12 ∉ hostOps0_1_W)).trans <|
    (StableHlo.after_of_writes_sub hostOps0 _ hostOps0_writes (by decide : main_arg12 ∉ hostOps0_W))

theorem back_main_arg14_14_0 (c : Dev nD) : W14 m ρ c (Proc.devRef .tc main_arg14) = m ((c : Thread nD τ).loc main_arg14) :=
    (W14_keep m ρ c main_arg14 (by decide)).trans <|
    (StableHlo.after_of_writes_sub hostOps5 _ hostOps5_writes (by decide : main_arg14 ∉ hostOps5_W)).trans <|
    (W12_keep m ρ c main_arg14 (by decide)).trans <|
    (StableHlo.after_of_writes_sub hostOps4 _ hostOps4_writes (by decide : main_arg14 ∉ hostOps4_W)).trans <|
    (W10_keep m ρ c main_arg14 (by decide)).trans <|
    (StableHlo.after_of_writes_sub hostOps3 _ hostOps3_writes (by decide : main_arg14 ∉ hostOps3_W)).trans <|
    (W8_keep m ρ c main_arg14 (by decide)).trans <|
    (StableHlo.after_of_writes_sub hostOps2 _ hostOps2_writes (by decide : main_arg14 ∉ hostOps2_W)).trans <|
    (W6_keep m ρ c main_arg14 (by decide)).trans <|
    (StableHlo.after_of_writes_sub hostOps1 _ hostOps1_writes (by decide : main_arg14 ∉ hostOps1_W)).trans <|
    (W4_keep m ρ c main_arg14 (by decide)).trans <|
    (StableHlo.after_of_writes_sub hostOps0_2 _ hostOps0_2_writes (by decide : main_arg14 ∉ hostOps0_2_W)).trans <|
    (StableHlo.after_of_writes_sub hostOps0_1 _ hostOps0_1_writes (by decide : main_arg14 ∉ hostOps0_1_W)).trans <|
    (StableHlo.after_of_writes_sub hostOps0 _ hostOps0_writes (by decide : main_arg14 ∉ hostOps0_W))

theorem back_main_arg11_15_0 (c : Dev nD) : W15 m ρ c (Proc.devRef .tc main_arg11) = m ((c : Thread nD τ).loc main_arg11) :=
    (StableHlo.after_of_writes_sub hostOps6 _ hostOps6_writes (by decide : main_arg11 ∉ hostOps6_W)).trans <|
    (W14_keep m ρ c main_arg11 (by decide)).trans <|
    (StableHlo.after_of_writes_sub hostOps5 _ hostOps5_writes (by decide : main_arg11 ∉ hostOps5_W)).trans <|
    (W12_keep m ρ c main_arg11 (by decide)).trans <|
    (StableHlo.after_of_writes_sub hostOps4 _ hostOps4_writes (by decide : main_arg11 ∉ hostOps4_W)).trans <|
    (W10_keep m ρ c main_arg11 (by decide)).trans <|
    (StableHlo.after_of_writes_sub hostOps3 _ hostOps3_writes (by decide : main_arg11 ∉ hostOps3_W)).trans <|
    (W8_keep m ρ c main_arg11 (by decide)).trans <|
    (StableHlo.after_of_writes_sub hostOps2 _ hostOps2_writes (by decide : main_arg11 ∉ hostOps2_W)).trans <|
    (W6_keep m ρ c main_arg11 (by decide)).trans <|
    (StableHlo.after_of_writes_sub hostOps1 _ hostOps1_writes (by decide : main_arg11 ∉ hostOps1_W)).trans <|
    (W4_keep m ρ c main_arg11 (by decide)).trans <|
    (StableHlo.after_of_writes_sub hostOps0_2 _ hostOps0_2_writes (by decide : main_arg11 ∉ hostOps0_2_W)).trans <|
    (StableHlo.after_of_writes_sub hostOps0_1 _ hostOps0_1_writes (by decide : main_arg11 ∉ hostOps0_1_W)).trans <|
    (StableHlo.after_of_writes_sub hostOps0 _ hostOps0_writes (by decide : main_arg11 ∉ hostOps0_W))

theorem back_main_arg13_15_0 (c : Dev nD) : W15 m ρ c (Proc.devRef .tc main_arg13) = m ((c : Thread nD τ).loc main_arg13) :=
    (StableHlo.after_of_writes_sub hostOps6 _ hostOps6_writes (by decide : main_arg13 ∉ hostOps6_W)).trans <|
    (W14_keep m ρ c main_arg13 (by decide)).trans <|
    (StableHlo.after_of_writes_sub hostOps5 _ hostOps5_writes (by decide : main_arg13 ∉ hostOps5_W)).trans <|
    (W12_keep m ρ c main_arg13 (by decide)).trans <|
    (StableHlo.after_of_writes_sub hostOps4 _ hostOps4_writes (by decide : main_arg13 ∉ hostOps4_W)).trans <|
    (W10_keep m ρ c main_arg13 (by decide)).trans <|
    (StableHlo.after_of_writes_sub hostOps3 _ hostOps3_writes (by decide : main_arg13 ∉ hostOps3_W)).trans <|
    (W8_keep m ρ c main_arg13 (by decide)).trans <|
    (StableHlo.after_of_writes_sub hostOps2 _ hostOps2_writes (by decide : main_arg13 ∉ hostOps2_W)).trans <|
    (W6_keep m ρ c main_arg13 (by decide)).trans <|
    (StableHlo.after_of_writes_sub hostOps1 _ hostOps1_writes (by decide : main_arg13 ∉ hostOps1_W)).trans <|
    (W4_keep m ρ c main_arg13 (by decide)).trans <|
    (StableHlo.after_of_writes_sub hostOps0_2 _ hostOps0_2_writes (by decide : main_arg13 ∉ hostOps0_2_W)).trans <|
    (StableHlo.after_of_writes_sub hostOps0_1 _ hostOps0_1_writes (by decide : main_arg13 ∉ hostOps0_1_W)).trans <|
    (StableHlo.after_of_writes_sub hostOps0 _ hostOps0_writes (by decide : main_arg13 ∉ hostOps0_W))

theorem back_main_v40_0_14_6 (c : Dev nD) : W14 m ρ c (Proc.devRef .tc main_v40_0) = W6 m ρ c (Proc.devRef .tc main_v40_0) :=
    (W14_keep m ρ c main_v40_0 (by decide)).trans <|
    (StableHlo.after_of_writes_sub hostOps5 _ hostOps5_writes (by decide : main_v40_0 ∉ hostOps5_W)).trans <|
    (W12_keep m ρ c main_v40_0 (by decide)).trans <|
    (StableHlo.after_of_writes_sub hostOps4 _ hostOps4_writes (by decide : main_v40_0 ∉ hostOps4_W)).trans <|
    (W10_keep m ρ c main_v40_0 (by decide)).trans <|
    (StableHlo.after_of_writes_sub hostOps3 _ hostOps3_writes (by decide : main_v40_0 ∉ hostOps3_W)).trans <|
    (W8_keep m ρ c main_v40_0 (by decide)).trans <|
    (StableHlo.after_of_writes_sub hostOps2 _ hostOps2_writes (by decide : main_v40_0 ∉ hostOps2_W))

theorem back_main_v53_0_14_8 (c : Dev nD) : W14 m ρ c (Proc.devRef .tc main_v53_0) = W8 m ρ c (Proc.devRef .tc main_v53_0) :=
    (W14_keep m ρ c main_v53_0 (by decide)).trans <|
    (StableHlo.after_of_writes_sub hostOps5 _ hostOps5_writes (by decide : main_v53_0 ∉ hostOps5_W)).trans <|
    (W12_keep m ρ c main_v53_0 (by decide)).trans <|
    (StableHlo.after_of_writes_sub hostOps4 _ hostOps4_writes (by decide : main_v53_0 ∉ hostOps4_W)).trans <|
    (W10_keep m ρ c main_v53_0 (by decide)).trans <|
    (StableHlo.after_of_writes_sub hostOps3 _ hostOps3_writes (by decide : main_v53_0 ∉ hostOps3_W))

theorem back_main_v66_0_14_10 (c : Dev nD) : W14 m ρ c (Proc.devRef .tc main_v66_0) = W10 m ρ c (Proc.devRef .tc main_v66_0) :=
    (W14_keep m ρ c main_v66_0 (by decide)).trans <|
    (StableHlo.after_of_writes_sub hostOps5 _ hostOps5_writes (by decide : main_v66_0 ∉ hostOps5_W)).trans <|
    (W12_keep m ρ c main_v66_0 (by decide)).trans <|
    (StableHlo.after_of_writes_sub hostOps4 _ hostOps4_writes (by decide : main_v66_0 ∉ hostOps4_W))

theorem back_main_v79_0_14_12 (c : Dev nD) : W14 m ρ c (Proc.devRef .tc main_v79_0) = W12 m ρ c (Proc.devRef .tc main_v79_0) :=
    (W14_keep m ρ c main_v79_0 (by decide)).trans <|
    (StableHlo.after_of_writes_sub hostOps5 _ hostOps5_writes (by decide : main_v79_0 ∉ hostOps5_W))

end Cert.KernelIdeal.H

end
-- ==== Proof.LayerDefs.lean ====
/-
  One graph-convolution layer, in the two arrangements the certificate compares.

  A layer takes the transformed node features Z (N × C), the node scaling dinv (length N), a bias (length C) and the
  edge lists row, col (length E, self-loops included). With rho(e) the row index of edge e and S(n) the set of edges
  whose col index is n:

    the reference's arrangement:  relu ( sum over e in S(n) of Z(rho e, c) * (dinv(rho e) * dinv(col e))  +  b(c) )
    the kernel's arrangement:     relu ( dinv(n) * (sum over e in S(n) of Z(rho e, c) * dinv(rho e))      +  b(c) )

  This file has the definitions only: the index normalisation both sides share, the kernel's aggregation and layer,
  and the reference's layer as one term of its operands.
-/
import proofs.«105302_j51668456571568_2_alg».proof.Proof.Gen.ReferenceIdeal
import Idealize.ShloMosaic.Lib.ValueIdx
import Idealize.ShloMosaic.PureOps.Ideal

noncomputable section

namespace Cert.Bridge

open Cert.ReferenceIdeal Cert.ReferenceIdeal.Gen Idealize.ShloMosaic Idealize.ShloMosaic.ValueIdx

/-- The row / col index vectors: one 32-bit word per edge. -/
abbrev IdxV := (⟨S1700000, .i32⟩ : BufTy).Contents (Elt Ideal)

/-- A possibly negative index made non-negative as array indexing does: v < 0 ? v + 100000 : v. -/
def normI (v : IdxV) : IdxV :=
  select (cmpi .slt v (broadcastInDim S1700000 ![] bcast_S_S1700000 (constantI S_ 32 0#32)))
    (addi v (broadcastInDim S1700000 ![] bcast_S_S1700000 (constantI S_ 32 100000#32))) v

/-- The kernel's aggregation: gather the rows of t at the normalised row indices, widen, and scatter-add them into
    zeros at the col indices. -/
def aggK (t : FVec Ideal S100000x128 .bf16) (rowv colv : IdxV) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 colv)
    (extf .f32 (Host.gather gather_S100000x128_S1700000x1_S1700000x128_1_0_n_n_0_1_1128 t
      (broadcastInDim S1700000x1 ![0] bcast_S1700000_S1700000x1_0 (normI rowv))) (by decide : FTy.bits .bf16 < FTy.bits .f32))

/-- The kernel's layer at an index: relu (dinv[n] * agg[n,c] + b[c]) with agg the aggregation of
    t = Z * dinv[row of Z]. -/
def kerLayer (Z : FVec Ideal S100000x128 .f32) (dv : FVec Ideal S100000 .f32) (bb : FVec Ideal S128 .f32)
    (rowv colv : IdxV) : S100000x128.Idx → EReal :=
  fun i => max (dv (ix1 ⟨(i 0).val, (i 0).isLt⟩)
      * aggK (fun j => Z j * dv (ix1 ⟨(j 0).val, (j 0).isLt⟩)) rowv colv i
    + bb (ix1 ⟨(i 1).val, (i 1).isLt⟩)) 0

/-- The reference's per-edge weight: dinv at the normalised row index times dinv at the normalised col index. -/
def normV (dv : FVec Ideal S100000 .f32) (rowv colv : IdxV) : FVec Ideal S1700000 .f32 :=
  mulf
    (Host.gather gather_S100000_S1700000x1_S1700000_n_0_n_n_0_1_1 dv
      (broadcastInDim S1700000x1 ![0] bcast_S1700000_S1700000x1_0 (normI rowv)))
    (Host.gather gather_S100000_S1700000x1_S1700000_n_0_n_n_0_1_1 dv
      (broadcastInDim S1700000x1 ![0] bcast_S1700000_S1700000x1_0 (normI colv)))

/-- The reference's layer as one term of Z, dinv, b, row, col: gather the rows of Z at the normalised row indices,
    multiply each by the edge's weight, scatter-add into zeros at the col indices, add the bias row, and take the
    maximum with zero. -/
def refLayer (Z : FVec Ideal S100000x128 .f32) (dv : FVec Ideal S100000 .f32) (bb : FVec Ideal S128 .f32)
    (rowv colv : IdxV) : FVec Ideal S100000x128 .f32 :=
  maximumf
    (addf
      (Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 colv)
        (mulf
          (Host.gather gather_S100000x128_S1700000x1_S1700000x128_1_0_n_n_0_1_1128 Z
            (broadcastInDim S1700000x1 ![0] bcast_S1700000_S1700000x1_0 (normI rowv)))
          (broadcastInDim S1700000x128 ![0, 1] bcast_S1700000x1_S1700000x128_0_1
            (broadcastInDim S1700000x1 ![0] bcast_S1700000_S1700000x1_0 (normV dv rowv colv)))))
      (broadcastInDim S100000x128 ![0, 1] bcast_S1x128_S100000x128_0_1
        (broadcastInDim S1x128 ![1] bcast_S128_S1x128_1 bb)))
    (broadcastInDim S100000x128 ![] bcast_S_S100000x128 (constant S_ .f32 0x00000000#32))

end Cert.Bridge

end
-- ==== Proof.KChainDefs.lean ====
/-
  The kernel's five graph-convolution layers as explicit functions of the inputs.

  Each layer of the kernel is two stages. The transform stage stores the product of the layer's input H with its
  weight W, each row n scaled by dinv(n): t(n, q) = (sum over k of H(n, k) W(k, q)) * dinv(n). The epilogue stage
  stores relu(dinv(n) * agg(n, q) + b(q)), where agg is the aggregation of t along the edges (gather the rows of t at
  the row indices, scatter-add them at the col indices). Here dinv is staged as a 100000 × 1 column (a reshape of the
  normalisation vector) and each bias as a 1 × 128 row (a reshape of the bias vector). The five layers chain: the
  input of a layer is the output of the one before, and the fifth layer uses the fourth layer's weight and bias again.
-/
import proofs.«105302_j51668456571568_2_alg».proof.Proof.RefReadP
import proofs.«105302_j51668456571568_2_alg».proof.Proof.LayerDefs
import proofs.«105302_j51668456571568_2_alg».proof.Proof.Gen.KernelIdeal

noncomputable section

namespace Cert.Bridge

open Cert.ReferenceIdeal Cert.ReferenceIdeal.Gen Cert.ReferenceIdeal.ReadP Idealize.ShloMosaic
  Idealize.ShloMosaic.ValueIdx

/-- The node coordinate of an entry of a 100000 × 128 array. -/
abbrev nIdx (i : S100000x128.Idx) : Fin 100000 := ⟨(i 0).val, (i 0).isLt⟩
/-- The feature coordinate of an entry of a 100000 × 128 array. -/
abbrev qIdx (i : S100000x128.Idx) : Fin 128 := ⟨(i 1).val, (i 1).isLt⟩

/-- The normalisation vector as the kernel stages it, a 100000 × 1 column: the reshape of the vector. -/
def d2K (x1 : (⟨S2x1600000, .i32⟩ : BufTy).Contents (Elt Ideal)) : FVec Ideal S100000x1 .f32 :=
  shapeCast S100000x1 (val_main_v16 (F := Ideal) x1) Cert.KernelIdeal.Gen.shapeCasts_S100000_S100000x1

/-- A bias as the kernel stages it, a 1 × 128 row: the reshape of the vector. -/
def brK (b : FVec Ideal S128 .f32) : FVec Ideal S1x128 .f32 :=
  shapeCast S1x128 b Cert.KernelIdeal.Gen.shapeCasts_S128_S1x128

/-- What a transform stage stores: the product H W with each row scaled by the normalisation of that row (typed as
    the narrow format; on the extended reals the same numbers). -/
def kT (H : FVec Ideal S100000x128 .f32) (W : FVec Ideal S128x128 .f32) (x1 : (⟨S2x1600000, .i32⟩ : BufTy).Contents (Elt Ideal)) :
    FVec Ideal S100000x128 .bf16 :=
  fun i => (∑ k : Fin 128, H (ix2 (nIdx i) k) * W (ix2 k (qIdx i))) * d2K x1 (ix2 (nIdx i) (0 : Fin 1))

/-- What an epilogue stage stores: relu (dinv(n) * agg(n, q) + b(q)), agg the aggregation of t along the edges. -/
def kH (t : FVec Ideal S100000x128 .bf16) (b : FVec Ideal S128 .f32) (x1 : (⟨S2x1600000, .i32⟩ : BufTy).Contents (Elt Ideal)) :
    FVec Ideal S100000x128 .f32 :=
  fun i => max (d2K x1 (ix2 (nIdx i) (0 : Fin 1))
      * aggK t (val_main_v3 (F := Ideal) x1) (val_main_v6 (F := Ideal) x1) i
    + brK b (ix2 (0 : Fin 1) (qIdx i))) 0

/-- The first layer's output. -/
def kH1 (x0 : FVec Ideal S100000x128 .f32) (x1 : (⟨S2x1600000, .i32⟩ : BufTy).Contents (Elt Ideal)) (x3 : FVec Ideal S128x128 .f32) (x4 : FVec Ideal S128 .f32) :
    FVec Ideal S100000x128 .f32 :=
  kH (kT x0 x3 x1) x4 x1

/-- The second layer's output. -/
def kH2 (x0 : FVec Ideal S100000x128 .f32) (x1 : (⟨S2x1600000, .i32⟩ : BufTy).Contents (Elt Ideal)) (x3 : FVec Ideal S128x128 .f32) (x4 : FVec Ideal S128 .f32)
    (x5 : FVec Ideal S128x128 .f32) (x6 : FVec Ideal S128 .f32) : FVec Ideal S100000x128 .f32 :=
  kH (kT (kH1 x0 x1 x3 x4) x5 x1) x6 x1

/-- The third layer's output. -/
def kH3 (x0 : FVec Ideal S100000x128 .f32) (x1 : (⟨S2x1600000, .i32⟩ : BufTy).Contents (Elt Ideal)) (x3 : FVec Ideal S128x128 .f32) (x4 : FVec Ideal S128 .f32)
    (x5 : FVec Ideal S128x128 .f32) (x6 : FVec Ideal S128 .f32) (x7 : FVec Ideal S128x128 .f32)
    (x8 : FVec Ideal S128 .f32) : FVec Ideal S100000x128 .f32 :=
  kH (kT (kH2 x0 x1 x3 x4 x5 x6) x7 x1) x8 x1

/-- The fourth layer's output. -/
def kH4 (x0 : FVec Ideal S100000x128 .f32) (x1 : (⟨S2x1600000, .i32⟩ : BufTy).Contents (Elt Ideal)) (x3 : FVec Ideal S128x128 .f32) (x4 : FVec Ideal S128 .f32)
    (x5 : FVec Ideal S128x128 .f32) (x6 : FVec Ideal S128 .f32) (x7 : FVec Ideal S128x128 .f32)
    (x8 : FVec Ideal S128 .f32) (x9 : FVec Ideal S128x128 .f32) (x10 : FVec Ideal S128 .f32) :
    FVec Ideal S100000x128 .f32 :=
  kH (kT (kH3 x0 x1 x3 x4 x5 x6 x7 x8) x9 x1) x10 x1

/-- The fifth layer's output: the fourth layer's weight and bias again. -/
def kH5 (x0 : FVec Ideal S100000x128 .f32) (x1 : (⟨S2x1600000, .i32⟩ : BufTy).Contents (Elt Ideal)) (x3 : FVec Ideal S128x128 .f32) (x4 : FVec Ideal S128 .f32)
    (x5 : FVec Ideal S128x128 .f32) (x6 : FVec Ideal S128 .f32) (x7 : FVec Ideal S128x128 .f32)
    (x8 : FVec Ideal S128 .f32) (x9 : FVec Ideal S128x128 .f32) (x10 : FVec Ideal S128 .f32) :
    FVec Ideal S100000x128 .f32 :=
  kH (kT (kH4 x0 x1 x3 x4 x5 x6 x7 x8 x9 x10) x9 x1) x10 x1

end Cert.Bridge

end
-- ==== Proof.TailDefs.lean ====
/-
  The tail of the network as two terms of the five layer outputs: mean pooling over the graphs, the concatenation of
  the five pooled blocks, and the two-layer perceptron.

  Both programs count the nodes of each graph by a scatter-add of ones at the graph ids (cnt), bound the count below
  by one, and sum the rows of a layer output per graph by a scatter-add of the rows at the graph ids (seg). One program
  multiplies the row sums by the reciprocal 1 / max(cnt, 1), computed once as a column; the other divides the row sums
  by max(cnt, 1), broadcast as a column. The five pooled blocks are laid side by side, and the perceptron is
  out(g) = sum over j of max(sum over k of p(g,k) Wl1(k,j) + bl1(j), 0) Wl2(j,0) + bl2(0), once as two matrix products
  into zero accumulators with the biases as one-row arrays, once as two host products with the biases broadcast.
-/
import proofs.«105302_j51668456571568_2_alg».proof.Proof.RefReadP
import proofs.«105302_j51668456571568_2_alg».proof.Proof.Gen.KernelIdeal.Skeleton

noncomputable section

namespace Cert.Bridge

open Cert.ReferenceIdeal Cert.ReferenceIdeal.Gen Cert.ReferenceIdeal.ReadP Idealize.ShloMosaic Idealize.ShloMosaic.ValueIdx

/-- The graph id of each node. -/
abbrev BatchV := (⟨S100000, .i32⟩ : BufTy).Contents (Elt Ideal)

/-- The splat of the word `b` over a shape, as a host program makes it: the scalar constant broadcast. -/
abbrev zerosS512 : FVec Ideal S512 .f32 :=
  broadcastInDim S512 ![] bcast_S_S512 (constant (F := Ideal) S_ .f32 0x00000000#32)
abbrev onesS512 : FVec Ideal S512 .f32 :=
  broadcastInDim S512 ![] bcast_S_S512 (constant (F := Ideal) S_ .f32 0x3F800000#32)
abbrev onesS100000 : FVec Ideal S100000 .f32 :=
  broadcastInDim S100000 ![] bcast_S_S100000 (constant (F := Ideal) S_ .f32 0x3F800000#32)
abbrev zerosS512x128 : FVec Ideal S512x128 .f32 :=
  broadcastInDim S512x128 ![] bcast_S_S512x128 (constant (F := Ideal) S_ .f32 0x00000000#32)
/-- The graph ids as a column of scatter indices. -/
abbrev idsCol (bt : BatchV) : IVec S100000x1 32 :=
  broadcastInDim S100000x1 ![0] bcast_S100000_S100000x1_0 bt

/-- The number of nodes of each graph: ones scattered and added at the graph ids, from zero. -/
def cnt (bt : BatchV) : FVec Ideal S512 .f32 :=
  Host.scatterAdd scatter_S512_S100000x1_S100000_n_0_0_1 zerosS512 (idsCol bt) onesS100000

/-- The count bounded below by one. -/
def cntMax (bt : BatchV) : FVec Ideal S512 .f32 :=
  maximumf (cnt bt) onesS512

/-- The sum of the rows of `h` of each graph: the rows scattered and added at the graph ids, from zero. -/
def seg (h : FVec Ideal S100000x128 .f32) (bt : BatchV) : FVec Ideal S512x128 .f32 :=
  Host.scatterAdd scatter_S512x128_S100000x1_S100000x128_1_0_0_1 zerosS512x128 (idsCol bt) h

/-- The reciprocal count column: 1 / max(cnt, 1) as a 512 × 1 array. -/
def rcK (bt : BatchV) : FVec Ideal S512x1 .f32 :=
  shapeCast S512x1 (Host.divf onesS512 (cntMax bt)) Cert.KernelIdeal.Gen.shapeCasts_S512_S512x1

/-- A pooled block, by the reciprocal: the row sums times the reciprocal count column broadcast across the columns. -/
def poolK (h : FVec Ideal S100000x128 .f32) (bt : BatchV) : FVec Ideal S512x128 .f32 :=
  mulf (seg h bt) (broadcastInDim S512x128 ![0, 1] bcast_S512x1_S512x128_0_1 (rcK bt))

/-- A pooled block, by the quotient: the row sums divided by the bounded count, laid as a column and broadcast across
    the columns. -/
def poolR (h : FVec Ideal S100000x128 .f32) (bt : BatchV) : FVec Ideal S512x128 .f32 :=
  Host.divf (seg h bt)
    (broadcastInDim S512x128 ![0, 1] bcast_S512x1_S512x128_0_1 (broadcastInDim S512x1 ![0] bcast_S512_S512x1_0 (cntMax bt)))

/-- Five blocks of 128 columns side by side. -/
def cat5 (p1 p2 p3 p4 p5 : FVec Ideal S512x128 .f32) : FVec Ideal S512x640 .f32 :=
  concatenate S512x640 1 [⟨S512x128, p1⟩, ⟨S512x128, p2⟩, ⟨S512x128, p3⟩, ⟨S512x128, p4⟩, ⟨S512x128, p5⟩]
    concatenates_S512x128_S512x128_S512x128_S512x128_S512x128_S512x640_d1

/-- The perceptron as two matrix products into zero accumulators, the biases as one-row arrays broadcast down the
    rows. -/
def mlpK (p : FVec Ideal S512x640 .f32) (wl1 : FVec Ideal S640x640 .f32) (bl1 : FVec Ideal S640 .f32)
    (wl2 : FVec Ideal S640x1 .f32) (bl2 : FVec Ideal S1 .f32) : FVec Ideal S512x1 .f32 :=
  Cert.KernelIdeal.Gen.k6_pay1 (F := Ideal) p wl1 (shapeCast S1x640 bl1 Cert.KernelIdeal.Gen.shapeCasts_S640_S1x640) wl2
    (shapeCast S1x1 bl2 Cert.KernelIdeal.Gen.shapeCasts_S1_S1x1)

/-- The perceptron as two host products, the biases broadcast first to one row and then down the rows. -/
def mlpR (p : FVec Ideal S512x640 .f32) (wl1 : FVec Ideal S640x640 .f32) (bl1 : FVec Ideal S640 .f32)
    (wl2 : FVec Ideal S640x1 .f32) (bl2 : FVec Ideal S1 .f32) : FVec Ideal S512x1 .f32 :=
  addf
    (Host.dotGeneral dot_S512x640_S640x1_S512x1_1_0_0_1_n_n none
      (maximumf
        (addf (Host.dotGeneral dot_S512x640_S640x640_S512x640_1_0_0_1_n_n none p wl1)
          (broadcastInDim S512x640 ![0, 1] bcast_S1x640_S512x640_0_1 (broadcastInDim S1x640 ![1] bcast_S640_S1x640_1 bl1)))
        (broadcastInDim S512x640 ![] bcast_S_S512x640 (constant (F := Ideal) S_ .f32 0x00000000#32)))
      wl2)
    (broadcastInDim S512x1 ![0, 1] bcast_S1x1_S512x1_0_1 (broadcastInDim S1x1 ![1] bcast_S1_S1x1_1 bl2))

/-- The tail by the reciprocal and the matrix products into zero accumulators. -/
def kerTail (h1 h2 h3 h4 h5 : FVec Ideal S100000x128 .f32) (bt : BatchV) (wl1 : FVec Ideal S640x640 .f32)
    (bl1 : FVec Ideal S640 .f32) (wl2 : FVec Ideal S640x1 .f32) (bl2 : FVec Ideal S1 .f32) : FVec Ideal S512 .f32 :=
  shapeCast S512
    (mlpK (cat5 (poolK h1 bt) (poolK h2 bt) (poolK h3 bt) (poolK h4 bt) (poolK h5 bt)) wl1 bl1 wl2 bl2)
    shapeCasts_S512x1_S512

/-- The tail by the quotient and the host products. -/
def refTail (h1 h2 h3 h4 h5 : FVec Ideal S100000x128 .f32) (bt : BatchV) (wl1 : FVec Ideal S640x640 .f32)
    (bl1 : FVec Ideal S640 .f32) (wl2 : FVec Ideal S640x1 .f32) (bl2 : FVec Ideal S1 .f32) : FVec Ideal S512 .f32 :=
  shapeCast S512
    (mlpR (cat5 (poolR h1 bt) (poolR h2 bt) (poolR h3 bt) (poolR h4 bt) (poolR h5 bt)) wl1 bl1 wl2 bl2)
    shapeCasts_S512x1_S512

end Cert.Bridge

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.KI.Host0.lean ====
import proofs.«105302_j51668456571568_2_alg».proof.Proof.Gen.KernelIdeal.Launch
import Idealize.ShloMosaic.Lib.StableHlo.Run
import proofs.«105302_j51668456571568_2_alg».proof.Proof.KChainDefs
import proofs.«105302_j51668456571568_2_alg».proof.Proof.TailDefs
import proofs.«105302_j51668456571568_2_alg».proof.Proof.LibTRef

noncomputable section

namespace Cert.KernelIdeal.H

open Cert.KernelIdeal Cert.KernelIdeal.Gen Idealize.ShloMosaic Idealize.ShloMosaic.TcCoe Idealize.SL.Sem
open Idealize.ShloMosaic.StableHlo

-- any buffer contents before the stretch, at the ideal values
variable (V : Valuation τ sig (Elt Ideal))

/-! # What the first three host stretches compute, from any contents before them

The first stretch builds the edge lists with the self-loops appended (rows, columns), the in-degree by a
scatter-add of ones, whether it is positive, and the reciprocal square root of the degree bounded below by one.
The second is the inlined selection: that reciprocal root where the degree is positive, zero elsewhere. The third
lays the selected vector as a column and computes the reciprocal node count per graph, as a column. -/

set_option maxHeartbeats 1000000 in
/-- The row indices: the edges' first row, then the nodes themselves. -/
theorem after0_v3 : (after (hostOps0 (F := Ideal)) V (Proc.devRef .tc main_v3) : S1700000.Idx → BitVec 32)
    = Cert.ReferenceIdeal.ReadP.val_main_v3 (F := Ideal) (V (Proc.devRef .tc main_arg1)) := by
  dsimp only [hostOps0]; after_results; rfl

set_option maxHeartbeats 1000000 in
/-- The column indices: the edges' second row, then the nodes themselves. -/
theorem after0_v6 : (after (hostOps0 (F := Ideal)) V (Proc.devRef .tc main_v6) : S1700000.Idx → BitVec 32)
    = Cert.ReferenceIdeal.ReadP.val_main_v6 (F := Ideal) (V (Proc.devRef .tc main_arg1)) := by
  dsimp only [hostOps0]; after_results; rfl

set_option maxHeartbeats 1000000 in
/-- Whether each node's degree is positive. -/
theorem after0_v12 : (after (hostOps0 (F := Ideal)) V (Proc.devRef .tc main_v12) : S100000.Idx → BitVec 1)
    = Cert.ReferenceIdeal.ReadP.val_main_v12 (F := Ideal) (V (Proc.devRef .tc main_arg1)) := by
  dsimp only [hostOps0]; after_results; rfl

set_option maxHeartbeats 1000000 in
/-- The reciprocal square root of each node's degree bounded below by one. -/
theorem after0_v15 : (after (hostOps0 (F := Ideal)) V (Proc.devRef .tc main_v15) : S100000.Idx → EReal)
    = Cert.ReferenceIdeal.ReadP.val_main_v15 (F := Ideal) (V (Proc.devRef .tc main_arg1)) := by
  dsimp only [hostOps0]; after_results; rfl

set_option maxHeartbeats 1000000 in
/-- The scalar zero the selection falls back to. -/
theorem after0_cst3 : (after (hostOps0 (F := Ideal)) V (Proc.devRef .tc main_cst_3) : S_.Idx → EReal)
    = constant (F := Ideal) S_ .f32 0x00000000#32 := by
  dsimp only [hostOps0]; after_results

set_option maxHeartbeats 1000000 in
/-- The selection over whatever the three buffers hold: the second where the first is set, the third's scalar
    broadcast elsewhere. -/
theorem after01_v16_raw :
    (after (hostOps0_1 (F := Ideal)) V (Proc.devRef .tc main_v16) : S100000.Idx → EReal)
      = (select (V (Proc.devRef .tc main_v12) : IVec S100000 1) (V (Proc.devRef .tc main_v15) : FVec Ideal S100000 .f32)
          (broadcastInDim S100000 ![] bcast_S_S100000 (id (V (Proc.devRef .tc main_cst_3) : FVec Ideal S_ .f32))) : FVec Ideal S100000 .f32) := by
  dsimp only [hostOps0_1]; after_results
  simp only [Cert.LibTRef.ofBuf_toBuf]
  rfl

/-- The selection: the reciprocal root where the degree is positive, the zero elsewhere. -/
theorem after01_v16 (x1 : (⟨S2x1600000, .i32⟩ : BufTy).Contents (Elt Ideal))
    (h12 : (V (Proc.devRef .tc main_v12) : S100000.Idx → BitVec 1) = Cert.ReferenceIdeal.ReadP.val_main_v12 (F := Ideal) x1)
    (h15 : (V (Proc.devRef .tc main_v15) : S100000.Idx → EReal) = Cert.ReferenceIdeal.ReadP.val_main_v15 (F := Ideal) x1)
    (hc : (V (Proc.devRef .tc main_cst_3) : S_.Idx → EReal) = constant (F := Ideal) S_ .f32 0x00000000#32) :
    (after (hostOps0_1 (F := Ideal)) V (Proc.devRef .tc main_v16) : S100000.Idx → EReal)
      = Cert.ReferenceIdeal.ReadP.val_main_v16 (F := Ideal) x1 := by
  rw [after01_v16_raw, h12, h15, hc]
  unfold Cert.ReferenceIdeal.ReadP.val_main_v16 Cert.ReferenceIdeal.ReadP.val_main_call0_v1 Cert.ReferenceIdeal.ReadP.val_main_call0_v0 Cert.ReferenceIdeal.ReadP.val_main_cst_3
  rfl

set_option maxHeartbeats 1000000 in
/-- The selected vector laid as a column. -/
theorem after02_v17 : (after (hostOps0_2 (F := Ideal)) V (Proc.devRef .tc main_v17) : S100000x1.Idx → EReal)
    = shapeCast S100000x1 (V (Proc.devRef .tc main_v16)) shapeCasts_S100000_S100000x1 := by
  dsimp only [hostOps0_2]; after_results; rfl

/-- With the selected vector the reference's, the column is the normalisation column. -/
theorem after02_v17' (x1 : (⟨S2x1600000, .i32⟩ : BufTy).Contents (Elt Ideal))
    (h16 : (V (Proc.devRef .tc main_v16) : S100000.Idx → EReal) = Cert.ReferenceIdeal.ReadP.val_main_v16 (F := Ideal) x1) :
    (after (hostOps0_2 (F := Ideal)) V (Proc.devRef .tc main_v17) : S100000x1.Idx → EReal) = Cert.Bridge.d2K x1 := by
  rw [after02_v17]
  rw [show (V (Proc.devRef .tc main_v16)) = Cert.ReferenceIdeal.ReadP.val_main_v16 (F := Ideal) x1 from h16]
  rfl

set_option maxHeartbeats 1000000 in
/-- The reciprocal of each graph's node count bounded below by one, as a column. -/
theorem after02_v26 : (after (hostOps0_2 (F := Ideal)) V (Proc.devRef .tc main_v26) : S512x1.Idx → EReal)
    = Cert.Bridge.rcK (V (Proc.devRef .tc main_arg2)) := by
  dsimp only [hostOps0_2]; after_results; rfl

end Cert.KernelIdeal.H

end
-- ==== Proof.KI.V0.lean ====
import proofs.«105302_j51668456571568_2_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the core's buffer contents when the region is entered, at the ideal values
variable (V : (c : Dev nD) → (b : Ref sig .tc) → Buf (Elt Ideal) ((c : Thread nD τ).loc b))

/-! # Region 0, read: the result array is the row-scaled matrix product

Every grid point writes back one 5000-row block of the result; the twenty blocks tile the 100000 rows. At the ideal
values the roundings to bf16 are the identity, so entry `(n, q)` of the result is
`(Σ_k x[n, k] · w[k, q]) · s[n, 0]`, with `x` the node features, `w` the weights and `s` the scale column. -/

/-! ## Two index lemmas -/

/-- An `[a, 1]` column broadcast to `[a, b]` reads, at `(p, q)`, the column's entry of row `p`. -/
theorem bcastCol0_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The product of an `m×k` by a `k×n` matrix accumulated into zero, read at `(a, b)`, is the sum over the contracted
    coordinate of the products of the entries. At the ideal values. -/
theorem matmulPlain0_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The payload at an index -/

/-- The stored value at `(p, q)`: row `p` of the features against column `q` of the weights, times the scale of row `p`. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  simp only [truncf_apply, mulf_apply, shapeCast_self, matmul, dot_S5000x128_S128x128_S5000x128_1_0_0_1_n_n]
  rw [bcastCol0_apply, matmulPlain0_apply]
  rfl

/-- The same at an index given whole. -/
theorem pay0_point (x0 : Vec Ideal S5000x128 .f32) (x1 : Vec Ideal S128x128 .f32) (x2 : Vec Ideal S5000x1 .f32)
    (j : S5000x128.Idx) :
    k0_pay1 (F := Ideal) x0 x1 x2 j = (∑ k : Fin 128, x0 (ix2 (j 0) k) * x1 (ix2 k (j 1))) * x2 (ix2 (j 0) (0 : Fin 1)) := by
  obtain ⟨p, q, rfl⟩ : ∃ (p : Fin 5000) (q : Fin 128), j = ix2 p q := ⟨j 0, j 1, eq_ix2 j⟩
  exact pay0_apply x0 x1 x2 p q

/-! ## From blocks to the array -/

theorem hz0 : (![0, 0] : Fin 2 → Nat) = fun _ => 0 := funext fun a => by fin_cases a <;> rfl

/-- The result array as one function of the three argument arrays, index by index. -/
abbrev G0 (a0 : S100000x128.Idx → EReal) (a1 : S128x128.Idx → EReal) (a2 : S100000x1.Idx → EReal) : S100000x128.Idx → EReal :=
  fun i => (∑ k : Fin 128, a0 (ix2 (⟨(i 0).val, (i 0).isLt⟩ : Fin 100000) k) * a1 (ix2 k (⟨(i 1).val, (i 1).isLt⟩ : Fin 128)))
    * a2 (ix2 (⟨(i 0).val, (i 0).isLt⟩ : Fin 100000) (0 : Fin 1))

/-- The index maps, decided over the twenty points: the features' and the scale column's row block is the result's;
    the weights' block and every column block is block zero; the result's row block at point `t` is `t`. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 19 ∧ win0_3.index t (1 : Fin 2) = 0 :=
  (by decide +kernel : ∀ t : Fin grid0.N, _)

/-- Every one of the twenty row blocks is some point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

/-- The payload at block index `j` is `G0` at array index `i`, once each input block, where the payload reads it, holds
    the corresponding array's entry at `i`'s row or column. -/
theorem G0_of_blocks (a0 : S100000x128.Idx → EReal) (a1 : S128x128.Idx → EReal) (a2 : S100000x1.Idx → EReal)
    (x0 : Vec Ideal S5000x128 .f32) (x1 : Vec Ideal S128x128 .f32) (x2 : Vec Ideal S5000x1 .f32)
    (j : S5000x128.Idx) (i : S100000x128.Idx)
    (h0 : ∀ k : Fin 128, x0 (ix2 (j 0) k) = a0 (ix2 (⟨(i 0).val, (i 0).isLt⟩ : Fin 100000) k))
    (h1 : ∀ k : Fin 128, x1 (ix2 k (j 1)) = a1 (ix2 k (⟨(i 1).val, (i 1).isLt⟩ : Fin 128)))
    (h2 : x2 (ix2 (j 0) (0 : Fin 1)) = a2 (ix2 (⟨(i 0).val, (i 0).isLt⟩ : Fin 100000) (0 : Fin 1))) :
    k0_pay1 (F := Ideal) x0 x1 x2 j = G0 a0 a1 a2 i := by
  rw [pay0_point]
  simp only [h0, h1, h2]

/-- What point `t` writes back is block `t` of `G0` of the argument arrays as the region finds them. -/
theorem flushed0_3_eq (c : Dev nD) (t : Fin cfg0.N) :
    (dat0 V c).flushed 3 t = ((cfg0.win 3).blk t).view.read (Elt Ideal) (G0 (V c main_arg0) (V c main_arg3) (V c main_v17)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  obtain ⟨e0, e1, e2, e3, e4, e5, e6, e7⟩ := idx_facts0 t
  funext j
  show k0_pay1 (F := Ideal) (iblk0 V c 0 t) (iblk0 V c 1 t) (iblk0 V c 2 t) j
    = G0 (V c main_arg0) (V c main_arg3) (V c main_v17) (((cfg0.win 3).blk t).view.emb j)
  have hj0 : (j 0).val < 5000 := (j 0).isLt
  have hj1 : (j 1).val < 128 := (j 1).isLt
  refine G0_of_blocks (V c main_arg0) (V c main_arg3) (V c main_v17) (iblk0 V c 0 t) (iblk0 V c 1 t) (iblk0 V c 2 t) j
    (((cfg0.win 3).blk t).view.emb j) (fun k => ?_) (fun k => ?_) ?_
  · show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v17 (((cfg0.win 2).blk t).view.emb (ix2 (j 0) (0 : Fin 1))) = V c main_v17 _
    refine congrArg (V c main_v17) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the result array is in point `t`'s block iff each coordinate is in the block's range on its axis. -/
theorem mem_blk0_3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v27).slice (win0_3.rect t)).set ↔ _
  rw [View.set_slice_whole, Rect.mem_set_unit]
  exact Iff.rfl

/-- Every index of the result array is in some point's block: row `r` is in the block of point `r / 5000`. -/
theorem cover0_arr (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region: the row-scaled product of the features by the weights, at every index —
    entry `(n, q)` is `(Σ_k x[n, k] · w[k, q]) · s[n, 0]`. -/
theorem final0_3 (c : Dev nD) : (dat0 V c).arrAt 3 cfg0.N = G0 (V c main_arg0) (V c main_arg3) (V c main_v17) :=
  (dat0 V c).arrAt_eq_of_cover 3 (G0 (V c main_arg0) (V c main_arg3) (V c main_v17)) (fun t _ => flushed0_3_eq V c t) cover0_arr

end Cert.KernelIdeal.H

end
-- ==== Proof.KI.Vals0.lean ====
/-
  The idealized kernel program's result as explicit functions of the arguments.  The fold of the buffers' contents is read
  boundary by boundary: a host stretch at the contents before it, a region's output at the closed form of its blocks; a
  buffer carried unchanged is read where it was made.  The index vectors, the normalisation column and the reciprocal counts
  are the reference's own stages (the two programs compute them by the same operations); each transform stage leaves the
  scaled product, each epilogue the rectified scaled aggregate plus bias, and the last region the perceptron of the five
  pooled blocks laid side by side.
-/
import proofs.«105302_j51668456571568_2_alg».proof.Proof.KI.Keep
import proofs.«105302_j51668456571568_2_alg».proof.Proof.KI.Host0
import proofs.«105302_j51668456571568_2_alg».proof.Proof.KI.V0
import proofs.«105302_j51668456571568_2_alg».proof.Proof.KChainDefs
import proofs.«105302_j51668456571568_2_alg».proof.Proof.TailDefs
import Idealize.ShloMosaic.PureOps.Ideal
import Idealize.ShloMosaic.PureOps.Ideal.Laws
import Idealize.ShloMosaic.Lib.ValueIdx
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)
/-- The argument arrays on core `c`, as plain functions of an index. -/
abbrev A0 (c : Dev nD) : Cert.ReferenceIdeal.S100000x128.Idx → EReal := m ((c.tc : Thread nD τ).loc main_arg0)
abbrev A1 (c : Dev nD) : Cert.ReferenceIdeal.S2x1600000.Idx → BitVec 32 := m ((c.tc : Thread nD τ).loc main_arg1)
abbrev A2 (c : Dev nD) : Cert.ReferenceIdeal.S100000.Idx → BitVec 32 := m ((c.tc : Thread nD τ).loc main_arg2)
abbrev A3 (c : Dev nD) : Cert.ReferenceIdeal.S128x128.Idx → EReal := m ((c.tc : Thread nD τ).loc main_arg3)
abbrev A4 (c : Dev nD) : Cert.ReferenceIdeal.S128.Idx → EReal := m ((c.tc : Thread nD τ).loc main_arg4)
abbrev A5 (c : Dev nD) : Cert.ReferenceIdeal.S128x128.Idx → EReal := m ((c.tc : Thread nD τ).loc main_arg5)
abbrev A6 (c : Dev nD) : Cert.ReferenceIdeal.S128.Idx → EReal := m ((c.tc : Thread nD τ).loc main_arg6)
abbrev A7 (c : Dev nD) : Cert.ReferenceIdeal.S128x128.Idx → EReal := m ((c.tc : Thread nD τ).loc main_arg7)
abbrev A8 (c : Dev nD) : Cert.ReferenceIdeal.S128.Idx → EReal := m ((c.tc : Thread nD τ).loc main_arg8)
abbrev A9 (c : Dev nD) : Cert.ReferenceIdeal.S128x128.Idx → EReal := m ((c.tc : Thread nD τ).loc main_arg9)
abbrev A10 (c : Dev nD) : Cert.ReferenceIdeal.S128.Idx → EReal := m ((c.tc : Thread nD τ).loc main_arg10)
abbrev A11 (c : Dev nD) : Cert.ReferenceIdeal.S640x640.Idx → EReal := m ((c.tc : Thread nD τ).loc main_arg11)
abbrev A12 (c : Dev nD) : Cert.ReferenceIdeal.S640.Idx → EReal := m ((c.tc : Thread nD τ).loc main_arg12)
abbrev A13 (c : Dev nD) : Cert.ReferenceIdeal.S640x1.Idx → EReal := m ((c.tc : Thread nD τ).loc main_arg13)
abbrev A14 (c : Dev nD) : Cert.ReferenceIdeal.S1.Idx → EReal := m ((c.tc : Thread nD τ).loc main_arg14)

/-! ## Before the first region -/

theorem w1_v3 (c : Dev nD) : (W1 m ρ c (Proc.devRef .tc main_v3) : S1700000.Idx → BitVec 32) = Cert.ReferenceIdeal.ReadP.val_main_v3 (F := Ideal) (A1 m c) := after0_v3 (W0 m ρ c)
theorem w1_v6 (c : Dev nD) : (W1 m ρ c (Proc.devRef .tc main_v6) : S1700000.Idx → BitVec 32) = Cert.ReferenceIdeal.ReadP.val_main_v6 (F := Ideal) (A1 m c) := after0_v6 (W0 m ρ c)
theorem w1_v12 (c : Dev nD) : (W1 m ρ c (Proc.devRef .tc main_v12) : S100000.Idx → BitVec 1) = Cert.ReferenceIdeal.ReadP.val_main_v12 (F := Ideal) (A1 m c) := after0_v12 (W0 m ρ c)
theorem w1_v15 (c : Dev nD) : (W1 m ρ c (Proc.devRef .tc main_v15) : S100000.Idx → EReal) = Cert.ReferenceIdeal.ReadP.val_main_v15 (F := Ideal) (A1 m c) := after0_v15 (W0 m ρ c)
theorem w1_cst3 (c : Dev nD) : (W1 m ρ c (Proc.devRef .tc main_cst_3) : S_.Idx → EReal) = constant (F := Ideal) S_ .f32 0x00000000#32 := after0_cst3 (W0 m ρ c)
theorem w2_v16 (c : Dev nD) : (W2 m ρ c (Proc.devRef .tc main_v16) : S100000.Idx → EReal) = Cert.ReferenceIdeal.ReadP.val_main_v16 (F := Ideal) (A1 m c) :=
  after01_v16 (W1 m ρ c) (A1 m c) (w1_v12 m ρ c) (w1_v15 m ρ c) (w1_cst3 m ρ c)
theorem w3_v17 (c : Dev nD) : (W3 m ρ c (Proc.devRef .tc main_v17) : S100000x1.Idx → EReal) = Cert.Bridge.d2K (A1 m c) :=
  after02_v17' (W2 m ρ c) (A1 m c) (w2_v16 m ρ c)
theorem w3_v26 (c : Dev nD) : (W3 m ρ c (Proc.devRef .tc main_v26) : S512x1.Idx → EReal) = Cert.Bridge.rcK (A2 m c) :=
  (after02_v26 (W2 m ρ c)).trans (congrArg Cert.Bridge.rcK (back_main_arg2_2_0 m ρ c))

/-! ## The first transform -/

theorem w4_v27 (c : Dev nD) : (W4 m ρ c (Proc.devRef .tc main_v27) : S100000x128.Idx → EReal) = (Cert.Bridge.kT (A0 m c) (A3 m c) (A1 m c)) := by
  refine (W4_arr m ρ c 3).trans ((final0_3 (T3 m ρ) c).trans ?_)
  show G0 (W3 m ρ c (Proc.devRef .tc main_arg0)) (W3 m ρ c (Proc.devRef .tc main_arg3)) (W3 m ρ c (Proc.devRef .tc main_v17)) = _
  rw [back_main_arg0_3_0 m ρ c, back_main_arg3_3_0 m ρ c, w3_v17 m ρ c]
  rfl

end Cert.KernelIdeal.H

end
-- ==== Proof.KI.Host1.lean ====
import proofs.«105302_j51668456571568_2_alg».proof.Proof.Gen.KernelIdeal.Launch
import Idealize.ShloMosaic.Lib.StableHlo.Run
import proofs.«105302_j51668456571568_2_alg».proof.Proof.KChainDefs
import proofs.«105302_j51668456571568_2_alg».proof.Proof.TailDefs
import proofs.«105302_j51668456571568_2_alg».proof.Proof.LibTRef

noncomputable section

namespace Cert.KernelIdeal.H

open Cert.KernelIdeal Cert.KernelIdeal.Gen Idealize.ShloMosaic Idealize.ShloMosaic.TcCoe Idealize.SL.Sem
open Idealize.ShloMosaic.StableHlo

-- any buffer contents before the stretch, at the ideal values
variable (V : Valuation τ sig (Elt Ideal))

/-! # What the five stretches between the layers compute, from any contents before them

Each gathers the previous region's transformed features at the (normalised) row indices, widens them, scatter-adds
them into zeros at the column indices, and lays the next layer's bias as a one-row array. -/

set_option maxHeartbeats 1000000 in
/-- The aggregation along the edges: the transformed rows gathered at the normalised row indices, widened, and scatter-added into zeros at the column indices. -/
theorem after1_v38 : (after (hostOps1 (F := Ideal)) V (Proc.devRef .tc main_v38) : S100000x128.Idx → EReal)
    = Cert.Bridge.aggK (V (Proc.devRef .tc main_v27)) (V (Proc.devRef .tc main_v3)) (V (Proc.devRef .tc main_v6)) := by
  dsimp only [hostOps1]; after_results; rfl

set_option maxHeartbeats 1000000 in
/-- The layer's bias laid as a one-row array. -/
theorem after1_v39 : (after (hostOps1 (F := Ideal)) V (Proc.devRef .tc main_v39) : S1x128.Idx → EReal)
    = Cert.Bridge.brK (V (Proc.devRef .tc main_arg4)) := by
  dsimp only [hostOps1]; after_results; rfl

set_option maxHeartbeats 1000000 in
/-- The aggregation along the edges: the transformed rows gathered at the normalised row indices, widened, and scatter-added into zeros at the column indices. -/
theorem after2_v51 : (after (hostOps2 (F := Ideal)) V (Proc.devRef .tc main_v51) : S100000x128.Idx → EReal)
    = Cert.Bridge.aggK (V (Proc.devRef .tc main_v40_1)) (V (Proc.devRef .tc main_v3)) (V (Proc.devRef .tc main_v6)) := by
  dsimp only [hostOps2]; after_results; rfl

set_option maxHeartbeats 1000000 in
/-- The layer's bias laid as a one-row array. -/
theorem after2_v52 : (after (hostOps2 (F := Ideal)) V (Proc.devRef .tc main_v52) : S1x128.Idx → EReal)
    = Cert.Bridge.brK (V (Proc.devRef .tc main_arg6)) := by
  dsimp only [hostOps2]; after_results; rfl

set_option maxHeartbeats 1000000 in
/-- The aggregation along the edges: the transformed rows gathered at the normalised row indices, widened, and scatter-added into zeros at the column indices. -/
theorem after3_v64 : (after (hostOps3 (F := Ideal)) V (Proc.devRef .tc main_v64) : S100000x128.Idx → EReal)
    = Cert.Bridge.aggK (V (Proc.devRef .tc main_v53_1)) (V (Proc.devRef .tc main_v3)) (V (Proc.devRef .tc main_v6)) := by
  dsimp only [hostOps3]; after_results; rfl

set_option maxHeartbeats 1000000 in
/-- The layer's bias laid as a one-row array. -/
theorem after3_v65 : (after (hostOps3 (F := Ideal)) V (Proc.devRef .tc main_v65) : S1x128.Idx → EReal)
    = Cert.Bridge.brK (V (Proc.devRef .tc main_arg8)) := by
  dsimp only [hostOps3]; after_results; rfl

set_option maxHeartbeats 1000000 in
/-- The aggregation along the edges: the transformed rows gathered at the normalised row indices, widened, and scatter-added into zeros at the column indices. -/
theorem after4_v77 : (after (hostOps4 (F := Ideal)) V (Proc.devRef .tc main_v77) : S100000x128.Idx → EReal)
    = Cert.Bridge.aggK (V (Proc.devRef .tc main_v66_1)) (V (Proc.devRef .tc main_v3)) (V (Proc.devRef .tc main_v6)) := by
  dsimp only [hostOps4]; after_results; rfl

set_option maxHeartbeats 1000000 in
/-- The layer's bias laid as a one-row array. -/
theorem after4_v78 : (after (hostOps4 (F := Ideal)) V (Proc.devRef .tc main_v78) : S1x128.Idx → EReal)
    = Cert.Bridge.brK (V (Proc.devRef .tc main_arg10)) := by
  dsimp only [hostOps4]; after_results; rfl

set_option maxHeartbeats 1000000 in
/-- The aggregation along the edges: the transformed rows gathered at the normalised row indices, widened, and scatter-added into zeros at the column indices. -/
theorem after5_v90 : (after (hostOps5 (F := Ideal)) V (Proc.devRef .tc main_v90) : S100000x128.Idx → EReal)
    = Cert.Bridge.aggK (V (Proc.devRef .tc main_v79_1)) (V (Proc.devRef .tc main_v3)) (V (Proc.devRef .tc main_v6)) := by
  dsimp only [hostOps5]; after_results; rfl

set_option maxHeartbeats 1000000 in
/-- The layer's bias laid as a one-row array. -/
theorem after5_v91 : (after (hostOps5 (F := Ideal)) V (Proc.devRef .tc main_v91) : S1x128.Idx → EReal)
    = Cert.Bridge.brK (V (Proc.devRef .tc main_arg10)) := by
  dsimp only [hostOps5]; after_results; rfl

end Cert.KernelIdeal.H

end
-- ==== Proof.KI.VDefs.lean ====
import proofs.«105302_j51668456571568_2_alg».proof.KernelIdeal
import Idealize.ShloMosaic.Lib.ValueIdx

/-!
# The layer outputs as functions of the arrays a layer reads, on the extended reals

A graph-convolution layer reads the aggregated rows `agg` (100000 x 128), one scale per row `d2` (100000 x 1), a
bias row `br` (1 x 128) and, when it also prepares the next layer's messages, a weight matrix `w` (128 x 128).
`GH` is the layer's activation `max (scale * rows + bias) 0`; `GT` is the next layer's scaled messages,
`(activation ⬝ w) * scale`, the product's contraction written as a sum over the 128 features.
-/

noncomputable section

namespace Cert.KernelIdeal.H

open Cert.KernelIdeal Idealize.ShloMosaic Idealize.ShloMosaic.ValueIdx
open scoped BigOperators

/-- The activation at entry `(n, q)`: `max (d2 n * agg (n, q) + br q) 0`. -/
abbrev GH (agg : S100000x128.Idx → EReal) (d2 : S100000x1.Idx → EReal) (br : S1x128.Idx → EReal) : S100000x128.Idx → EReal :=
  fun i => max (d2 (ix2 (⟨(i 0).val, (i 0).isLt⟩ : Fin 100000) (0 : Fin 1)) * agg i + br (ix2 (0 : Fin 1) (⟨(i 1).val, (i 1).isLt⟩ : Fin 128))) 0

/-- The scaled messages at entry `(n, q)`: `(∑ k, activation (n, k) * w (k, q)) * d2 n`. -/
abbrev GT (agg : S100000x128.Idx → EReal) (d2 : S100000x1.Idx → EReal) (br : S1x128.Idx → EReal) (w : S128x128.Idx → EReal) : S100000x128.Idx → EReal :=
  fun i => (∑ k : Fin 128, GH agg d2 br (ix2 (⟨(i 0).val, (i 0).isLt⟩ : Fin 100000) k) * w (ix2 k (⟨(i 1).val, (i 1).isLt⟩ : Fin 128))) * d2 (ix2 (⟨(i 0).val, (i 0).isLt⟩ : Fin 100000) (0 : Fin 1))

/-- One entry of the activation from the three numbers it reads: `max (s * x + b) 0`. -/
abbrev hval (s x b : EReal) : EReal := max (s * x + b) 0

/-- One entry of the scaled messages from the scale `s` and, per feature `k`, the row entry `x k`, the bias `b k`
    and the weight `w k`. -/
abbrev tval (s : EReal) (x b w : Fin 128 → EReal) : EReal := (∑ k : Fin 128, hval s (x k) (b k) * w k) * s

end Cert.KernelIdeal.H

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.KI.V1.lean ====
import proofs.«105302_j51668456571568_2_alg».proof.Proof.KI.R1
import proofs.«105302_j51668456571568_2_alg».proof.Proof.KI.VDefs
import proofs.«105302_j51668456571568_2_alg».proof.Proof.LibColumn
import proofs.«105302_j51668456571568_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

/-! # Region 1 on the extended reals: each output array as one function of the arrays the region finds

Every entry `(n, q)` of the first 100000x128 output ends at the activation `max (scale n * rows (n, q) + bias q) 0`,
and of the second at `(∑ k, activation (n, k) * weights (k, q)) * scale n`: the point that covers row `n` is
`n / 5000`, its block of 5000 rows is read off the same rows of the row inputs, and the bias row and the weight
matrix are read whole at every point. -/

/-- Both offsets of a whole-buffer access are zero. -/
theorem zero_offsets1 : (![0, 0] : Fin 2 → Nat) = fun _ => 0 := funext fun a => by fin_cases a <;> rfl

/-! ## The stored values at an entry -/

/-- The first stored value at `(p, q)` of a block: the row's scale times the entry, plus the column's bias, cut below at zero. -/
theorem pay1a_apply (v0 : Vec Ideal S5000x1 .f32) (v2 : Vec Ideal S5000x128 .f32) (v6 : Vec Ideal S1x128 .f32) (p : Fin 5000) (q : Fin 128) :
    k1_pay1 v0 v2 v6 (ix2 p q) = max (v0 (ix2 p (0 : Fin 1)) * v2 (ix2 p q) + v6 (ix2 (0 : Fin 1) q)) 0 := by
  unfold k1_pay1
  show max (broadcastTo S5000x128 (shapeCast S5000x1 v0 shapeCasts_S5000x1_S5000x1) broadcasts_S5000x1_S5000x128 (ix2 p q)
      * shapeCast S5000x128 v2 shapeCasts_S5000x128_S5000x128 (ix2 p q)
      + broadcastTo S5000x128 (shapeCast S1x128 v6 shapeCasts_S1x128_S1x128) broadcasts_S1x128_S5000x128 (ix2 p q))
      (Ideal.ofBits .f32 0x00000000#32) = _
  rw [shapeCast_self, shapeCast_self, shapeCast_self, Ideal.ofBits_zero_f32]
  rw [LibColumn.broadcastTo_a1_ab_apply v0 broadcasts_S5000x1_S5000x128 p q, broadcastTo_1b_ab_apply v6 broadcasts_S1x128_S5000x128 p q]

/-- The second stored value at `(p, q)` of a block: row `p` of the first stored value contracted with column `q` of the
    weights, times the row's scale; the roundings to bf16 are the identity on the extended reals. -/
theorem pay1b_apply (v0 : Vec Ideal S5000x1 .f32) (v2 : Vec Ideal S5000x128 .f32) (v6 : Vec Ideal S1x128 .f32) (v14 : Vec Ideal S128x128 .f32)
    (v17 : Vec Ideal S5000x1 .f32) (p : Fin 5000) (q : Fin 128) :
    k1_pay2 v0 v2 v6 v14 v17 (ix2 p q)
      = (∑ k : Fin 128, max (v0 (ix2 p (0 : Fin 1)) * v2 (ix2 p k) + v6 (ix2 (0 : Fin 1) k)) 0 * v14 (ix2 k q)) * v17 (ix2 p (0 : Fin 1)) := by
  unfold k1_pay2
  show FloatOps.matmul dot_S5000x128_S128x128_S5000x128_1_0_0_1_n_n none
        (truncf .bf16 (k1_pay1 v0 v2 v6) bitsLt_bf16_f32 : FVec Ideal S5000x128 .bf16) (truncf .bf16 v14 bitsLt_bf16_f32 : FVec Ideal S128x128 .bf16)
        (constant (F := Ideal) S5000x128 .f32 0x00000000#32) (ix2 p q)
      * broadcastTo S5000x128 (shapeCast S5000x1 v17 shapeCasts_S5000x1_S5000x1) broadcasts_S5000x1_S5000x128 (ix2 p q) = _
  rw [shapeCast_self, LibColumn.broadcastTo_a1_ab_apply v17 broadcasts_S5000x1_S5000x128 p q]
  refine congrArg (· * v17 (ix2 p (0 : Fin 1))) ?_
  refine (LibDot.matmul_zero_plain_apply dot_S5000x128_S128x128_S5000x128_1_0_0_1_n_n rfl rfl rfl rfl rfl rfl none _ _ (ix2 p q)).trans ?_
  refine Finset.sum_congr rfl fun k _ => ?_
  show k1_pay1 v0 v2 v6 (ix2 p k) * v14 (ix2 k q) = _
  rw [pay1a_apply]

/-- What the body leaves in the first output buffer, at `(p, q)`, from the input blocks. -/
theorem out1_4_apply (x0 : Vec Ideal S5000x128 .f32) (x1 : Vec Ideal S5000x1 .f32) (x2 : Vec Ideal S1x128 .f32) (p : Fin 5000) (q : Fin 128) :
    out1_4 x0 x1 x2 (ix2 p q) = max (x1 (ix2 p (0 : Fin 1)) * x0 (ix2 p q) + x2 (ix2 (0 : Fin 1) q)) 0 := by
  unfold out1_4
  rw [View.canon_unit_zero zero_offsets1]
  simp only [View.ld_unit_zero (S := S5000x128) zero_offsets1, View.ld_unit_zero (S := S5000x1) zero_offsets1, View.ld_unit_zero (S := S1x128) zero_offsets1]
  exact pay1a_apply x1 x0 x2 p q

/-- What the body leaves in the second output buffer, at `(p, q)`, from the input blocks. -/
theorem out1_5_apply (x0 : Vec Ideal S5000x128 .f32) (x1 : Vec Ideal S5000x1 .f32) (x2 : Vec Ideal S1x128 .f32) (x3 : Vec Ideal S128x128 .f32) (p : Fin 5000) (q : Fin 128) :
    out1_5 x0 x1 x2 x3 (ix2 p q)
      = (∑ k : Fin 128, max (x1 (ix2 p (0 : Fin 1)) * x0 (ix2 p k) + x2 (ix2 (0 : Fin 1) k)) 0 * x3 (ix2 k q)) * x1 (ix2 p (0 : Fin 1)) := by
  unfold out1_5
  rw [View.canon_unit_zero zero_offsets1]
  simp only [View.ld_unit_zero (S := S5000x128) zero_offsets1, View.ld_unit_zero (S := S5000x1) zero_offsets1, View.ld_unit_zero (S := S1x128) zero_offsets1, View.ld_unit_zero (S := S128x128) zero_offsets1]
  exact pay1b_apply x1 x0 x2 x3 x1 p q

/-! ## The block indices -/

/-- The block indices, decided over the twenty grid points: the row windows sit at block `t` of their first axis,
    the bias and weight windows at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Every block of 5000 rows of the first output is some point's. -/
theorem idx_onto1_4 : ∀ (q0 : Fin 20), ∃ t : Fin cfg1.N, win1_4.index t = ![q0.val, 0] :=
  (by decide +kernel : ∀ (q0 : Fin 20), ∃ t : Fin grid1.N, win1_4.index t = ![q0.val, 0])

/-- Every block of 5000 rows of the second output is some point's. -/
theorem idx_onto1_5 : ∀ (q0 : Fin 20), ∃ t : Fin cfg1.N, win1_5.index t = ![q0.val, 0] :=
  (by decide +kernel : ∀ (q0 : Fin 20), ∃ t : Fin grid1.N, win1_5.index t = ![q0.val, 0])

/-! ## The first output: the activation -/

/-- Entry `(p, q)` of what point `t` leaves in the first output buffer is `GH` at that entry's place in the array. -/
theorem point1_4 (c : Dev nD) (t : Fin cfg1.N) (p : Fin 5000) (q : Fin 128) :
    out1_4 (iblk1 V c 0 t) (iblk1 V c 1 t) (iblk1 V c 2 t) (ix2 p q)
      = GH (V c main_v38) (V c main_v17) (V c main_v39) (((cfg1.win 4).blk t).view.emb (ix2 p q)) := by
  refine (out1_4_apply (iblk1 V c 0 t) (iblk1 V c 1 t) (iblk1 V c 2 t) p q).trans ?_
  obtain ⟨e00, e01, e10, e11, e20, e21, e30, e31, e40, e41, e50, e51⟩ := idx_facts1 t
  have hp : p.val < 5000 := p.isLt
  have hq : q.val < 128 := q.isLt
  show hval (V c main_v17 (((cfg1.win 1).blk t).view.emb (ix2 p (0 : Fin 1)))) (V c main_v38 (((cfg1.win 0).blk t).view.emb (ix2 p q)))
      (V c main_v39 (((cfg1.win 2).blk t).view.emb (ix2 (0 : Fin 1) q))) = _
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p (0 : Fin 1))
      = ix2 (⟨(((cfg1.win 4).blk t).view.emb (ix2 p q) 0).val, (((cfg1.win 4).blk t).view.emb (ix2 p q) 0).isLt⟩ : Fin 100000) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ((cfg1.win 2).blk t).view.emb (ix2 (0 : Fin 1) q)
      = ix2 (0 : Fin 1) (⟨(((cfg1.win 4).blk t).view.emb (ix2 p q) 1).val, (((cfg1.win 4).blk t).view.emb (ix2 p q) 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  rw [h0, h1, h2]

/-- What point `t` writes back to the first output is block `t` of `GH` of the arrays as the region finds them. -/
theorem flushed1_4_eq (c : Dev nD) (t : Fin cfg1.N) :
    (dat1 V c).flushed 4 t = ((cfg1.win 4).blk t).view.read (Elt Ideal) (GH (V c main_v38) (V c main_v17) (V c main_v39)) := by
  show (cfg1.win 4).cut (grid1.coords t) ((dat1 V c).after 4 t) = _
  rw [after1_4]
  funext j
  obtain ⟨p, q, rfl⟩ : ∃ (p : Fin 5000) (q : Fin 128), j = ix2 p q := ⟨j 0, j 1, eq_ix2 j⟩
  exact point1_4 V c t p q

/-- An index of the first output is in point `t`'s block iff each coordinate is in the block's range on its axis. -/
theorem mem_blk1_4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v40_0).slice (win1_4.rect t)).set ↔ _
  rw [View.set_slice_whole, Rect.mem_set_unit]
  exact Iff.rfl

/-- Every index of the first output is in the block of the point its row falls to. -/
theorem covered1_4 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto1_4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The first output array after the region is the activation. -/
theorem final1_4 (c : Dev nD) : (dat1 V c).arrAt 4 cfg1.N = GH (V c main_v38) (V c main_v17) (V c main_v39) :=
  (dat1 V c).arrAt_eq_of_cover 4 (GH (V c main_v38) (V c main_v17) (V c main_v39)) (fun t _ => flushed1_4_eq V c t) covered1_4

/-! ## The second output: the scaled messages -/

/-- Entry `(p, q)` of what point `t` leaves in the second output buffer is `GT` at that entry's place in the array. -/
theorem point1_5 (c : Dev nD) (t : Fin cfg1.N) (p : Fin 5000) (q : Fin 128) :
    out1_5 (iblk1 V c 0 t) (iblk1 V c 1 t) (iblk1 V c 2 t) (iblk1 V c 3 t) (ix2 p q)
      = GT (V c main_v38) (V c main_v17) (V c main_v39) (V c main_arg5) (((cfg1.win 5).blk t).view.emb (ix2 p q)) := by
  refine (out1_5_apply (iblk1 V c 0 t) (iblk1 V c 1 t) (iblk1 V c 2 t) (iblk1 V c 3 t) p q).trans ?_
  obtain ⟨e00, e01, e10, e11, e20, e21, e30, e31, e40, e41, e50, e51⟩ := idx_facts1 t
  have hp : p.val < 5000 := p.isLt
  have hq : q.val < 128 := q.isLt
  show tval (V c main_v17 (((cfg1.win 1).blk t).view.emb (ix2 p (0 : Fin 1)))) (fun k => V c main_v38 (((cfg1.win 0).blk t).view.emb (ix2 p k)))
      (fun k => V c main_v39 (((cfg1.win 2).blk t).view.emb (ix2 (0 : Fin 1) k))) (fun k => V c main_arg5 (((cfg1.win 3).blk t).view.emb (ix2 k q))) = _
  have h0 : ∀ k : Fin 128, ((cfg1.win 0).blk t).view.emb (ix2 p k) = ix2 (⟨(((cfg1.win 5).blk t).view.emb (ix2 p q) 0).val, (((cfg1.win 5).blk t).view.emb (ix2 p q) 0).isLt⟩ : Fin 100000) k := fun k => by
    have hk : k.val < 128 := k.isLt
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have h1 : ((cfg1.win 1).blk t).view.emb (ix2 p (0 : Fin 1))
      = ix2 (⟨(((cfg1.win 5).blk t).view.emb (ix2 p q) 0).val, (((cfg1.win 5).blk t).view.emb (ix2 p q) 0).isLt⟩ : Fin 100000) (0 : Fin 1) := by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q) = ix2 k (⟨(((cfg1.win 5).blk t).view.emb (ix2 p q) 1).val, (((cfg1.win 5).blk t).view.emb (ix2 p q) 1).isLt⟩ : Fin 128) := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  rw [h1]
  simp only [h0, h2, h3]

/-- What point `t` writes back to the second output is block `t` of `GT` of the arrays as the region finds them. -/
theorem flushed1_5_eq (c : Dev nD) (t : Fin cfg1.N) :
    (dat1 V c).flushed 5 t = ((cfg1.win 5).blk t).view.read (Elt Ideal) (GT (V c main_v38) (V c main_v17) (V c main_v39) (V c main_arg5)) := by
  show (cfg1.win 5).cut (grid1.coords t) ((dat1 V c).after 5 t) = _
  rw [after1_5]
  funext j
  obtain ⟨p, q, rfl⟩ : ∃ (p : Fin 5000) (q : Fin 128), j = ix2 p q := ⟨j 0, j 1, eq_ix2 j⟩
  exact point1_5 V c t p q

/-- An index of the second output is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40_1).slice (win1_5.rect t)).set ↔ _
  rw [View.set_slice_whole, Rect.mem_set_unit]
  exact Iff.rfl

/-- Every index of the second output is in the block of the point its row falls to. -/
theorem covered1_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1_5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second output array after the region is the scaled messages. -/
theorem final1_5 (c : Dev nD) : (dat1 V c).arrAt 5 cfg1.N = GT (V c main_v38) (V c main_v17) (V c main_v39) (V c main_arg5) :=
  (dat1 V c).arrAt_eq_of_cover 5 (GT (V c main_v38) (V c main_v17) (V c main_v39) (V c main_arg5)) (fun t _ => flushed1_5_eq V c t) covered1_5

end Cert.KernelIdeal.H

end
-- ==== Proof.KI.V2.lean ====
import proofs.«105302_j51668456571568_2_alg».proof.Proof.KI.R2
import proofs.«105302_j51668456571568_2_alg».proof.Proof.KI.VDefs
import proofs.«105302_j51668456571568_2_alg».proof.Proof.LibColumn
import proofs.«105302_j51668456571568_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

/-! # Region 2 on the extended reals: each output array as one function of the arrays the region finds

Every entry `(n, q)` of the first 100000x128 output ends at the activation `max (scale n * rows (n, q) + bias q) 0`,
and of the second at `(∑ k, activation (n, k) * weights (k, q)) * scale n`: the point that covers row `n` is
`n / 5000`, its block of 5000 rows is read off the same rows of the row inputs, and the bias row and the weight
matrix are read whole at every point. -/

/-- Both offsets of a whole-buffer access are zero. -/
theorem zero_offsets2 : (![0, 0] : Fin 2 → Nat) = fun _ => 0 := funext fun a => by fin_cases a <;> rfl

/-! ## The stored values at an entry -/

/-- The first stored value at `(p, q)` of a block: the row's scale times the entry, plus the column's bias, cut below at zero. -/
theorem pay2a_apply (v0 : Vec Ideal S5000x1 .f32) (v2 : Vec Ideal S5000x128 .f32) (v6 : Vec Ideal S1x128 .f32) (p : Fin 5000) (q : Fin 128) :
    k2_pay1 v0 v2 v6 (ix2 p q) = max (v0 (ix2 p (0 : Fin 1)) * v2 (ix2 p q) + v6 (ix2 (0 : Fin 1) q)) 0 := by
  unfold k2_pay1
  show max (broadcastTo S5000x128 (shapeCast S5000x1 v0 shapeCasts_S5000x1_S5000x1) broadcasts_S5000x1_S5000x128 (ix2 p q)
      * shapeCast S5000x128 v2 shapeCasts_S5000x128_S5000x128 (ix2 p q)
      + broadcastTo S5000x128 (shapeCast S1x128 v6 shapeCasts_S1x128_S1x128) broadcasts_S1x128_S5000x128 (ix2 p q))
      (Ideal.ofBits .f32 0x00000000#32) = _
  rw [shapeCast_self, shapeCast_self, shapeCast_self, Ideal.ofBits_zero_f32]
  rw [LibColumn.broadcastTo_a1_ab_apply v0 broadcasts_S5000x1_S5000x128 p q, broadcastTo_1b_ab_apply v6 broadcasts_S1x128_S5000x128 p q]

/-- The second stored value at `(p, q)` of a block: row `p` of the first stored value contracted with column `q` of the
    weights, times the row's scale; the roundings to bf16 are the identity on the extended reals. -/
theorem pay2b_apply (v0 : Vec Ideal S5000x1 .f32) (v2 : Vec Ideal S5000x128 .f32) (v6 : Vec Ideal S1x128 .f32) (v14 : Vec Ideal S128x128 .f32)
    (v17 : Vec Ideal S5000x1 .f32) (p : Fin 5000) (q : Fin 128) :
    k2_pay2 v0 v2 v6 v14 v17 (ix2 p q)
      = (∑ k : Fin 128, max (v0 (ix2 p (0 : Fin 1)) * v2 (ix2 p k) + v6 (ix2 (0 : Fin 1) k)) 0 * v14 (ix2 k q)) * v17 (ix2 p (0 : Fin 1)) := by
  unfold k2_pay2
  show FloatOps.matmul dot_S5000x128_S128x128_S5000x128_1_0_0_1_n_n none
        (truncf .bf16 (k2_pay1 v0 v2 v6) bitsLt_bf16_f32 : FVec Ideal S5000x128 .bf16) (truncf .bf16 v14 bitsLt_bf16_f32 : FVec Ideal S128x128 .bf16)
        (constant (F := Ideal) S5000x128 .f32 0x00000000#32) (ix2 p q)
      * broadcastTo S5000x128 (shapeCast S5000x1 v17 shapeCasts_S5000x1_S5000x1) broadcasts_S5000x1_S5000x128 (ix2 p q) = _
  rw [shapeCast_self, LibColumn.broadcastTo_a1_ab_apply v17 broadcasts_S5000x1_S5000x128 p q]
  refine congrArg (· * v17 (ix2 p (0 : Fin 1))) ?_
  refine (LibDot.matmul_zero_plain_apply dot_S5000x128_S128x128_S5000x128_1_0_0_1_n_n rfl rfl rfl rfl rfl rfl none _ _ (ix2 p q)).trans ?_
  refine Finset.sum_congr rfl fun k _ => ?_
  show k2_pay1 v0 v2 v6 (ix2 p k) * v14 (ix2 k q) = _
  rw [pay2a_apply]

/-- What the body leaves in the first output buffer, at `(p, q)`, from the input blocks. -/
theorem out2_4_apply (x0 : Vec Ideal S5000x128 .f32) (x1 : Vec Ideal S5000x1 .f32) (x2 : Vec Ideal S1x128 .f32) (p : Fin 5000) (q : Fin 128) :
    out2_4 x0 x1 x2 (ix2 p q) = max (x1 (ix2 p (0 : Fin 1)) * x0 (ix2 p q) + x2 (ix2 (0 : Fin 1) q)) 0 := by
  unfold out2_4
  rw [View.canon_unit_zero zero_offsets2]
  simp only [View.ld_unit_zero (S := S5000x128) zero_offsets2, View.ld_unit_zero (S := S5000x1) zero_offsets2, View.ld_unit_zero (S := S1x128) zero_offsets2]
  exact pay2a_apply x1 x0 x2 p q

/-- What the body leaves in the second output buffer, at `(p, q)`, from the input blocks. -/
theorem out2_5_apply (x0 : Vec Ideal S5000x128 .f32) (x1 : Vec Ideal S5000x1 .f32) (x2 : Vec Ideal S1x128 .f32) (x3 : Vec Ideal S128x128 .f32) (p : Fin 5000) (q : Fin 128) :
    out2_5 x0 x1 x2 x3 (ix2 p q)
      = (∑ k : Fin 128, max (x1 (ix2 p (0 : Fin 1)) * x0 (ix2 p k) + x2 (ix2 (0 : Fin 1) k)) 0 * x3 (ix2 k q)) * x1 (ix2 p (0 : Fin 1)) := by
  unfold out2_5
  rw [View.canon_unit_zero zero_offsets2]
  simp only [View.ld_unit_zero (S := S5000x128) zero_offsets2, View.ld_unit_zero (S := S5000x1) zero_offsets2, View.ld_unit_zero (S := S1x128) zero_offsets2, View.ld_unit_zero (S := S128x128) zero_offsets2]
  exact pay2b_apply x1 x0 x2 x3 x1 p q

/-! ## The block indices -/

/-- The block indices, decided over the twenty grid points: the row windows sit at block `t` of their first axis,
    the bias and weight windows at their one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Every block of 5000 rows of the first output is some point's. -/
theorem idx_onto2_4 : ∀ (q0 : Fin 20), ∃ t : Fin cfg2.N, win2_4.index t = ![q0.val, 0] :=
  (by decide +kernel : ∀ (q0 : Fin 20), ∃ t : Fin grid2.N, win2_4.index t = ![q0.val, 0])

/-- Every block of 5000 rows of the second output is some point's. -/
theorem idx_onto2_5 : ∀ (q0 : Fin 20), ∃ t : Fin cfg2.N, win2_5.index t = ![q0.val, 0] :=
  (by decide +kernel : ∀ (q0 : Fin 20), ∃ t : Fin grid2.N, win2_5.index t = ![q0.val, 0])

/-! ## The first output: the activation -/

/-- Entry `(p, q)` of what point `t` leaves in the first output buffer is `GH` at that entry's place in the array. -/
theorem point2_4 (c : Dev nD) (t : Fin cfg2.N) (p : Fin 5000) (q : Fin 128) :
    out2_4 (iblk2 V c 0 t) (iblk2 V c 1 t) (iblk2 V c 2 t) (ix2 p q)
      = GH (V c main_v51) (V c main_v17) (V c main_v52) (((cfg2.win 4).blk t).view.emb (ix2 p q)) := by
  refine (out2_4_apply (iblk2 V c 0 t) (iblk2 V c 1 t) (iblk2 V c 2 t) p q).trans ?_
  obtain ⟨e00, e01, e10, e11, e20, e21, e30, e31, e40, e41, e50, e51⟩ := idx_facts2 t
  have hp : p.val < 5000 := p.isLt
  have hq : q.val < 128 := q.isLt
  show hval (V c main_v17 (((cfg2.win 1).blk t).view.emb (ix2 p (0 : Fin 1)))) (V c main_v51 (((cfg2.win 0).blk t).view.emb (ix2 p q)))
      (V c main_v52 (((cfg2.win 2).blk t).view.emb (ix2 (0 : Fin 1) q))) = _
  have h0 : ((cfg2.win 0).blk t).view.emb (ix2 p q) = ((cfg2.win 4).blk t).view.emb (ix2 p q) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * q.val = win2_4.index t (1 : Fin 2) * 128 + 1 * q.val; omega
  have h1 : ((cfg2.win 1).blk t).view.emb (ix2 p (0 : Fin 1))
      = ix2 (⟨(((cfg2.win 4).blk t).view.emb (ix2 p q) 0).val, (((cfg2.win 4).blk t).view.emb (ix2 p q) 0).isLt⟩ : Fin 100000) (0 : Fin 1) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 1 + 1 * 0 = 0; omega
  have h2 : ((cfg2.win 2).blk t).view.emb (ix2 (0 : Fin 1) q)
      = ix2 (0 : Fin 1) (⟨(((cfg2.win 4).blk t).view.emb (ix2 p q) 1).val, (((cfg2.win 4).blk t).view.emb (ix2 p q) 1).isLt⟩ : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_4.index t (1 : Fin 2) * 128 + 1 * q.val; omega
  rw [h0, h1, h2]

/-- What point `t` writes back to the first output is block `t` of `GH` of the arrays as the region finds them. -/
theorem flushed2_4_eq (c : Dev nD) (t : Fin cfg2.N) :
    (dat2 V c).flushed 4 t = ((cfg2.win 4).blk t).view.read (Elt Ideal) (GH (V c main_v51) (V c main_v17) (V c main_v52)) := by
  show (cfg2.win 4).cut (grid2.coords t) ((dat2 V c).after 4 t) = _
  rw [after2_4]
  funext j
  obtain ⟨p, q, rfl⟩ : ∃ (p : Fin 5000) (q : Fin 128), j = ix2 p q := ⟨j 0, j 1, eq_ix2 j⟩
  exact point2_4 V c t p q

/-- An index of the first output is in point `t`'s block iff each coordinate is in the block's range on its axis. -/
theorem mem_blk2_4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v53_0).slice (win2_4.rect t)).set ↔ _
  rw [View.set_slice_whole, Rect.mem_set_unit]
  exact Iff.rfl

/-- Every index of the first output is in the block of the point its row falls to. -/
theorem covered2_4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto2_4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The first output array after the region is the activation. -/
theorem final2_4 (c : Dev nD) : (dat2 V c).arrAt 4 cfg2.N = GH (V c main_v51) (V c main_v17) (V c main_v52) :=
  (dat2 V c).arrAt_eq_of_cover 4 (GH (V c main_v51) (V c main_v17) (V c main_v52)) (fun t _ => flushed2_4_eq V c t) covered2_4

/-! ## The second output: the scaled messages -/

/-- Entry `(p, q)` of what point `t` leaves in the second output buffer is `GT` at that entry's place in the array. -/
theorem point2_5 (c : Dev nD) (t : Fin cfg2.N) (p : Fin 5000) (q : Fin 128) :
    out2_5 (iblk2 V c 0 t) (iblk2 V c 1 t) (iblk2 V c 2 t) (iblk2 V c 3 t) (ix2 p q)
      = GT (V c main_v51) (V c main_v17) (V c main_v52) (V c main_arg7) (((cfg2.win 5).blk t).view.emb (ix2 p q)) := by
  refine (out2_5_apply (iblk2 V c 0 t) (iblk2 V c 1 t) (iblk2 V c 2 t) (iblk2 V c 3 t) p q).trans ?_
  obtain ⟨e00, e01, e10, e11, e20, e21, e30, e31, e40, e41, e50, e51⟩ := idx_facts2 t
  have hp : p.val < 5000 := p.isLt
  have hq : q.val < 128 := q.isLt
  show tval (V c main_v17 (((cfg2.win 1).blk t).view.emb (ix2 p (0 : Fin 1)))) (fun k => V c main_v51 (((cfg2.win 0).blk t).view.emb (ix2 p k)))
      (fun k => V c main_v52 (((cfg2.win 2).blk t).view.emb (ix2 (0 : Fin 1) k))) (fun k => V c main_arg7 (((cfg2.win 3).blk t).view.emb (ix2 k q))) = _
  have h0 : ∀ k : Fin 128, ((cfg2.win 0).blk t).view.emb (ix2 p k) = ix2 (⟨(((cfg2.win 5).blk t).view.emb (ix2 p q) 0).val, (((cfg2.win 5).blk t).view.emb (ix2 p q) 0).isLt⟩ : Fin 100000) k := fun k => by
    have hk : k.val < 128 := k.isLt
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have h1 : ((cfg2.win 1).blk t).view.emb (ix2 p (0 : Fin 1))
      = ix2 (⟨(((cfg2.win 5).blk t).view.emb (ix2 p q) 0).val, (((cfg2.win 5).blk t).view.emb (ix2 p q) 0).isLt⟩ : Fin 100000) (0 : Fin 1) := by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 1 + 1 * 0 = 0; omega
  have h2 : ∀ k : Fin 128, ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, ((cfg2.win 3).blk t).view.emb (ix2 k q) = ix2 k (⟨(((cfg2.win 5).blk t).view.emb (ix2 p q) 1).val, (((cfg2.win 5).blk t).view.emb (ix2 p q) 1).isLt⟩ : Fin 128) := fun k => by
    funext a; apply Fin.ext
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  rw [h1]
  simp only [h0, h2, h3]

/-- What point `t` writes back to the second output is block `t` of `GT` of the arrays as the region finds them. -/
theorem flushed2_5_eq (c : Dev nD) (t : Fin cfg2.N) :
    (dat2 V c).flushed 5 t = ((cfg2.win 5).blk t).view.read (Elt Ideal) (GT (V c main_v51) (V c main_v17) (V c main_v52) (V c main_arg7)) := by
  show (cfg2.win 5).cut (grid2.coords t) ((dat2 V c).after 5 t) = _
  rw [after2_5]
  funext j
  obtain ⟨p, q, rfl⟩ : ∃ (p : Fin 5000) (q : Fin 128), j = ix2 p q := ⟨j 0, j 1, eq_ix2 j⟩
  exact point2_5 V c t p q

/-- An index of the second output is in point `t`'s block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v53_1).slice (win2_5.rect t)).set ↔ _
  rw [View.set_slice_whole, Rect.mem_set_unit]
  exact Iff.rfl

/-- Every index of the second output is in the block of the point its row falls to. -/
theorem covered2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2_5 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The second output array after the region is the scaled messages. -/
theorem final2_5 (c : Dev nD) : (dat2 V c).arrAt 5 cfg2.N = GT (V c main_v51) (V c main_v17) (V c main_v52) (V c main_arg7) :=
  (dat2 V c).arrAt_eq_of_cover 5 (GT (V c main_v51) (V c main_v17) (V c main_v52) (V c main_arg7)) (fun t _ => flushed2_5_eq V c t) covered2_5

end Cert.KernelIdeal.H

end
-- ==== Proof.KI.V3.lean ====
import proofs.«105302_j51668456571568_2_alg».proof.Proof.KI.R3
import proofs.«105302_j51668456571568_2_alg».proof.Proof.KI.VDefs
import proofs.«105302_j51668456571568_2_alg».proof.Proof.LibColumn
import proofs.«105302_j51668456571568_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

/-! # Region 3 on the extended reals: each output array as one function of the arrays the region finds

Every entry `(n, q)` of the first 100000x128 output ends at the activation `max (scale n * rows (n, q) + bias q) 0`,
and of the second at `(∑ k, activation (n, k) * weights (k, q)) * scale n`: the point that covers row `n` is
`n / 5000`, its block of 5000 rows is read off the same rows of the row inputs, and the bias row and the weight
matrix are read whole at every point. -/

/-- Both offsets of a whole-buffer access are zero. -/
theorem zero_offsets3 : (![0, 0] : Fin 2 → Nat) = fun _ => 0 := funext fun a => by fin_cases a <;> rfl

/-! ## The stored values at an entry -/

/-- The first stored value at `(p, q)` of a block: the row's scale times the entry, plus the column's bias, cut below at zero. -/
theorem pay3a_apply (v0 : Vec Ideal S5000x1 .f32) (v2 : Vec Ideal S5000x128 .f32) (v6 : Vec Ideal S1x128 .f32) (p : Fin 5000) (q : Fin 128) :
    k3_pay1 v0 v2 v6 (ix2 p q) = max (v0 (ix2 p (0 : Fin 1)) * v2 (ix2 p q) + v6 (ix2 (0 : Fin 1) q)) 0 := by
  unfold k3_pay1
  show max (broadcastTo S5000x128 (shapeCast S5000x1 v0 shapeCasts_S5000x1_S5000x1) broadcasts_S5000x1_S5000x128 (ix2 p q)
      * shapeCast S5000x128 v2 shapeCasts_S5000x128_S5000x128 (ix2 p q)
      + broadcastTo S5000x128 (shapeCast S1x128 v6 shapeCasts_S1x128_S1x128) broadcasts_S1x128_S5000x128 (ix2 p q))
      (Ideal.ofBits .f32 0x00000000#32) = _
  rw [shapeCast_self, shapeCast_self, shapeCast_self, Ideal.ofBits_zero_f32]
  rw [LibColumn.broadcastTo_a1_ab_apply v0 broadcasts_S5000x1_S5000x128 p q, broadcastTo_1b_ab_apply v6 broadcasts_S1x128_S5000x128 p q]

/-- The second stored value at `(p, q)` of a block: row `p` of the first stored value contracted with column `q` of the
    weights, times the row's scale; the roundings to bf16 are the identity on the extended reals. -/
theorem pay3b_apply (v0 : Vec Ideal S5000x1 .f32) (v2 : Vec Ideal S5000x128 .f32) (v6 : Vec Ideal S1x128 .f32) (v14 : Vec Ideal S128x128 .f32)
    (v17 : Vec Ideal S5000x1 .f32) (p : Fin 5000) (q : Fin 128) :
    k3_pay2 v0 v2 v6 v14 v17 (ix2 p q)
      = (∑ k : Fin 128, max (v0 (ix2 p (0 : Fin 1)) * v2 (ix2 p k) + v6 (ix2 (0 : Fin 1) k)) 0 * v14 (ix2 k q)) * v17 (ix2 p (0 : Fin 1)) := by
  unfold k3_pay2
  show FloatOps.matmul dot_S5000x128_S128x128_S5000x128_1_0_0_1_n_n none
        (truncf .bf16 (k3_pay1 v0 v2 v6) bitsLt_bf16_f32 : FVec Ideal S5000x128 .bf16) (truncf .bf16 v14 bitsLt_bf16_f32 : FVec Ideal S128x128 .bf16)
        (constant (F := Ideal) S5000x128 .f32 0x00000000#32) (ix2 p q)
      * broadcastTo S5000x128 (shapeCast S5000x1 v17 shapeCasts_S5000x1_S5000x1) broadcasts_S5000x1_S5000x128 (ix2 p q) = _
  rw [shapeCast_self, LibColumn.broadcastTo_a1_ab_apply v17 broadcasts_S5000x1_S5000x128 p q]
  refine congrArg (· * v17 (ix2 p (0 : Fin 1))) ?_
  refine (LibDot.matmul_zero_plain_apply dot_S5000x128_S128x128_S5000x128_1_0_0_1_n_n rfl rfl rfl rfl rfl rfl none _ _ (ix2 p q)).trans ?_
  refine Finset.sum_congr rfl fun k _ => ?_
  show k3_pay1 v0 v2 v6 (ix2 p k) * v14 (ix2 k q) = _
  rw [pay3a_apply]

/-- What the body leaves in the first output buffer, at `(p, q)`, from the input blocks. -/
theorem out3_4_apply (x0 : Vec Ideal S5000x128 .f32) (x1 : Vec Ideal S5000x1 .f32) (x2 : Vec Ideal S1x128 .f32) (p : Fin 5000) (q : Fin 128) :
    out3_4 x0 x1 x2 (ix2 p q) = max (x1 (ix2 p (0 : Fin 1)) * x0 (ix2 p q) + x2 (ix2 (0 : Fin 1) q)) 0 := by
  unfold out3_4
  rw [View.canon_unit_zero zero_offsets3]
  simp only [View.ld_unit_zero (S := S5000x128) zero_offsets3, View.ld_unit_zero (S := S5000x1) zero_offsets3, View.ld_unit_zero (S := S1x128) zero_offsets3]
  exact pay3a_apply x1 x0 x2 p q

/-- What the body leaves in the second output buffer, at `(p, q)`, from the input blocks. -/
theorem out3_5_apply (x0 : Vec Ideal S5000x128 .f32) (x1 : Vec Ideal S5000x1 .f32) (x2 : Vec Ideal S1x128 .f32) (x3 : Vec Ideal S128x128 .f32) (p : Fin 5000) (q : Fin 128) :
    out3_5 x0 x1 x2 x3 (ix2 p q)
      = (∑ k : Fin 128, max (x1 (ix2 p (0 : Fin 1)) * x0 (ix2 p k) + x2 (ix2 (0 : Fin 1) k)) 0 * x3 (ix2 k q)) * x1 (ix2 p (0 : Fin 1)) := by
  unfold out3_5
  rw [View.canon_unit_zero zero_offsets3]
  simp only [View.ld_unit_zero (S := S5000x128) zero_offsets3, View.ld_unit_zero (S := S5000x1) zero_offsets3, View.ld_unit_zero (S := S1x128) zero_offsets3, View.ld_unit_zero (S := S128x128) zero_offsets3]
  exact pay3b_apply x1 x0 x2 x3 x1 p q

/-! ## The block indices -/

/-- The block indices, decided over the twenty grid points: the row windows sit at block `t` of their first axis,
    the bias and weight windows at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Every block of 5000 rows of the first output is some point's. -/
theorem idx_onto3_4 : ∀ (q0 : Fin 20), ∃ t : Fin cfg3.N, win3_4.index t = ![q0.val, 0] :=
  (by decide +kernel : ∀ (q0 : Fin 20), ∃ t : Fin grid3.N, win3_4.index t = ![q0.val, 0])

/-- Every block of 5000 rows of the second output is some point's. -/
theorem idx_onto3_5 : ∀ (q0 : Fin 20), ∃ t : Fin cfg3.N, win3_5.index t = ![q0.val, 0] :=
  (by decide +kernel : ∀ (q0 : Fin 20), ∃ t : Fin grid3.N, win3_5.index t = ![q0.val, 0])

/-! ## The first output: the activation -/

/-- Entry `(p, q)` of what point `t` leaves in the first output buffer is `GH` at that entry's place in the array. -/
theorem point3_4 (c : Dev nD) (t : Fin cfg3.N) (p : Fin 5000) (q : Fin 128) :
    out3_4 (iblk3 V c 0 t) (iblk3 V c 1 t) (iblk3 V c 2 t) (ix2 p q)
      = GH (V c main_v64) (V c main_v17) (V c main_v65) (((cfg3.win 4).blk t).view.emb (ix2 p q)) := by
  refine (out3_4_apply (iblk3 V c 0 t) (iblk3 V c 1 t) (iblk3 V c 2 t) p q).trans ?_
  obtain ⟨e00, e01, e10, e11, e20, e21, e30, e31, e40, e41, e50, e51⟩ := idx_facts3 t
  have hp : p.val < 5000 := p.isLt
  have hq : q.val < 128 := q.isLt
  show hval (V c main_v17 (((cfg3.win 1).blk t).view.emb (ix2 p (0 : Fin 1)))) (V c main_v64 (((cfg3.win 0).blk t).view.emb (ix2 p q)))
      (V c main_v65 (((cfg3.win 2).blk t).view.emb (ix2 (0 : Fin 1) q))) = _
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : ((cfg3.win 1).blk t).view.emb (ix2 p (0 : Fin 1))
      = ix2 (⟨(((cfg3.win 4).blk t).view.emb (ix2 p q) 0).val, (((cfg3.win 4).blk t).view.emb (ix2 p q) 0).isLt⟩ : Fin 100000) (0 : Fin 1) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 1 + 1 * 0 = 0; omega
  have h2 : ((cfg3.win 2).blk t).view.emb (ix2 (0 : Fin 1) q)
      = ix2 (0 : Fin 1) (⟨(((cfg3.win 4).blk t).view.emb (ix2 p q) 1).val, (((cfg3.win 4).blk t).view.emb (ix2 p q) 1).isLt⟩ : Fin 128) := by
    funext a; apply Fin.ext
    match a with
    | ⟨0, _⟩ => show win3_2.index t (0 : Fin 2) * 1 + 1 * 0 = 0; omega
    | ⟨1, _⟩ => show win3_2.index t (1 : Fin 2) * 128 + 1 * q.val = win3_4.index t (1 : Fin 2) * 128 + 1 * q.val; omega
  rw [h0, h1, h2]

/-- What point `t` writes back to the first output is block `t` of `GH` of the arrays as the region finds them. -/
theorem flushed3_4_eq (c : Dev nD) (t : Fin cfg3.N) :
    (dat3 V c).flushed 4 t = ((cfg3.win 4).blk t).view.read (Elt Ideal) (GH (V c main_v64) (V c main_v17) (V c main_v65)) := by
  show (cfg3.win 4).cut (grid3.coords t) ((dat3 V c).after 4 t) = _
  rw [after3_4]
  funext j
  obtain ⟨p, q, rfl⟩ : ∃ (p : Fin 5000) (q : Fin 128), j = ix2 p q := ⟨j 0, j 1, eq_ix2 j⟩
  exact point3_4 V c t p q

/-- An index of the first output is in point `t`'s block iff each coordinate is in the block's range on its axis. -/
theorem mem_blk3_4 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v66_0).slice (win3_4.rect t)).set ↔ _
  rw [View.set_slice_whole, Rect.mem_set_unit]
  exact Iff.rfl

/-- Every index of the first output is in the block of the point its row falls to. -/
theorem covered3_4 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto3_4 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The first output array after the region is the activation. -/
theorem final3_4 (c : Dev nD) : (dat3 V c).arrAt 4 cfg3.N = GH (V c main_v64) (V c main_v17) (V c main_v65) :=
  (dat3 V c).arrAt_eq_of_cover 4 (GH (V c main_v64) (V c main_v17) (V c main_v65)) (fun t _ => flushed3_4_eq V c t) covered3_4

/-! ## The second output: the scaled messages -/

/-- Entry `(p, q)` of what point `t` leaves in the second output buffer is `GT` at that entry's place in the array. -/
theorem point3_5 (c : Dev nD) (t : Fin cfg3.N) (p : Fin 5000) (q : Fin 128) :
    out3_5 (iblk3 V c 0 t) (iblk3 V c 1 t) (iblk3 V c 2 t) (iblk3 V c 3 t) (ix2 p q)
      = GT (V c main_v64) (V c main_v17) (V c main_v65) (V c main_arg9) (((cfg3.win 5).blk t).view.emb (ix2 p q)) := by
  refine (out3_5_apply (iblk3 V c 0 t) (iblk3 V c 1 t) (iblk3 V c 2 t) (iblk3 V c 3 t) p q).trans ?_
  obtain ⟨e00, e01, e10, e11, e20, e21, e30, e31, e40, e41, e50, e51⟩ := idx_facts3 t
  have hp : p.val < 5000 := p.isLt
  have hq : q.val < 128 := q.isLt
  show tval (V c main_v17 (((cfg3.win 1).blk t).view.emb (ix2 p (0 : Fin 1)))) (fun k => V c main_v64 (((cfg3.win 0).blk t).view.emb (ix2 p k)))
      (fun k => V c main_v65 (((cfg3.win 2).blk t).view.emb (ix2 (0 : Fin 1) k))) (fun k => V c main_arg9 (((cfg3.win 3).blk t).view.emb (ix2 k q))) = _
  have h0 : ∀ k : Fin 128, ((cfg3.win 0).blk t).view.emb (ix2 p k) = ix2 (⟨(((cfg3.win 5).blk t).view.emb (ix2 p q) 0).val, (((cfg3.win 5).blk t).view.emb (ix2 p q) 0).isLt⟩ : Fin 100000) k := fun k => by
    have hk : k.val < 128 := k.isLt
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * k.val = k.val; omega
  have h1 : ((cfg3.win 1).blk t).view.emb (ix2 p (0 : Fin 1))
      = ix2 (⟨(((cfg3.win 5).blk t).view.emb (ix2 p q) 0).val, (((cfg3.win 5).blk t).view.emb (ix2 p q) 0).isLt⟩ : Fin 100000) (0 : Fin 1) := by
    funext a; apply Fin.ext
    match a with
    | ⟨0, _⟩ => show win3_1.index t (0 : Fin 2) * 5000 + 1 * p.val = win3_5.index t (0 : Fin 2) * 5000 + 1 * p.val; omega
    | ⟨1, _⟩ => show win3_1.index t (1 : Fin 2) * 1 + 1 * 0 = 0; omega
  have h2 : ∀ k : Fin 128, ((cfg3.win 2).blk t).view.emb (ix2 (0 : Fin 1) k) = ix2 (0 : Fin 1) k := fun k => by
    funext a; apply Fin.ext
    match a with
    | ⟨0, _⟩ => show win3_2.index t (0 : Fin 2) * 1 + 1 * 0 = 0; omega
    | ⟨1, _⟩ => show win3_2.index t (1 : Fin 2) * 128 + 1 * k.val = k.val; omega
  have h3 : ∀ k : Fin 128, ((cfg3.win 3).blk t).view.emb (ix2 k q) = ix2 k (⟨(((cfg3.win 5).blk t).view.emb (ix2 p q) 1).val, (((cfg3.win 5).blk t).view.emb (ix2 p q) 1).isLt⟩ : Fin 128) := fun k => by
    funext a; apply Fin.ext
    match a with
    | ⟨0, _⟩ => show win3_3.index t (0 : Fin 2) * 128 + 1 * k.val = k.val; omega
    | ⟨1, _⟩ => show win3_3.index t (1 : Fin 2) * 128 + 1 * q.val = win3_5.index t (1 : Fin 2) * 128 + 1 * q.val; omega
  rw [h1]
  simp only [h0, h2, h3]

/-- What point `t` writes back to the second output is block `t` of `GT` of the arrays as the region finds them. -/
theorem flushed3_5_eq (c : Dev nD) (t : Fin cfg3.N) :
    (dat3 V c).flushed 5 t = ((cfg3.win 5).blk t).view.read (Elt Ideal) (GT (V c main_v64) (V c main_v17) (V c main_v65) (V c main_arg9)) := by
  show (cfg3.win 5).cut (grid3.coords t) ((dat3 V c).after 5 t) = _
  rw [after3_5]
  funext j
  obtain ⟨p, q, rfl⟩ : ∃ (p : Fin 5000) (q : Fin 128), j = ix2 p q := ⟨j 0, j 1, eq_ix2 j⟩
  exact point3_5 V c t p q

/-- An index of the second output is in point `t`'s block iff each coordinate is in the block's range on its axis. -/
theorem mem_blk3_5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v66_1).slice (win3_5.rect t)).set ↔ _
  rw [View.set_slice_whole, Rect.mem_set_unit]
  exact Iff.rfl

/-- Every index of the second output is in the block of the point its row falls to. -/
theorem covered3_5 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto3_5 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The second output array after the region is the scaled messages. -/
theorem final3_5 (c : Dev nD) : (dat3 V c).arrAt 5 cfg3.N = GT (V c main_v64) (V c main_v17) (V c main_v65) (V c main_arg9) :=
  (dat3 V c).arrAt_eq_of_cover 5 (GT (V c main_v64) (V c main_v17) (V c main_v65) (V c main_arg9)) (fun t _ => flushed3_5_eq V c t) covered3_5

end Cert.KernelIdeal.H

end
-- ==== Proof.KI.V4.lean ====
import proofs.«105302_j51668456571568_2_alg».proof.Proof.KI.R4
import proofs.«105302_j51668456571568_2_alg».proof.Proof.KI.VDefs
import proofs.«105302_j51668456571568_2_alg».proof.Proof.LibColumn
import proofs.«105302_j51668456571568_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

/-! # Region 4 on the extended reals: each output array as one function of the arrays the region finds

Every entry `(n, q)` of the first 100000x128 output ends at the activation `max (scale n * rows (n, q) + bias q) 0`,
and of the second at `(∑ k, activation (n, k) * weights (k, q)) * scale n`: the point that covers row `n` is
`n / 5000`, its block of 5000 rows is read off the same rows of the row inputs, and the bias row and the weight
matrix are read whole at every point. -/

/-- Both offsets of a whole-buffer access are zero. -/
theorem zero_offsets4 : (![0, 0] : Fin 2 → Nat) = fun _ => 0 := funext fun a => by fin_cases a <;> rfl

/-! ## The stored values at an entry -/

/-- The first stored value at `(p, q)` of a block: the row's scale times the entry, plus the column's bias, cut below at zero. -/
theorem pay4a_apply (v0 : Vec Ideal S5000x1 .f32) (v2 : Vec Ideal S5000x128 .f32) (v6 : Vec Ideal S1x128 .f32) (p : Fin 5000) (q : Fin 128) :
    k4_pay1 v0 v2 v6 (ix2 p q) = max (v0 (ix2 p (0 : Fin 1)) * v2 (ix2 p q) + v6 (ix2 (0 : Fin 1) q)) 0 := by
  unfold k4_pay1
  show max (broadcastTo S5000x128 (shapeCast S5000x1 v0 shapeCasts_S5000x1_S5000x1) broadcasts_S5000x1_S5000x128 (ix2 p q)
      * shapeCast S5000x128 v2 shapeCasts_S5000x128_S5000x128 (ix2 p q)
      + broadcastTo S5000x128 (shapeCast S1x128 v6 shapeCasts_S1x128_S1x128) broadcasts_S1x128_S5000x128 (ix2 p q))
      (Ideal.ofBits .f32 0x00000000#32) = _
  rw [shapeCast_self, shapeCast_self, shapeCast_self, Ideal.ofBits_zero_f32]
  rw [LibColumn.broadcastTo_a1_ab_apply v0 broadcasts_S5000x1_S5000x128 p q, broadcastTo_1b_ab_apply v6 broadcasts_S1x128_S5000x128 p q]

/-- The second stored value at `(p, q)` of a block: row `p` of the first stored value contracted with column `q` of the
    weights, times the row's scale; the roundings to bf16 are the identity on the extended reals. -/
theorem pay4b_apply (v0 : Vec Ideal S5000x1 .f32) (v2 : Vec Ideal S5000x128 .f32) (v6 : Vec Ideal S1x128 .f32) (v14 : Vec Ideal S128x128 .f32)
    (v17 : Vec Ideal S5000x1 .f32) (p : Fin 5000) (q : Fin 128) :
    k4_pay2 v0 v2 v6 v14 v17 (ix2 p q)
      = (∑ k : Fin 128, max (v0 (ix2 p (0 : Fin 1)) * v2 (ix2 p k) + v6 (ix2 (0 : Fin 1) k)) 0 * v14 (ix2 k q)) * v17 (ix2 p (0 : Fin 1)) := by
  unfold k4_pay2
  show FloatOps.matmul dot_S5000x128_S128x128_S5000x128_1_0_0_1_n_n none
        (truncf .bf16 (k4_pay1 v0 v2 v6) bitsLt_bf16_f32 : FVec Ideal S5000x128 .bf16) (truncf .bf16 v14 bitsLt_bf16_f32 : FVec Ideal S128x128 .bf16)
        (constant (F := Ideal) S5000x128 .f32 0x00000000#32) (ix2 p q)
      * broadcastTo S5000x128 (shapeCast S5000x1 v17 shapeCasts_S5000x1_S5000x1) broadcasts_S5000x1_S5000x128 (ix2 p q) = _
  rw [shapeCast_self, LibColumn.broadcastTo_a1_ab_apply v17 broadcasts_S5000x1_S5000x128 p q]
  refine congrArg (· * v17 (ix2 p (0 : Fin 1))) ?_
  refine (LibDot.matmul_zero_plain_apply dot_S5000x128_S128x128_S5000x128_1_0_0_1_n_n rfl rfl rfl rfl rfl rfl none _ _ (ix2 p q)).trans ?_
  refine Finset.sum_congr rfl fun k _ => ?_
  show k4_pay1 v0 v2 v6 (ix2 p k) * v14 (ix2 k q) = _
  rw [pay4a_apply]

/-- What the body leaves in the first output buffer, at `(p, q)`, from the input blocks. -/
theorem out4_4_apply (x0 : Vec Ideal S5000x128 .f32) (x1 : Vec Ideal S5000x1 .f32) (x2 : Vec Ideal S1x128 .f32) (p : Fin 5000) (q : Fin 128) :
    out4_4 x0 x1 x2 (ix2 p q) = max (x1 (ix2 p (0 : Fin 1)) * x0 (ix2 p q) + x2 (ix2 (0 : Fin 1) q)) 0 := by
  unfold out4_4
  rw [View.canon_unit_zero zero_offsets4]
  simp only [View.ld_unit_zero (S := S5000x128) zero_offsets4, View.ld_unit_zero (S := S5000x1) zero_offsets4, View.ld_unit_zero (S := S1x128) zero_offsets4]
  exact pay4a_apply x1 x0 x2 p q

/-- What the body leaves in the second output buffer, at `(p, q)`, from the input blocks. -/
theorem out4_5_apply (x0 : Vec Ideal S5000x128 .f32) (x1 : Vec Ideal S5000x1 .f32) (x2 : Vec Ideal S1x128 .f32) (x3 : Vec Ideal S128x128 .f32) (p : Fin 5000) (q : Fin 128) :
    out4_5 x0 x1 x2 x3 (ix2 p q)
      = (∑ k : Fin 128, max (x1 (ix2 p (0 : Fin 1)) * x0 (ix2 p k) + x2 (ix2 (0 : Fin 1) k)) 0 * x3 (ix2 k q)) * x1 (ix2 p (0 : Fin 1)) := by
  unfold out4_5
  rw [View.canon_unit_zero zero_offsets4]
  simp only [View.ld_unit_zero (S := S5000x128) zero_offsets4, View.ld_unit_zero (S := S5000x1) zero_offsets4, View.ld_unit_zero (S := S1x128) zero_offsets4, View.ld_unit_zero (S := S128x128) zero_offsets4]
  exact pay4b_apply x1 x0 x2 x3 x1 p q

/-! ## The block indices -/

/-- The block indices, decided over the twenty grid points: the row windows sit at block `t` of their first axis,
    the bias and weight windows at their one block. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Every block of 5000 rows of the first output is some point's. -/
theorem idx_onto4_4 : ∀ (q0 : Fin 20), ∃ t : Fin cfg4.N, win4_4.index t = ![q0.val, 0] :=
  (by decide +kernel : ∀ (q0 : Fin 20), ∃ t : Fin grid4.N, win4_4.index t = ![q0.val, 0])

/-- Every block of 5000 rows of the second output is some point's. -/
theorem idx_onto4_5 : ∀ (q0 : Fin 20), ∃ t : Fin cfg4.N, win4_5.index t = ![q0.val, 0] :=
  (by decide +kernel : ∀ (q0 : Fin 20), ∃ t : Fin grid4.N, win4_5.index t = ![q0.val, 0])

/-! ## The first output: the activation -/

/-- Entry `(p, q)` of what point `t` leaves in the first output buffer is `GH` at that entry's place in the array. -/
theorem point4_4 (c : Dev nD) (t : Fin cfg4.N) (p : Fin 5000) (q : Fin 128) :
    out4_4 (iblk4 V c 0 t) (iblk4 V c 1 t) (iblk4 V c 2 t) (ix2 p q)
      = GH (V c main_v77) (V c main_v17) (V c main_v78) (((cfg4.win 4).blk t).view.emb (ix2 p q)) := by
  refine (out4_4_apply (iblk4 V c 0 t) (iblk4 V c 1 t) (iblk4 V c 2 t) p q).trans ?_
  obtain ⟨e00, e01, e10, e11, e20, e21, e30, e31, e40, e41, e50, e51⟩ := idx_facts4 t
  have hp : p.val < 5000 := p.isLt
  have hq : q.val < 128 := q.isLt
  show hval (V c main_v17 (((cfg4.win 1).blk t).view.emb (ix2 p (0 : Fin 1)))) (V c main_v77 (((cfg4.win 0).blk t).view.emb (ix2 p q)))
      (V c main_v78 (((cfg4.win 2).blk t).view.emb (ix2 (0 : Fin 1) q))) = _
  have h0 : ((cfg4.win 0).blk t).view.emb (ix2 p q) = ((cfg4.win 4).blk t).view.emb (ix2 p q) := by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * q.val = win4_4.index t (1 : Fin 2) * 128 + 1 * q.val; omega
  have h1 : ((cfg4.win 1).blk t).view.emb (ix2 p (0 : Fin 1))
      = ix2 (⟨(((cfg4.win 4).blk t).view.emb (ix2 p q) 0).val, (((cfg4.win 4).blk t).view.emb (ix2 p q) 0).isLt⟩ : Fin 100000) (0 : Fin 1) := by
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 1 + 1 * 0 = 0; omega
  have h2 : ((cfg4.win 2).blk t).view.emb (ix2 (0 : Fin 1) q)
      = ix2 (0 : Fin 1) (⟨(((cfg4.win 4).blk t).view.emb (ix2 p q) 1).val, (((cfg4.win 4).blk t).view.emb (ix2 p q) 1).isLt⟩ : Fin 128) := by
    funext a; apply Fin.ext
    match a with
    | ⟨0, _⟩ => show win4_2.index t (0 : Fin 2) * 1 + 1 * 0 = 0; omega
    | ⟨1, _⟩ => show win4_2.index t (1 : Fin 2) * 128 + 1 * q.val = win4_4.index t (1 : Fin 2) * 128 + 1 * q.val; omega
  rw [h0, h1, h2]

/-- What point `t` writes back to the first output is block `t` of `GH` of the arrays as the region finds them. -/
theorem flushed4_4_eq (c : Dev nD) (t : Fin cfg4.N) :
    (dat4 V c).flushed 4 t = ((cfg4.win 4).blk t).view.read (Elt Ideal) (GH (V c main_v77) (V c main_v17) (V c main_v78)) := by
  show (cfg4.win 4).cut (grid4.coords t) ((dat4 V c).after 4 t) = _
  rw [after4_4]
  funext j
  obtain ⟨p, q, rfl⟩ : ∃ (p : Fin 5000) (q : Fin 128), j = ix2 p q := ⟨j 0, j 1, eq_ix2 j⟩
  exact point4_4 V c t p q

/-- An index of the first output is in point `t`'s block iff each coordinate is in the block's range on its axis. -/
theorem mem_blk4_4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v79_0).slice (win4_4.rect t)).set ↔ _
  rw [View.set_slice_whole, Rect.mem_set_unit]
  exact Iff.rfl

/-- Every index of the first output is in the block of the point its row falls to. -/
theorem covered4_4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ := idx_onto4_4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The first output array after the region is the activation. -/
theorem final4_4 (c : Dev nD) : (dat4 V c).arrAt 4 cfg4.N = GH (V c main_v77) (V c main_v17) (V c main_v78) :=
  (dat4 V c).arrAt_eq_of_cover 4 (GH (V c main_v77) (V c main_v17) (V c main_v78)) (fun t _ => flushed4_4_eq V c t) covered4_4

/-! ## The second output: the scaled messages -/

set_option maxHeartbeats 1000000 in
/-- Entry `(p, q)` of what point `t` leaves in the second output buffer is `GT` at that entry's place in the array. -/
theorem point4_5 (c : Dev nD) (t : Fin cfg4.N) (p : Fin 5000) (q : Fin 128) :
    out4_5 (iblk4 V c 0 t) (iblk4 V c 1 t) (iblk4 V c 2 t) (iblk4 V c 3 t) (ix2 p q)
      = GT (V c main_v77) (V c main_v17) (V c main_v78) (V c main_arg9) (((cfg4.win 5).blk t).view.emb (ix2 p q)) := by
  refine (out4_5_apply (iblk4 V c 0 t) (iblk4 V c 1 t) (iblk4 V c 2 t) (iblk4 V c 3 t) p q).trans ?_
  obtain ⟨e00, e01, e10, e11, e20, e21, e30, e31, e40, e41, e50, e51⟩ := idx_facts4 t
  have hp : p.val < 5000 := p.isLt
  have hq : q.val < 128 := q.isLt
  show tval (V c main_v17 (((cfg4.win 1).blk t).view.emb (ix2 p (0 : Fin 1)))) (fun k => V c main_v77 (((cfg4.win 0).blk t).view.emb (ix2 p k)))
      (fun k => V c main_v78 (((cfg4.win 2).blk t).view.emb (ix2 (0 : Fin 1) k))) (fun k => V c main_arg9 (((cfg4.win 3).blk t).view.emb (ix2 k q))) = _
  have h0 : ∀ k : Fin 128, ((cfg4.win 0).blk t).view.emb (ix2 p k) = ix2 (⟨(((cfg4.win 5).blk t).view.emb (ix2 p q) 0).val, (((cfg4.win 5).blk t).view.emb (ix2 p q) 0).isLt⟩ : Fin 100000) k := fun k => by
    have hk : k.val < 128 := k.isLt
    funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 128 + 1 * k.val = k.val; omega
  have h1 : ((cfg4.win 1).blk t).view.emb (ix2 p (0 : Fin 1))
      = ix2 (⟨(((cfg4.win 5).blk t).view.emb (ix2 p q) 0).val, (((cfg4.win 5).blk t).view.emb (ix2 p q) 0).isLt⟩ : Fin 100000) (0 : Fin 1) := by
    funext a; apply Fin.ext
    match a with
    | ⟨0, _⟩ => show win4_1.index t (0 : Fin 2) * 5000 + 1 * p.val = win4_5.index t (0 : Fin 2) * 5000 + 1 * p.val; omega
    | ⟨1, _⟩ => show win4_1.index t (1 : Fin 2) * 1 + 1 * 0 = 0; omega
  have h2 : ∀ k : Fin 128, ((cfg4.win 2).blk t).view.emb (ix2 (0 : Fin 1) k) = ix2 (0 : Fin 1) k := fun k => by
    funext a; apply Fin.ext
    match a with
    | ⟨0, _⟩ => show win4_2.index t (0 : Fin 2) * 1 + 1 * 0 = 0; omega
    | ⟨1, _⟩ => show win4_2.index t (1 : Fin 2) * 128 + 1 * k.val = k.val; omega
  have h3 : ∀ k : Fin 128, ((cfg4.win 3).blk t).view.emb (ix2 k q) = ix2 k (⟨(((cfg4.win 5).blk t).view.emb (ix2 p q) 1).val, (((cfg4.win 5).blk t).view.emb (ix2 p q) 1).isLt⟩ : Fin 128) := fun k => by
    funext a; apply Fin.ext
    match a with
    | ⟨0, _⟩ => show win4_3.index t (0 : Fin 2) * 128 + 1 * k.val = k.val; omega
    | ⟨1, _⟩ => show win4_3.index t (1 : Fin 2) * 128 + 1 * q.val = win4_5.index t (1 : Fin 2) * 128 + 1 * q.val; omega
  rw [h1]
  simp only [h0, h2, h3]

/-- What point `t` writes back to the second output is block `t` of `GT` of the arrays as the region finds them. -/
theorem flushed4_5_eq (c : Dev nD) (t : Fin cfg4.N) :
    (dat4 V c).flushed 5 t = ((cfg4.win 5).blk t).view.read (Elt Ideal) (GT (V c main_v77) (V c main_v17) (V c main_v78) (V c main_arg9)) := by
  show (cfg4.win 5).cut (grid4.coords t) ((dat4 V c).after 5 t) = _
  rw [after4_5]
  funext j
  obtain ⟨p, q, rfl⟩ : ∃ (p : Fin 5000) (q : Fin 128), j = ix2 p q := ⟨j 0, j 1, eq_ix2 j⟩
  exact point4_5 V c t p q

/-- An index of the second output is in point `t`'s block iff each coordinate is in the block's range on its axis. -/
theorem mem_blk4_5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v79_1).slice (win4_5.rect t)).set ↔ _
  rw [View.set_slice_whole, Rect.mem_set_unit]
  exact Iff.rfl

/-- Every index of the second output is in the block of the point its row falls to. -/
theorem covered4_5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ := idx_onto4_5 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The second output array after the region is the scaled messages. -/
theorem final4_5 (c : Dev nD) : (dat4 V c).arrAt 5 cfg4.N = GT (V c main_v77) (V c main_v17) (V c main_v78) (V c main_arg9) :=
  (dat4 V c).arrAt_eq_of_cover 5 (GT (V c main_v77) (V c main_v17) (V c main_v78) (V c main_arg9)) (fun t _ => flushed4_5_eq V c t) covered4_5

end Cert.KernelIdeal.H

end
-- ==== Proof.KI.V5.lean ====
import proofs.«105302_j51668456571568_2_alg».proof.Proof.KI.R5
import proofs.«105302_j51668456571568_2_alg».proof.Proof.KI.VDefs
import proofs.«105302_j51668456571568_2_alg».proof.Proof.LibColumn
import proofs.«105302_j51668456571568_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, on the extended reals
variable (V : (c : Dev nD) → (b : Ref sig .tc) → Buf (Elt Ideal) ((c : Thread nD τ).loc b))

/-! # Region 5 on the extended reals: the output array as one function of the arrays the region finds

Every entry `(n, q)` of the 100000x128 output ends at `max (scale n * rows (n, q) + bias q) 0`: the point that
covers row `n` is `n / 5000`, and its block of 5000 rows is read off the same rows of the inputs. -/

/-- Both offsets of a whole-buffer access are zero. -/
theorem zero_offsets5 : (![0, 0] : Fin 2 → Nat) = fun _ => 0 := funext fun a => by fin_cases a <;> rfl

/-- The stored value at `(p, q)` of a block: the row's scale times the entry, plus the column's bias, cut below at zero. -/
theorem pay5_apply (v0 : Vec Ideal S5000x1 .f32) (v2 : Vec Ideal S5000x128 .f32) (v6 : Vec Ideal S1x128 .f32) (p : Fin 5000) (q : Fin 128) :
    k5_pay1 v0 v2 v6 (ix2 p q) = max (v0 (ix2 p (0 : Fin 1)) * v2 (ix2 p q) + v6 (ix2 (0 : Fin 1) q)) 0 := by
  unfold k5_pay1
  show max (broadcastTo S5000x128 (shapeCast S5000x1 v0 shapeCasts_S5000x1_S5000x1) broadcasts_S5000x1_S5000x128 (ix2 p q)
      * shapeCast S5000x128 v2 shapeCasts_S5000x128_S5000x128 (ix2 p q)
      + broadcastTo S5000x128 (shapeCast S1x128 v6 shapeCasts_S1x128_S1x128) broadcasts_S1x128_S5000x128 (ix2 p q))
      (Ideal.ofBits .f32 0x00000000#32) = _
  rw [shapeCast_self, shapeCast_self, shapeCast_self, Ideal.ofBits_zero_f32]
  rw [LibColumn.broadcastTo_a1_ab_apply v0 broadcasts_S5000x1_S5000x128 p q, broadcastTo_1b_ab_apply v6 broadcasts_S1x128_S5000x128 p q]

/-- What the body leaves in the output buffer, at `(p, q)`, from the three input blocks. -/
theorem out5_3_apply (x0 : Vec Ideal S5000x128 .f32) (x1 : Vec Ideal S5000x1 .f32) (x2 : Vec Ideal S1x128 .f32) (p : Fin 5000) (q : Fin 128) :
    out5_3 x0 x1 x2 (ix2 p q) = max (x1 (ix2 p (0 : Fin 1)) * x0 (ix2 p q) + x2 (ix2 (0 : Fin 1) q)) 0 := by
  unfold out5_3
  rw [View.canon_unit_zero zero_offsets5]
  simp only [View.ld_unit_zero (S := S5000x128) zero_offsets5, View.ld_unit_zero (S := S5000x1) zero_offsets5, View.ld_unit_zero (S := S1x128) zero_offsets5]
  exact pay5_apply x1 x0 x2 p q

/-- The block indices, decided over the twenty grid points: the row windows sit at block `t` of their first axis,
    the bias window at its one block. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Every block of 5000 rows is some point's. -/
theorem idx_onto5 : ∀ (q0 : Fin 20), ∃ t : Fin cfg5.N, win5_3.index t = ![q0.val, 0] :=
  (by decide +kernel : ∀ (q0 : Fin 20), ∃ t : Fin grid5.N, win5_3.index t = ![q0.val, 0])

/-- Entry `(p, q)` of what point `t` leaves in the output buffer is the function `GH` at that entry's place in the array. -/
theorem point5_3 (c : Dev nD) (t : Fin cfg5.N) (p : Fin 5000) (q : Fin 128) :
    out5_3 (iblk5 V c 0 t) (iblk5 V c 1 t) (iblk5 V c 2 t) (ix2 p q)
      = GH (V c main_v90) (V c main_v17) (V c main_v91) (((cfg5.win 3).blk t).view.emb (ix2 p q)) := by
  refine (out5_3_apply (iblk5 V c 0 t) (iblk5 V c 1 t) (iblk5 V c 2 t) p q).trans ?_
  obtain ⟨e00, e01, e10, e11, e20, e21, e30, e31⟩ := idx_facts5 t
  have hp : p.val < 5000 := p.isLt
  have hq : q.val < 128 := q.isLt
  show hval (V c main_v17 (((cfg5.win 1).blk t).view.emb (ix2 p (0 : Fin 1)))) (V c main_v90 (((cfg5.win 0).blk t).view.emb (ix2 p q)))
      (V c main_v91 (((cfg5.win 2).blk t).view.emb (ix2 (0 : Fin 1) q))) = _
  have h0 : ((cfg5.win 0).blk t).view.emb (ix2 p q) = ((cfg5.win 3).blk t).view.emb (ix2 p q) := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * q.val = win5_3.index t (1 : Fin 2) * 128 + 1 * q.val; omega
  have h1 : ((cfg5.win 1).blk t).view.emb (ix2 p (0 : Fin 1))
      = ix2 (⟨(((cfg5.win 3).blk t).view.emb (ix2 p q) 0).val, (((cfg5.win 3).blk t).view.emb (ix2 p q) 0).isLt⟩ : Fin 100000) (0 : Fin 1) := by
    funext a; apply Fin.ext
    match a with
    | ⟨0, _⟩ => show win5_1.index t (0 : Fin 2) * 5000 + 1 * p.val = win5_3.index t (0 : Fin 2) * 5000 + 1 * p.val; omega
    | ⟨1, _⟩ => show win5_1.index t (1 : Fin 2) * 1 + 1 * 0 = 0; omega
  have h2 : ((cfg5.win 2).blk t).view.emb (ix2 (0 : Fin 1) q)
      = ix2 (0 : Fin 1) (⟨(((cfg5.win 3).blk t).view.emb (ix2 p q) 1).val, (((cfg5.win 3).blk t).view.emb (ix2 p q) 1).isLt⟩ : Fin 128) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [h0, h1, h2]

/-- What point `t` writes back is block `t` of `GH` of the arrays as the region finds them. -/
theorem flushed5_3_eq (c : Dev nD) (t : Fin cfg5.N) :
    (dat5 V c).flushed 3 t = ((cfg5.win 3).blk t).view.read (Elt Ideal) (GH (V c main_v90) (V c main_v17) (V c main_v91)) := by
  show (cfg5.win 3).cut (grid5.coords t) ((dat5 V c).after 3 t) = _
  rw [after5_3]
  funext j
  obtain ⟨p, q, rfl⟩ : ∃ (p : Fin 5000) (q : Fin 128), j = ix2 p q := ⟨j 0, j 1, eq_ix2 j⟩
  exact point5_3 V c t p q

/-- An index of the array is in point `t`'s block iff each coordinate is in the block's range on its axis. -/
theorem mem_blk5_3 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v92).slice (win5_3.rect t)).set ↔ _
  rw [View.set_slice_whole, Rect.mem_set_unit]
  exact Iff.rfl

/-- Every index of the array is in the block of the point its row falls to. -/
theorem covered5_3 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5_3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region: entry `(n, q)` is `max (scale n * rows (n, q) + bias q) 0`. -/
theorem final5_3 (c : Dev nD) : (dat5 V c).arrAt 3 cfg5.N = GH (V c main_v90) (V c main_v17) (V c main_v91) :=
  (dat5 V c).arrAt_eq_of_cover 3 (GH (V c main_v90) (V c main_v17) (V c main_v91)) (fun t _ => flushed5_3_eq V c t) covered5_3

end Cert.KernelIdeal.H

end
-- ==== Proof.KI.ValsL.lean ====
/-
  The five layers of the idealized kernel program as explicit functions of the arguments.  The fold of the buffers' contents is read
  boundary by boundary: a host stretch at the contents before it, a region's output at the closed form of its blocks; a
  buffer carried unchanged is read where it was made.  The index vectors, the normalisation column and the reciprocal counts
  are the reference's own stages (the two programs compute them by the same operations); each transform stage leaves the
  scaled product, each epilogue the rectified scaled aggregate plus bias, and the last region the perceptron of the five
  pooled blocks laid side by side.
-/
import proofs.«105302_j51668456571568_2_alg».proof.Proof.KI.Vals0
import proofs.«105302_j51668456571568_2_alg».proof.Proof.KI.Host1
import proofs.«105302_j51668456571568_2_alg».proof.Proof.KI.V1
import proofs.«105302_j51668456571568_2_alg».proof.Proof.KI.V2
import proofs.«105302_j51668456571568_2_alg».proof.Proof.KI.V3
import proofs.«105302_j51668456571568_2_alg».proof.Proof.KI.V4
import proofs.«105302_j51668456571568_2_alg».proof.Proof.KI.V5
import Idealize.ShloMosaic.PureOps.Ideal
import Idealize.ShloMosaic.PureOps.Ideal.Laws
import Idealize.ShloMosaic.Lib.ValueIdx
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Layer 1 -/

theorem w5_agg (c : Dev nD) : (W5 m ρ c (Proc.devRef .tc main_v38) : S100000x128.Idx → EReal) = Cert.Bridge.aggK (Cert.Bridge.kT (A0 m c) (A3 m c) (A1 m c)) (Cert.ReferenceIdeal.ReadP.val_main_v3 (F := Ideal) (A1 m c)) (Cert.ReferenceIdeal.ReadP.val_main_v6 (F := Ideal) (A1 m c)) := by
  refine (after1_v38 (W4 m ρ c)).trans ?_
  rw [w4_v27 m ρ c, back_main_v3_4_1 m ρ c, w1_v3 m ρ c, back_main_v6_4_1 m ρ c, w1_v6 m ρ c]
theorem w5_bias (c : Dev nD) : (W5 m ρ c (Proc.devRef .tc main_v39) : S1x128.Idx → EReal) = Cert.Bridge.brK (A4 m c) :=
  (after1_v39 (W4 m ρ c)).trans (congrArg Cert.Bridge.brK (back_main_arg4_4_0 m ρ c))
theorem w6_h (c : Dev nD) : (W6 m ρ c (Proc.devRef .tc main_v40_0) : S100000x128.Idx → EReal) = (Cert.Bridge.kH (Cert.Bridge.kT (A0 m c) (A3 m c) (A1 m c)) (A4 m c) (A1 m c)) := by
  refine (W6_arr m ρ c 4).trans ((final1_4 (T5 m ρ) c).trans ?_)
  show GH (W5 m ρ c (Proc.devRef .tc main_v38)) (W5 m ρ c (Proc.devRef .tc main_v17)) (W5 m ρ c (Proc.devRef .tc main_v39)) = _
  rw [w5_agg m ρ c, back_main_v17_5_3 m ρ c, w3_v17 m ρ c, w5_bias m ρ c]
  rfl
theorem w6_t (c : Dev nD) : (W6 m ρ c (Proc.devRef .tc main_v40_1) : S100000x128.Idx → EReal) = (Cert.Bridge.kT (Cert.Bridge.kH (Cert.Bridge.kT (A0 m c) (A3 m c) (A1 m c)) (A4 m c) (A1 m c)) (A5 m c) (A1 m c)) := by
  refine (W6_arr m ρ c 5).trans ((final1_5 (T5 m ρ) c).trans ?_)
  show GT (W5 m ρ c (Proc.devRef .tc main_v38)) (W5 m ρ c (Proc.devRef .tc main_v17)) (W5 m ρ c (Proc.devRef .tc main_v39)) (W5 m ρ c (Proc.devRef .tc main_arg5)) = _
  rw [w5_agg m ρ c, back_main_v17_5_3 m ρ c, w3_v17 m ρ c, w5_bias m ρ c, back_main_arg5_5_0 m ρ c]
  rfl

/-! ## Layer 2 -/

theorem w7_agg (c : Dev nD) : (W7 m ρ c (Proc.devRef .tc main_v51) : S100000x128.Idx → EReal) = Cert.Bridge.aggK (Cert.Bridge.kT (Cert.Bridge.kH (Cert.Bridge.kT (A0 m c) (A3 m c) (A1 m c)) (A4 m c) (A1 m c)) (A5 m c) (A1 m c)) (Cert.ReferenceIdeal.ReadP.val_main_v3 (F := Ideal) (A1 m c)) (Cert.ReferenceIdeal.ReadP.val_main_v6 (F := Ideal) (A1 m c)) := by
  refine (after2_v51 (W6 m ρ c)).trans ?_
  rw [w6_t m ρ c, back_main_v3_6_1 m ρ c, w1_v3 m ρ c, back_main_v6_6_1 m ρ c, w1_v6 m ρ c]
theorem w7_bias (c : Dev nD) : (W7 m ρ c (Proc.devRef .tc main_v52) : S1x128.Idx → EReal) = Cert.Bridge.brK (A6 m c) :=
  (after2_v52 (W6 m ρ c)).trans (congrArg Cert.Bridge.brK (back_main_arg6_6_0 m ρ c))
theorem w8_h (c : Dev nD) : (W8 m ρ c (Proc.devRef .tc main_v53_0) : S100000x128.Idx → EReal) = (Cert.Bridge.kH (Cert.Bridge.kT (Cert.Bridge.kH (Cert.Bridge.kT (A0 m c) (A3 m c) (A1 m c)) (A4 m c) (A1 m c)) (A5 m c) (A1 m c)) (A6 m c) (A1 m c)) := by
  refine (W8_arr m ρ c 4).trans ((final2_4 (T7 m ρ) c).trans ?_)
  show GH (W7 m ρ c (Proc.devRef .tc main_v51)) (W7 m ρ c (Proc.devRef .tc main_v17)) (W7 m ρ c (Proc.devRef .tc main_v52)) = _
  rw [w7_agg m ρ c, back_main_v17_7_3 m ρ c, w3_v17 m ρ c, w7_bias m ρ c]
  rfl
theorem w8_t (c : Dev nD) : (W8 m ρ c (Proc.devRef .tc main_v53_1) : S100000x128.Idx → EReal) = (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) := by
  refine (W8_arr m ρ c 5).trans ((final2_5 (T7 m ρ) c).trans ?_)
  show GT (W7 m ρ c (Proc.devRef .tc main_v51)) (W7 m ρ c (Proc.devRef .tc main_v17)) (W7 m ρ c (Proc.devRef .tc main_v52)) (W7 m ρ c (Proc.devRef .tc main_arg7)) = _
  rw [w7_agg m ρ c, back_main_v17_7_3 m ρ c, w3_v17 m ρ c, w7_bias m ρ c, back_main_arg7_7_0 m ρ c]
  rfl

/-! ## Layer 3 -/

theorem w9_agg (c : Dev nD) : (W9 m ρ c (Proc.devRef .tc main_v64) : S100000x128.Idx → EReal) = Cert.Bridge.aggK (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (Cert.ReferenceIdeal.ReadP.val_main_v3 (F := Ideal) (A1 m c)) (Cert.ReferenceIdeal.ReadP.val_main_v6 (F := Ideal) (A1 m c)) := by
  refine (after3_v64 (W8 m ρ c)).trans ?_
  rw [w8_t m ρ c, back_main_v3_8_1 m ρ c, w1_v3 m ρ c, back_main_v6_8_1 m ρ c, w1_v6 m ρ c]
theorem w9_bias (c : Dev nD) : (W9 m ρ c (Proc.devRef .tc main_v65) : S1x128.Idx → EReal) = Cert.Bridge.brK (A8 m c) :=
  (after3_v65 (W8 m ρ c)).trans (congrArg Cert.Bridge.brK (back_main_arg8_8_0 m ρ c))
theorem w10_h (c : Dev nD) : (W10 m ρ c (Proc.devRef .tc main_v66_0) : S100000x128.Idx → EReal) = (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) := by
  refine (W10_arr m ρ c 4).trans ((final3_4 (T9 m ρ) c).trans ?_)
  show GH (W9 m ρ c (Proc.devRef .tc main_v64)) (W9 m ρ c (Proc.devRef .tc main_v17)) (W9 m ρ c (Proc.devRef .tc main_v65)) = _
  rw [w9_agg m ρ c, back_main_v17_9_3 m ρ c, w3_v17 m ρ c, w9_bias m ρ c]
  rfl
theorem w10_t (c : Dev nD) : (W10 m ρ c (Proc.devRef .tc main_v66_1) : S100000x128.Idx → EReal) = (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) := by
  refine (W10_arr m ρ c 5).trans ((final3_5 (T9 m ρ) c).trans ?_)
  show GT (W9 m ρ c (Proc.devRef .tc main_v64)) (W9 m ρ c (Proc.devRef .tc main_v17)) (W9 m ρ c (Proc.devRef .tc main_v65)) (W9 m ρ c (Proc.devRef .tc main_arg9)) = _
  rw [w9_agg m ρ c, back_main_v17_9_3 m ρ c, w3_v17 m ρ c, w9_bias m ρ c, back_main_arg9_9_0 m ρ c]
  rfl

/-! ## Layer 4 -/

theorem w11_agg (c : Dev nD) : (W11 m ρ c (Proc.devRef .tc main_v77) : S100000x128.Idx → EReal) = Cert.Bridge.aggK (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (Cert.ReferenceIdeal.ReadP.val_main_v3 (F := Ideal) (A1 m c)) (Cert.ReferenceIdeal.ReadP.val_main_v6 (F := Ideal) (A1 m c)) := by
  refine (after4_v77 (W10 m ρ c)).trans ?_
  rw [w10_t m ρ c, back_main_v3_10_1 m ρ c, w1_v3 m ρ c, back_main_v6_10_1 m ρ c, w1_v6 m ρ c]
theorem w11_bias (c : Dev nD) : (W11 m ρ c (Proc.devRef .tc main_v78) : S1x128.Idx → EReal) = Cert.Bridge.brK (A10 m c) :=
  (after4_v78 (W10 m ρ c)).trans (congrArg Cert.Bridge.brK (back_main_arg10_10_0 m ρ c))
theorem w12_h (c : Dev nD) : (W12 m ρ c (Proc.devRef .tc main_v79_0) : S100000x128.Idx → EReal) = (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) := by
  refine (W12_arr m ρ c 4).trans ((final4_4 (T11 m ρ) c).trans ?_)
  show GH (W11 m ρ c (Proc.devRef .tc main_v77)) (W11 m ρ c (Proc.devRef .tc main_v17)) (W11 m ρ c (Proc.devRef .tc main_v78)) = _
  rw [w11_agg m ρ c, back_main_v17_11_3 m ρ c, w3_v17 m ρ c, w11_bias m ρ c]
  rfl
theorem w12_t (c : Dev nD) : (W12 m ρ c (Proc.devRef .tc main_v79_1) : S100000x128.Idx → EReal) = (Cert.Bridge.kT (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A9 m c) (A1 m c)) := by
  refine (W12_arr m ρ c 5).trans ((final4_5 (T11 m ρ) c).trans ?_)
  show GT (W11 m ρ c (Proc.devRef .tc main_v77)) (W11 m ρ c (Proc.devRef .tc main_v17)) (W11 m ρ c (Proc.devRef .tc main_v78)) (W11 m ρ c (Proc.devRef .tc main_arg9)) = _
  rw [w11_agg m ρ c, back_main_v17_11_3 m ρ c, w3_v17 m ρ c, w11_bias m ρ c, back_main_arg9_11_0 m ρ c]
  rfl

/-! ## Layer 5 -/

theorem w13_agg (c : Dev nD) : (W13 m ρ c (Proc.devRef .tc main_v90) : S100000x128.Idx → EReal) = Cert.Bridge.aggK (Cert.Bridge.kT (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A9 m c) (A1 m c)) (Cert.ReferenceIdeal.ReadP.val_main_v3 (F := Ideal) (A1 m c)) (Cert.ReferenceIdeal.ReadP.val_main_v6 (F := Ideal) (A1 m c)) := by
  refine (after5_v90 (W12 m ρ c)).trans ?_
  rw [w12_t m ρ c, back_main_v3_12_1 m ρ c, w1_v3 m ρ c, back_main_v6_12_1 m ρ c, w1_v6 m ρ c]
theorem w13_bias (c : Dev nD) : (W13 m ρ c (Proc.devRef .tc main_v91) : S1x128.Idx → EReal) = Cert.Bridge.brK (A10 m c) :=
  (after5_v91 (W12 m ρ c)).trans (congrArg Cert.Bridge.brK (back_main_arg10_12_0 m ρ c))
theorem w14_h (c : Dev nD) : (W14 m ρ c (Proc.devRef .tc main_v92) : S100000x128.Idx → EReal) = (Cert.Bridge.kH (Cert.Bridge.kT (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A9 m c) (A1 m c)) (A10 m c) (A1 m c)) := by
  refine (W14_arr m ρ c 3).trans ((final5_3 (T13 m ρ) c).trans ?_)
  show GH (W13 m ρ c (Proc.devRef .tc main_v90)) (W13 m ρ c (Proc.devRef .tc main_v17)) (W13 m ρ c (Proc.devRef .tc main_v91)) = _
  rw [w13_agg m ρ c, back_main_v17_13_3 m ρ c, w3_v17 m ρ c, w13_bias m ρ c]
  rfl

end Cert.KernelIdeal.H

end
-- ==== Proof.KI.Host6.lean ====
import proofs.«105302_j51668456571568_2_alg».proof.Proof.Gen.KernelIdeal.Launch
import Idealize.ShloMosaic.Lib.StableHlo.Run
import proofs.«105302_j51668456571568_2_alg».proof.Proof.KChainDefs
import proofs.«105302_j51668456571568_2_alg».proof.Proof.TailDefs
import proofs.«105302_j51668456571568_2_alg».proof.Proof.LibTRef

noncomputable section

namespace Cert.KernelIdeal.H

open Cert.KernelIdeal Cert.KernelIdeal.Gen Idealize.ShloMosaic Idealize.ShloMosaic.TcCoe Idealize.SL.Sem
open Idealize.ShloMosaic.StableHlo

-- any buffer contents before the stretch, at the ideal values
variable (V : Valuation τ sig (Elt Ideal))

/-! # What the last two host stretches compute, from any contents before them

The stretch before the readout pools each layer's features per graph — the rows scatter-added at the graph ids, times
the reciprocal node count broadcast across the columns —, sets the five pooled blocks side by side, and lays the two
bias vectors as one-row arrays. The stretch after the readout flattens its 512×1 result. -/

/-- Reading through two lines of operations run one after the other: the second line's reading of what the first leaves. -/
theorem after_append6 (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The stretch's first thirty operations: the five poolings. -/
abbrev pool6 : List (HloOp τ sig (Elt Ideal)) := (hostOps6 (F := Ideal)).take 30
/-- Its last three: the joining of the five blocks and the two bias rows. -/
abbrev tail6 : List (HloOp τ sig (Elt Ideal)) := (hostOps6 (F := Ideal)).drop 30

theorem hostOps6_split : (hostOps6 (F := Ideal)) = pool6 ++ tail6 := (List.take_append_drop 30 _).symm

set_option maxHeartbeats 1000000 in
/-- The last three operations, from any contents `W`: the five blocks `W` holds, side by side. -/
theorem tail6_v118 (W : Valuation τ sig (Elt Ideal)) :
    (after tail6 W (Proc.devRef .tc main_v118) : S512x640.Idx → EReal)
      = Cert.Bridge.cat5 (W (Proc.devRef .tc main_v97)) (W (Proc.devRef .tc main_v102)) (W (Proc.devRef .tc main_v107))
          (W (Proc.devRef .tc main_v112)) (W (Proc.devRef .tc main_v117)) := by
  dsimp only [tail6, hostOps6, List.drop]; after_results
  rfl

set_option maxHeartbeats 1000000 in
/-- Pooled block 1: the layer's rows scatter-added at the graph ids, times the reciprocal count broadcast across the columns. -/
theorem pool6_v97 (h26 : (V (Proc.devRef .tc main_v26) : S512x1.Idx → EReal) = Cert.Bridge.rcK (V (Proc.devRef .tc main_arg2))) :
    (after pool6 V (Proc.devRef .tc main_v97) : S512x128.Idx → EReal) = Cert.Bridge.poolK (V (Proc.devRef .tc main_v40_0)) (V (Proc.devRef .tc main_arg2)) := by
  dsimp only [pool6, hostOps6, List.take]; after_results
  rw [show (V (Proc.devRef .tc main_v26)) = Cert.Bridge.rcK (V (Proc.devRef .tc main_arg2)) from h26]
  rfl

set_option maxHeartbeats 1000000 in
/-- Pooled block 2: the layer's rows scatter-added at the graph ids, times the reciprocal count broadcast across the columns. -/
theorem pool6_v102 (h26 : (V (Proc.devRef .tc main_v26) : S512x1.Idx → EReal) = Cert.Bridge.rcK (V (Proc.devRef .tc main_arg2))) :
    (after pool6 V (Proc.devRef .tc main_v102) : S512x128.Idx → EReal) = Cert.Bridge.poolK (V (Proc.devRef .tc main_v53_0)) (V (Proc.devRef .tc main_arg2)) := by
  dsimp only [pool6, hostOps6, List.take]; after_results
  rw [show (V (Proc.devRef .tc main_v26)) = Cert.Bridge.rcK (V (Proc.devRef .tc main_arg2)) from h26]
  rfl

set_option maxHeartbeats 1000000 in
/-- Pooled block 3: the layer's rows scatter-added at the graph ids, times the reciprocal count broadcast across the columns. -/
theorem pool6_v107 (h26 : (V (Proc.devRef .tc main_v26) : S512x1.Idx → EReal) = Cert.Bridge.rcK (V (Proc.devRef .tc main_arg2))) :
    (after pool6 V (Proc.devRef .tc main_v107) : S512x128.Idx → EReal) = Cert.Bridge.poolK (V (Proc.devRef .tc main_v66_0)) (V (Proc.devRef .tc main_arg2)) := by
  dsimp only [pool6, hostOps6, List.take]; after_results
  rw [show (V (Proc.devRef .tc main_v26)) = Cert.Bridge.rcK (V (Proc.devRef .tc main_arg2)) from h26]
  rfl

set_option maxHeartbeats 1000000 in
/-- Pooled block 4: the layer's rows scatter-added at the graph ids, times the reciprocal count broadcast across the columns. -/
theorem pool6_v112 (h26 : (V (Proc.devRef .tc main_v26) : S512x1.Idx → EReal) = Cert.Bridge.rcK (V (Proc.devRef .tc main_arg2))) :
    (after pool6 V (Proc.devRef .tc main_v112) : S512x128.Idx → EReal) = Cert.Bridge.poolK (V (Proc.devRef .tc main_v79_0)) (V (Proc.devRef .tc main_arg2)) := by
  dsimp only [pool6, hostOps6, List.take]; after_results
  rw [show (V (Proc.devRef .tc main_v26)) = Cert.Bridge.rcK (V (Proc.devRef .tc main_arg2)) from h26]
  rfl

set_option maxHeartbeats 1000000 in
/-- Pooled block 5: the layer's rows scatter-added at the graph ids, times the reciprocal count broadcast across the columns. -/
theorem pool6_v117 (h26 : (V (Proc.devRef .tc main_v26) : S512x1.Idx → EReal) = Cert.Bridge.rcK (V (Proc.devRef .tc main_arg2))) :
    (after pool6 V (Proc.devRef .tc main_v117) : S512x128.Idx → EReal) = Cert.Bridge.poolK (V (Proc.devRef .tc main_v92)) (V (Proc.devRef .tc main_arg2)) := by
  dsimp only [pool6, hostOps6, List.take]; after_results
  rw [show (V (Proc.devRef .tc main_v26)) = Cert.Bridge.rcK (V (Proc.devRef .tc main_arg2)) from h26]
  rfl

/-- The five pooled blocks side by side, given that the reciprocal-count column is what the earlier stretch left. -/
theorem after6_v118 (h26 : (V (Proc.devRef .tc main_v26) : S512x1.Idx → EReal) = Cert.Bridge.rcK (V (Proc.devRef .tc main_arg2))) :
    (after (hostOps6 (F := Ideal)) V (Proc.devRef .tc main_v118) : S512x640.Idx → EReal)
      = Cert.Bridge.cat5 (Cert.Bridge.poolK (V (Proc.devRef .tc main_v40_0)) (V (Proc.devRef .tc main_arg2))) (Cert.Bridge.poolK (V (Proc.devRef .tc main_v53_0)) (V (Proc.devRef .tc main_arg2))) (Cert.Bridge.poolK (V (Proc.devRef .tc main_v66_0)) (V (Proc.devRef .tc main_arg2))) (Cert.Bridge.poolK (V (Proc.devRef .tc main_v79_0)) (V (Proc.devRef .tc main_arg2))) (Cert.Bridge.poolK (V (Proc.devRef .tc main_v92)) (V (Proc.devRef .tc main_arg2))) := by
  rw [hostOps6_split, after_append6, tail6_v118, pool6_v97 V h26, pool6_v102 V h26, pool6_v107 V h26, pool6_v112 V h26,
    pool6_v117 V h26]

set_option maxHeartbeats 1000000 in
/-- The first readout bias laid as a one-row array. -/
theorem after6_v119 : (after (hostOps6 (F := Ideal)) V (Proc.devRef .tc main_v119) : S1x640.Idx → EReal)
    = shapeCast S1x640 (V (Proc.devRef .tc main_arg12)) shapeCasts_S640_S1x640 := by
  dsimp only [hostOps6]; after_results; rfl

set_option maxHeartbeats 1000000 in
/-- The second readout bias laid as a one-by-one array. -/
theorem after6_v120 : (after (hostOps6 (F := Ideal)) V (Proc.devRef .tc main_v120) : S1x1.Idx → EReal)
    = shapeCast S1x1 (V (Proc.devRef .tc main_arg14)) shapeCasts_S1_S1x1 := by
  dsimp only [hostOps6]; after_results; rfl

set_option maxHeartbeats 1000000 in
/-- The readout's column flattened to a vector. -/
theorem after7_v122 : (after (hostOps7 (F := Ideal)) V (Proc.devRef .tc main_v122) : S512.Idx → EReal)
    = shapeCast S512 (V (Proc.devRef .tc main_v121)) shapeCasts_S512x1_S512 := by
  dsimp only [hostOps7]; after_results; rfl

end Cert.KernelIdeal.H

end
-- ==== Proof.KI.V6.lean ====
import proofs.«105302_j51668456571568_2_alg».proof.Proof.KI.R6
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the core's buffer contents when the region is entered, at the ideal values
variable (V : (c : Dev nD) → (b : Ref sig .tc) → Buf (Elt Ideal) ((c : Thread nD τ).loc b))

/-! # Region 6, read: the result array is the body's payload of the five whole argument arrays

The grid has one point and every window's block is the whole of its array, so what the point reads are the arrays
themselves and what it writes back is the whole result. -/

theorem hz6 : (![0, 0] : Fin 2 → Nat) = fun _ => 0 := funext fun a => by fin_cases a <;> rfl

/-- The index maps, decided over the one point: every window's block is block zero on both axes. -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the point writes back is the (whole-array) block of the payload of the argument arrays as the region finds them. -/
theorem flushed6_5_eq (c : Dev nD) (t : Fin cfg6.N) :
    (dat6 V c).flushed 5 t = ((cfg6.win 5).blk t).view.read (Elt Ideal)
      (k6_pay1 (F := Ideal) (V c main_v118) (V c main_arg11) (V c main_v119) (V c main_arg13) (V c main_v120)) := by
  show (cfg6.win 5).cut (grid6.coords t) ((dat6 V c).after 5 t) = _
  rw [after6_5]
  unfold out6_5
  rw [View.canon_unit_zero hz6]
  simp only [View.ld_unit_zero (S := S512x640) hz6, View.ld_unit_zero (S := S640x640) hz6, View.ld_unit_zero (S := S1x640) hz6,
    View.ld_unit_zero (S := S640x1) hz6, View.ld_unit_zero (S := S1x1) hz6]
  obtain ⟨e00, e01, e10, e11, e20, e21, e30, e31, e40, e41, e50, e51⟩ := idx_facts6 t
  have hb0 : (iblk6 V c 0 t : Vec Ideal S512x640 .f32) = V c main_v118 := by
    funext y
    show V c main_v118 (((cfg6.win 0).blk t).view.emb y) = V c main_v118 y
    refine congrArg (V c main_v118) (funext fun a => Fin.ext ?_)
    match a with
    | ⟨0, _⟩ => show win6_0.index t (0 : Fin 2) * 512 + 1 * (y 0).val = (y 0).val; omega
    | ⟨1, _⟩ => show win6_0.index t (1 : Fin 2) * 640 + 1 * (y 1).val = (y 1).val; omega
  have hb1 : (iblk6 V c 1 t : Vec Ideal S640x640 .f32) = V c main_arg11 := by
    funext y
    show V c main_arg11 (((cfg6.win 1).blk t).view.emb y) = V c main_arg11 y
    refine congrArg (V c main_arg11) (funext fun a => Fin.ext ?_)
    match a with
    | ⟨0, _⟩ => show win6_1.index t (0 : Fin 2) * 640 + 1 * (y 0).val = (y 0).val; omega
    | ⟨1, _⟩ => show win6_1.index t (1 : Fin 2) * 640 + 1 * (y 1).val = (y 1).val; omega
  have hb2 : (iblk6 V c 2 t : Vec Ideal S1x640 .f32) = V c main_v119 := by
    funext y
    show V c main_v119 (((cfg6.win 2).blk t).view.emb y) = V c main_v119 y
    refine congrArg (V c main_v119) (funext fun a => Fin.ext ?_)
    match a with
    | ⟨0, _⟩ => show win6_2.index t (0 : Fin 2) * 1 + 1 * (y 0).val = (y 0).val; omega
    | ⟨1, _⟩ => show win6_2.index t (1 : Fin 2) * 640 + 1 * (y 1).val = (y 1).val; omega
  have hb3 : (iblk6 V c 3 t : Vec Ideal S640x1 .f32) = V c main_arg13 := by
    funext y
    show V c main_arg13 (((cfg6.win 3).blk t).view.emb y) = V c main_arg13 y
    refine congrArg (V c main_arg13) (funext fun a => Fin.ext ?_)
    match a with
    | ⟨0, _⟩ => show win6_3.index t (0 : Fin 2) * 640 + 1 * (y 0).val = (y 0).val; omega
    | ⟨1, _⟩ => show win6_3.index t (1 : Fin 2) * 1 + 1 * (y 1).val = (y 1).val; omega
  have hb4 : (iblk6 V c 4 t : Vec Ideal S1x1 .f32) = V c main_v120 := by
    funext y
    show V c main_v120 (((cfg6.win 4).blk t).view.emb y) = V c main_v120 y
    refine congrArg (V c main_v120) (funext fun a => Fin.ext ?_)
    match a with
    | ⟨0, _⟩ => show win6_4.index t (0 : Fin 2) * 1 + 1 * (y 0).val = (y 0).val; omega
    | ⟨1, _⟩ => show win6_4.index t (1 : Fin 2) * 1 + 1 * (y 1).val = (y 1).val; omega
  funext j
  show k6_pay1 (F := Ideal) (iblk6 V c 0 t) (iblk6 V c 1 t) (iblk6 V c 2 t) (iblk6 V c 3 t) (iblk6 V c 4 t) j
    = k6_pay1 (F := Ideal) (V c main_v118) (V c main_arg11) (V c main_v119) (V c main_arg13) (V c main_v120)
        (((cfg6.win 5).blk t).view.emb j)
  have hj : ((cfg6.win 5).blk t).view.emb j = j := by
    funext a; apply Fin.ext
    match a with
    | ⟨0, _⟩ => show win6_5.index t (0 : Fin 2) * 512 + 1 * (j 0).val = (j 0).val; omega
    | ⟨1, _⟩ => show win6_5.index t (1 : Fin 2) * 1 + 1 * (j 1).val = (j 1).val; omega
  rw [hj, hb0, hb1, hb2, hb3, hb4]

/-- An index of the result array is in the point's block iff each coordinate is in the block's range on its axis. -/
theorem mem_blk6_5 (t : Fin cfg6.N) (i : S512x1.Idx) :
    i ∈ ((cfg6.win 5).blk t).view.set ↔ ∀ a : Fin 2, win6_5.index t a * S512x1.size a ≤ (i a).val
      ∧ (i a).val < win6_5.index t a * S512x1.size a + S512x1.size a := by
  show i ∈ ((View.whole main_v121).slice (win6_5.rect t)).set ↔ _
  rw [View.set_slice_whole, Rect.mem_set_unit]
  exact Iff.rfl

/-- Every index of the result array is in the one point's block. -/
theorem cover6_arr (i : S512x1.Idx) :
    ∃ t : Fin cfg6.N, (cfg6.win 5).flush t = true ∧ i ∈ ((cfg6.win 5).blk t).view.set := by
  have hi0 : (i 0).val < 512 := (i 0).isLt
  have hi1 : (i 1).val < 1 := (i 1).isLt
  obtain ⟨e00, e01, e10, e11, e20, e21, e30, e31, e40, e41, e50, e51⟩ := idx_facts6 t6_0
  refine ⟨t6_0, flush6_5 t6_0, ?_⟩
  rw [mem_blk6_5]
  intro a
  match a with
  | ⟨0, _⟩ => show win6_5.index t6_0 (0 : Fin 2) * 512 ≤ (i 0).val ∧ (i 0).val < win6_5.index t6_0 (0 : Fin 2) * 512 + 512; omega
  | ⟨1, _⟩ => show win6_5.index t6_0 (1 : Fin 2) * 1 ≤ (i 1).val ∧ (i 1).val < win6_5.index t6_0 (1 : Fin 2) * 1 + 1; omega

/-- The result array after the region: the body's payload of the five argument arrays. -/
theorem final6_5 (c : Dev nD) : (dat6 V c).arrAt 5 cfg6.N
    = k6_pay1 (F := Ideal) (V c main_v118) (V c main_arg11) (V c main_v119) (V c main_arg13) (V c main_v120) :=
  (dat6 V c).arrAt_eq_of_cover 5 _ (fun t _ => flushed6_5_eq V c t) cover6_arr

end Cert.KernelIdeal.H

end
-- ==== Proof.KI.ValsT.lean ====
/-
  The tail of the idealized kernel program, and its result, as explicit functions of the arguments.  The fold of the buffers' contents is read
  boundary by boundary: a host stretch at the contents before it, a region's output at the closed form of its blocks; a
  buffer carried unchanged is read where it was made.  The index vectors, the normalisation column and the reciprocal counts
  are the reference's own stages (the two programs compute them by the same operations); each transform stage leaves the
  scaled product, each epilogue the rectified scaled aggregate plus bias, and the last region the perceptron of the five
  pooled blocks laid side by side.
-/
import proofs.«105302_j51668456571568_2_alg».proof.Proof.KI.ValsL
import proofs.«105302_j51668456571568_2_alg».proof.Proof.KI.Host6
import proofs.«105302_j51668456571568_2_alg».proof.Proof.KI.V6
import Idealize.ShloMosaic.PureOps.Ideal
import Idealize.ShloMosaic.PureOps.Ideal.Laws
import Idealize.ShloMosaic.Lib.ValueIdx
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The tail -/

theorem w15_v118 (c : Dev nD) : (W15 m ρ c (Proc.devRef .tc main_v118) : S512x640.Idx → EReal) = Cert.Bridge.cat5 (Cert.Bridge.poolK (Cert.Bridge.kH (Cert.Bridge.kT (A0 m c) (A3 m c) (A1 m c)) (A4 m c) (A1 m c)) (A2 m c)) (Cert.Bridge.poolK (Cert.Bridge.kH (Cert.Bridge.kT (Cert.Bridge.kH (Cert.Bridge.kT (A0 m c) (A3 m c) (A1 m c)) (A4 m c) (A1 m c)) (A5 m c) (A1 m c)) (A6 m c) (A1 m c)) (A2 m c)) (Cert.Bridge.poolK (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A2 m c)) (Cert.Bridge.poolK (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A2 m c)) (Cert.Bridge.poolK (Cert.Bridge.kH (Cert.Bridge.kT (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A9 m c) (A1 m c)) (A10 m c) (A1 m c)) (A2 m c)) := by
  have h26 : (W14 m ρ c (Proc.devRef .tc main_v26) : S512x1.Idx → EReal) = Cert.Bridge.rcK (W14 m ρ c (Proc.devRef .tc main_arg2)) := by
    rw [back_main_v26_14_3 m ρ c, w3_v26 m ρ c, back_main_arg2_14_0 m ρ c]
  refine (after6_v118 (W14 m ρ c) h26).trans ?_
  rw [back_main_arg2_14_0 m ρ c, back_main_v40_0_14_6 m ρ c, w6_h m ρ c, back_main_v53_0_14_8 m ρ c, w8_h m ρ c,
    back_main_v66_0_14_10 m ρ c, w10_h m ρ c, back_main_v79_0_14_12 m ρ c, w12_h m ρ c, w14_h m ρ c]
theorem w15_v119 (c : Dev nD) : (W15 m ρ c (Proc.devRef .tc main_v119) : S1x640.Idx → EReal) = shapeCast S1x640 (A12 m c) shapeCasts_S640_S1x640 :=
  (after6_v119 (W14 m ρ c)).trans (by rw [back_main_arg12_14_0 m ρ c])
theorem w15_v120 (c : Dev nD) : (W15 m ρ c (Proc.devRef .tc main_v120) : S1x1.Idx → EReal) = shapeCast S1x1 (A14 m c) shapeCasts_S1_S1x1 :=
  (after6_v120 (W14 m ρ c)).trans (by rw [back_main_arg14_14_0 m ρ c])
theorem w16_v121 (c : Dev nD) : (W16 m ρ c (Proc.devRef .tc main_v121) : S512x1.Idx → EReal)
    = Cert.Bridge.mlpK (Cert.Bridge.cat5 (Cert.Bridge.poolK (Cert.Bridge.kH (Cert.Bridge.kT (A0 m c) (A3 m c) (A1 m c)) (A4 m c) (A1 m c)) (A2 m c)) (Cert.Bridge.poolK (Cert.Bridge.kH (Cert.Bridge.kT (Cert.Bridge.kH (Cert.Bridge.kT (A0 m c) (A3 m c) (A1 m c)) (A4 m c) (A1 m c)) (A5 m c) (A1 m c)) (A6 m c) (A1 m c)) (A2 m c)) (Cert.Bridge.poolK (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A2 m c)) (Cert.Bridge.poolK (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A2 m c)) (Cert.Bridge.poolK (Cert.Bridge.kH (Cert.Bridge.kT (Cert.Bridge.kH (Cert.Bridge.kT (Cert.Bridge.kH (Cert.Bridge.kT (Cert.Bridge.kH (Cert.Bridge.kT (Cert.Bridge.kH (Cert.Bridge.kT (A0 m c) (A3 m c) (A1 m c)) (A4 m c) (A1 m c)) (A5 m c) (A1 m c)) (A6 m c) (A1 m c)) (A7 m c) (A1 m c)) (A8 m c) (A1 m c)) (A9 m c) (A1 m c)) (A10 m c) (A1 m c)) (A9 m c) (A1 m c)) (A10 m c) (A1 m c)) (A2 m c))) (A11 m c) (A12 m c) (A13 m c) (A14 m c) := by
  refine (W16_arr m ρ c 5).trans ((final6_5 (T15 m ρ) c).trans ?_)
  show k6_pay1 (F := Ideal) (W15 m ρ c (Proc.devRef .tc main_v118)) (W15 m ρ c (Proc.devRef .tc main_arg11)) (W15 m ρ c (Proc.devRef .tc main_v119))
    (W15 m ρ c (Proc.devRef .tc main_arg13)) (W15 m ρ c (Proc.devRef .tc main_v120)) = _
  rw [w15_v118 m ρ c, back_main_arg11_15_0 m ρ c, w15_v119 m ρ c, back_main_arg13_15_0 m ρ c, w15_v120 m ρ c]
  rfl

/-- The result buffer at the end of the run: the tail of the five layer outputs. -/
theorem w17_v122 (c : Dev nD) : (W17 m ρ c (Proc.devRef .tc main_v122) : S512.Idx → EReal)
    = Cert.Bridge.kerTail (Cert.Bridge.kH1 (A0 m c) (A1 m c) (A3 m c) (A4 m c)) (Cert.Bridge.kH2 (A0 m c) (A1 m c) (A3 m c) (A4 m c) (A5 m c) (A6 m c))
        (Cert.Bridge.kH3 (A0 m c) (A1 m c) (A3 m c) (A4 m c) (A5 m c) (A6 m c) (A7 m c) (A8 m c))
        (Cert.Bridge.kH4 (A0 m c) (A1 m c) (A3 m c) (A4 m c) (A5 m c) (A6 m c) (A7 m c) (A8 m c) (A9 m c) (A10 m c))
        (Cert.Bridge.kH5 (A0 m c) (A1 m c) (A3 m c) (A4 m c) (A5 m c) (A6 m c) (A7 m c) (A8 m c) (A9 m c) (A10 m c))
        (A2 m c) (A11 m c) (A12 m c) (A13 m c) (A14 m c) := by
  refine (after7_v122 (W16 m ρ c)).trans ?_
  rw [w16_v121 m ρ c]
  rfl

end Cert.KernelIdeal.H

end
-- ==== Proof.RefRunH0.lean ====
/-
  The reference program's 251 host operations cut into thirteen consecutive stretches, at the points where few values
  are still to be read: the edge indices and the degree normalisation (two stretches), the five graph layers, the five
  mean poolings, and the perceptron. The program is the stretches one after the other, so its effect on the buffers is
  the stretches' effects composed; each stretch writes only the buffers of its own short list, so every other buffer
  comes out of it as it went in.
-/
import proofs.«105302_j51668456571568_2_alg».proof.Proof.RefRunP
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two stretches run one after the other are the second's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Operations 1 … 24 of the program. -/
abbrev cA1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]
/-- The buffers they write. -/
abbrev cA1_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16]
theorem cA1_writes : (cA1 : List (HloOp τ sig (Elt F))).Forall fun op => op.writes ⊆ (cA1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cA1_keep (V : Valuation τ sig (Elt F)) (r : Ref sig .tc) (h : r ∉ cA1_W) :
    after cA1 V (Proc.devRef .tc r) = V (Proc.devRef .tc r) :=
  after_of_writes_sub cA1 V cA1_writes h

/-- Operations 25 … 43 of the program. -/
abbrev cA2 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]
/-- The buffers they write. -/
abbrev cA2_W : List (Ref sig .tc) := [main_c, main_v17, main_v18, main_c_4, main_v19, main_v20, main_v21, main_v22, main_v23, main_c_5, main_v24, main_v25, main_c_6, main_v26, main_v27, main_v28, main_v29, main_v30, main_v31]
theorem cA2_writes : (cA2 : List (HloOp τ sig (Elt F))).Forall fun op => op.writes ⊆ (cA2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cA2_keep (V : Valuation τ sig (Elt F)) (r : Ref sig .tc) (h : r ∉ cA2_W) :
    after cA2 V (Proc.devRef .tc r) = V (Proc.devRef .tc r) :=
  after_of_writes_sub cA2 V cA2_writes h

/-- Operations 44 … 66 of the program. -/
abbrev cL1 : List (HloOp τ sig (Elt F)) :=
  [ binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]
/-- The buffers they write. -/
abbrev cL1_W : List (Ref sig .tc) := [main_v32, main_c_7, main_v33, main_v34, main_c_8, main_v35, main_v36, main_v37, main_v38, main_v39, main_v40, main_v41, main_v42, main_cst_9, main_v43, main_v44, main_v45, main_v46, main_v47, main_v48, main_call1_cst, main_call1_v0, main_v49]
theorem cL1_writes : (cL1 : List (HloOp τ sig (Elt F))).Forall fun op => op.writes ⊆ (cL1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cL1_keep (V : Valuation τ sig (Elt F)) (r : Ref sig .tc) (h : r ∉ cL1_W) :
    after cL1 V (Proc.devRef .tc r) = V (Proc.devRef .tc r) :=
  after_of_writes_sub cL1 V cL1_writes h

/-- Operations 67 … 89 of the program. -/
abbrev cL2 : List (HloOp τ sig (Elt F)) :=
  [ binary main_v49 main_arg5 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]
/-- The buffers they write. -/
abbrev cL2_W : List (Ref sig .tc) := [main_v50, main_c_10, main_v51, main_v52, main_c_11, main_v53, main_v54, main_v55, main_v56, main_v57, main_v58, main_v59, main_v60, main_cst_12, main_v61, main_v62, main_v63, main_v64, main_v65, main_v66, main_call2_cst, main_call2_v0, main_v67]
theorem cL2_writes : (cL2 : List (HloOp τ sig (Elt F))).Forall fun op => op.writes ⊆ (cL2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cL2_keep (V : Valuation τ sig (Elt F)) (r : Ref sig .tc) (h : r ∉ cL2_W) :
    after cL2 V (Proc.devRef .tc r) = V (Proc.devRef .tc r) :=
  after_of_writes_sub cL2 V cL2_writes h

/-- Operations 90 … 112 of the program. -/
abbrev cL3 : List (HloOp τ sig (Elt F)) :=
  [ binary main_v67 main_arg7 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x128 ![0, 1] bcast_S1700000x1_S1700000x128_0_1 : (⟨S1700000x1, .f32⟩ : BufTy).Contents (Elt F) → (⟨S1700000x128, .f32⟩ : BufTy).Contents (Elt F)),
    binary main_v75 main_v77 main_v78 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v79 (broadcastInDim S100000x128 ![] bcast_S_S100000x128 : (⟨S_, .f32⟩ : BufTy).Contents (Elt F) → (⟨S100000x128, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v84) (TRef.of (T := ⟨S100000x128, .f32⟩) main_call3_v0) (TRef.of (T := ⟨S100000x128, .f32⟩) main_v85) maximumf ]
/-- The buffers they write. -/
abbrev cL3_W : List (Ref sig .tc) := [main_v68, main_c_13, main_v69, main_v70, main_c_14, main_v71, main_v72, main_v73, main_v74, main_v75, main_v76, main_v77, main_v78, main_cst_15, main_v79, main_v80, main_v81, main_v82, main_v83, main_v84, main_call3_cst, main_call3_v0, main_v85]
theorem cL3_writes : (cL3 : List (HloOp τ sig (Elt F))).Forall fun op => op.writes ⊆ (cL3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cL3_keep (V : Valuation τ sig (Elt F)) (r : Ref sig .tc) (h : r ∉ cL3_W) :
    after cL3 V (Proc.devRef .tc r) = V (Proc.devRef .tc r) :=
  after_of_writes_sub cL3 V cL3_writes h

/-- Operations 113 … 135 of the program. -/
abbrev cL4 : List (HloOp τ sig (Elt F)) :=
  [ binary main_v85 main_arg9 main_v86 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v87 (broadcastInDim S1700000 ![] bcast_S_S1700000 : (⟨S_, .i32⟩ : BufTy).Contents (Elt F) → (⟨S1700000, .i32⟩ : BufTy).Contents (Elt F)),
    binary main_v3 main_v87 main_v88 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v89 (broadcastInDim S1700000 ![] bcast_S_S1700000 : (⟨S_, .i32⟩ : BufTy).Contents (Elt F) → (⟨S1700000, .i32⟩ : BufTy).Contents (Elt F)),
    binary main_v3 main_v89 main_v90 (addi : (⟨S1700000, .i32⟩ : BufTy).Contents (Elt F) → (⟨S1700000, .i32⟩ : BufTy).Contents (Elt F) → (⟨S1700000, .i32⟩ : BufTy).Contents (Elt F)),
    ternary main_v88 main_v90 main_v3 main_v91 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v91 main_v92 (broadcastInDim S1700000x1 ![0] bcast_S1700000_S1700000x1_0 : (⟨S1700000, .i32⟩ : BufTy).Contents (Elt F) → (⟨S1700000x1, .i32⟩ : BufTy).Contents (Elt F)),
    binary main_v86 main_v92 main_v93 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v94 (broadcastInDim S1700000x1 ![0] bcast_S1700000_S1700000x1_0 : (⟨S1700000, .f32⟩ : BufTy).Contents (Elt F) → (⟨S1700000x1, .f32⟩ : BufTy).Contents (Elt F)),
    unary main_v94 main_v95 (broadcastInDim S1700000x128 ![0, 1] bcast_S1700000x1_S1700000x128_0_1 : (⟨S1700000x1, .f32⟩ : BufTy).Contents (Elt F) → (⟨S1700000x128, .f32⟩ : BufTy).Contents (Elt F)),
    binary main_v93 main_v95 main_v96 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v97 (broadcastInDim S100000x128 ![] bcast_S_S100000x128 : (⟨S_, .f32⟩ : BufTy).Contents (Elt F) → (⟨S100000x128, .f32⟩ : BufTy).Contents (Elt F)),
    unary main_v6 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg10 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v102) (TRef.of (T := ⟨S100000x128, .f32⟩) main_call4_v0) (TRef.of (T := ⟨S100000x128, .f32⟩) main_v103) maximumf ]
/-- The buffers they write. -/
abbrev cL4_W : List (Ref sig .tc) := [main_v86, main_c_16, main_v87, main_v88, main_c_17, main_v89, main_v90, main_v91, main_v92, main_v93, main_v94, main_v95, main_v96, main_cst_18, main_v97, main_v98, main_v99, main_v100, main_v101, main_v102, main_call4_cst, main_call4_v0, main_v103]
theorem cL4_writes : (cL4 : List (HloOp τ sig (Elt F))).Forall fun op => op.writes ⊆ (cL4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cL4_keep (V : Valuation τ sig (Elt F)) (r : Ref sig .tc) (h : r ∉ cL4_W) :
    after cL4 V (Proc.devRef .tc r) = V (Proc.devRef .tc r) :=
  after_of_writes_sub cL4 V cL4_writes h

/-- Operations 136 … 158 of the program. -/
abbrev cL5 : List (HloOp τ sig (Elt F)) :=
  [ binary main_v103 main_arg9 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_19 (constantI S_ 32 0#32),
    unary main_c_19 main_v105 (broadcastInDim S1700000 ![] bcast_S_S1700000 : (⟨S_, .i32⟩ : BufTy).Contents (Elt F) → (⟨S1700000, .i32⟩ : BufTy).Contents (Elt F)),
    binary main_v3 main_v105 main_v106 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v107 (broadcastInDim S1700000 ![] bcast_S_S1700000 : (⟨S_, .i32⟩ : BufTy).Contents (Elt F) → (⟨S1700000, .i32⟩ : BufTy).Contents (Elt F)),
    binary main_v3 main_v107 main_v108 (addi : (⟨S1700000, .i32⟩ : BufTy).Contents (Elt F) → (⟨S1700000, .i32⟩ : BufTy).Contents (Elt F) → (⟨S1700000, .i32⟩ : BufTy).Contents (Elt F)),
    ternary main_v106 main_v108 main_v3 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v109 main_v110 (broadcastInDim S1700000x1 ![0] bcast_S1700000_S1700000x1_0 : (⟨S1700000, .i32⟩ : BufTy).Contents (Elt F) → (⟨S1700000x1, .i32⟩ : BufTy).Contents (Elt F)),
    binary main_v104 main_v110 main_v111 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v112 (broadcastInDim S1700000x1 ![0] bcast_S1700000_S1700000x1_0 : (⟨S1700000, .f32⟩ : BufTy).Contents (Elt F) → (⟨S1700000x1, .f32⟩ : BufTy).Contents (Elt F)),
    unary main_v112 main_v113 (broadcastInDim S1700000x128 ![0, 1] bcast_S1700000x1_S1700000x128_0_1 : (⟨S1700000x1, .f32⟩ : BufTy).Contents (Elt F) → (⟨S1700000x128, .f32⟩ : BufTy).Contents (Elt F)),
    binary main_v111 main_v113 main_v114 (mulf : (⟨S1700000x128, .f32⟩ : BufTy).Contents (Elt F) → (⟨S1700000x128, .f32⟩ : BufTy).Contents (Elt F) → (⟨S1700000x128, .f32⟩ : BufTy).Contents (Elt F)),
    nullary main_cst_21 (constant S_ .f32 0x00000000#32),
    unary main_cst_21 main_v115 (broadcastInDim S100000x128 ![] bcast_S_S100000x128 : (⟨S_, .f32⟩ : BufTy).Contents (Elt F) → (⟨S100000x128, .f32⟩ : BufTy).Contents (Elt F)),
    unary main_v6 main_v116 (broadcastInDim S1700000x1 ![0] bcast_S1700000_S1700000x1_0 : (⟨S1700000, .i32⟩ : BufTy).Contents (Elt F) → (⟨S1700000x1, .i32⟩ : BufTy).Contents (Elt F)),
    ternary main_v115 main_v116 main_v114 main_v117 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg10 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v117 main_v119 main_v120 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v120) (TRef.of (T := ⟨S100000x128, .f32⟩) main_call5_v0) (TRef.of (T := ⟨S100000x128, .f32⟩) main_v121) maximumf ]
/-- The buffers they write. -/
abbrev cL5_W : List (Ref sig .tc) := [main_v104, main_c_19, main_v105, main_v106, main_c_20, main_v107, main_v108, main_v109, main_v110, main_v111, main_v112, main_v113, main_v114, main_cst_21, main_v115, main_v116, main_v117, main_v118, main_v119, main_v120, main_call5_cst, main_call5_v0, main_v121]
theorem cL5_writes : (cL5 : List (HloOp τ sig (Elt F))).Forall fun op => op.writes ⊆ (cL5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cL5_keep (V : Valuation τ sig (Elt F)) (r : Ref sig .tc) (h : r ∉ cL5_W) :
    after cL5 V (Proc.devRef .tc r) = V (Proc.devRef .tc r) :=
  after_of_writes_sub cL5 V cL5_writes h

/-- Operations 159 … 174 of the program. -/
abbrev cP1 : List (HloOp τ sig (Elt F)) :=
  [ nullary main_cst_22 (constant S_ .f32 0x00000000#32),
    unary main_cst_22 main_v122 (broadcastInDim S512x128 ![] bcast_S_S512x128 : (⟨S_, .f32⟩ : BufTy).Contents (Elt F) → (⟨S512x128, .f32⟩ : BufTy).Contents (Elt F)),
    unary main_arg2 main_v123 (broadcastInDim S100000x1 ![0] bcast_S100000_S100000x1_0 : (⟨S100000, .i32⟩ : BufTy).Contents (Elt F) → (⟨S100000x1, .i32⟩ : BufTy).Contents (Elt F)),
    ternary main_v122 main_v123 main_v49 main_v124 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_23 (constant S_ .f32 0x3F800000#32),
    unary main_cst_23 main_v125 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v126 (broadcastInDim S512 ![] bcast_S_S512 : (⟨S_, .f32⟩ : BufTy).Contents (Elt F) → (⟨S512, .f32⟩ : BufTy).Contents (Elt F)),
    unary main_arg2 main_v127 (broadcastInDim S100000x1 ![0] bcast_S100000_S100000x1_0 : (⟨S100000, .i32⟩ : BufTy).Contents (Elt F) → (⟨S100000x1, .i32⟩ : BufTy).Contents (Elt F)),
    ternary main_v126 main_v127 main_v125 main_v128 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_25 (constant S_ .f32 0x3F800000#32),
    unary main_cst_25 main_v129 (broadcastInDim S512 ![] bcast_S_S512 : (⟨S_, .f32⟩ : BufTy).Contents (Elt F) → (⟨S512, .f32⟩ : BufTy).Contents (Elt F)),
    binary main_v128 main_v129 main_v130 (maximumf : (⟨S512, .f32⟩ : BufTy).Contents (Elt F) → (⟨S512, .f32⟩ : BufTy).Contents (Elt F) → (⟨S512, .f32⟩ : BufTy).Contents (Elt F)),
    unary main_v130 main_v131 (broadcastInDim S512x1 ![0] bcast_S512_S512x1_0 : (⟨S512, .f32⟩ : BufTy).Contents (Elt F) → (⟨S512x1, .f32⟩ : BufTy).Contents (Elt F)),
    unary main_v131 main_v132 (broadcastInDim S512x128 ![0, 1] bcast_S512x1_S512x128_0_1 : (⟨S512x1, .f32⟩ : BufTy).Contents (Elt F) → (⟨S512x128, .f32⟩ : BufTy).Contents (Elt F)),
    binary main_v124 main_v132 main_v133 (Host.divf : (⟨S512x128, .f32⟩ : BufTy).Contents (Elt F) → (⟨S512x128, .f32⟩ : BufTy).Contents (Elt F) → (⟨S512x128, .f32⟩ : BufTy).Contents (Elt F)) ]
/-- The buffers they write. -/
abbrev cP1_W : List (Ref sig .tc) := [main_cst_22, main_v122, main_v123, main_v124, main_cst_23, main_v125, main_cst_24, main_v126, main_v127, main_v128, main_cst_25, main_v129, main_v130, main_v131, main_v132, main_v133]
theorem cP1_writes : (cP1 : List (HloOp τ sig (Elt F))).Forall fun op => op.writes ⊆ (cP1_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cP1_keep (V : Valuation τ sig (Elt F)) (r : Ref sig .tc) (h : r ∉ cP1_W) :
    after cP1 V (Proc.devRef .tc r) = V (Proc.devRef .tc r) :=
  after_of_writes_sub cP1 V cP1_writes h

/-- Operations 175 … 190 of the program. -/
abbrev cP2 : List (HloOp τ sig (Elt F)) :=
  [ nullary main_cst_26 (constant S_ .f32 0x00000000#32),
    unary main_cst_26 main_v134 (broadcastInDim S512x128 ![] bcast_S_S512x128 : (⟨S_, .f32⟩ : BufTy).Contents (Elt F) → (⟨S512x128, .f32⟩ : BufTy).Contents (Elt F)),
    unary main_arg2 main_v135 (broadcastInDim S100000x1 ![0] bcast_S100000_S100000x1_0 : (⟨S100000, .i32⟩ : BufTy).Contents (Elt F) → (⟨S100000x1, .i32⟩ : BufTy).Contents (Elt F)),
    ternary main_v134 main_v135 main_v67 main_v136 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_27 (constant S_ .f32 0x3F800000#32),
    unary main_cst_27 main_v137 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v138 (broadcastInDim S512 ![] bcast_S_S512 : (⟨S_, .f32⟩ : BufTy).Contents (Elt F) → (⟨S512, .f32⟩ : BufTy).Contents (Elt F)),
    unary main_arg2 main_v139 (broadcastInDim S100000x1 ![0] bcast_S100000_S100000x1_0 : (⟨S100000, .i32⟩ : BufTy).Contents (Elt F) → (⟨S100000x1, .i32⟩ : BufTy).Contents (Elt F)),
    ternary main_v138 main_v139 main_v137 main_v140 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_29 (constant S_ .f32 0x3F800000#32),
    unary main_cst_29 main_v141 (broadcastInDim S512 ![] bcast_S_S512 : (⟨S_, .f32⟩ : BufTy).Contents (Elt F) → (⟨S512, .f32⟩ : BufTy).Contents (Elt F)),
    binary main_v140 main_v141 main_v142 (maximumf : (⟨S512, .f32⟩ : BufTy).Contents (Elt F) → (⟨S512, .f32⟩ : BufTy).Contents (Elt F) → (⟨S512, .f32⟩ : BufTy).Contents (Elt F)),
    unary main_v142 main_v143 (broadcastInDim S512x1 ![0] bcast_S512_S512x1_0 : (⟨S512, .f32⟩ : BufTy).Contents (Elt F) → (⟨S512x1, .f32⟩ : BufTy).Contents (Elt F)),
    unary main_v143 main_v144 (broadcastInDim S512x128 ![0, 1] bcast_S512x1_S512x128_0_1 : (⟨S512x1, .f32⟩ : BufTy).Contents (Elt F) → (⟨S512x128, .f32⟩ : BufTy).Contents (Elt F)),
    binary main_v136 main_v144 main_v145 (Host.divf : (⟨S512x128, .f32⟩ : BufTy).Contents (Elt F) → (⟨S512x128, .f32⟩ : BufTy).Contents (Elt F) → (⟨S512x128, .f32⟩ : BufTy).Contents (Elt F)) ]
/-- The buffers they write. -/
abbrev cP2_W : List (Ref sig .tc) := [main_cst_26, main_v134, main_v135, main_v136, main_cst_27, main_v137, main_cst_28, main_v138, main_v139, main_v140, main_cst_29, main_v141, main_v142, main_v143, main_v144, main_v145]
theorem cP2_writes : (cP2 : List (HloOp τ sig (Elt F))).Forall fun op => op.writes ⊆ (cP2_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cP2_keep (V : Valuation τ sig (Elt F)) (r : Ref sig .tc) (h : r ∉ cP2_W) :
    after cP2 V (Proc.devRef .tc r) = V (Proc.devRef .tc r) :=
  after_of_writes_sub cP2 V cP2_writes h

/-- Operations 191 … 206 of the program. -/
abbrev cP3 : List (HloOp τ sig (Elt F)) :=
  [ nullary main_cst_30 (constant S_ .f32 0x00000000#32),
    unary main_cst_30 main_v146 (broadcastInDim S512x128 ![] bcast_S_S512x128 : (⟨S_, .f32⟩ : BufTy).Contents (Elt F) → (⟨S512x128, .f32⟩ : BufTy).Contents (Elt F)),
    unary main_arg2 main_v147 (broadcastInDim S100000x1 ![0] bcast_S100000_S100000x1_0 : (⟨S100000, .i32⟩ : BufTy).Contents (Elt F) → (⟨S100000x1, .i32⟩ : BufTy).Contents (Elt F)),
    ternary main_v146 main_v147 main_v85 main_v148 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_31 (constant S_ .f32 0x3F800000#32),
    unary main_cst_31 main_v149 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v150 (broadcastInDim S512 ![] bcast_S_S512 : (⟨S_, .f32⟩ : BufTy).Contents (Elt F) → (⟨S512, .f32⟩ : BufTy).Contents (Elt F)),
    unary main_arg2 main_v151 (broadcastInDim S100000x1 ![0] bcast_S100000_S100000x1_0 : (⟨S100000, .i32⟩ : BufTy).Contents (Elt F) → (⟨S100000x1, .i32⟩ : BufTy).Contents (Elt F)),
    ternary main_v150 main_v151 main_v149 main_v152 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_33 (constant S_ .f32 0x3F800000#32),
    unary main_cst_33 main_v153 (broadcastInDim S512 ![] bcast_S_S512 : (⟨S_, .f32⟩ : BufTy).Contents (Elt F) → (⟨S512, .f32⟩ : BufTy).Contents (Elt F)),
    binary main_v152 main_v153 main_v154 (maximumf : (⟨S512, .f32⟩ : BufTy).Contents (Elt F) → (⟨S512, .f32⟩ : BufTy).Contents (Elt F) → (⟨S512, .f32⟩ : BufTy).Contents (Elt F)),
    unary main_v154 main_v155 (broadcastInDim S512x1 ![0] bcast_S512_S512x1_0 : (⟨S512, .f32⟩ : BufTy).Contents (Elt F) → (⟨S512x1, .f32⟩ : BufTy).Contents (Elt F)),
    unary main_v155 main_v156 (broadcastInDim S512x128 ![0, 1] bcast_S512x1_S512x128_0_1 : (⟨S512x1, .f32⟩ : BufTy).Contents (Elt F) → (⟨S512x128, .f32⟩ : BufTy).Contents (Elt F)),
    binary main_v148 main_v156 main_v157 (Host.divf : (⟨S512x128, .f32⟩ : BufTy).Contents (Elt F) → (⟨S512x128, .f32⟩ : BufTy).Contents (Elt F) → (⟨S512x128, .f32⟩ : BufTy).Contents (Elt F)) ]
/-- The buffers they write. -/
abbrev cP3_W : List (Ref sig .tc) := [main_cst_30, main_v146, main_v147, main_v148, main_cst_31, main_v149, main_cst_32, main_v150, main_v151, main_v152, main_cst_33, main_v153, main_v154, main_v155, main_v156, main_v157]
theorem cP3_writes : (cP3 : List (HloOp τ sig (Elt F))).Forall fun op => op.writes ⊆ (cP3_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cP3_keep (V : Valuation τ sig (Elt F)) (r : Ref sig .tc) (h : r ∉ cP3_W) :
    after cP3 V (Proc.devRef .tc r) = V (Proc.devRef .tc r) :=
  after_of_writes_sub cP3 V cP3_writes h

/-- Operations 207 … 222 of the program. -/
abbrev cP4 : List (HloOp τ sig (Elt F)) :=
  [ nullary main_cst_34 (constant S_ .f32 0x00000000#32),
    unary main_cst_34 main_v158 (broadcastInDim S512x128 ![] bcast_S_S512x128 : (⟨S_, .f32⟩ : BufTy).Contents (Elt F) → (⟨S512x128, .f32⟩ : BufTy).Contents (Elt F)),
    unary main_arg2 main_v159 (broadcastInDim S100000x1 ![0] bcast_S100000_S100000x1_0 : (⟨S100000, .i32⟩ : BufTy).Contents (Elt F) → (⟨S100000x1, .i32⟩ : BufTy).Contents (Elt F)),
    ternary main_v158 main_v159 main_v103 main_v160 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_35 (constant S_ .f32 0x3F800000#32),
    unary main_cst_35 main_v161 (broadcastInDim S100000 ![] bcast_S_S100000 : (⟨S_, .f32⟩ : BufTy).Contents (Elt F) → (⟨S100000, .f32⟩ : BufTy).Contents (Elt F)),
    nullary main_cst_36 (constant S_ .f32 0x00000000#32),
    unary main_cst_36 main_v162 (broadcastInDim S512 ![] bcast_S_S512 : (⟨S_, .f32⟩ : BufTy).Contents (Elt F) → (⟨S512, .f32⟩ : BufTy).Contents (Elt F)),
    unary main_arg2 main_v163 (broadcastInDim S100000x1 ![0] bcast_S100000_S100000x1_0 : (⟨S100000, .i32⟩ : BufTy).Contents (Elt F) → (⟨S100000x1, .i32⟩ : BufTy).Contents (Elt F)),
    ternary main_v162 main_v163 main_v161 main_v164 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_37 (constant S_ .f32 0x3F800000#32),
    unary main_cst_37 main_v165 (broadcastInDim S512 ![] bcast_S_S512 : (⟨S_, .f32⟩ : BufTy).Contents (Elt F) → (⟨S512, .f32⟩ : BufTy).Contents (Elt F)),
    binary main_v164 main_v165 main_v166 (maximumf : (⟨S512, .f32⟩ : BufTy).Contents (Elt F) → (⟨S512, .f32⟩ : BufTy).Contents (Elt F) → (⟨S512, .f32⟩ : BufTy).Contents (Elt F)),
    unary main_v166 main_v167 (broadcastInDim S512x1 ![0] bcast_S512_S512x1_0 : (⟨S512, .f32⟩ : BufTy).Contents (Elt F) → (⟨S512x1, .f32⟩ : BufTy).Contents (Elt F)),
    unary main_v167 main_v168 (broadcastInDim S512x128 ![0, 1] bcast_S512x1_S512x128_0_1 : (⟨S512x1, .f32⟩ : BufTy).Contents (Elt F) → (⟨S512x128, .f32⟩ : BufTy).Contents (Elt F)),
    binary main_v160 main_v168 main_v169 (Host.divf : (⟨S512x128, .f32⟩ : BufTy).Contents (Elt F) → (⟨S512x128, .f32⟩ : BufTy).Contents (Elt F) → (⟨S512x128, .f32⟩ : BufTy).Contents (Elt F)) ]
/-- The buffers they write. -/
abbrev cP4_W : List (Ref sig .tc) := [main_cst_34, main_v158, main_v159, main_v160, main_cst_35, main_v161, main_cst_36, main_v162, main_v163, main_v164, main_cst_37, main_v165, main_v166, main_v167, main_v168, main_v169]
theorem cP4_writes : (cP4 : List (HloOp τ sig (Elt F))).Forall fun op => op.writes ⊆ (cP4_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cP4_keep (V : Valuation τ sig (Elt F)) (r : Ref sig .tc) (h : r ∉ cP4_W) :
    after cP4 V (Proc.devRef .tc r) = V (Proc.devRef .tc r) :=
  after_of_writes_sub cP4 V cP4_writes h

/-- Operations 223 … 238 of the program. -/
abbrev cP5 : List (HloOp τ sig (Elt F)) :=
  [ nullary main_cst_38 (constant S_ .f32 0x00000000#32),
    unary main_cst_38 main_v170 (broadcastInDim S512x128 ![] bcast_S_S512x128 : (⟨S_, .f32⟩ : BufTy).Contents (Elt F) → (⟨S512x128, .f32⟩ : BufTy).Contents (Elt F)),
    unary main_arg2 main_v171 (broadcastInDim S100000x1 ![0] bcast_S100000_S100000x1_0 : (⟨S100000, .i32⟩ : BufTy).Contents (Elt F) → (⟨S100000x1, .i32⟩ : BufTy).Contents (Elt F)),
    ternary main_v170 main_v171 main_v121 main_v172 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_39 (constant S_ .f32 0x3F800000#32),
    unary main_cst_39 main_v173 (broadcastInDim S100000 ![] bcast_S_S100000 : (⟨S_, .f32⟩ : BufTy).Contents (Elt F) → (⟨S100000, .f32⟩ : BufTy).Contents (Elt F)),
    nullary main_cst_40 (constant S_ .f32 0x00000000#32),
    unary main_cst_40 main_v174 (broadcastInDim S512 ![] bcast_S_S512 : (⟨S_, .f32⟩ : BufTy).Contents (Elt F) → (⟨S512, .f32⟩ : BufTy).Contents (Elt F)),
    unary main_arg2 main_v175 (broadcastInDim S100000x1 ![0] bcast_S100000_S100000x1_0 : (⟨S100000, .i32⟩ : BufTy).Contents (Elt F) → (⟨S100000x1, .i32⟩ : BufTy).Contents (Elt F)),
    ternary main_v174 main_v175 main_v173 main_v176 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_41 (constant S_ .f32 0x3F800000#32),
    unary main_cst_41 main_v177 (broadcastInDim S512 ![] bcast_S_S512 : (⟨S_, .f32⟩ : BufTy).Contents (Elt F) → (⟨S512, .f32⟩ : BufTy).Contents (Elt F)),
    binary main_v176 main_v177 main_v178 (maximumf : (⟨S512, .f32⟩ : BufTy).Contents (Elt F) → (⟨S512, .f32⟩ : BufTy).Contents (Elt F) → (⟨S512, .f32⟩ : BufTy).Contents (Elt F)),
    unary main_v178 main_v179 (broadcastInDim S512x1 ![0] bcast_S512_S512x1_0 : (⟨S512, .f32⟩ : BufTy).Contents (Elt F) → (⟨S512x1, .f32⟩ : BufTy).Contents (Elt F)),
    unary main_v179 main_v180 (broadcastInDim S512x128 ![0, 1] bcast_S512x1_S512x128_0_1 : (⟨S512x1, .f32⟩ : BufTy).Contents (Elt F) → (⟨S512x128, .f32⟩ : BufTy).Contents (Elt F)),
    binary main_v172 main_v180 main_v181 (Host.divf : (⟨S512x128, .f32⟩ : BufTy).Contents (Elt F) → (⟨S512x128, .f32⟩ : BufTy).Contents (Elt F) → (⟨S512x128, .f32⟩ : BufTy).Contents (Elt F)) ]
/-- The buffers they write. -/
abbrev cP5_W : List (Ref sig .tc) := [main_cst_38, main_v170, main_v171, main_v172, main_cst_39, main_v173, main_cst_40, main_v174, main_v175, main_v176, main_cst_41, main_v177, main_v178, main_v179, main_v180, main_v181]
theorem cP5_writes : (cP5 : List (HloOp τ sig (Elt F))).Forall fun op => op.writes ⊆ (cP5_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cP5_keep (V : Valuation τ sig (Elt F)) (r : Ref sig .tc) (h : r ∉ cP5_W) :
    after cP5 V (Proc.devRef .tc r) = V (Proc.devRef .tc r) :=
  after_of_writes_sub cP5 V cP5_writes h

/-- Operations 239 … 251 of the program. -/
abbrev cM : List (HloOp τ sig (Elt F)) :=
  [ nary ![main_v133, main_v145, main_v157, main_v169, main_v181] main_v182 (fun u => concatenate S512x640 1 [⟨S512x128, u 0⟩, ⟨S512x128, u 1⟩, ⟨S512x128, u 2⟩, ⟨S512x128, u 3⟩, ⟨S512x128, u 4⟩] concatenates_S512x128_S512x128_S512x128_S512x128_S512x128_S512x640_d1),
    binary main_v182 main_arg11 main_v183 ((fun l r => Host.dotGeneral dot_S512x640_S640x640_S512x640_1_0_0_1_n_n none l r) : (⟨S512x640, .f32⟩ : BufTy).Contents (Elt F) → (⟨S640x640, .f32⟩ : BufTy).Contents (Elt F) → (⟨S512x640, .f32⟩ : BufTy).Contents (Elt F)),
    unary main_arg12 main_v184 (broadcastInDim S1x640 ![1] bcast_S640_S1x640_1 : (⟨S640, .f32⟩ : BufTy).Contents (Elt F) → (⟨S1x640, .f32⟩ : BufTy).Contents (Elt F)),
    unary main_v184 main_v185 (broadcastInDim S512x640 ![0, 1] bcast_S1x640_S512x640_0_1 : (⟨S1x640, .f32⟩ : BufTy).Contents (Elt F) → (⟨S512x640, .f32⟩ : BufTy).Contents (Elt F)),
    binary main_v183 main_v185 main_v186 (addf : (⟨S512x640, .f32⟩ : BufTy).Contents (Elt F) → (⟨S512x640, .f32⟩ : BufTy).Contents (Elt F) → (⟨S512x640, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x640, .f32⟩) main_call6_v0) (broadcastInDim S512x640 ![] bcast_S_S512x640),
    TRef.binary (TRef.of (T := ⟨S512x640, .f32⟩) main_v186) (TRef.of (T := ⟨S512x640, .f32⟩) main_call6_v0) (TRef.of (T := ⟨S512x640, .f32⟩) main_v187) maximumf,
    binary main_v187 main_arg13 main_v188 ((fun l r => Host.dotGeneral dot_S512x640_S640x1_S512x1_1_0_0_1_n_n none l r) : (⟨S512x640, .f32⟩ : BufTy).Contents (Elt F) → (⟨S640x1, .f32⟩ : BufTy).Contents (Elt F) → (⟨S512x1, .f32⟩ : BufTy).Contents (Elt F)),
    unary main_arg14 main_v189 (broadcastInDim S1x1 ![1] bcast_S1_S1x1_1 : (⟨S1, .f32⟩ : BufTy).Contents (Elt F) → (⟨S1x1, .f32⟩ : BufTy).Contents (Elt F)),
    unary main_v189 main_v190 (broadcastInDim S512x1 ![0, 1] bcast_S1x1_S512x1_0_1 : (⟨S1x1, .f32⟩ : BufTy).Contents (Elt F) → (⟨S512x1, .f32⟩ : BufTy).Contents (Elt F)),
    binary main_v188 main_v190 main_v191 (addf : (⟨S512x1, .f32⟩ : BufTy).Contents (Elt F) → (⟨S512x1, .f32⟩ : BufTy).Contents (Elt F) → (⟨S512x1, .f32⟩ : BufTy).Contents (Elt F)),
    reshape main_v191 main_v192 rfl shapeCasts_S512x1_S512 ]
/-- The buffers they write. -/
abbrev cM_W : List (Ref sig .tc) := [main_v182, main_v183, main_v184, main_v185, main_v186, main_call6_cst, main_call6_v0, main_v187, main_v188, main_v189, main_v190, main_v191, main_v192]
theorem cM_writes : (cM : List (HloOp τ sig (Elt F))).Forall fun op => op.writes ⊆ (cM_W.map (Proc.devRef (τ := τ) .tc)).toFinset := by
  simp only [List.Forall]
  refine ⟨?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- A buffer they do not write comes out as it went in. -/
theorem cM_keep (V : Valuation τ sig (Elt F)) (r : Ref sig .tc) (h : r ∉ cM_W) :
    after cM V (Proc.devRef .tc r) = V (Proc.devRef .tc r) :=
  after_of_writes_sub cM V cM_writes h

set_option maxRecDepth 16384 in
/-- The program is the thirteen stretches in order. -/
theorem ops_eq : (ops : List (HloOp τ sig (Elt F))) = cA1 ++ (cA2 ++ (cL1 ++ (cL2 ++ (cL3 ++ (cL4 ++ (cL5 ++ (cP1 ++ (cP2 ++ (cP3 ++ (cP4 ++ (cP5 ++ (cM)))))))))))) := rfl

end Cert.ReferenceIdeal.RunH

end
-- ==== Proof.RefRunHA.lean ====
/-
  The first two stretches of the reference program read stage by stage: the edge indices with the self loops, the degree
  and its inverse square root, and the per-edge normalisation. Over any contents of the buffers that hold the arguments,
  the buffers later stretches read hold the stages the operations were read as; a stage is one operation applied to
  earlier stages, so each equation is the operation's own result rewritten with the equations before it.
-/
import proofs.«105302_j51668456571568_2_alg».proof.Proof.RefRunH0
import proofs.«105302_j51668456571568_2_alg».proof.Proof.RefReadP

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 4000000 in
/-- Operations 1 … 24: from buffers holding the stages read so far, the buffers still to be read hold their stages. -/
theorem cA1_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cA1 V (Proc.devRef .tc main_v3) = Cert.ReferenceIdeal.ReadP.val_main_v3 (F := F) x1
      ∧ after cA1 V (Proc.devRef .tc main_v6) = Cert.ReferenceIdeal.ReadP.val_main_v6 (F := F) x1
      ∧ after cA1 V (Proc.devRef .tc main_v16) = Cert.ReferenceIdeal.ReadP.val_main_v16 (F := F) x1
      ∧ after cA1 V (Proc.devRef .tc main_arg0) = x0
      ∧ after cA1 V (Proc.devRef .tc main_arg1) = x1
      ∧ after cA1 V (Proc.devRef .tc main_arg2) = x2
      ∧ after cA1 V (Proc.devRef .tc main_arg3) = x3
      ∧ after cA1 V (Proc.devRef .tc main_arg4) = x4
      ∧ after cA1 V (Proc.devRef .tc main_arg5) = x5
      ∧ after cA1 V (Proc.devRef .tc main_arg6) = x6
      ∧ after cA1 V (Proc.devRef .tc main_arg7) = x7
      ∧ after cA1 V (Proc.devRef .tc main_arg8) = x8
      ∧ after cA1 V (Proc.devRef .tc main_arg9) = x9
      ∧ after cA1 V (Proc.devRef .tc main_arg10) = x10
      ∧ after cA1 V (Proc.devRef .tc main_arg11) = x11
      ∧ after cA1 V (Proc.devRef .tc main_arg12) = x12
      ∧ after cA1 V (Proc.devRef .tc main_arg13) = x13
      ∧ after cA1 V (Proc.devRef .tc main_arg14) = x14 :=
  ⟨(by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> rfl)),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> rfl)),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> rfl)),
   ((cA1_keep V main_arg0 (by decide)).trans h_main_arg0),
   ((cA1_keep V main_arg1 (by decide)).trans h_main_arg1),
   ((cA1_keep V main_arg2 (by decide)).trans h_main_arg2),
   ((cA1_keep V main_arg3 (by decide)).trans h_main_arg3),
   ((cA1_keep V main_arg4 (by decide)).trans h_main_arg4),
   ((cA1_keep V main_arg5 (by decide)).trans h_main_arg5),
   ((cA1_keep V main_arg6 (by decide)).trans h_main_arg6),
   ((cA1_keep V main_arg7 (by decide)).trans h_main_arg7),
   ((cA1_keep V main_arg8 (by decide)).trans h_main_arg8),
   ((cA1_keep V main_arg9 (by decide)).trans h_main_arg9),
   ((cA1_keep V main_arg10 (by decide)).trans h_main_arg10),
   ((cA1_keep V main_arg11 (by decide)).trans h_main_arg11),
   ((cA1_keep V main_arg12 (by decide)).trans h_main_arg12),
   ((cA1_keep V main_arg13 (by decide)).trans h_main_arg13),
   ((cA1_keep V main_arg14 (by decide)).trans h_main_arg14)⟩

set_option maxRecDepth 16384 in
set_option maxHeartbeats 4000000 in
/-- Operations 25 … 43: from buffers holding the stages read so far, the buffers still to be read hold their stages. -/
theorem cA2_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v3 : V (Proc.devRef .tc main_v3) = Cert.ReferenceIdeal.ReadP.val_main_v3 (F := F) x1)
    (h_main_v6 : V (Proc.devRef .tc main_v6) = Cert.ReferenceIdeal.ReadP.val_main_v6 (F := F) x1)
    (h_main_v16 : V (Proc.devRef .tc main_v16) = Cert.ReferenceIdeal.ReadP.val_main_v16 (F := F) x1)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cA2 V (Proc.devRef .tc main_v3) = Cert.ReferenceIdeal.ReadP.val_main_v3 (F := F) x1
      ∧ after cA2 V (Proc.devRef .tc main_v6) = Cert.ReferenceIdeal.ReadP.val_main_v6 (F := F) x1
      ∧ after cA2 V (Proc.devRef .tc main_v31) = Cert.ReferenceIdeal.ReadP.val_main_v31 (F := F) x1
      ∧ after cA2 V (Proc.devRef .tc main_arg0) = x0
      ∧ after cA2 V (Proc.devRef .tc main_arg1) = x1
      ∧ after cA2 V (Proc.devRef .tc main_arg2) = x2
      ∧ after cA2 V (Proc.devRef .tc main_arg3) = x3
      ∧ after cA2 V (Proc.devRef .tc main_arg4) = x4
      ∧ after cA2 V (Proc.devRef .tc main_arg5) = x5
      ∧ after cA2 V (Proc.devRef .tc main_arg6) = x6
      ∧ after cA2 V (Proc.devRef .tc main_arg7) = x7
      ∧ after cA2 V (Proc.devRef .tc main_arg8) = x8
      ∧ after cA2 V (Proc.devRef .tc main_arg9) = x9
      ∧ after cA2 V (Proc.devRef .tc main_arg10) = x10
      ∧ after cA2 V (Proc.devRef .tc main_arg11) = x11
      ∧ after cA2 V (Proc.devRef .tc main_arg12) = x12
      ∧ after cA2 V (Proc.devRef .tc main_arg13) = x13
      ∧ after cA2 V (Proc.devRef .tc main_arg14) = x14 :=
  ⟨((cA2_keep V main_v3 (by decide)).trans h_main_v3),
   ((cA2_keep V main_v6 (by decide)).trans h_main_v6),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try rw [h_main_v3]) <;> (try rw [h_main_v6]) <;> (try rw [h_main_v16]) <;> rfl)),
   ((cA2_keep V main_arg0 (by decide)).trans h_main_arg0),
   ((cA2_keep V main_arg1 (by decide)).trans h_main_arg1),
   ((cA2_keep V main_arg2 (by decide)).trans h_main_arg2),
   ((cA2_keep V main_arg3 (by decide)).trans h_main_arg3),
   ((cA2_keep V main_arg4 (by decide)).trans h_main_arg4),
   ((cA2_keep V main_arg5 (by decide)).trans h_main_arg5),
   ((cA2_keep V main_arg6 (by decide)).trans h_main_arg6),
   ((cA2_keep V main_arg7 (by decide)).trans h_main_arg7),
   ((cA2_keep V main_arg8 (by decide)).trans h_main_arg8),
   ((cA2_keep V main_arg9 (by decide)).trans h_main_arg9),
   ((cA2_keep V main_arg10 (by decide)).trans h_main_arg10),
   ((cA2_keep V main_arg11 (by decide)).trans h_main_arg11),
   ((cA2_keep V main_arg12 (by decide)).trans h_main_arg12),
   ((cA2_keep V main_arg13 (by decide)).trans h_main_arg13),
   ((cA2_keep V main_arg14 (by decide)).trans h_main_arg14)⟩

end Cert.ReferenceIdeal.RunH

end
-- ==== Proof.RefRunHL1.lean ====
/-
  The five graph layers of the reference program read stage by stage: over any contents of the buffers in which the
  edge indices, the normalisation, the earlier layer outputs and the arguments hold their stages, each layer's output
  buffer holds its stage, and the buffers it does not write keep theirs.
-/
import proofs.«105302_j51668456571568_2_alg».proof.Proof.RefRunH0
import proofs.«105302_j51668456571568_2_alg».proof.Proof.RefReadP
import proofs.«105302_j51668456571568_2_alg».proof.Proof.LibTRef
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 4000000 in
/-- Operations 44 … 66: from buffers holding the stages read so far, the buffers still to be read hold their stages. -/
theorem cL1_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v3 : V (Proc.devRef .tc main_v3) = Cert.ReferenceIdeal.ReadP.val_main_v3 (F := F) x1)
    (h_main_v6 : V (Proc.devRef .tc main_v6) = Cert.ReferenceIdeal.ReadP.val_main_v6 (F := F) x1)
    (h_main_v31 : V (Proc.devRef .tc main_v31) = Cert.ReferenceIdeal.ReadP.val_main_v31 (F := F) x1)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cL1 V (Proc.devRef .tc main_v3) = Cert.ReferenceIdeal.ReadP.val_main_v3 (F := F) x1
      ∧ after cL1 V (Proc.devRef .tc main_v6) = Cert.ReferenceIdeal.ReadP.val_main_v6 (F := F) x1
      ∧ after cL1 V (Proc.devRef .tc main_v31) = Cert.ReferenceIdeal.ReadP.val_main_v31 (F := F) x1
      ∧ after cL1 V (Proc.devRef .tc main_v49) = Cert.ReferenceIdeal.ReadP.val_main_v49 (F := F) x0 x1 x3 x4
      ∧ after cL1 V (Proc.devRef .tc main_arg0) = x0
      ∧ after cL1 V (Proc.devRef .tc main_arg1) = x1
      ∧ after cL1 V (Proc.devRef .tc main_arg2) = x2
      ∧ after cL1 V (Proc.devRef .tc main_arg3) = x3
      ∧ after cL1 V (Proc.devRef .tc main_arg4) = x4
      ∧ after cL1 V (Proc.devRef .tc main_arg5) = x5
      ∧ after cL1 V (Proc.devRef .tc main_arg6) = x6
      ∧ after cL1 V (Proc.devRef .tc main_arg7) = x7
      ∧ after cL1 V (Proc.devRef .tc main_arg8) = x8
      ∧ after cL1 V (Proc.devRef .tc main_arg9) = x9
      ∧ after cL1 V (Proc.devRef .tc main_arg10) = x10
      ∧ after cL1 V (Proc.devRef .tc main_arg11) = x11
      ∧ after cL1 V (Proc.devRef .tc main_arg12) = x12
      ∧ after cL1 V (Proc.devRef .tc main_arg13) = x13
      ∧ after cL1 V (Proc.devRef .tc main_arg14) = x14 :=
  ⟨((cL1_keep V main_v3 (by decide)).trans h_main_v3),
   ((cL1_keep V main_v6 (by decide)).trans h_main_v6),
   ((cL1_keep V main_v31 (by decide)).trans h_main_v31),
   (by
     subst h_main_arg0 h_main_arg1 h_main_arg2 h_main_arg3 h_main_arg4 h_main_arg5 h_main_arg6 h_main_arg7 h_main_arg8 h_main_arg9 h_main_arg10 h_main_arg11 h_main_arg12 h_main_arg13 h_main_arg14
     after_results_simp
     simp only [Cert.LibTRef.ofBuf_toBuf]
     rw [h_main_v3, h_main_v6, h_main_v31]
     rfl),
   ((cL1_keep V main_arg0 (by decide)).trans h_main_arg0),
   ((cL1_keep V main_arg1 (by decide)).trans h_main_arg1),
   ((cL1_keep V main_arg2 (by decide)).trans h_main_arg2),
   ((cL1_keep V main_arg3 (by decide)).trans h_main_arg3),
   ((cL1_keep V main_arg4 (by decide)).trans h_main_arg4),
   ((cL1_keep V main_arg5 (by decide)).trans h_main_arg5),
   ((cL1_keep V main_arg6 (by decide)).trans h_main_arg6),
   ((cL1_keep V main_arg7 (by decide)).trans h_main_arg7),
   ((cL1_keep V main_arg8 (by decide)).trans h_main_arg8),
   ((cL1_keep V main_arg9 (by decide)).trans h_main_arg9),
   ((cL1_keep V main_arg10 (by decide)).trans h_main_arg10),
   ((cL1_keep V main_arg11 (by decide)).trans h_main_arg11),
   ((cL1_keep V main_arg12 (by decide)).trans h_main_arg12),
   ((cL1_keep V main_arg13 (by decide)).trans h_main_arg13),
   ((cL1_keep V main_arg14 (by decide)).trans h_main_arg14)⟩

end Cert.ReferenceIdeal.RunH

end
-- ==== Proof.RefRunHL2.lean ====
/-
  The five graph layers of the reference program read stage by stage: over any contents of the buffers in which the
  edge indices, the normalisation, the earlier layer outputs and the arguments hold their stages, each layer's output
  buffer holds its stage, and the buffers it does not write keep theirs.
-/
import proofs.«105302_j51668456571568_2_alg».proof.Proof.RefRunH0
import proofs.«105302_j51668456571568_2_alg».proof.Proof.RefReadP
import proofs.«105302_j51668456571568_2_alg».proof.Proof.LibTRef
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 4000000 in
/-- Operations 67 … 89: from buffers holding the stages read so far, the buffers still to be read hold their stages. -/
theorem cL2_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v3 : V (Proc.devRef .tc main_v3) = Cert.ReferenceIdeal.ReadP.val_main_v3 (F := F) x1)
    (h_main_v6 : V (Proc.devRef .tc main_v6) = Cert.ReferenceIdeal.ReadP.val_main_v6 (F := F) x1)
    (h_main_v31 : V (Proc.devRef .tc main_v31) = Cert.ReferenceIdeal.ReadP.val_main_v31 (F := F) x1)
    (h_main_v49 : V (Proc.devRef .tc main_v49) = Cert.ReferenceIdeal.ReadP.val_main_v49 (F := F) x0 x1 x3 x4)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cL2 V (Proc.devRef .tc main_v3) = Cert.ReferenceIdeal.ReadP.val_main_v3 (F := F) x1
      ∧ after cL2 V (Proc.devRef .tc main_v6) = Cert.ReferenceIdeal.ReadP.val_main_v6 (F := F) x1
      ∧ after cL2 V (Proc.devRef .tc main_v31) = Cert.ReferenceIdeal.ReadP.val_main_v31 (F := F) x1
      ∧ after cL2 V (Proc.devRef .tc main_v49) = Cert.ReferenceIdeal.ReadP.val_main_v49 (F := F) x0 x1 x3 x4
      ∧ after cL2 V (Proc.devRef .tc main_v67) = Cert.ReferenceIdeal.ReadP.val_main_v67 (F := F) x0 x1 x3 x4 x5 x6
      ∧ after cL2 V (Proc.devRef .tc main_arg0) = x0
      ∧ after cL2 V (Proc.devRef .tc main_arg1) = x1
      ∧ after cL2 V (Proc.devRef .tc main_arg2) = x2
      ∧ after cL2 V (Proc.devRef .tc main_arg3) = x3
      ∧ after cL2 V (Proc.devRef .tc main_arg4) = x4
      ∧ after cL2 V (Proc.devRef .tc main_arg5) = x5
      ∧ after cL2 V (Proc.devRef .tc main_arg6) = x6
      ∧ after cL2 V (Proc.devRef .tc main_arg7) = x7
      ∧ after cL2 V (Proc.devRef .tc main_arg8) = x8
      ∧ after cL2 V (Proc.devRef .tc main_arg9) = x9
      ∧ after cL2 V (Proc.devRef .tc main_arg10) = x10
      ∧ after cL2 V (Proc.devRef .tc main_arg11) = x11
      ∧ after cL2 V (Proc.devRef .tc main_arg12) = x12
      ∧ after cL2 V (Proc.devRef .tc main_arg13) = x13
      ∧ after cL2 V (Proc.devRef .tc main_arg14) = x14 :=
  ⟨((cL2_keep V main_v3 (by decide)).trans h_main_v3),
   ((cL2_keep V main_v6 (by decide)).trans h_main_v6),
   ((cL2_keep V main_v31 (by decide)).trans h_main_v31),
   ((cL2_keep V main_v49 (by decide)).trans h_main_v49),
   (by
     subst h_main_arg0 h_main_arg1 h_main_arg2 h_main_arg3 h_main_arg4 h_main_arg5 h_main_arg6 h_main_arg7 h_main_arg8 h_main_arg9 h_main_arg10 h_main_arg11 h_main_arg12 h_main_arg13 h_main_arg14
     after_results_simp
     simp only [Cert.LibTRef.ofBuf_toBuf]
     rw [h_main_v3, h_main_v6, h_main_v31, h_main_v49]
     rfl),
   ((cL2_keep V main_arg0 (by decide)).trans h_main_arg0),
   ((cL2_keep V main_arg1 (by decide)).trans h_main_arg1),
   ((cL2_keep V main_arg2 (by decide)).trans h_main_arg2),
   ((cL2_keep V main_arg3 (by decide)).trans h_main_arg3),
   ((cL2_keep V main_arg4 (by decide)).trans h_main_arg4),
   ((cL2_keep V main_arg5 (by decide)).trans h_main_arg5),
   ((cL2_keep V main_arg6 (by decide)).trans h_main_arg6),
   ((cL2_keep V main_arg7 (by decide)).trans h_main_arg7),
   ((cL2_keep V main_arg8 (by decide)).trans h_main_arg8),
   ((cL2_keep V main_arg9 (by decide)).trans h_main_arg9),
   ((cL2_keep V main_arg10 (by decide)).trans h_main_arg10),
   ((cL2_keep V main_arg11 (by decide)).trans h_main_arg11),
   ((cL2_keep V main_arg12 (by decide)).trans h_main_arg12),
   ((cL2_keep V main_arg13 (by decide)).trans h_main_arg13),
   ((cL2_keep V main_arg14 (by decide)).trans h_main_arg14)⟩

end Cert.ReferenceIdeal.RunH

end
-- ==== Proof.RefRunHL3.lean ====
/-
  The five graph layers of the reference program read stage by stage: over any contents of the buffers in which the
  edge indices, the normalisation, the earlier layer outputs and the arguments hold their stages, each layer's output
  buffer holds its stage, and the buffers it does not write keep theirs.
-/
import proofs.«105302_j51668456571568_2_alg».proof.Proof.RefRunH0
import proofs.«105302_j51668456571568_2_alg».proof.Proof.RefReadP
import proofs.«105302_j51668456571568_2_alg».proof.Proof.LibTRef
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 4000000 in
/-- Operations 90 … 112: from buffers holding the stages read so far, the buffers still to be read hold their stages. -/
theorem cL3_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v3 : V (Proc.devRef .tc main_v3) = Cert.ReferenceIdeal.ReadP.val_main_v3 (F := F) x1)
    (h_main_v6 : V (Proc.devRef .tc main_v6) = Cert.ReferenceIdeal.ReadP.val_main_v6 (F := F) x1)
    (h_main_v31 : V (Proc.devRef .tc main_v31) = Cert.ReferenceIdeal.ReadP.val_main_v31 (F := F) x1)
    (h_main_v49 : V (Proc.devRef .tc main_v49) = Cert.ReferenceIdeal.ReadP.val_main_v49 (F := F) x0 x1 x3 x4)
    (h_main_v67 : V (Proc.devRef .tc main_v67) = Cert.ReferenceIdeal.ReadP.val_main_v67 (F := F) x0 x1 x3 x4 x5 x6)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cL3 V (Proc.devRef .tc main_v3) = Cert.ReferenceIdeal.ReadP.val_main_v3 (F := F) x1
      ∧ after cL3 V (Proc.devRef .tc main_v6) = Cert.ReferenceIdeal.ReadP.val_main_v6 (F := F) x1
      ∧ after cL3 V (Proc.devRef .tc main_v31) = Cert.ReferenceIdeal.ReadP.val_main_v31 (F := F) x1
      ∧ after cL3 V (Proc.devRef .tc main_v49) = Cert.ReferenceIdeal.ReadP.val_main_v49 (F := F) x0 x1 x3 x4
      ∧ after cL3 V (Proc.devRef .tc main_v67) = Cert.ReferenceIdeal.ReadP.val_main_v67 (F := F) x0 x1 x3 x4 x5 x6
      ∧ after cL3 V (Proc.devRef .tc main_v85) = Cert.ReferenceIdeal.ReadP.val_main_v85 (F := F) x0 x1 x3 x4 x5 x6 x7 x8
      ∧ after cL3 V (Proc.devRef .tc main_arg0) = x0
      ∧ after cL3 V (Proc.devRef .tc main_arg1) = x1
      ∧ after cL3 V (Proc.devRef .tc main_arg2) = x2
      ∧ after cL3 V (Proc.devRef .tc main_arg3) = x3
      ∧ after cL3 V (Proc.devRef .tc main_arg4) = x4
      ∧ after cL3 V (Proc.devRef .tc main_arg5) = x5
      ∧ after cL3 V (Proc.devRef .tc main_arg6) = x6
      ∧ after cL3 V (Proc.devRef .tc main_arg7) = x7
      ∧ after cL3 V (Proc.devRef .tc main_arg8) = x8
      ∧ after cL3 V (Proc.devRef .tc main_arg9) = x9
      ∧ after cL3 V (Proc.devRef .tc main_arg10) = x10
      ∧ after cL3 V (Proc.devRef .tc main_arg11) = x11
      ∧ after cL3 V (Proc.devRef .tc main_arg12) = x12
      ∧ after cL3 V (Proc.devRef .tc main_arg13) = x13
      ∧ after cL3 V (Proc.devRef .tc main_arg14) = x14 :=
  ⟨((cL3_keep V main_v3 (by decide)).trans h_main_v3),
   ((cL3_keep V main_v6 (by decide)).trans h_main_v6),
   ((cL3_keep V main_v31 (by decide)).trans h_main_v31),
   ((cL3_keep V main_v49 (by decide)).trans h_main_v49),
   ((cL3_keep V main_v67 (by decide)).trans h_main_v67),
   (by
     subst h_main_arg0 h_main_arg1 h_main_arg2 h_main_arg3 h_main_arg4 h_main_arg5 h_main_arg6 h_main_arg7 h_main_arg8 h_main_arg9 h_main_arg10 h_main_arg11 h_main_arg12 h_main_arg13 h_main_arg14
     after_results_simp
     simp only [Cert.LibTRef.ofBuf_toBuf]
     rw [h_main_v3, h_main_v6, h_main_v31, h_main_v67]
     rfl),
   ((cL3_keep V main_arg0 (by decide)).trans h_main_arg0),
   ((cL3_keep V main_arg1 (by decide)).trans h_main_arg1),
   ((cL3_keep V main_arg2 (by decide)).trans h_main_arg2),
   ((cL3_keep V main_arg3 (by decide)).trans h_main_arg3),
   ((cL3_keep V main_arg4 (by decide)).trans h_main_arg4),
   ((cL3_keep V main_arg5 (by decide)).trans h_main_arg5),
   ((cL3_keep V main_arg6 (by decide)).trans h_main_arg6),
   ((cL3_keep V main_arg7 (by decide)).trans h_main_arg7),
   ((cL3_keep V main_arg8 (by decide)).trans h_main_arg8),
   ((cL3_keep V main_arg9 (by decide)).trans h_main_arg9),
   ((cL3_keep V main_arg10 (by decide)).trans h_main_arg10),
   ((cL3_keep V main_arg11 (by decide)).trans h_main_arg11),
   ((cL3_keep V main_arg12 (by decide)).trans h_main_arg12),
   ((cL3_keep V main_arg13 (by decide)).trans h_main_arg13),
   ((cL3_keep V main_arg14 (by decide)).trans h_main_arg14)⟩

end Cert.ReferenceIdeal.RunH

end
-- ==== Proof.RefRunHL4.lean ====
/-
  The five graph layers of the reference program read stage by stage: over any contents of the buffers in which the
  edge indices, the normalisation, the earlier layer outputs and the arguments hold their stages, each layer's output
  buffer holds its stage, and the buffers it does not write keep theirs.
-/
import proofs.«105302_j51668456571568_2_alg».proof.Proof.RefRunH0
import proofs.«105302_j51668456571568_2_alg».proof.Proof.RefReadP
import proofs.«105302_j51668456571568_2_alg».proof.Proof.LibTRef
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 4000000 in
/-- Operations 113 … 135: from buffers holding the stages read so far, the buffers still to be read hold their stages. -/
theorem cL4_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v3 : V (Proc.devRef .tc main_v3) = Cert.ReferenceIdeal.ReadP.val_main_v3 (F := F) x1)
    (h_main_v6 : V (Proc.devRef .tc main_v6) = Cert.ReferenceIdeal.ReadP.val_main_v6 (F := F) x1)
    (h_main_v31 : V (Proc.devRef .tc main_v31) = Cert.ReferenceIdeal.ReadP.val_main_v31 (F := F) x1)
    (h_main_v49 : V (Proc.devRef .tc main_v49) = Cert.ReferenceIdeal.ReadP.val_main_v49 (F := F) x0 x1 x3 x4)
    (h_main_v67 : V (Proc.devRef .tc main_v67) = Cert.ReferenceIdeal.ReadP.val_main_v67 (F := F) x0 x1 x3 x4 x5 x6)
    (h_main_v85 : V (Proc.devRef .tc main_v85) = Cert.ReferenceIdeal.ReadP.val_main_v85 (F := F) x0 x1 x3 x4 x5 x6 x7 x8)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cL4 V (Proc.devRef .tc main_v3) = Cert.ReferenceIdeal.ReadP.val_main_v3 (F := F) x1
      ∧ after cL4 V (Proc.devRef .tc main_v6) = Cert.ReferenceIdeal.ReadP.val_main_v6 (F := F) x1
      ∧ after cL4 V (Proc.devRef .tc main_v31) = Cert.ReferenceIdeal.ReadP.val_main_v31 (F := F) x1
      ∧ after cL4 V (Proc.devRef .tc main_v49) = Cert.ReferenceIdeal.ReadP.val_main_v49 (F := F) x0 x1 x3 x4
      ∧ after cL4 V (Proc.devRef .tc main_v67) = Cert.ReferenceIdeal.ReadP.val_main_v67 (F := F) x0 x1 x3 x4 x5 x6
      ∧ after cL4 V (Proc.devRef .tc main_v85) = Cert.ReferenceIdeal.ReadP.val_main_v85 (F := F) x0 x1 x3 x4 x5 x6 x7 x8
      ∧ after cL4 V (Proc.devRef .tc main_v103) = Cert.ReferenceIdeal.ReadP.val_main_v103 (F := F) x0 x1 x3 x4 x5 x6 x7 x8 x9 x10
      ∧ after cL4 V (Proc.devRef .tc main_arg0) = x0
      ∧ after cL4 V (Proc.devRef .tc main_arg1) = x1
      ∧ after cL4 V (Proc.devRef .tc main_arg2) = x2
      ∧ after cL4 V (Proc.devRef .tc main_arg3) = x3
      ∧ after cL4 V (Proc.devRef .tc main_arg4) = x4
      ∧ after cL4 V (Proc.devRef .tc main_arg5) = x5
      ∧ after cL4 V (Proc.devRef .tc main_arg6) = x6
      ∧ after cL4 V (Proc.devRef .tc main_arg7) = x7
      ∧ after cL4 V (Proc.devRef .tc main_arg8) = x8
      ∧ after cL4 V (Proc.devRef .tc main_arg9) = x9
      ∧ after cL4 V (Proc.devRef .tc main_arg10) = x10
      ∧ after cL4 V (Proc.devRef .tc main_arg11) = x11
      ∧ after cL4 V (Proc.devRef .tc main_arg12) = x12
      ∧ after cL4 V (Proc.devRef .tc main_arg13) = x13
      ∧ after cL4 V (Proc.devRef .tc main_arg14) = x14 :=
  ⟨((cL4_keep V main_v3 (by decide)).trans h_main_v3),
   ((cL4_keep V main_v6 (by decide)).trans h_main_v6),
   ((cL4_keep V main_v31 (by decide)).trans h_main_v31),
   ((cL4_keep V main_v49 (by decide)).trans h_main_v49),
   ((cL4_keep V main_v67 (by decide)).trans h_main_v67),
   ((cL4_keep V main_v85 (by decide)).trans h_main_v85),
   (by
     subst h_main_arg0 h_main_arg1 h_main_arg2 h_main_arg3 h_main_arg4 h_main_arg5 h_main_arg6 h_main_arg7 h_main_arg8 h_main_arg9 h_main_arg10 h_main_arg11 h_main_arg12 h_main_arg13 h_main_arg14
     after_results_simp
     simp only [Cert.LibTRef.ofBuf_toBuf]
     rw [h_main_v3, h_main_v6, h_main_v31, h_main_v85]
     rfl),
   ((cL4_keep V main_arg0 (by decide)).trans h_main_arg0),
   ((cL4_keep V main_arg1 (by decide)).trans h_main_arg1),
   ((cL4_keep V main_arg2 (by decide)).trans h_main_arg2),
   ((cL4_keep V main_arg3 (by decide)).trans h_main_arg3),
   ((cL4_keep V main_arg4 (by decide)).trans h_main_arg4),
   ((cL4_keep V main_arg5 (by decide)).trans h_main_arg5),
   ((cL4_keep V main_arg6 (by decide)).trans h_main_arg6),
   ((cL4_keep V main_arg7 (by decide)).trans h_main_arg7),
   ((cL4_keep V main_arg8 (by decide)).trans h_main_arg8),
   ((cL4_keep V main_arg9 (by decide)).trans h_main_arg9),
   ((cL4_keep V main_arg10 (by decide)).trans h_main_arg10),
   ((cL4_keep V main_arg11 (by decide)).trans h_main_arg11),
   ((cL4_keep V main_arg12 (by decide)).trans h_main_arg12),
   ((cL4_keep V main_arg13 (by decide)).trans h_main_arg13),
   ((cL4_keep V main_arg14 (by decide)).trans h_main_arg14)⟩

end Cert.ReferenceIdeal.RunH

end
-- ==== Proof.RefRunHL5.lean ====
/-
  The five graph layers of the reference program read stage by stage: over any contents of the buffers in which the
  edge indices, the normalisation, the earlier layer outputs and the arguments hold their stages, each layer's output
  buffer holds its stage, and the buffers it does not write keep theirs.
-/
import proofs.«105302_j51668456571568_2_alg».proof.Proof.RefRunH0
import proofs.«105302_j51668456571568_2_alg».proof.Proof.RefReadP
import proofs.«105302_j51668456571568_2_alg».proof.Proof.LibTRef
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 4000000 in
/-- Operations 136 … 158: from buffers holding the stages read so far, the buffers still to be read hold their stages. -/
theorem cL5_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v3 : V (Proc.devRef .tc main_v3) = Cert.ReferenceIdeal.ReadP.val_main_v3 (F := F) x1)
    (h_main_v6 : V (Proc.devRef .tc main_v6) = Cert.ReferenceIdeal.ReadP.val_main_v6 (F := F) x1)
    (h_main_v31 : V (Proc.devRef .tc main_v31) = Cert.ReferenceIdeal.ReadP.val_main_v31 (F := F) x1)
    (h_main_v49 : V (Proc.devRef .tc main_v49) = Cert.ReferenceIdeal.ReadP.val_main_v49 (F := F) x0 x1 x3 x4)
    (h_main_v67 : V (Proc.devRef .tc main_v67) = Cert.ReferenceIdeal.ReadP.val_main_v67 (F := F) x0 x1 x3 x4 x5 x6)
    (h_main_v85 : V (Proc.devRef .tc main_v85) = Cert.ReferenceIdeal.ReadP.val_main_v85 (F := F) x0 x1 x3 x4 x5 x6 x7 x8)
    (h_main_v103 : V (Proc.devRef .tc main_v103) = Cert.ReferenceIdeal.ReadP.val_main_v103 (F := F) x0 x1 x3 x4 x5 x6 x7 x8 x9 x10)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cL5 V (Proc.devRef .tc main_v49) = Cert.ReferenceIdeal.ReadP.val_main_v49 (F := F) x0 x1 x3 x4
      ∧ after cL5 V (Proc.devRef .tc main_v67) = Cert.ReferenceIdeal.ReadP.val_main_v67 (F := F) x0 x1 x3 x4 x5 x6
      ∧ after cL5 V (Proc.devRef .tc main_v85) = Cert.ReferenceIdeal.ReadP.val_main_v85 (F := F) x0 x1 x3 x4 x5 x6 x7 x8
      ∧ after cL5 V (Proc.devRef .tc main_v103) = Cert.ReferenceIdeal.ReadP.val_main_v103 (F := F) x0 x1 x3 x4 x5 x6 x7 x8 x9 x10
      ∧ after cL5 V (Proc.devRef .tc main_v121) = Cert.ReferenceIdeal.ReadP.val_main_v121 (F := F) x0 x1 x3 x4 x5 x6 x7 x8 x9 x10
      ∧ after cL5 V (Proc.devRef .tc main_arg0) = x0
      ∧ after cL5 V (Proc.devRef .tc main_arg1) = x1
      ∧ after cL5 V (Proc.devRef .tc main_arg2) = x2
      ∧ after cL5 V (Proc.devRef .tc main_arg3) = x3
      ∧ after cL5 V (Proc.devRef .tc main_arg4) = x4
      ∧ after cL5 V (Proc.devRef .tc main_arg5) = x5
      ∧ after cL5 V (Proc.devRef .tc main_arg6) = x6
      ∧ after cL5 V (Proc.devRef .tc main_arg7) = x7
      ∧ after cL5 V (Proc.devRef .tc main_arg8) = x8
      ∧ after cL5 V (Proc.devRef .tc main_arg9) = x9
      ∧ after cL5 V (Proc.devRef .tc main_arg10) = x10
      ∧ after cL5 V (Proc.devRef .tc main_arg11) = x11
      ∧ after cL5 V (Proc.devRef .tc main_arg12) = x12
      ∧ after cL5 V (Proc.devRef .tc main_arg13) = x13
      ∧ after cL5 V (Proc.devRef .tc main_arg14) = x14 :=
  ⟨((cL5_keep V main_v49 (by decide)).trans h_main_v49),
   ((cL5_keep V main_v67 (by decide)).trans h_main_v67),
   ((cL5_keep V main_v85 (by decide)).trans h_main_v85),
   ((cL5_keep V main_v103 (by decide)).trans h_main_v103),
   (by
     subst h_main_arg0 h_main_arg1 h_main_arg2 h_main_arg3 h_main_arg4 h_main_arg5 h_main_arg6 h_main_arg7 h_main_arg8 h_main_arg9 h_main_arg10 h_main_arg11 h_main_arg12 h_main_arg13 h_main_arg14
     after_results_simp
     simp only [Cert.LibTRef.ofBuf_toBuf]
     rw [h_main_v3, h_main_v6, h_main_v31, h_main_v103]
     rfl),
   ((cL5_keep V main_arg0 (by decide)).trans h_main_arg0),
   ((cL5_keep V main_arg1 (by decide)).trans h_main_arg1),
   ((cL5_keep V main_arg2 (by decide)).trans h_main_arg2),
   ((cL5_keep V main_arg3 (by decide)).trans h_main_arg3),
   ((cL5_keep V main_arg4 (by decide)).trans h_main_arg4),
   ((cL5_keep V main_arg5 (by decide)).trans h_main_arg5),
   ((cL5_keep V main_arg6 (by decide)).trans h_main_arg6),
   ((cL5_keep V main_arg7 (by decide)).trans h_main_arg7),
   ((cL5_keep V main_arg8 (by decide)).trans h_main_arg8),
   ((cL5_keep V main_arg9 (by decide)).trans h_main_arg9),
   ((cL5_keep V main_arg10 (by decide)).trans h_main_arg10),
   ((cL5_keep V main_arg11 (by decide)).trans h_main_arg11),
   ((cL5_keep V main_arg12 (by decide)).trans h_main_arg12),
   ((cL5_keep V main_arg13 (by decide)).trans h_main_arg13),
   ((cL5_keep V main_arg14 (by decide)).trans h_main_arg14)⟩

end Cert.ReferenceIdeal.RunH

end
-- ==== Proof.RefRunHL.lean ====
/-
  The five graph layers of the reference program read stage by stage: over any contents of the buffers in which the
  edge indices, the normalisation, the earlier layer outputs and the arguments hold their stages, each layer's output
  buffer holds its stage, and the buffers it does not write keep theirs.
-/
import proofs.«105302_j51668456571568_2_alg».proof.Proof.RefRunHL1
import proofs.«105302_j51668456571568_2_alg».proof.Proof.RefRunHL2
import proofs.«105302_j51668456571568_2_alg».proof.Proof.RefRunHL3
import proofs.«105302_j51668456571568_2_alg».proof.Proof.RefRunHL4
import proofs.«105302_j51668456571568_2_alg».proof.Proof.RefRunHL5
-- ==== Proof.RefRunHT.lean ====
/-
  The five mean poolings and the perceptron of the reference program read stage by stage: over any contents of the
  buffers in which the five layer outputs and the arguments hold their stages, each pooled block's buffer, and at the end
  the result buffer, holds its stage, and the buffers a stretch does not write keep theirs.
-/
import proofs.«105302_j51668456571568_2_alg».proof.Proof.RefRunH0
import proofs.«105302_j51668456571568_2_alg».proof.Proof.RefReadP

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The entries of a five-entry vector literal, by position. -/
theorem vec5_0 {α : Type} (a b c d e : α) : (![a, b, c, d, e] : Fin 5 → α) 0 = a := rfl
theorem vec5_1 {α : Type} (a b c d e : α) : (![a, b, c, d, e] : Fin 5 → α) 1 = b := rfl
theorem vec5_2 {α : Type} (a b c d e : α) : (![a, b, c, d, e] : Fin 5 → α) 2 = c := rfl
theorem vec5_3 {α : Type} (a b c d e : α) : (![a, b, c, d, e] : Fin 5 → α) 3 = d := rfl
theorem vec5_4 {α : Type} (a b c d e : α) : (![a, b, c, d, e] : Fin 5 → α) 4 = e := rfl

set_option maxRecDepth 16384 in
set_option maxHeartbeats 4000000 in
/-- Operations 159 … 174: from buffers holding the stages read so far, the buffers still to be read hold their stages. -/
theorem cP1_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v49 : V (Proc.devRef .tc main_v49) = Cert.ReferenceIdeal.ReadP.val_main_v49 (F := F) x0 x1 x3 x4)
    (h_main_v67 : V (Proc.devRef .tc main_v67) = Cert.ReferenceIdeal.ReadP.val_main_v67 (F := F) x0 x1 x3 x4 x5 x6)
    (h_main_v85 : V (Proc.devRef .tc main_v85) = Cert.ReferenceIdeal.ReadP.val_main_v85 (F := F) x0 x1 x3 x4 x5 x6 x7 x8)
    (h_main_v103 : V (Proc.devRef .tc main_v103) = Cert.ReferenceIdeal.ReadP.val_main_v103 (F := F) x0 x1 x3 x4 x5 x6 x7 x8 x9 x10)
    (h_main_v121 : V (Proc.devRef .tc main_v121) = Cert.ReferenceIdeal.ReadP.val_main_v121 (F := F) x0 x1 x3 x4 x5 x6 x7 x8 x9 x10)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cP1 V (Proc.devRef .tc main_v67) = Cert.ReferenceIdeal.ReadP.val_main_v67 (F := F) x0 x1 x3 x4 x5 x6
      ∧ after cP1 V (Proc.devRef .tc main_v85) = Cert.ReferenceIdeal.ReadP.val_main_v85 (F := F) x0 x1 x3 x4 x5 x6 x7 x8
      ∧ after cP1 V (Proc.devRef .tc main_v103) = Cert.ReferenceIdeal.ReadP.val_main_v103 (F := F) x0 x1 x3 x4 x5 x6 x7 x8 x9 x10
      ∧ after cP1 V (Proc.devRef .tc main_v121) = Cert.ReferenceIdeal.ReadP.val_main_v121 (F := F) x0 x1 x3 x4 x5 x6 x7 x8 x9 x10
      ∧ after cP1 V (Proc.devRef .tc main_v133) = Cert.ReferenceIdeal.ReadP.val_main_v133 (F := F) x0 x1 x2 x3 x4
      ∧ after cP1 V (Proc.devRef .tc main_arg0) = x0
      ∧ after cP1 V (Proc.devRef .tc main_arg1) = x1
      ∧ after cP1 V (Proc.devRef .tc main_arg2) = x2
      ∧ after cP1 V (Proc.devRef .tc main_arg3) = x3
      ∧ after cP1 V (Proc.devRef .tc main_arg4) = x4
      ∧ after cP1 V (Proc.devRef .tc main_arg5) = x5
      ∧ after cP1 V (Proc.devRef .tc main_arg6) = x6
      ∧ after cP1 V (Proc.devRef .tc main_arg7) = x7
      ∧ after cP1 V (Proc.devRef .tc main_arg8) = x8
      ∧ after cP1 V (Proc.devRef .tc main_arg9) = x9
      ∧ after cP1 V (Proc.devRef .tc main_arg10) = x10
      ∧ after cP1 V (Proc.devRef .tc main_arg11) = x11
      ∧ after cP1 V (Proc.devRef .tc main_arg12) = x12
      ∧ after cP1 V (Proc.devRef .tc main_arg13) = x13
      ∧ after cP1 V (Proc.devRef .tc main_arg14) = x14 :=
  ⟨((cP1_keep V main_v67 (by decide)).trans h_main_v67),
   ((cP1_keep V main_v85 (by decide)).trans h_main_v85),
   ((cP1_keep V main_v103 (by decide)).trans h_main_v103),
   ((cP1_keep V main_v121 (by decide)).trans h_main_v121),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try rw [h_main_v49]) <;> rfl)),
   ((cP1_keep V main_arg0 (by decide)).trans h_main_arg0),
   ((cP1_keep V main_arg1 (by decide)).trans h_main_arg1),
   ((cP1_keep V main_arg2 (by decide)).trans h_main_arg2),
   ((cP1_keep V main_arg3 (by decide)).trans h_main_arg3),
   ((cP1_keep V main_arg4 (by decide)).trans h_main_arg4),
   ((cP1_keep V main_arg5 (by decide)).trans h_main_arg5),
   ((cP1_keep V main_arg6 (by decide)).trans h_main_arg6),
   ((cP1_keep V main_arg7 (by decide)).trans h_main_arg7),
   ((cP1_keep V main_arg8 (by decide)).trans h_main_arg8),
   ((cP1_keep V main_arg9 (by decide)).trans h_main_arg9),
   ((cP1_keep V main_arg10 (by decide)).trans h_main_arg10),
   ((cP1_keep V main_arg11 (by decide)).trans h_main_arg11),
   ((cP1_keep V main_arg12 (by decide)).trans h_main_arg12),
   ((cP1_keep V main_arg13 (by decide)).trans h_main_arg13),
   ((cP1_keep V main_arg14 (by decide)).trans h_main_arg14)⟩

set_option maxRecDepth 16384 in
set_option maxHeartbeats 4000000 in
/-- Operations 175 … 190: from buffers holding the stages read so far, the buffers still to be read hold their stages. -/
theorem cP2_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v67 : V (Proc.devRef .tc main_v67) = Cert.ReferenceIdeal.ReadP.val_main_v67 (F := F) x0 x1 x3 x4 x5 x6)
    (h_main_v85 : V (Proc.devRef .tc main_v85) = Cert.ReferenceIdeal.ReadP.val_main_v85 (F := F) x0 x1 x3 x4 x5 x6 x7 x8)
    (h_main_v103 : V (Proc.devRef .tc main_v103) = Cert.ReferenceIdeal.ReadP.val_main_v103 (F := F) x0 x1 x3 x4 x5 x6 x7 x8 x9 x10)
    (h_main_v121 : V (Proc.devRef .tc main_v121) = Cert.ReferenceIdeal.ReadP.val_main_v121 (F := F) x0 x1 x3 x4 x5 x6 x7 x8 x9 x10)
    (h_main_v133 : V (Proc.devRef .tc main_v133) = Cert.ReferenceIdeal.ReadP.val_main_v133 (F := F) x0 x1 x2 x3 x4)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cP2 V (Proc.devRef .tc main_v85) = Cert.ReferenceIdeal.ReadP.val_main_v85 (F := F) x0 x1 x3 x4 x5 x6 x7 x8
      ∧ after cP2 V (Proc.devRef .tc main_v103) = Cert.ReferenceIdeal.ReadP.val_main_v103 (F := F) x0 x1 x3 x4 x5 x6 x7 x8 x9 x10
      ∧ after cP2 V (Proc.devRef .tc main_v121) = Cert.ReferenceIdeal.ReadP.val_main_v121 (F := F) x0 x1 x3 x4 x5 x6 x7 x8 x9 x10
      ∧ after cP2 V (Proc.devRef .tc main_v133) = Cert.ReferenceIdeal.ReadP.val_main_v133 (F := F) x0 x1 x2 x3 x4
      ∧ after cP2 V (Proc.devRef .tc main_v145) = Cert.ReferenceIdeal.ReadP.val_main_v145 (F := F) x0 x1 x2 x3 x4 x5 x6
      ∧ after cP2 V (Proc.devRef .tc main_arg0) = x0
      ∧ after cP2 V (Proc.devRef .tc main_arg1) = x1
      ∧ after cP2 V (Proc.devRef .tc main_arg2) = x2
      ∧ after cP2 V (Proc.devRef .tc main_arg3) = x3
      ∧ after cP2 V (Proc.devRef .tc main_arg4) = x4
      ∧ after cP2 V (Proc.devRef .tc main_arg5) = x5
      ∧ after cP2 V (Proc.devRef .tc main_arg6) = x6
      ∧ after cP2 V (Proc.devRef .tc main_arg7) = x7
      ∧ after cP2 V (Proc.devRef .tc main_arg8) = x8
      ∧ after cP2 V (Proc.devRef .tc main_arg9) = x9
      ∧ after cP2 V (Proc.devRef .tc main_arg10) = x10
      ∧ after cP2 V (Proc.devRef .tc main_arg11) = x11
      ∧ after cP2 V (Proc.devRef .tc main_arg12) = x12
      ∧ after cP2 V (Proc.devRef .tc main_arg13) = x13
      ∧ after cP2 V (Proc.devRef .tc main_arg14) = x14 :=
  ⟨((cP2_keep V main_v85 (by decide)).trans h_main_v85),
   ((cP2_keep V main_v103 (by decide)).trans h_main_v103),
   ((cP2_keep V main_v121 (by decide)).trans h_main_v121),
   ((cP2_keep V main_v133 (by decide)).trans h_main_v133),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try rw [h_main_v67]) <;> rfl)),
   ((cP2_keep V main_arg0 (by decide)).trans h_main_arg0),
   ((cP2_keep V main_arg1 (by decide)).trans h_main_arg1),
   ((cP2_keep V main_arg2 (by decide)).trans h_main_arg2),
   ((cP2_keep V main_arg3 (by decide)).trans h_main_arg3),
   ((cP2_keep V main_arg4 (by decide)).trans h_main_arg4),
   ((cP2_keep V main_arg5 (by decide)).trans h_main_arg5),
   ((cP2_keep V main_arg6 (by decide)).trans h_main_arg6),
   ((cP2_keep V main_arg7 (by decide)).trans h_main_arg7),
   ((cP2_keep V main_arg8 (by decide)).trans h_main_arg8),
   ((cP2_keep V main_arg9 (by decide)).trans h_main_arg9),
   ((cP2_keep V main_arg10 (by decide)).trans h_main_arg10),
   ((cP2_keep V main_arg11 (by decide)).trans h_main_arg11),
   ((cP2_keep V main_arg12 (by decide)).trans h_main_arg12),
   ((cP2_keep V main_arg13 (by decide)).trans h_main_arg13),
   ((cP2_keep V main_arg14 (by decide)).trans h_main_arg14)⟩

set_option maxRecDepth 16384 in
set_option maxHeartbeats 4000000 in
/-- Operations 191 … 206: from buffers holding the stages read so far, the buffers still to be read hold their stages. -/
theorem cP3_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v85 : V (Proc.devRef .tc main_v85) = Cert.ReferenceIdeal.ReadP.val_main_v85 (F := F) x0 x1 x3 x4 x5 x6 x7 x8)
    (h_main_v103 : V (Proc.devRef .tc main_v103) = Cert.ReferenceIdeal.ReadP.val_main_v103 (F := F) x0 x1 x3 x4 x5 x6 x7 x8 x9 x10)
    (h_main_v121 : V (Proc.devRef .tc main_v121) = Cert.ReferenceIdeal.ReadP.val_main_v121 (F := F) x0 x1 x3 x4 x5 x6 x7 x8 x9 x10)
    (h_main_v133 : V (Proc.devRef .tc main_v133) = Cert.ReferenceIdeal.ReadP.val_main_v133 (F := F) x0 x1 x2 x3 x4)
    (h_main_v145 : V (Proc.devRef .tc main_v145) = Cert.ReferenceIdeal.ReadP.val_main_v145 (F := F) x0 x1 x2 x3 x4 x5 x6)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cP3 V (Proc.devRef .tc main_v103) = Cert.ReferenceIdeal.ReadP.val_main_v103 (F := F) x0 x1 x3 x4 x5 x6 x7 x8 x9 x10
      ∧ after cP3 V (Proc.devRef .tc main_v121) = Cert.ReferenceIdeal.ReadP.val_main_v121 (F := F) x0 x1 x3 x4 x5 x6 x7 x8 x9 x10
      ∧ after cP3 V (Proc.devRef .tc main_v133) = Cert.ReferenceIdeal.ReadP.val_main_v133 (F := F) x0 x1 x2 x3 x4
      ∧ after cP3 V (Proc.devRef .tc main_v145) = Cert.ReferenceIdeal.ReadP.val_main_v145 (F := F) x0 x1 x2 x3 x4 x5 x6
      ∧ after cP3 V (Proc.devRef .tc main_v157) = Cert.ReferenceIdeal.ReadP.val_main_v157 (F := F) x0 x1 x2 x3 x4 x5 x6 x7 x8
      ∧ after cP3 V (Proc.devRef .tc main_arg0) = x0
      ∧ after cP3 V (Proc.devRef .tc main_arg1) = x1
      ∧ after cP3 V (Proc.devRef .tc main_arg2) = x2
      ∧ after cP3 V (Proc.devRef .tc main_arg3) = x3
      ∧ after cP3 V (Proc.devRef .tc main_arg4) = x4
      ∧ after cP3 V (Proc.devRef .tc main_arg5) = x5
      ∧ after cP3 V (Proc.devRef .tc main_arg6) = x6
      ∧ after cP3 V (Proc.devRef .tc main_arg7) = x7
      ∧ after cP3 V (Proc.devRef .tc main_arg8) = x8
      ∧ after cP3 V (Proc.devRef .tc main_arg9) = x9
      ∧ after cP3 V (Proc.devRef .tc main_arg10) = x10
      ∧ after cP3 V (Proc.devRef .tc main_arg11) = x11
      ∧ after cP3 V (Proc.devRef .tc main_arg12) = x12
      ∧ after cP3 V (Proc.devRef .tc main_arg13) = x13
      ∧ after cP3 V (Proc.devRef .tc main_arg14) = x14 :=
  ⟨((cP3_keep V main_v103 (by decide)).trans h_main_v103),
   ((cP3_keep V main_v121 (by decide)).trans h_main_v121),
   ((cP3_keep V main_v133 (by decide)).trans h_main_v133),
   ((cP3_keep V main_v145 (by decide)).trans h_main_v145),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try rw [h_main_v85]) <;> rfl)),
   ((cP3_keep V main_arg0 (by decide)).trans h_main_arg0),
   ((cP3_keep V main_arg1 (by decide)).trans h_main_arg1),
   ((cP3_keep V main_arg2 (by decide)).trans h_main_arg2),
   ((cP3_keep V main_arg3 (by decide)).trans h_main_arg3),
   ((cP3_keep V main_arg4 (by decide)).trans h_main_arg4),
   ((cP3_keep V main_arg5 (by decide)).trans h_main_arg5),
   ((cP3_keep V main_arg6 (by decide)).trans h_main_arg6),
   ((cP3_keep V main_arg7 (by decide)).trans h_main_arg7),
   ((cP3_keep V main_arg8 (by decide)).trans h_main_arg8),
   ((cP3_keep V main_arg9 (by decide)).trans h_main_arg9),
   ((cP3_keep V main_arg10 (by decide)).trans h_main_arg10),
   ((cP3_keep V main_arg11 (by decide)).trans h_main_arg11),
   ((cP3_keep V main_arg12 (by decide)).trans h_main_arg12),
   ((cP3_keep V main_arg13 (by decide)).trans h_main_arg13),
   ((cP3_keep V main_arg14 (by decide)).trans h_main_arg14)⟩

set_option maxRecDepth 16384 in
set_option maxHeartbeats 4000000 in
/-- Operations 207 … 222: from buffers holding the stages read so far, the buffers still to be read hold their stages. -/
theorem cP4_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v103 : V (Proc.devRef .tc main_v103) = Cert.ReferenceIdeal.ReadP.val_main_v103 (F := F) x0 x1 x3 x4 x5 x6 x7 x8 x9 x10)
    (h_main_v121 : V (Proc.devRef .tc main_v121) = Cert.ReferenceIdeal.ReadP.val_main_v121 (F := F) x0 x1 x3 x4 x5 x6 x7 x8 x9 x10)
    (h_main_v133 : V (Proc.devRef .tc main_v133) = Cert.ReferenceIdeal.ReadP.val_main_v133 (F := F) x0 x1 x2 x3 x4)
    (h_main_v145 : V (Proc.devRef .tc main_v145) = Cert.ReferenceIdeal.ReadP.val_main_v145 (F := F) x0 x1 x2 x3 x4 x5 x6)
    (h_main_v157 : V (Proc.devRef .tc main_v157) = Cert.ReferenceIdeal.ReadP.val_main_v157 (F := F) x0 x1 x2 x3 x4 x5 x6 x7 x8)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cP4 V (Proc.devRef .tc main_v121) = Cert.ReferenceIdeal.ReadP.val_main_v121 (F := F) x0 x1 x3 x4 x5 x6 x7 x8 x9 x10
      ∧ after cP4 V (Proc.devRef .tc main_v133) = Cert.ReferenceIdeal.ReadP.val_main_v133 (F := F) x0 x1 x2 x3 x4
      ∧ after cP4 V (Proc.devRef .tc main_v145) = Cert.ReferenceIdeal.ReadP.val_main_v145 (F := F) x0 x1 x2 x3 x4 x5 x6
      ∧ after cP4 V (Proc.devRef .tc main_v157) = Cert.ReferenceIdeal.ReadP.val_main_v157 (F := F) x0 x1 x2 x3 x4 x5 x6 x7 x8
      ∧ after cP4 V (Proc.devRef .tc main_v169) = Cert.ReferenceIdeal.ReadP.val_main_v169 (F := F) x0 x1 x2 x3 x4 x5 x6 x7 x8 x9 x10
      ∧ after cP4 V (Proc.devRef .tc main_arg0) = x0
      ∧ after cP4 V (Proc.devRef .tc main_arg1) = x1
      ∧ after cP4 V (Proc.devRef .tc main_arg2) = x2
      ∧ after cP4 V (Proc.devRef .tc main_arg3) = x3
      ∧ after cP4 V (Proc.devRef .tc main_arg4) = x4
      ∧ after cP4 V (Proc.devRef .tc main_arg5) = x5
      ∧ after cP4 V (Proc.devRef .tc main_arg6) = x6
      ∧ after cP4 V (Proc.devRef .tc main_arg7) = x7
      ∧ after cP4 V (Proc.devRef .tc main_arg8) = x8
      ∧ after cP4 V (Proc.devRef .tc main_arg9) = x9
      ∧ after cP4 V (Proc.devRef .tc main_arg10) = x10
      ∧ after cP4 V (Proc.devRef .tc main_arg11) = x11
      ∧ after cP4 V (Proc.devRef .tc main_arg12) = x12
      ∧ after cP4 V (Proc.devRef .tc main_arg13) = x13
      ∧ after cP4 V (Proc.devRef .tc main_arg14) = x14 :=
  ⟨((cP4_keep V main_v121 (by decide)).trans h_main_v121),
   ((cP4_keep V main_v133 (by decide)).trans h_main_v133),
   ((cP4_keep V main_v145 (by decide)).trans h_main_v145),
   ((cP4_keep V main_v157 (by decide)).trans h_main_v157),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try rw [h_main_v103]) <;> rfl)),
   ((cP4_keep V main_arg0 (by decide)).trans h_main_arg0),
   ((cP4_keep V main_arg1 (by decide)).trans h_main_arg1),
   ((cP4_keep V main_arg2 (by decide)).trans h_main_arg2),
   ((cP4_keep V main_arg3 (by decide)).trans h_main_arg3),
   ((cP4_keep V main_arg4 (by decide)).trans h_main_arg4),
   ((cP4_keep V main_arg5 (by decide)).trans h_main_arg5),
   ((cP4_keep V main_arg6 (by decide)).trans h_main_arg6),
   ((cP4_keep V main_arg7 (by decide)).trans h_main_arg7),
   ((cP4_keep V main_arg8 (by decide)).trans h_main_arg8),
   ((cP4_keep V main_arg9 (by decide)).trans h_main_arg9),
   ((cP4_keep V main_arg10 (by decide)).trans h_main_arg10),
   ((cP4_keep V main_arg11 (by decide)).trans h_main_arg11),
   ((cP4_keep V main_arg12 (by decide)).trans h_main_arg12),
   ((cP4_keep V main_arg13 (by decide)).trans h_main_arg13),
   ((cP4_keep V main_arg14 (by decide)).trans h_main_arg14)⟩

set_option maxRecDepth 16384 in
set_option maxHeartbeats 4000000 in
/-- Operations 223 … 238: from buffers holding the stages read so far, the buffers still to be read hold their stages. -/
theorem cP5_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v121 : V (Proc.devRef .tc main_v121) = Cert.ReferenceIdeal.ReadP.val_main_v121 (F := F) x0 x1 x3 x4 x5 x6 x7 x8 x9 x10)
    (h_main_v133 : V (Proc.devRef .tc main_v133) = Cert.ReferenceIdeal.ReadP.val_main_v133 (F := F) x0 x1 x2 x3 x4)
    (h_main_v145 : V (Proc.devRef .tc main_v145) = Cert.ReferenceIdeal.ReadP.val_main_v145 (F := F) x0 x1 x2 x3 x4 x5 x6)
    (h_main_v157 : V (Proc.devRef .tc main_v157) = Cert.ReferenceIdeal.ReadP.val_main_v157 (F := F) x0 x1 x2 x3 x4 x5 x6 x7 x8)
    (h_main_v169 : V (Proc.devRef .tc main_v169) = Cert.ReferenceIdeal.ReadP.val_main_v169 (F := F) x0 x1 x2 x3 x4 x5 x6 x7 x8 x9 x10)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cP5 V (Proc.devRef .tc main_v133) = Cert.ReferenceIdeal.ReadP.val_main_v133 (F := F) x0 x1 x2 x3 x4
      ∧ after cP5 V (Proc.devRef .tc main_v145) = Cert.ReferenceIdeal.ReadP.val_main_v145 (F := F) x0 x1 x2 x3 x4 x5 x6
      ∧ after cP5 V (Proc.devRef .tc main_v157) = Cert.ReferenceIdeal.ReadP.val_main_v157 (F := F) x0 x1 x2 x3 x4 x5 x6 x7 x8
      ∧ after cP5 V (Proc.devRef .tc main_v169) = Cert.ReferenceIdeal.ReadP.val_main_v169 (F := F) x0 x1 x2 x3 x4 x5 x6 x7 x8 x9 x10
      ∧ after cP5 V (Proc.devRef .tc main_v181) = Cert.ReferenceIdeal.ReadP.val_main_v181 (F := F) x0 x1 x2 x3 x4 x5 x6 x7 x8 x9 x10
      ∧ after cP5 V (Proc.devRef .tc main_arg0) = x0
      ∧ after cP5 V (Proc.devRef .tc main_arg1) = x1
      ∧ after cP5 V (Proc.devRef .tc main_arg2) = x2
      ∧ after cP5 V (Proc.devRef .tc main_arg3) = x3
      ∧ after cP5 V (Proc.devRef .tc main_arg4) = x4
      ∧ after cP5 V (Proc.devRef .tc main_arg5) = x5
      ∧ after cP5 V (Proc.devRef .tc main_arg6) = x6
      ∧ after cP5 V (Proc.devRef .tc main_arg7) = x7
      ∧ after cP5 V (Proc.devRef .tc main_arg8) = x8
      ∧ after cP5 V (Proc.devRef .tc main_arg9) = x9
      ∧ after cP5 V (Proc.devRef .tc main_arg10) = x10
      ∧ after cP5 V (Proc.devRef .tc main_arg11) = x11
      ∧ after cP5 V (Proc.devRef .tc main_arg12) = x12
      ∧ after cP5 V (Proc.devRef .tc main_arg13) = x13
      ∧ after cP5 V (Proc.devRef .tc main_arg14) = x14 :=
  ⟨((cP5_keep V main_v133 (by decide)).trans h_main_v133),
   ((cP5_keep V main_v145 (by decide)).trans h_main_v145),
   ((cP5_keep V main_v157 (by decide)).trans h_main_v157),
   ((cP5_keep V main_v169 (by decide)).trans h_main_v169),
   (by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try rw [h_main_v121]) <;> rfl)),
   ((cP5_keep V main_arg0 (by decide)).trans h_main_arg0),
   ((cP5_keep V main_arg1 (by decide)).trans h_main_arg1),
   ((cP5_keep V main_arg2 (by decide)).trans h_main_arg2),
   ((cP5_keep V main_arg3 (by decide)).trans h_main_arg3),
   ((cP5_keep V main_arg4 (by decide)).trans h_main_arg4),
   ((cP5_keep V main_arg5 (by decide)).trans h_main_arg5),
   ((cP5_keep V main_arg6 (by decide)).trans h_main_arg6),
   ((cP5_keep V main_arg7 (by decide)).trans h_main_arg7),
   ((cP5_keep V main_arg8 (by decide)).trans h_main_arg8),
   ((cP5_keep V main_arg9 (by decide)).trans h_main_arg9),
   ((cP5_keep V main_arg10 (by decide)).trans h_main_arg10),
   ((cP5_keep V main_arg11 (by decide)).trans h_main_arg11),
   ((cP5_keep V main_arg12 (by decide)).trans h_main_arg12),
   ((cP5_keep V main_arg13 (by decide)).trans h_main_arg13),
   ((cP5_keep V main_arg14 (by decide)).trans h_main_arg14)⟩

set_option maxRecDepth 16384 in
set_option maxHeartbeats 4000000 in
/-- Operations 239 … 251: from buffers holding the stages read so far, the buffers still to be read hold their stages. -/
theorem cM_spec (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_v133 : V (Proc.devRef .tc main_v133) = Cert.ReferenceIdeal.ReadP.val_main_v133 (F := F) x0 x1 x2 x3 x4)
    (h_main_v145 : V (Proc.devRef .tc main_v145) = Cert.ReferenceIdeal.ReadP.val_main_v145 (F := F) x0 x1 x2 x3 x4 x5 x6)
    (h_main_v157 : V (Proc.devRef .tc main_v157) = Cert.ReferenceIdeal.ReadP.val_main_v157 (F := F) x0 x1 x2 x3 x4 x5 x6 x7 x8)
    (h_main_v169 : V (Proc.devRef .tc main_v169) = Cert.ReferenceIdeal.ReadP.val_main_v169 (F := F) x0 x1 x2 x3 x4 x5 x6 x7 x8 x9 x10)
    (h_main_v181 : V (Proc.devRef .tc main_v181) = Cert.ReferenceIdeal.ReadP.val_main_v181 (F := F) x0 x1 x2 x3 x4 x5 x6 x7 x8 x9 x10)
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after cM V (Proc.devRef .tc main_v192) = Cert.ReferenceIdeal.ReadP.val_main_v192 (F := F) x0 x1 x2 x3 x4 x5 x6 x7 x8 x9 x10 x11 x12 x13 x14
      ∧ after cM V (Proc.devRef .tc main_arg0) = x0
      ∧ after cM V (Proc.devRef .tc main_arg1) = x1
      ∧ after cM V (Proc.devRef .tc main_arg2) = x2
      ∧ after cM V (Proc.devRef .tc main_arg3) = x3
      ∧ after cM V (Proc.devRef .tc main_arg4) = x4
      ∧ after cM V (Proc.devRef .tc main_arg5) = x5
      ∧ after cM V (Proc.devRef .tc main_arg6) = x6
      ∧ after cM V (Proc.devRef .tc main_arg7) = x7
      ∧ after cM V (Proc.devRef .tc main_arg8) = x8
      ∧ after cM V (Proc.devRef .tc main_arg9) = x9
      ∧ after cM V (Proc.devRef .tc main_arg10) = x10
      ∧ after cM V (Proc.devRef .tc main_arg11) = x11
      ∧ after cM V (Proc.devRef .tc main_arg12) = x12
      ∧ after cM V (Proc.devRef .tc main_arg13) = x13
      ∧ after cM V (Proc.devRef .tc main_arg14) = x14 :=
  ⟨(by subst h_main_arg0 h_main_arg1 h_main_arg2 h_main_arg3 h_main_arg4 h_main_arg5 h_main_arg6 h_main_arg7 h_main_arg8 h_main_arg9 h_main_arg10 h_main_arg11 h_main_arg12 h_main_arg13 h_main_arg14; (after_results_simp <;> (try dsimp only [vec5_0, vec5_1, vec5_2, vec5_3, vec5_4]) <;> (try rw [h_main_v133]) <;> (try rw [h_main_v145]) <;> (try rw [h_main_v157]) <;> (try rw [h_main_v169]) <;> (try rw [h_main_v181]) <;> rfl)),
   ((cM_keep V main_arg0 (by decide)).trans h_main_arg0),
   ((cM_keep V main_arg1 (by decide)).trans h_main_arg1),
   ((cM_keep V main_arg2 (by decide)).trans h_main_arg2),
   ((cM_keep V main_arg3 (by decide)).trans h_main_arg3),
   ((cM_keep V main_arg4 (by decide)).trans h_main_arg4),
   ((cM_keep V main_arg5 (by decide)).trans h_main_arg5),
   ((cM_keep V main_arg6 (by decide)).trans h_main_arg6),
   ((cM_keep V main_arg7 (by decide)).trans h_main_arg7),
   ((cM_keep V main_arg8 (by decide)).trans h_main_arg8),
   ((cM_keep V main_arg9 (by decide)).trans h_main_arg9),
   ((cM_keep V main_arg10 (by decide)).trans h_main_arg10),
   ((cM_keep V main_arg11 (by decide)).trans h_main_arg11),
   ((cM_keep V main_arg12 (by decide)).trans h_main_arg12),
   ((cM_keep V main_arg13 (by decide)).trans h_main_arg13),
   ((cM_keep V main_arg14 (by decide)).trans h_main_arg14)⟩

end Cert.ReferenceIdeal.RunH

end
-- ==== Proof.RefRunH.lean ====
/-
  The reference program's run, read back.

  The program is a straight line of 251 host operations, thirteen stretches one after the other. Every weakly fair
  execution of it terminates with each buffer holding the fold of the operations' results over the launch contents.
  Stretch by stretch, the buffers still to be read hold the stages the operations were read as, from the arguments'
  launch contents; after the last stretch the result buffer holds the last stage, and the argument buffers, which no
  operation writes, hold what they held at the launch.
-/
import proofs.«105302_j51668456571568_2_alg».proof.Proof.RefRunH0
import proofs.«105302_j51668456571568_2_alg».proof.Proof.RefRunHA
import proofs.«105302_j51668456571568_2_alg».proof.Proof.RefRunHL
import proofs.«105302_j51668456571568_2_alg».proof.Proof.RefRunHT
import proofs.«105302_j51668456571568_2_alg».proof.Proof.RefReadP

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
/-- After the whole program, from any contents in which the argument buffers hold `x0 … x14`: the result buffer holds
    the last stage and the argument buffers are unchanged. -/
theorem after_all (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S640x640, .f32⟩ : BufTy).Contents (Elt F)) (x12 : (⟨S640, .f32⟩ : BufTy).Contents (Elt F)) (x13 : (⟨S640x1, .f32⟩ : BufTy).Contents (Elt F)) (x14 : (⟨S1, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14) :
    after ops V (Proc.devRef .tc main_v192) = Cert.ReferenceIdeal.ReadP.val_main_v192 (F := F) x0 x1 x2 x3 x4 x5 x6 x7 x8 x9 x10 x11 x12 x13 x14
      ∧ after ops V (Proc.devRef .tc main_arg0) = x0
      ∧ after ops V (Proc.devRef .tc main_arg1) = x1
      ∧ after ops V (Proc.devRef .tc main_arg2) = x2
      ∧ after ops V (Proc.devRef .tc main_arg3) = x3
      ∧ after ops V (Proc.devRef .tc main_arg4) = x4
      ∧ after ops V (Proc.devRef .tc main_arg5) = x5
      ∧ after ops V (Proc.devRef .tc main_arg6) = x6
      ∧ after ops V (Proc.devRef .tc main_arg7) = x7
      ∧ after ops V (Proc.devRef .tc main_arg8) = x8
      ∧ after ops V (Proc.devRef .tc main_arg9) = x9
      ∧ after ops V (Proc.devRef .tc main_arg10) = x10
      ∧ after ops V (Proc.devRef .tc main_arg11) = x11
      ∧ after ops V (Proc.devRef .tc main_arg12) = x12
      ∧ after ops V (Proc.devRef .tc main_arg13) = x13
      ∧ after ops V (Proc.devRef .tc main_arg14) = x14 := by
  rw [ops_eq]
  simp only [after_append]
  have s0 := cA1_spec (V) x0 x1 x2 x3 x4 x5 x6 x7 x8 x9 x10 x11 x12 x13 x14 h_main_arg0 h_main_arg1 h_main_arg2 h_main_arg3 h_main_arg4 h_main_arg5 h_main_arg6 h_main_arg7 h_main_arg8 h_main_arg9 h_main_arg10 h_main_arg11 h_main_arg12 h_main_arg13 h_main_arg14
  have s1 := cA2_spec (after cA1 (V)) x0 x1 x2 x3 x4 x5 x6 x7 x8 x9 x10 x11 x12 x13 x14 s0.1 s0.2.1 s0.2.2.1 s0.2.2.2.1 s0.2.2.2.2.1 s0.2.2.2.2.2.1 s0.2.2.2.2.2.2.1 s0.2.2.2.2.2.2.2.1 s0.2.2.2.2.2.2.2.2.1 s0.2.2.2.2.2.2.2.2.2.1 s0.2.2.2.2.2.2.2.2.2.2.1 s0.2.2.2.2.2.2.2.2.2.2.2.1 s0.2.2.2.2.2.2.2.2.2.2.2.2.1 s0.2.2.2.2.2.2.2.2.2.2.2.2.2.1 s0.2.2.2.2.2.2.2.2.2.2.2.2.2.2.1 s0.2.2.2.2.2.2.2.2.2.2.2.2.2.2.2.1 s0.2.2.2.2.2.2.2.2.2.2.2.2.2.2.2.2.1 s0.2.2.2.2.2.2.2.2.2.2.2.2.2.2.2.2.2
  have s2 := cL1_spec (after cA2 (after cA1 (V))) x0 x1 x2 x3 x4 x5 x6 x7 x8 x9 x10 x11 x12 x13 x14 s1.1 s1.2.1 s1.2.2.1 s1.2.2.2.1 s1.2.2.2.2.1 s1.2.2.2.2.2.1 s1.2.2.2.2.2.2.1 s1.2.2.2.2.2.2.2.1 s1.2.2.2.2.2.2.2.2.1 s1.2.2.2.2.2.2.2.2.2.1 s1.2.2.2.2.2.2.2.2.2.2.1 s1.2.2.2.2.2.2.2.2.2.2.2.1 s1.2.2.2.2.2.2.2.2.2.2.2.2.1 s1.2.2.2.2.2.2.2.2.2.2.2.2.2.1 s1.2.2.2.2.2.2.2.2.2.2.2.2.2.2.1 s1.2.2.2.2.2.2.2.2.2.2.2.2.2.2.2.1 s1.2.2.2.2.2.2.2.2.2.2.2.2.2.2.2.2.1 s1.2.2.2.2.2.2.2.2.2.2.2.2.2.2.2.2.2
  have s3 := cL2_spec (after cL1 (after cA2 (after cA1 (V)))) x0 x1 x2 x3 x4 x5 x6 x7 x8 x9 x10 x11 x12 x13 x14 s2.1 s2.2.1 s2.2.2.1 s2.2.2.2.1 s2.2.2.2.2.1 s2.2.2.2.2.2.1 s2.2.2.2.2.2.2.1 s2.2.2.2.2.2.2.2.1 s2.2.2.2.2.2.2.2.2.1 s2.2.2.2.2.2.2.2.2.2.1 s2.2.2.2.2.2.2.2.2.2.2.1 s2.2.2.2.2.2.2.2.2.2.2.2.1 s2.2.2.2.2.2.2.2.2.2.2.2.2.1 s2.2.2.2.2.2.2.2.2.2.2.2.2.2.1 s2.2.2.2.2.2.2.2.2.2.2.2.2.2.2.1 s2.2.2.2.2.2.2.2.2.2.2.2.2.2.2.2.1 s2.2.2.2.2.2.2.2.2.2.2.2.2.2.2.2.2.1 s2.2.2.2.2.2.2.2.2.2.2.2.2.2.2.2.2.2.1 s2.2.2.2.2.2.2.2.2.2.2.2.2.2.2.2.2.2.2
  have s4 := cL3_spec (after cL2 (after cL1 (after cA2 (after cA1 (V))))) x0 x1 x2 x3 x4 x5 x6 x7 x8 x9 x10 x11 x12 x13 x14 s3.1 s3.2.1 s3.2.2.1 s3.2.2.2.1 s3.2.2.2.2.1 s3.2.2.2.2.2.1 s3.2.2.2.2.2.2.1 s3.2.2.2.2.2.2.2.1 s3.2.2.2.2.2.2.2.2.1 s3.2.2.2.2.2.2.2.2.2.1 s3.2.2.2.2.2.2.2.2.2.2.1 s3.2.2.2.2.2.2.2.2.2.2.2.1 s3.2.2.2.2.2.2.2.2.2.2.2.2.1 s3.2.2.2.2.2.2.2.2.2.2.2.2.2.1 s3.2.2.2.2.2.2.2.2.2.2.2.2.2.2.1 s3.2.2.2.2.2.2.2.2.2.2.2.2.2.2.2.1 s3.2.2.2.2.2.2.2.2.2.2.2.2.2.2.2.2.1 s3.2.2.2.2.2.2.2.2.2.2.2.2.2.2.2.2.2.1 s3.2.2.2.2.2.2.2.2.2.2.2.2.2.2.2.2.2.2.1 s3.2.2.2.2.2.2.2.2.2.2.2.2.2.2.2.2.2.2.2
  have s5 := cL4_spec (after cL3 (after cL2 (after cL1 (after cA2 (after cA1 (V)))))) x0 x1 x2 x3 x4 x5 x6 x7 x8 x9 x10 x11 x12 x13 x14 s4.1 s4.2.1 s4.2.2.1 s4.2.2.2.1 s4.2.2.2.2.1 s4.2.2.2.2.2.1 s4.2.2.2.2.2.2.1 s4.2.2.2.2.2.2.2.1 s4.2.2.2.2.2.2.2.2.1 s4.2.2.2.2.2.2.2.2.2.1 s4.2.2.2.2.2.2.2.2.2.2.1 s4.2.2.2.2.2.2.2.2.2.2.2.1 s4.2.2.2.2.2.2.2.2.2.2.2.2.1 s4.2.2.2.2.2.2.2.2.2.2.2.2.2.1 s4.2.2.2.2.2.2.2.2.2.2.2.2.2.2.1 s4.2.2.2.2.2.2.2.2.2.2.2.2.2.2.2.1 s4.2.2.2.2.2.2.2.2.2.2.2.2.2.2.2.2.1 s4.2.2.2.2.2.2.2.2.2.2.2.2.2.2.2.2.2.1 s4.2.2.2.2.2.2.2.2.2.2.2.2.2.2.2.2.2.2.1 s4.2.2.2.2.2.2.2.2.2.2.2.2.2.2.2.2.2.2.2.1 s4.2.2.2.2.2.2.2.2.2.2.2.2.2.2.2.2.2.2.2.2
  have s6 := cL5_spec (after cL4 (after cL3 (after cL2 (after cL1 (after cA2 (after cA1 (V))))))) x0 x1 x2 x3 x4 x5 x6 x7 x8 x9 x10 x11 x12 x13 x14 s5.1 s5.2.1 s5.2.2.1 s5.2.2.2.1 s5.2.2.2.2.1 s5.2.2.2.2.2.1 s5.2.2.2.2.2.2.1 s5.2.2.2.2.2.2.2.1 s5.2.2.2.2.2.2.2.2.1 s5.2.2.2.2.2.2.2.2.2.1 s5.2.2.2.2.2.2.2.2.2.2.1 s5.2.2.2.2.2.2.2.2.2.2.2.1 s5.2.2.2.2.2.2.2.2.2.2.2.2.1 s5.2.2.2.2.2.2.2.2.2.2.2.2.2.1 s5.2.2.2.2.2.2.2.2.2.2.2.2.2.2.1 s5.2.2.2.2.2.2.2.2.2.2.2.2.2.2.2.1 s5.2.2.2.2.2.2.2.2.2.2.2.2.2.2.2.2.1 s5.2.2.2.2.2.2.2.2.2.2.2.2.2.2.2.2.2.1 s5.2.2.2.2.2.2.2.2.2.2.2.2.2.2.2.2.2.2.1 s5.2.2.2.2.2.2.2.2.2.2.2.2.2.2.2.2.2.2.2.1 s5.2.2.2.2.2.2.2.2.2.2.2.2.2.2.2.2.2.2.2.2.1 s5.2.2.2.2.2.2.2.2.2.2.2.2.2.2.2.2.2.2.2.2.2
  have s7 := cP1_spec (after cL5 (after cL4 (after cL3 (after cL2 (after cL1 (after cA2 (after cA1 (V)))))))) x0 x1 x2 x3 x4 x5 x6 x7 x8 x9 x10 x11 x12 x13 x14 s6.1 s6.2.1 s6.2.2.1 s6.2.2.2.1 s6.2.2.2.2.1 s6.2.2.2.2.2.1 s6.2.2.2.2.2.2.1 s6.2.2.2.2.2.2.2.1 s6.2.2.2.2.2.2.2.2.1 s6.2.2.2.2.2.2.2.2.2.1 s6.2.2.2.2.2.2.2.2.2.2.1 s6.2.2.2.2.2.2.2.2.2.2.2.1 s6.2.2.2.2.2.2.2.2.2.2.2.2.1 s6.2.2.2.2.2.2.2.2.2.2.2.2.2.1 s6.2.2.2.2.2.2.2.2.2.2.2.2.2.2.1 s6.2.2.2.2.2.2.2.2.2.2.2.2.2.2.2.1 s6.2.2.2.2.2.2.2.2.2.2.2.2.2.2.2.2.1 s6.2.2.2.2.2.2.2.2.2.2.2.2.2.2.2.2.2.1 s6.2.2.2.2.2.2.2.2.2.2.2.2.2.2.2.2.2.2.1 s6.2.2.2.2.2.2.2.2.2.2.2.2.2.2.2.2.2.2.2
  have s8 := cP2_spec (after cP1 (after cL5 (after cL4 (after cL3 (after cL2 (after cL1 (after cA2 (after cA1 (V))))))))) x0 x1 x2 x3 x4 x5 x6 x7 x8 x9 x10 x11 x12 x13 x14 s7.1 s7.2.1 s7.2.2.1 s7.2.2.2.1 s7.2.2.2.2.1 s7.2.2.2.2.2.1 s7.2.2.2.2.2.2.1 s7.2.2.2.2.2.2.2.1 s7.2.2.2.2.2.2.2.2.1 s7.2.2.2.2.2.2.2.2.2.1 s7.2.2.2.2.2.2.2.2.2.2.1 s7.2.2.2.2.2.2.2.2.2.2.2.1 s7.2.2.2.2.2.2.2.2.2.2.2.2.1 s7.2.2.2.2.2.2.2.2.2.2.2.2.2.1 s7.2.2.2.2.2.2.2.2.2.2.2.2.2.2.1 s7.2.2.2.2.2.2.2.2.2.2.2.2.2.2.2.1 s7.2.2.2.2.2.2.2.2.2.2.2.2.2.2.2.2.1 s7.2.2.2.2.2.2.2.2.2.2.2.2.2.2.2.2.2.1 s7.2.2.2.2.2.2.2.2.2.2.2.2.2.2.2.2.2.2.1 s7.2.2.2.2.2.2.2.2.2.2.2.2.2.2.2.2.2.2.2
  have s9 := cP3_spec (after cP2 (after cP1 (after cL5 (after cL4 (after cL3 (after cL2 (after cL1 (after cA2 (after cA1 (V)))))))))) x0 x1 x2 x3 x4 x5 x6 x7 x8 x9 x10 x11 x12 x13 x14 s8.1 s8.2.1 s8.2.2.1 s8.2.2.2.1 s8.2.2.2.2.1 s8.2.2.2.2.2.1 s8.2.2.2.2.2.2.1 s8.2.2.2.2.2.2.2.1 s8.2.2.2.2.2.2.2.2.1 s8.2.2.2.2.2.2.2.2.2.1 s8.2.2.2.2.2.2.2.2.2.2.1 s8.2.2.2.2.2.2.2.2.2.2.2.1 s8.2.2.2.2.2.2.2.2.2.2.2.2.1 s8.2.2.2.2.2.2.2.2.2.2.2.2.2.1 s8.2.2.2.2.2.2.2.2.2.2.2.2.2.2.1 s8.2.2.2.2.2.2.2.2.2.2.2.2.2.2.2.1 s8.2.2.2.2.2.2.2.2.2.2.2.2.2.2.2.2.1 s8.2.2.2.2.2.2.2.2.2.2.2.2.2.2.2.2.2.1 s8.2.2.2.2.2.2.2.2.2.2.2.2.2.2.2.2.2.2.1 s8.2.2.2.2.2.2.2.2.2.2.2.2.2.2.2.2.2.2.2
  have s10 := cP4_spec (after cP3 (after cP2 (after cP1 (after cL5 (after cL4 (after cL3 (after cL2 (after cL1 (after cA2 (after cA1 (V))))))))))) x0 x1 x2 x3 x4 x5 x6 x7 x8 x9 x10 x11 x12 x13 x14 s9.1 s9.2.1 s9.2.2.1 s9.2.2.2.1 s9.2.2.2.2.1 s9.2.2.2.2.2.1 s9.2.2.2.2.2.2.1 s9.2.2.2.2.2.2.2.1 s9.2.2.2.2.2.2.2.2.1 s9.2.2.2.2.2.2.2.2.2.1 s9.2.2.2.2.2.2.2.2.2.2.1 s9.2.2.2.2.2.2.2.2.2.2.2.1 s9.2.2.2.2.2.2.2.2.2.2.2.2.1 s9.2.2.2.2.2.2.2.2.2.2.2.2.2.1 s9.2.2.2.2.2.2.2.2.2.2.2.2.2.2.1 s9.2.2.2.2.2.2.2.2.2.2.2.2.2.2.2.1 s9.2.2.2.2.2.2.2.2.2.2.2.2.2.2.2.2.1 s9.2.2.2.2.2.2.2.2.2.2.2.2.2.2.2.2.2.1 s9.2.2.2.2.2.2.2.2.2.2.2.2.2.2.2.2.2.2.1 s9.2.2.2.2.2.2.2.2.2.2.2.2.2.2.2.2.2.2.2
  have s11 := cP5_spec (after cP4 (after cP3 (after cP2 (after cP1 (after cL5 (after cL4 (after cL3 (after cL2 (after cL1 (after cA2 (after cA1 (V)))))))))))) x0 x1 x2 x3 x4 x5 x6 x7 x8 x9 x10 x11 x12 x13 x14 s10.1 s10.2.1 s10.2.2.1 s10.2.2.2.1 s10.2.2.2.2.1 s10.2.2.2.2.2.1 s10.2.2.2.2.2.2.1 s10.2.2.2.2.2.2.2.1 s10.2.2.2.2.2.2.2.2.1 s10.2.2.2.2.2.2.2.2.2.1 s10.2.2.2.2.2.2.2.2.2.2.1 s10.2.2.2.2.2.2.2.2.2.2.2.1 s10.2.2.2.2.2.2.2.2.2.2.2.2.1 s10.2.2.2.2.2.2.2.2.2.2.2.2.2.1 s10.2.2.2.2.2.2.2.2.2.2.2.2.2.2.1 s10.2.2.2.2.2.2.2.2.2.2.2.2.2.2.2.1 s10.2.2.2.2.2.2.2.2.2.2.2.2.2.2.2.2.1 s10.2.2.2.2.2.2.2.2.2.2.2.2.2.2.2.2.2.1 s10.2.2.2.2.2.2.2.2.2.2.2.2.2.2.2.2.2.2.1 s10.2.2.2.2.2.2.2.2.2.2.2.2.2.2.2.2.2.2.2
  have s12 := cM_spec (after cP5 (after cP4 (after cP3 (after cP2 (after cP1 (after cL5 (after cL4 (after cL3 (after cL2 (after cL1 (after cA2 (after cA1 (V))))))))))))) x0 x1 x2 x3 x4 x5 x6 x7 x8 x9 x10 x11 x12 x13 x14 s11.1 s11.2.1 s11.2.2.1 s11.2.2.2.1 s11.2.2.2.2.1 s11.2.2.2.2.2.1 s11.2.2.2.2.2.2.1 s11.2.2.2.2.2.2.2.1 s11.2.2.2.2.2.2.2.2.1 s11.2.2.2.2.2.2.2.2.2.1 s11.2.2.2.2.2.2.2.2.2.2.1 s11.2.2.2.2.2.2.2.2.2.2.2.1 s11.2.2.2.2.2.2.2.2.2.2.2.2.1 s11.2.2.2.2.2.2.2.2.2.2.2.2.2.1 s11.2.2.2.2.2.2.2.2.2.2.2.2.2.2.1 s11.2.2.2.2.2.2.2.2.2.2.2.2.2.2.2.1 s11.2.2.2.2.2.2.2.2.2.2.2.2.2.2.2.2.1 s11.2.2.2.2.2.2.2.2.2.2.2.2.2.2.2.2.2.1 s11.2.2.2.2.2.2.2.2.2.2.2.2.2.2.2.2.2.2.1 s11.2.2.2.2.2.2.2.2.2.2.2.2.2.2.2.2.2.2.2
  exact s12

/-- On every device, for any float values, from any memory with zero counters: every weakly fair execution of the
    program terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = Cert.ReferenceIdeal.ReadP.val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      have A := after_all (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
        rfl rfl rfl rfl rfl rfl rfl rfl rfl rfl rfl rfl rfl rfl rfl
      exact ⟨(h c main_v192).trans A.1,
        (h c main_arg0).trans A.2.1,
        (h c main_arg1).trans A.2.2.1,
        (h c main_arg2).trans A.2.2.2.1,
        (h c main_arg3).trans A.2.2.2.2.1,
        (h c main_arg4).trans A.2.2.2.2.2.1,
        (h c main_arg5).trans A.2.2.2.2.2.2.1,
        (h c main_arg6).trans A.2.2.2.2.2.2.2.1,
        (h c main_arg7).trans A.2.2.2.2.2.2.2.2.1,
        (h c main_arg8).trans A.2.2.2.2.2.2.2.2.2.1,
        (h c main_arg9).trans A.2.2.2.2.2.2.2.2.2.2.1,
        (h c main_arg10).trans A.2.2.2.2.2.2.2.2.2.2.2.1,
        (h c main_arg11).trans A.2.2.2.2.2.2.2.2.2.2.2.2.1,
        (h c main_arg12).trans A.2.2.2.2.2.2.2.2.2.2.2.2.2.1,
        (h c main_arg13).trans A.2.2.2.2.2.2.2.2.2.2.2.2.2.2.1,
        (h c main_arg14).trans A.2.2.2.2.2.2.2.2.2.2.2.2.2.2.2⟩)
    (run_seq scopedRefs_eq scopedSems_eq defs main (fun _ => ops) main_eq (fun _ => ops_sub) m ρ)

end Cert.ReferenceIdeal.RunH

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.FiniteInputs.lean ====
/-
  From the printed finiteness precondition to "every float input is a real number".

  The precondition is the conjunction, one conjunct per float argument, of "every entry x has |x| < +infinity". Over the
  extended reals |x| < +infinity holds exactly when x is neither infinity, that is when x is the coercion of a real
  number. A conjunction of one-bit words is 1 exactly when each is, and an "all" over an array is 1 exactly when the
  test is 1 at every entry. So the precondition being true gives, for each float argument, that every entry is a real
  number.
-/
import proofs.«105302_j51668456571568_2_alg».proof.Pre_finite_inputs
import proofs.«105302_j51668456571568_2_alg».proof.Proof.Gen.Pre_finite_inputs
import proofs.«105302_j51668456571568_2_alg».proof.Proof.LibRealOps
import Idealize.ShloMosaic.Lib.ReduceAll
import Idealize.ShloMosaic.Lib.ValueIdx

noncomputable section

namespace Cert.Bridge

open Idealize.ShloMosaic Cert.Pre_finite_inputs

/-- The shape of a scalar has one index. -/
instance subsingleton_scalar_idx : Subsingleton S_.Idx := ⟨fun a b => funext fun d => d.elim0⟩

/-- One test "all of |a| < +infinity" that answers 1 says every entry of a is a real number. -/
theorem all_abs_lt_inf {s : Shape} {axes : List (Fin s.rank)} (hb : S_.BroadcastsInDim s (![] : Fin 0 → Fin s.rank))
    (hr : s.ReducesTo axes S_) (hu : 0 < S_.numel) (a : FVec Ideal s .f32) (j : S_.Idx)
    (e : Host.reduce IntOp.andi
          (cmpf .olt (Host.absf a) (broadcastInDim s ![] hb (constant (F := Ideal) S_ .f32 0x7F800000#32)))
          (constantI S_ 1 1#1) hr hu j = 1#1) :
    ∀ i, ∃ r : ℝ, a i = (r : EReal) := by
  intro i
  have h := Host.reduce_andi_all _ _ hr hu j e i
  exact (RealOps.cmp_abs_lt_inf (a i)).1 h

/-- The finiteness precondition, true, says every entry of every float argument is a real number. -/
theorem finite_of_pre [Cert.Pre_finite_inputs.Facts]
    (a0 : FVec Ideal S100000x128 .f32) (a1 : IVec S2x1600000 32) (a2 : IVec S100000 32)
    (a3 : FVec Ideal S128x128 .f32) (a4 : FVec Ideal S128 .f32) (a5 : FVec Ideal S128x128 .f32)
    (a6 : FVec Ideal S128 .f32) (a7 : FVec Ideal S128x128 .f32) (a8 : FVec Ideal S128 .f32)
    (a9 : FVec Ideal S128x128 .f32) (a10 : FVec Ideal S128 .f32) (a11 : FVec Ideal S640x640 .f32)
    (a12 : FVec Ideal S640 .f32) (a13 : FVec Ideal S640x1 .f32) (a14 : FVec Ideal S1 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧ (∀ i, ∃ r : ℝ, a10 i = (r : EReal)) ∧
    (∀ i, ∃ r : ℝ, a11 i = (r : EReal)) ∧ (∀ i, ∃ r : ℝ, a12 i = (r : EReal)) ∧ (∀ i, ∃ r : ℝ, a13 i = (r : EReal)) ∧
    (∀ i, ∃ r : ℝ, a14 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  exact ⟨all_abs_lt_inf _ _ _ a0 _ e0, all_abs_lt_inf _ _ _ a3 _ e3, all_abs_lt_inf _ _ _ a4 _ e4,
    all_abs_lt_inf _ _ _ a5 _ e5, all_abs_lt_inf _ _ _ a6 _ e6, all_abs_lt_inf _ _ _ a7 _ e7,
    all_abs_lt_inf _ _ _ a8 _ e8, all_abs_lt_inf _ _ _ a9 _ e9, all_abs_lt_inf _ _ _ a10 _ e10,
    all_abs_lt_inf _ _ _ a11 _ e11, all_abs_lt_inf _ _ _ a12 _ e12, all_abs_lt_inf _ _ _ a13 _ e13,
    all_abs_lt_inf _ _ _ a14 _ e14⟩

end Cert.Bridge

end
-- ==== Proof.KGlue.lean ====
/-
  The kernel's stages read at an index, and one layer of the kernel in the arrangement the layer equation uses.

  The kernel stages the normalisation vector as a 100000 × 1 column and each bias as a 1 × 128 row; both are reshapes,
  which keep the row-major position, so the column at row n is the vector at n and the row at column q is the vector
  at q. The host product of the layer's input with its weight is, at entry (n, q), the sum over k of H(n, k) W(k, q).
  With these three readings a transform stage followed by an epilogue stage is, entry by entry,
  relu(dinv(n) * agg(n, q) + b(q)) with agg the aggregation of (H W)(m, q) * dinv(m): the kernel's layer on H W.
-/
import proofs.«105302_j51668456571568_2_alg».proof.Proof.KChainDefs
import proofs.«105302_j51668456571568_2_alg».proof.Proof.LibDot
import proofs.«105302_j51668456571568_2_alg».proof.Proof.LibColumn

noncomputable section

namespace Cert.Bridge

open Cert.ReferenceIdeal Cert.ReferenceIdeal.Gen Cert.ReferenceIdeal.ReadP Idealize.ShloMosaic
  Idealize.ShloMosaic.ValueIdx

/-! ## The two staged reshapes and the product, read at an index -/

/-- The normalisation column at row n is the normalisation vector at n: a reshape keeps the row-major position. -/
theorem d2K_apply (x1 : (⟨S2x1600000, .i32⟩ : BufTy).Contents (Elt Ideal)) (n : Fin 100000) :
    d2K x1 (ix2 n (0 : Fin 1)) = val_main_v16 (F := Ideal) x1 (ix1 n) := by
  unfold d2K
  generalize val_main_v16 (F := Ideal) x1 = y
  exact Cert.LibColumn.shapeCast_a_a1_apply y _ n 0

/-- The bias row at column q is the bias vector at q: a reshape keeps the row-major position. -/
theorem brK_apply (b : FVec Ideal S128 .f32) (q : Fin 128) : brK b (ix2 (0 : Fin 1) q) = b (ix1 q) := by
  unfold brK
  exact shapeCast_apply b _ (ix2 (0 : Fin 1) q) (ix1 q) (by
    rw [Shape.rowMajor_val_two, Shape.rowMajor_val_one]
    show q.val = 0 * 128 + q.val
    omega)

/-- The host product of a 100000 × 128 array with a 128 × 128 one, at an entry: the sum over the contracted
    coordinate. -/
theorem dot_apply (H : FVec Ideal S100000x128 .f32) (W : FVec Ideal S128x128 .f32) (i : S100000x128.Idx) :
    Host.dotGeneral dot_S100000x128_S128x128_S100000x128_1_0_0_1_n_n none H W i = ∑ k : Fin 128, H (ix2 (nIdx i) k) * W (ix2 k (qIdx i)) :=
  Cert.LibDot.dotGeneral_plain_apply dot_S100000x128_S128x128_S100000x128_1_0_0_1_n_n rfl rfl rfl rfl rfl rfl none .single H W i

/-! ## One layer of the kernel in the arrangement the layer equation is stated in -/

/-- The transform stage stores the host product with each row scaled by the normalisation of the row. -/
theorem kT_eq (H : FVec Ideal S100000x128 .f32) (W : FVec Ideal S128x128 .f32) (x1 : (⟨S2x1600000, .i32⟩ : BufTy).Contents (Elt Ideal)) :
    kT H W x1 = fun j => Host.dotGeneral dot_S100000x128_S128x128_S100000x128_1_0_0_1_n_n none H W j
      * val_main_v16 (F := Ideal) x1 (ix1 ⟨(j 0).val, (j 0).isLt⟩) := by
  funext j
  unfold kT
  rw [d2K_apply, dot_apply]

/-- A transform stage followed by an epilogue stage is the kernel's layer on the host product of the layer's input
    with its weight. -/
theorem kH_kT_eq (H : FVec Ideal S100000x128 .f32) (W : FVec Ideal S128x128 .f32) (b : FVec Ideal S128 .f32) (x1 : (⟨S2x1600000, .i32⟩ : BufTy).Contents (Elt Ideal)) :
    kH (kT H W x1) b x1
      = kerLayer (Host.dotGeneral dot_S100000x128_S128x128_S100000x128_1_0_0_1_n_n none H W) (val_main_v16 (F := Ideal) x1) b
          (val_main_v3 (F := Ideal) x1) (val_main_v6 (F := Ideal) x1) := by
  funext i
  unfold kH kerLayer
  rw [d2K_apply, brK_apply, kT_eq]

end Cert.Bridge

end
-- ==== Proof.LibGather.lean ====
/-
  Row gathers read at an entry.

  Two lowerings of array indexing by a vector of row numbers, with one scalar start index per result row (an E × 1
  index array, index vector along axis 1):
    * rows of a matrix: operand N × C, result E × C, offset axis 1, collapsed axis 0, slice sizes (1, C);
      result entry (e, c) is the operand's entry (rho e, c);
    * entries of a vector: operand of length N, result of length E, collapsed axis 0, slice size 1;
      result entry e is the operand's entry rho e;
  where rho e is row e's start index read signed and clamped into [0, N - 1]. Both pick the SAME row rho e from the
  same index array. They hold for every extent N, E, C.
-/
import Idealize.ShloMosaic.PureOps.Ideal
import Idealize.ShloMosaic.Lib.ValueIdx

noncomputable section

namespace Cert.LibGather

open Idealize.ShloMosaic Idealize.ShloMosaic.ValueIdx

variable {α : Type}

/-- The row a start index selects: the index word read signed, clamped into [0, N - 1]. -/
def clampRow (N : Nat) {w : Nat} (v : BitVec w) : Nat := min v.toInt.toNat (N - 1)

theorem clampRow_lt {N w : Nat} (hN : 0 < N) (v : BitVec w) : clampRow N v < N := by
  unfold clampRow; omega

/-- A start index that, read signed, is a row number below N selects that row. -/
theorem clampRow_of_toInt {N w : Nat} (v : BitVec w) (n : Nat) (hn : n < N) (h : v.toInt = (n : Int)) :
    clampRow N v = n := by
  unfold clampRow; rw [h]; simp only [Int.toNat_natCast]; omega

section Rows

variable {N E C w : Nat}
  (wf : GatherDims.WF (⟨2, ![N, C]⟩ : Shape) ⟨2, ![E, 1]⟩ ⟨2, ![E, C]⟩ [1] [0] [] [0] [] 1 ![1, C])

/-- The row gather's dimension numbers. -/
abbrev rowDims : GatherDims (⟨2, ![N, C]⟩ : Shape) ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather read at (e, c): the operand at (rho e, c). -/
theorem rows_gather_apply (hN : 0 < N) (x : (⟨2, ![N, C]⟩ : Shape).Idx → α) (idx : IVec ⟨2, ![E, 1]⟩ w)
    (e : Fin E) (c : Fin C) :
    Host.gather (rowDims wf) x idx (ix2 e c)
      = x (ix2 ⟨clampRow N (idx (ix2 e (0 : Fin 1))), clampRow_lt hN _⟩ c) := by
  unfold Host.gather
  refine congrArg x (funext fun a => Fin.ext ?_)
  have hsi : (rowDims wf).siIdx (ix2 e c) ⟨List.idxOf (0 : Fin 2) (rowDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowDims wf).start (ix2 e c) idx 0 + (rowDims wf).batchCoord (ix2 e c) 0 + (rowDims wf).offCoord (ix2 e c) 0
      = clampRow N (idx (ix2 e (0 : Fin 1)))
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl), hsi]
    rfl
  | ⟨1, _⟩ =>
    show (rowDims wf).start (ix2 e c) idx 1 + (rowDims wf).batchCoord (ix2 e c) 1 + (rowDims wf).offCoord (ix2 e c) 1
      = c.val
    rw [GatherDims.batchCoord_eq_zero _ _ _ List.not_mem_nil]
    have hs : (rowDims wf).start (ix2 e c) idx 1 = 0 := by
      unfold GatherDims.start
      rw [dif_neg (by decide : (1 : Fin 2) ∉ ([0] : List (Fin 2)))]
    have ho : (rowDims wf).offCoord (ix2 e c) 1 = c.val := by
      unfold GatherDims.offCoord
      rw [dif_pos (show (1 : Fin 2) ∈ (rowDims wf).sKept from
        (GatherDims.mem_sKept _ _).mpr ⟨(by decide : (1 : Fin 2) ∉ ([0] : List (Fin 2))), List.not_mem_nil⟩)]
      rfl
    rw [hs, ho]; omega

end Rows

section Entries

variable {N E w : Nat}
  (wf : GatherDims.WF (⟨1, ![N]⟩ : Shape) ⟨2, ![E, 1]⟩ ⟨1, ![E]⟩ [] [0] [] [0] [] 1 ![1])

/-- The entry gather's dimension numbers. -/
abbrev vecDims : GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather read at e: the operand at rho e. -/
theorem vec_gather_apply (hN : 0 < N) (x : (⟨1, ![N]⟩ : Shape).Idx → α) (idx : IVec ⟨2, ![E, 1]⟩ w) (e : Fin E) :
    Host.gather (vecDims wf) x idx (ix1 e) = x (ix1 ⟨clampRow N (idx (ix2 e (0 : Fin 1))), clampRow_lt hN _⟩) := by
  unfold Host.gather
  refine congrArg x (funext fun a => Fin.ext ?_)
  obtain rfl : a = 0 := Subsingleton.elim _ _
  have hsi : (vecDims wf).siIdx (ix1 e) ⟨List.idxOf (0 : Fin 1) (vecDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  show (vecDims wf).start (ix1 e) idx 0 + (vecDims wf).batchCoord (ix1 e) 0 + (vecDims wf).offCoord (ix1 e) 0
    = clampRow N (idx (ix2 e (0 : Fin 1)))
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl), hsi]
  rfl

end Entries

/-- A row gather as a program states it (any record with the row gather's dimension numbers), read at (e, c):
    the operand at (rho e, c). -/
theorem gather_rows_apply {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨clampRow N (idx (ix2 e (0 : Fin 1))), clampRow_lt hN _⟩ c) := by
  obtain ⟨o, cs, ob, sb, sm, iv, ss, wf⟩ := d
  simp only at h1 h2 h3 h4 h5 h6 h7
  subst h1 h2 h3 h4 h5 h6 h7
  exact rows_gather_apply wf hN x idx e c

/-- An entry gather as a program states it, read at e: the operand at rho e. -/
theorem gather_vec_apply {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨clampRow N (idx (ix2 e (0 : Fin 1))), clampRow_lt hN _⟩) := by
  obtain ⟨o, cs, ob, sb, sm, iv, ss, wf⟩ := d
  simp only at h1 h2 h3 h4 h5 h6 h7
  subst h1 h2 h3 h4 h5 h6 h7
  exact vec_gather_apply wf hN x idx e

end Cert.LibGather

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.LayerGather.lean ====
/-
  The pieces of a graph-convolution layer read at an index.

  With rho v e the row that edge e's normalised index selects (the index word read signed, shifted by the number of
  nodes when negative, clamped into the node range):
    * the row gather of a node array at (e, c) is the array at (rho e, c), and the entry gather of a node vector at e
      is the vector at rho e: the same row for both;
    * the edge weight at e is dinv(rho row e) * dinv(rho col e);
    * an edge whose col index, read signed, is the node number n has rho col e = n: a non-negative index is not
      shifted, and one below the node count is not clamped;
    * the broadcasts (index column, weight across the feature columns, bias down the rows, the zero) read their operand.
-/
import proofs.«105302_j51668456571568_2_alg».proof.Proof.LayerDefs
import proofs.«105302_j51668456571568_2_alg».proof.Proof.LibGather
import proofs.«105302_j51668456571568_2_alg».proof.Proof.LibBcast
import Idealize.ShloMosaic.Lib.Pipeline.Value
import Idealize.ShloMosaic.PureOps.Ideal.Laws

noncomputable section

namespace Cert.Bridge

open Cert.ReferenceIdeal Cert.ReferenceIdeal.Gen Idealize.ShloMosaic Idealize.ShloMosaic.ValueIdx Cert.LibGather

/-- An index vector broadcast to an E × 1 column reads, at (e, 0), the vector at e. -/
theorem colIdx_apply (v : IdxV) (e : Fin 1700000) :
    broadcastInDim S1700000x1 ![0] bcast_S1700000_S1700000x1_0 v (ix2 e (0 : Fin 1)) = v (ix1 e) :=
  broadcastInDim_apply _ bcast_S1700000_S1700000x1_0 v (ix2 e (0 : Fin 1)) (ix1 e) (fun a => match a with
    | ⟨0, _⟩ => by show e.val = if (1700000 : Nat) = 1 then 0 else e.val; rw [if_neg (by decide)])

/-- A non-negative index is left as it is. -/
theorem normI_of_nonneg (v : IdxV) (i : S1700000.Idx) (h : 0 ≤ (v i).toInt) : normI v i = v i := by
  have hs : (v i).slt 0#32 = false := by
    rw [BitVec.slt_eq_decide, BitVec.toInt_zero]; exact decide_eq_false (by omega)
  show Scalar.select (BitVec.ofBool ((v i).slt 0#32)) (IntOp.addi (v i) 100000#32) (v i) = v i
  rw [hs]
  exact select_zero _ _

/-- The row of the node arrays that edge e's index selects. -/
def rho (v : IdxV) (e : Fin 1700000) : Fin 100000 :=
  ⟨clampRow 100000 (normI v (ix1 e)), clampRow_lt (by decide) _⟩

/-- An edge whose index, read signed, is the node number n selects row n. -/
theorem rho_of_toInt (v : IdxV) (e : Fin 1700000) (n : Fin 100000) (h : (v (ix1 e)).toInt = (n.val : Int)) :
    rho v e = n := by
  refine Fin.ext ?_
  show clampRow 100000 (normI v (ix1 e)) = n.val
  rw [normI_of_nonneg v (ix1 e) (by rw [h]; omega)]
  exact clampRow_of_toInt _ n.val n.isLt h

/-- The row gather of a node array at (e, c): the array at (rho e, c). -/
theorem gatherRows_apply (Z : S100000x128.Idx → EReal) (v : IdxV) (e : Fin 1700000) (c : Fin 128) :
    Host.gather gather_S100000x128_S1700000x1_S1700000x128_1_0_n_n_0_1_1128 Z
      (broadcastInDim S1700000x1 ![0] bcast_S1700000_S1700000x1_0 (normI v)) (ix2 e c) = Z (ix2 (rho v e) c) := by
  rw [gather_rows_apply (N := 100000) (E := 1700000) (C := 128) (by decide)
    gather_S100000x128_S1700000x1_S1700000x128_1_0_n_n_0_1_1128 rfl rfl rfl rfl rfl rfl rfl Z _ e c]
  exact congrArg (fun r => Z (ix2 r c)) (Fin.ext (congrArg (clampRow 100000) (colIdx_apply (normI v) e)))

/-- The entry gather of a node vector at e: the vector at rho e. -/
theorem gatherVec_apply (dv : S100000.Idx → EReal) (v : IdxV) (e : Fin 1700000) :
    Host.gather gather_S100000_S1700000x1_S1700000_n_0_n_n_0_1_1 dv
      (broadcastInDim S1700000x1 ![0] bcast_S1700000_S1700000x1_0 (normI v)) (ix1 e) = dv (ix1 (rho v e)) := by
  rw [gather_vec_apply (N := 100000) (E := 1700000) (by decide)
    gather_S100000_S1700000x1_S1700000_n_0_n_n_0_1_1 rfl rfl rfl rfl rfl rfl rfl dv _ e]
  exact congrArg (fun r => dv (ix1 r)) (Fin.ext (congrArg (clampRow 100000) (colIdx_apply (normI v) e)))

/-- The edge weight at e. -/
theorem normV_apply (dv : FVec Ideal S100000 .f32) (rowv colv : IdxV) (e : Fin 1700000) :
    normV dv rowv colv (ix1 e) = dv (ix1 (rho rowv e)) * dv (ix1 (rho colv e)) := by
  unfold normV
  rw [mulf_apply, gatherVec_apply, gatherVec_apply]

/-- A per-edge vector broadcast to a column and then across the feature columns reads, at (e, c), the vector at e. -/
theorem edgeBcast_apply (wv : FVec Ideal S1700000 .f32) (e : Fin 1700000) (c : Fin 128) :
    broadcastInDim S1700000x128 ![0, 1] bcast_S1700000x1_S1700000x128_0_1
      (broadcastInDim S1700000x1 ![0] bcast_S1700000_S1700000x1_0 wv) (ix2 e c) = wv (ix1 e) :=
  LibBcast.rows_apply wv bcast_S1700000_S1700000x1_0 bcast_S1700000x1_S1700000x128_0_1 e c

/-- The bias broadcast to a row and then down the node rows reads, at (n, c), the bias at c. -/
theorem biasBcast_apply (bb : FVec Ideal S128 .f32) (n : Fin 100000) (c : Fin 128) :
    broadcastInDim S100000x128 ![0, 1] bcast_S1x128_S100000x128_0_1
      (broadcastInDim S1x128 ![1] bcast_S128_S1x128_1 bb) (ix2 n c) = bb (ix1 c) :=
  LibBcast.cols_apply bb bcast_S128_S1x128_1 bcast_S1x128_S100000x128_0_1 n c

/-- The broadcast zero word reads the real zero. -/
theorem zeroBcast_apply (i : S100000x128.Idx) :
    broadcastInDim S100000x128 ![] bcast_S_S100000x128 (constant (F := Ideal) S_ .f32 0x00000000#32) i = (0 : EReal) := by
  rw [LibBcast.scalar_apply, constant_apply, Ideal.ofBits_zero_f32]

end Cert.Bridge

end
-- ==== Proof.LibScatter.lean ====
/-
  A row scatter-add read at an entry, on the extended reals.

  The lowering of a segment sum: an N × C operand, E update rows of C columns, and one scalar row index per update row
  (an E × 1 index array); update row e is added into operand row idx(e). On the extended reals the result's entry (n, c)
  is the operand's entry plus the sum, over the update rows e whose index (read signed) equals n, of the update's entry
  (e, c): an update lands on (n, c) exactly when its row index is n and its column is c, and an index outside
  [0, N) lands nowhere. It holds for every extent N, E, C.
-/
import Idealize.ShloMosaic.PureOps.Ideal
import Idealize.ShloMosaic.Lib.ValueIdx

noncomputable section

namespace Cert.LibScatter

open Idealize.ShloMosaic Idealize.ShloMosaic.ValueIdx

section Rows

variable {N E C w : Nat}
  (wf : ScatterDims.WF (⟨2, ![N, C]⟩ : Shape) ⟨2, ![E, 1]⟩ ⟨2, ![E, C]⟩ [1] [0] [0] 1)

/-- The row scatter's dimension numbers: window axis 1 of the updates, inserted axis 0 of the operand, the one
    index component goes to operand axis 0, and the index vector lies along axis 1 of the indices. -/
abbrev rowDims : ScatterDims (⟨2, ![N, C]⟩ : Shape) ⟨2, ![E, 1]⟩ ⟨2, ![E, C]⟩ := ⟨[1], [0], [0], 1, wf⟩

/-- On operand axis 0 the window of update entry (e, c') starts at row e's index, read signed: the one index component
    goes to axis 0, and it is read at (e, 0) of the indices. -/
theorem rows_start0 (idx : IVec ⟨2, ![E, 1]⟩ w) (e : Fin E) (c' : Fin C) :
    (rowDims wf).start (ix2 e c') idx 0 = (idx (ix2 e (0 : Fin 1))).toInt := by
  unfold ScatterDims.start
  rw [dif_pos (show (0 : Fin 2) ∈ (rowDims wf).scatterDimsToOperandDims from List.mem_singleton.mpr rfl)]
  have hsi : (rowDims wf).siIdx (ix2 e c') ⟨List.idxOf (0 : Fin 2) (rowDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no index component goes to, every window starts at 0. -/
theorem rows_start1 (idx : IVec ⟨2, ![E, 1]⟩ w) (j : (⟨2, ![E, C]⟩ : Shape).Idx) :
    (rowDims wf).start j idx 1 = 0 := by
  unfold ScatterDims.start
  have h : (1 : Fin 2) ∉ (rowDims wf).scatterDimsToOperandDims :=
    (by decide : (1 : Fin 2) ∉ ([0] : List (Fin 2)))
  rw [dif_neg h]

/-- Operand axis 0 is inserted, so the window coordinate on it is 0. -/
theorem rows_window0 (j : (⟨2, ![E, C]⟩ : Shape).Idx) : (rowDims wf).window j 0 = 0 := by
  unfold ScatterDims.window
  have h : (0 : Fin 2) ∉ (rowDims wf).sKept :=
    (by decide : (0 : Fin 2) ∉ (List.finRange 2).filter (· ∉ ([0] : List (Fin 2))))
  rw [dif_neg h]

/-- Operand axis 1 is the one kept axis; the window coordinate on it is the update entry's column. -/
theorem rows_window1 (e : Fin E) (c' : Fin C) : (rowDims wf).window (ix2 e c') 1 = c'.val := by
  unfold ScatterDims.window
  have h : (1 : Fin 2) ∈ (rowDims wf).sKept :=
    (by decide : (1 : Fin 2) ∈ (List.finRange 2).filter (· ∉ ([0] : List (Fin 2))))
  rw [dif_pos h]
  rfl

/-- An update entry (e, c') lands on the operand entry (n, c) exactly when row e's index, read signed, is n and the
    columns agree: on axis 0 the result coordinate is the index itself (window coordinate 0), on axis 1 it is the
    window coordinate c' (start 0); an index outside [0, N) lands nowhere. -/
theorem rows_resultIdx?_eq_some_iff (idx : IVec ⟨2, ![E, 1]⟩ w) (e : Fin E) (c' : Fin C) (n : Fin N) (c : Fin C) :
    (rowDims wf).resultIdx? (ix2 e c') idx = some (ix2 n c)
      ↔ (idx (ix2 e (0 : Fin 1))).toInt = (n.val : Int) ∧ c' = c := by
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [rows_start0, rows_start1, rows_window0, rows_window1] at h0 h1 hb0
      have h0' : ((idx (ix2 e (0 : Fin 1))).toInt + ((0 : Nat) : Int)).toNat = n.val := h0
      have h1' : ((0 : Int) + (c'.val : Int)).toNat = c.val := h1
      refine ⟨by omega, Fin.ext (by omega)⟩
    · exact absurd h (by simp)
  · rintro ⟨hi, rfl⟩
    have hb : ∀ a, 0 ≤ (rowDims wf).start (ix2 e c') idx a + (rowDims wf).window (ix2 e c') a ∧
        (rowDims wf).start (ix2 e c') idx a + (rowDims wf).window (ix2 e c') a
          < (⟨2, ![N, C]⟩ : Shape).size a := by
      intro a
      match a with
      | ⟨0, _⟩ =>
        show 0 ≤ (rowDims wf).start (ix2 e c') idx 0 + (rowDims wf).window (ix2 e c') 0 ∧
          (rowDims wf).start (ix2 e c') idx 0 + (rowDims wf).window (ix2 e c') 0 < (N : Int)
        rw [rows_start0, rows_window0]
        have := n.isLt
        omega
      | ⟨1, _⟩ =>
        show 0 ≤ (rowDims wf).start (ix2 e c') idx 1 + (rowDims wf).window (ix2 e c') 1 ∧
          (rowDims wf).start (ix2 e c') idx 1 + (rowDims wf).window (ix2 e c') 1 < (C : Int)
        rw [rows_start1, rows_window1]
        have := c'.isLt
        omega
    rw [dif_pos hb]
    congr 1
    funext a
    refine Fin.ext ?_
    match a with
    | ⟨0, _⟩ =>
      show ((rowDims wf).start (ix2 e c') idx 0 + (rowDims wf).window (ix2 e c') 0).toNat = n.val
      rw [rows_start0, rows_window0]
      omega
    | ⟨1, _⟩ =>
      show ((rowDims wf).start (ix2 e c') idx 1 + (rowDims wf).window (ix2 e c') 1).toNat = c'.val
      rw [rows_start1, rows_window1]
      omega

/-- The row scatter-add at the literal dimension numbers, read at entry (n, c). -/
theorem rows_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e (0 : Fin 1))).toInt = (n.val : Int)
  · simp [hA]
  · simp [hA]

end Rows

/-- A row scatter-add (the lowering of a segment sum): operand N×C, one scalar row index per update row (indices E×1),
    updates E×C, window axis 1, inserted axis 0. At the exact instance, entry (n, c) of the result is the operand's
    entry plus the sum, over the update rows e whose index (read signed) is n, of the update's entry (e, c). -/
theorem hostScatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e : Fin E, if (idx (ix2 e (0 : Fin 1))).toInt = (n.val : Int) then upd (ix2 e c) else 0 := by
  obtain ⟨uw, iw, sd, iv, wf⟩ := d
  simp only at hu hi hs hv
  subst hu hi hs hv
  exact rows_hostScatterAdd_apply wf x idx upd n c

/-- The same, for the scatter as a host program states it. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hu hi hs hv x idx upd n c

end Cert.LibScatter

end
-- ==== Proof.LayerScatter.lean ====
/-
  The two arrangements of a graph-convolution layer read at a node n and a feature column c.

  The scatter-add at the col indices, read at (n, c), is the zero it starts from plus the sum over the edges e whose
  col index, read signed, is n of the update's entry (e, c). Reading the gathers, the weights and the broadcasts in
  that entry gives, with rho the selected row:
    reference:  max ((0 + sum over such e of Z(rho e, c) * (dinv(rho e) * dinv(rho' e))) + b c) 0,  rho' e the col row;
    kernel:     max (dinv n * (0 + sum over such e of Z(rho e, c) * dinv(rho e)) + b c) 0.
-/
import proofs.«105302_j51668456571568_2_alg».proof.Proof.LayerGather
import proofs.«105302_j51668456571568_2_alg».proof.Proof.LibScatter

noncomputable section

namespace Cert.Bridge

open Cert.ReferenceIdeal Cert.ReferenceIdeal.Gen Idealize.ShloMosaic Idealize.ShloMosaic.ValueIdx

/-- The reference's layer at (n, c). -/
theorem refLayer_apply (Z : FVec Ideal S100000x128 .f32) (dv : FVec Ideal S100000 .f32) (bb : FVec Ideal S128 .f32)
    (rowv colv : IdxV) (n : Fin 100000) (c : Fin 128) :
    refLayer Z dv bb rowv colv (ix2 n c)
      = max ((0 + ∑ e : Fin 1700000, if (colv (ix1 e)).toInt = (n.val : Int)
            then Z (ix2 (rho rowv e) c) * (dv (ix1 (rho rowv e)) * dv (ix1 (rho colv e))) else 0) + bb (ix1 c)) 0 := by
  unfold refLayer
  rw [maximumf_apply, addf_apply,
    LibScatter.scatterAdd_rows_apply (N := 100000) (E := 1700000) (C := 128)
      scatter_S100000x128_S1700000x1_S1700000x128_1_0_0_1 rfl rfl rfl rfl,
    zeroBcast_apply, biasBcast_apply]
  refine congrArg (fun s : EReal => max ((0 + s) + bb (ix1 c)) 0) (Finset.sum_congr rfl fun e _ => ?_)
  rw [colIdx_apply, mulf_apply, gatherRows_apply, edgeBcast_apply, normV_apply]

/-- The kernel's layer at (n, c), its coordinates read off. -/
theorem kerLayer_ix2 (Z : FVec Ideal S100000x128 .f32) (dv : FVec Ideal S100000 .f32) (bb : FVec Ideal S128 .f32)
    (rowv colv : IdxV) (n : Fin 100000) (c : Fin 128) :
    kerLayer Z dv bb rowv colv (ix2 n c)
      = max (dv (ix1 n) * aggK (fun j => Z j * dv (ix1 ⟨(j 0).val, (j 0).isLt⟩)) rowv colv (ix2 n c) + bb (ix1 c)) 0 :=
  rfl

/-- The kernel's aggregation at (n, c). -/
theorem aggK_apply (t : FVec Ideal S100000x128 .bf16) (rowv colv : IdxV) (n : Fin 100000) (c : Fin 128) :
    aggK t rowv colv (ix2 n c)
      = 0 + ∑ e : Fin 1700000, if (colv (ix1 e)).toInt = (n.val : Int) then t (ix2 (rho rowv e) c) else 0 := by
  unfold aggK
  rw [LibScatter.scatterAdd_rows_apply (N := 100000) (E := 1700000) (C := 128)
      scatter_S100000x128_S1700000x1_S1700000x128_1_0_0_1 rfl rfl rfl rfl, zeroBcast_apply]
  refine congrArg (fun s : EReal => 0 + s) (Finset.sum_congr rfl fun e _ => ?_)
  rw [colIdx_apply, extf_apply, gatherRows_apply]

/-- The kernel's layer at (n, c). -/
theorem kerLayer_apply (Z : FVec Ideal S100000x128 .f32) (dv : FVec Ideal S100000 .f32) (bb : FVec Ideal S128 .f32)
    (rowv colv : IdxV) (n : Fin 100000) (c : Fin 128) :
    kerLayer Z dv bb rowv colv (ix2 n c)
      = max (dv (ix1 n) * (0 + ∑ e : Fin 1700000, if (colv (ix1 e)).toInt = (n.val : Int)
            then Z (ix2 (rho rowv e) c) * dv (ix1 (rho rowv e)) else 0) + bb (ix1 c)) 0 := by
  rw [kerLayer_ix2, aggK_apply]

end Cert.Bridge

end
-- ==== Proof.LayerEq.lean ====
/-
  One graph-convolution layer: the reference's arrangement equals the kernel's.

  At node n and feature column c, with S(n) the edges whose col index is n, rho e the row an edge selects, and all of
  Z, dinv real:
      sum over e in S(n) of Z(rho e, c) * (dinv(rho e) * dinv(n))  =  dinv(n) * sum over e in S(n) of Z(rho e, c) * dinv(rho e),
  a real factor taken out of a finite sum of reals. On the extended reals this needs the finiteness: the coercion of the
  reals is pushed out of the products and the sum, and the law is the reals'. For an edge in S(n) the col row is n itself.
-/
import proofs.«105302_j51668456571568_2_alg».proof.Proof.LayerScatter
import proofs.«105302_j51668456571568_2_alg».proof.Proof.LibRealOps

noncomputable section

namespace Cert.Bridge

open Cert.ReferenceIdeal Cert.ReferenceIdeal.Gen Idealize.ShloMosaic Idealize.ShloMosaic.ValueIdx Idealize.ShloMosaic.RealOps

/-- A real factor common to every term of a guarded finite sum of reals comes out of the sum. -/
theorem sum_arrangement {ι : Type*} (s : Finset ι) (P : ι → Prop) [DecidablePred P] (z a : ι → ℝ) (d : ℝ) :
    (∑ e ∈ s, if P e then z e * (a e * d) else 0) = d * ∑ e ∈ s, if P e then z e * a e else 0 := by
  rw [Finset.mul_sum]
  refine Finset.sum_congr rfl fun e _ => ?_
  split_ifs
  · ring
  · ring

/-- A guarded finite sum of reals, taken on the extended reals, is the real guarded sum. -/
theorem sum_ite_coe {ι : Type*} (s : Finset ι) (P : ι → Prop) [DecidablePred P] (f : ι → ℝ) :
    (∑ e ∈ s, if P e then (f e : EReal) else 0) = ((∑ e ∈ s, if P e then f e else 0 : ℝ) : EReal) := by
  rw [coe_sum]
  refine Finset.sum_congr rfl fun e _ => ?_
  split_ifs
  · rfl
  · rfl

/-- THE LAYER: the reference's arrangement is the kernel's, when the transformed features and the scaling are real. -/
theorem layer_eq (Z : FVec Ideal S100000x128 .f32) (dv : FVec Ideal S100000 .f32) (bb : FVec Ideal S128 .f32)
    (rowv colv : IdxV) (hZ : ∀ i, ∃ r : ℝ, Z i = (r : EReal)) (hd : ∀ i, ∃ r : ℝ, dv i = (r : EReal)) :
    refLayer Z dv bb rowv colv = kerLayer Z dv bb rowv colv := by
  funext i
  obtain ⟨n, c, rfl⟩ : ∃ (n : Fin 100000) (c : Fin 128), i = ix2 n c := ⟨i 0, i 1, eq_ix2 i⟩
  rw [refLayer_apply, kerLayer_apply]
  choose zr hzr using hZ
  choose dr hdr using hd
  have hL : (∑ e : Fin 1700000, if (colv (ix1 e)).toInt = (n.val : Int)
        then Z (ix2 (rho rowv e) c) * (dv (ix1 (rho rowv e)) * dv (ix1 (rho colv e))) else 0)
      = ((∑ e : Fin 1700000, if (colv (ix1 e)).toInt = (n.val : Int)
        then zr (ix2 (rho rowv e) c) * (dr (ix1 (rho rowv e)) * dr (ix1 n)) else 0 : ℝ) : EReal) := by
    rw [← sum_ite_coe]
    refine Finset.sum_congr rfl fun e _ => ?_
    split_ifs with h
    · rw [rho_of_toInt colv e n h, hzr, hdr, hdr, EReal.coe_mul, EReal.coe_mul]
    · rfl
  have hR : (∑ e : Fin 1700000, if (colv (ix1 e)).toInt = (n.val : Int)
        then Z (ix2 (rho rowv e) c) * dv (ix1 (rho rowv e)) else 0)
      = ((∑ e : Fin 1700000, if (colv (ix1 e)).toInt = (n.val : Int)
        then zr (ix2 (rho rowv e) c) * dr (ix1 (rho rowv e)) else 0 : ℝ) : EReal) := by
    rw [← sum_ite_coe]
    refine Finset.sum_congr rfl fun e _ => ?_
    split_ifs with h
    · rw [hzr, hdr, EReal.coe_mul]
    · rfl
  rw [hL, hR, hdr (ix1 n), zero_add, zero_add, ← EReal.coe_mul, sum_arrangement]

end Cert.Bridge

end
-- ==== Proof.LayerRef.lean ====
/-
  The five graph-convolution layers of the reference are instances of the one layer term `refLayer`: each is the same
  chain of operations (normalise the row indices, gather the rows of Z, multiply by the edge weights, scatter-add at
  the col indices, add the bias row, maximum with zero) applied to that layer's transformed features and bias, with
  the same scaling vector and the same edge lists.
-/
import proofs.«105302_j51668456571568_2_alg».proof.Proof.RefReadP
import proofs.«105302_j51668456571568_2_alg».proof.Proof.LayerDefs

noncomputable section

namespace Cert.Bridge

open Cert.ReferenceIdeal Cert.ReferenceIdeal.Gen Cert.ReferenceIdeal.ReadP Idealize.ShloMosaic Idealize.ShloMosaic.ValueIdx

/-- Layer 1: features x @ W1, bias b1. -/
theorem ref_h1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4
      = refLayer (val_main_v32 x0 x3) (val_main_v16 x1) x4 (val_main_v3 x1) (val_main_v6 x1) := rfl

/-- Layer 2: features h1 @ W2, bias b2. -/
theorem ref_h2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v67 (F := Ideal) x0 x1 x3 x4 x5 x6
      = refLayer (val_main_v50 x0 x1 x3 x4 x5) (val_main_v16 x1) x6 (val_main_v3 x1) (val_main_v6 x1) := rfl

/-- Layer 3: features h2 @ W3, bias b3. -/
theorem ref_h3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v85 (F := Ideal) x0 x1 x3 x4 x5 x6 x7 x8
      = refLayer (val_main_v68 x0 x1 x3 x4 x5 x6 x7) (val_main_v16 x1) x8 (val_main_v3 x1) (val_main_v6 x1) := rfl

/-- Layer 4: features h3 @ W4, bias b4. -/
theorem ref_h4 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v103 (F := Ideal) x0 x1 x3 x4 x5 x6 x7 x8 x9 x10
      = refLayer (val_main_v86 x0 x1 x3 x4 x5 x6 x7 x8 x9) (val_main_v16 x1) x10 (val_main_v3 x1) (val_main_v6 x1) := rfl

/-- Layer 5: features h4 @ W4 (the fourth layer's weights again), bias b4. -/
theorem ref_h5 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v121 (F := Ideal) x0 x1 x3 x4 x5 x6 x7 x8 x9 x10
      = refLayer (val_main_v104 x0 x1 x3 x4 x5 x6 x7 x8 x9 x10) (val_main_v16 x1) x10 (val_main_v3 x1) (val_main_v6 x1) := rfl

end Cert.Bridge

end
-- ==== Proof.LibRealLayout.lean ====
/-
  Real arrays stay real under re-indexing and under the elementwise operations, on the extended reals.

  An array all of whose entries are real numbers stays so under every operation that only re-indexes it: a gather
  reads its operand at some index, whatever the integer indices are, and a broadcast likewise. It stays so under
  the elementwise sum, product and maximum, entry by entry, because the reals are closed under them inside the
  extended reals. The zero constant is real. These are the steps by which "every value is a real number" is carried
  through a program, with no index computed.
-/
import Idealize.ShloMosaic.PureOps.Ideal.Laws

noncomputable section

namespace Cert.LibRealLayout

open Idealize.ShloMosaic

variable {s t si : Shape} {w : Nat} {φ : FTy}

/-- A gather of an everywhere-real array is real at every index, whatever the integer indices are. -/
theorem gather_real (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- A broadcast of an everywhere-real array is real at every index. -/
theorem broadcastInDim_real (dims : Fin s.rank → Fin t.rank) (h : s.BroadcastsInDim t dims) (x : s.Idx → EReal)
    (hx : ∀ i, ∃ r : ℝ, x i = (r : EReal)) (j : t.Idx) : ∃ r : ℝ, broadcastInDim t dims h x j = (r : EReal) :=
  hx _

/-- The zero constant is the real number zero at every index. -/
theorem constant_zero_real (i : s.Idx) : ∃ r : ℝ, constant (F := Ideal) s .f32 0x00000000#32 i = (r : EReal) :=
  ⟨0, by show FloatOps.ofBits (F := Ideal) .f32 0x00000000#32 = _; rw [Ideal.ofBits_def, Ideal.ofBits_zero_f32, EReal.coe_zero]⟩

/-- The elementwise product of two arrays is real where both are. -/
theorem mulf_real (x y : FVec Ideal s φ) (i : s.Idx) (hx : ∃ r : ℝ, x i = (r : EReal))
    (hy : ∃ r : ℝ, y i = (r : EReal)) : ∃ r : ℝ, mulf x y i = (r : EReal) := by
  obtain ⟨a, ea⟩ := hx
  obtain ⟨b, eb⟩ := hy
  exact ⟨a * b, by show FloatOps.mulf (x i) (y i) = _; rw [Ideal.mulf_def, ea, eb, EReal.coe_mul]⟩

/-- The elementwise sum of two arrays is real where both are. -/
theorem addf_real (x y : FVec Ideal s φ) (i : s.Idx) (hx : ∃ r : ℝ, x i = (r : EReal))
    (hy : ∃ r : ℝ, y i = (r : EReal)) : ∃ r : ℝ, addf x y i = (r : EReal) := by
  obtain ⟨a, ea⟩ := hx
  obtain ⟨b, eb⟩ := hy
  exact ⟨a + b, by show FloatOps.addf (x i) (y i) = _; rw [Ideal.addf_def, ea, eb, EReal.coe_add]⟩

/-- The elementwise maximum of two arrays is real where both are. -/
theorem maximumf_real (x y : FVec Ideal s φ) (i : s.Idx) (hx : ∃ r : ℝ, x i = (r : EReal))
    (hy : ∃ r : ℝ, y i = (r : EReal)) : ∃ r : ℝ, maximumf x y i = (r : EReal) := by
  obtain ⟨a, ea⟩ := hx
  obtain ⟨b, eb⟩ := hy
  exact ⟨max a b, by
    show FloatOps.maximumf (x i) (y i) = _
    rw [Ideal.maximumf_def, ea, eb]
    exact (EReal.coe_strictMono.monotone.map_max).symm⟩

end Cert.LibRealLayout

end
-- ==== Proof.LibScatterReal.lean ====
/-
  A scatter-add of real numbers is a real number, on the extended reals.

  On the extended reals a host scatter with an addition body is exact: each entry of the result is the operand's entry
  plus the sum of the update entries that land on it. Whatever the dimension numbers and whatever the integer indices,
  that sum is over a finite set of update entries. So if the operand's entry and every update entry are real numbers,
  the result's entry is a real number, and if they are moreover non-negative, so is the result's entry. This is what
  makes a count (a scatter-add of ones into zeros) a non-negative real number.
-/
import Idealize.ShloMosaic.PureOps.Ideal

noncomputable section

namespace Cert.LibScatterReal

open Idealize.ShloMosaic

/-- A finite sum of reals, taken on the extended reals, is a real. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, er⟩ := hf a (Finset.mem_insert_self a s)
    obtain ⟨q, eq⟩ := ih (fun i hi => hf i (Finset.mem_insert_of_mem hi))
    exact ⟨r + q, by rw [Finset.sum_insert ha, er, eq, EReal.coe_add]⟩

/-- A finite sum of non-negative reals, taken on the extended reals, is a non-negative real. -/
theorem sum_nonneg_real {ι : Type*} (s : Finset ι) (f : ι → EReal)
    (hf : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, er⟩ := hf a (Finset.mem_insert_self a s)
    obtain ⟨q, hq, eq⟩ := ih (fun i hi => hf i (Finset.mem_insert_of_mem hi))
    exact ⟨r + q, add_nonneg hr hq, by rw [Finset.sum_insert ha, er, eq, EReal.coe_add]⟩

variable {s si su : Shape} {w : Nat}

/-- A scatter-add of reals onto a real entry is a real, whatever the dimension numbers and the indices. -/
theorem hostScatterAdd_real (d : ScatterDims s si su) (x : s.Idx → EReal) (idx : IVec si w) (upd : su.Idx → EReal)
    (i : s.Idx) (hx : ∃ r : ℝ, x i = (r : EReal)) (hu : ∀ j, ∃ r : ℝ, upd j = (r : EReal)) :
    ∃ r : ℝ, Ideal.hostScatterAdd d x idx upd i = (r : EReal) := by
  obtain ⟨r, er⟩ := hx
  obtain ⟨q, eq⟩ := sum_real (Finset.univ.filter fun j => d.resultIdx? j idx = some i) upd (fun j _ => hu j)
  refine ⟨r + q, ?_⟩
  unfold Ideal.hostScatterAdd
  rw [er, eq, EReal.coe_add]

/-- A scatter-add of non-negative reals onto a non-negative real entry is a non-negative real. -/
theorem hostScatterAdd_nonneg_real (d : ScatterDims s si su) (x : s.Idx → EReal) (idx : IVec si w)
    (upd : su.Idx → EReal) (i : s.Idx) (hx : ∃ r : ℝ, 0 ≤ r ∧ x i = (r : EReal))
    (hu : ∀ j, ∃ r : ℝ, 0 ≤ r ∧ upd j = (r : EReal)) :
    ∃ r : ℝ, 0 ≤ r ∧ Ideal.hostScatterAdd d x idx upd i = (r : EReal) := by
  obtain ⟨r, hr, er⟩ := hx
  obtain ⟨q, hq, eq⟩ :=
    sum_nonneg_real (Finset.univ.filter fun j => d.resultIdx? j idx = some i) upd (fun j _ => hu j)
  refine ⟨r + q, add_nonneg hr hq, ?_⟩
  unfold Ideal.hostScatterAdd
  rw [er, eq, EReal.coe_add]

/-- The same, for the scatter as a host program states it. -/
theorem scatterAdd_real (d : ScatterDims s si su) (x : FVec Ideal s .f32) (idx : IVec si w) (upd : FVec Ideal su .f32)
    (i : s.Idx) (hx : ∃ r : ℝ, x i = (r : EReal)) (hu : ∀ j, ∃ r : ℝ, upd j = (r : EReal)) :
    ∃ r : ℝ, Host.scatterAdd d x idx upd i = (r : EReal) :=
  hostScatterAdd_real d x idx upd i hx hu

/-- The same, for the scatter as a host program states it. -/
theorem scatterAdd_nonneg_real (d : ScatterDims s si su) (x : FVec Ideal s .f32) (idx : IVec si w)
    (upd : FVec Ideal su .f32) (i : s.Idx) (hx : ∃ r : ℝ, 0 ≤ r ∧ x i = (r : EReal))
    (hu : ∀ j, ∃ r : ℝ, 0 ≤ r ∧ upd j = (r : EReal)) :
    ∃ r : ℝ, 0 ≤ r ∧ Host.scatterAdd d x idx upd i = (r : EReal) :=
  hostScatterAdd_nonneg_real d x idx upd i hx hu

end Cert.LibScatterReal

end
-- ==== Proof.LayerReal.lean ====
/-
  The reference's layer of real operands is real.

  The reference's layer gathers the rows of the transformed features at the row indices, multiplies each gathered row
  by the edge's weight dinv(row) * dinv(col) (two gathers of the normalisation vector), scatter-adds the products into
  zeros at the col indices, adds the bias row, and takes the maximum with zero. If the transformed features, the
  normalisation vector and the bias are real at every entry, every one of these arrays is real at every entry,
  whatever the integer indices are: re-indexing keeps real arrays real, the reals are closed under product, sum and
  maximum, and a scatter-add of real updates onto a real operand is a finite sum of reals.
-/
import proofs.«105302_j51668456571568_2_alg».proof.Proof.LayerDefs
import proofs.«105302_j51668456571568_2_alg».proof.Proof.LibRealLayout
import proofs.«105302_j51668456571568_2_alg».proof.Proof.LibScatterReal

noncomputable section

namespace Cert.Bridge

open Cert.ReferenceIdeal Cert.ReferenceIdeal.Gen Idealize.ShloMosaic Idealize.ShloMosaic.ValueIdx Cert.LibRealLayout

/-- The reference's per-edge weight, a product of two gathers of the normalisation vector, is real on every edge
    when the vector is real. -/
theorem normV_real (dv : FVec Ideal S100000 .f32) (rowv colv : IdxV) (hd : ∀ i, ∃ r : ℝ, dv i = (r : EReal)) :
    ∀ e, ∃ r : ℝ, normV dv rowv colv e = (r : EReal) := by
  intro e
  unfold normV
  exact mulf_real _ _ e (gather_real _ dv _ hd e) (gather_real _ dv _ hd e)

/-- The reference's layer is real at every entry when the transformed features, the normalisation vector and the
    bias are: gathers and broadcasts re-index real arrays, the per-edge products are real, the scatter-add of real
    updates onto zeros is real, and so are the sum with the bias and the maximum with zero. -/
theorem layer_real (Z : FVec Ideal S100000x128 .f32) (dv : FVec Ideal S100000 .f32) (bb : FVec Ideal S128 .f32)
    (rowv colv : IdxV) (hZ : ∀ i, ∃ r : ℝ, Z i = (r : EReal)) (hd : ∀ i, ∃ r : ℝ, dv i = (r : EReal))
    (hb : ∀ i, ∃ r : ℝ, bb i = (r : EReal)) :
    ∀ i, ∃ r : ℝ, refLayer Z dv bb rowv colv i = (r : EReal) := by
  intro i
  unfold refLayer
  refine maximumf_real _ _ i (addf_real _ _ i ?_ ?_) ?_
  · refine Cert.LibScatterReal.scatterAdd_real _ _ _ _ i ?_ fun j => ?_
    · exact broadcastInDim_real _ _ _ constant_zero_real i
    · refine mulf_real _ _ j (gather_real _ Z _ hZ j) ?_
      exact broadcastInDim_real _ _ _ (broadcastInDim_real _ _ _ (normV_real dv rowv colv hd)) j
  · exact broadcastInDim_real _ _ _ (broadcastInDim_real _ _ _ hb) i
  · exact broadcastInDim_real _ _ _ constant_zero_real i

end Cert.Bridge

end
-- ==== Proof.DotReal.lean ====
/-
  The product of real arrays is real.

  An entry of the host product of a 100000 × 128 array with a 128 × 128 one is the sum over k of H(n, k) W(k, q). If
  every entry of H and of W is a real number, each term is a product of reals and the sum is finite, so the entry is
  a real number.
-/
import proofs.«105302_j51668456571568_2_alg».proof.Proof.KGlue
import proofs.«105302_j51668456571568_2_alg».proof.Proof.LibRealOps

noncomputable section

namespace Cert.Bridge

open Cert.ReferenceIdeal Cert.ReferenceIdeal.Gen Cert.ReferenceIdeal.ReadP Idealize.ShloMosaic
  Idealize.ShloMosaic.ValueIdx

/-- Every entry of the host product of two real arrays is a real number. -/
theorem dot_real (H : FVec Ideal S100000x128 .f32) (W : FVec Ideal S128x128 .f32)
    (hH : ∀ i, ∃ r : ℝ, H i = (r : EReal)) (hW : ∀ i, ∃ r : ℝ, W i = (r : EReal)) :
    ∀ i, ∃ r : ℝ, Host.dotGeneral (F := Ideal) dot_S100000x128_S128x128_S100000x128_1_0_0_1_n_n none H W i = (r : EReal) := by
  intro i
  rw [dot_apply]
  choose f hf using hH
  choose g hg using hW
  refine ⟨∑ k : Fin 128, f (ix2 (nIdx i) k) * g (ix2 k (qIdx i)), ?_⟩
  rw [← RealOps.sum_mul_coe]
  exact Finset.sum_congr rfl fun k _ => by rw [hf, hg]

end Cert.Bridge

end
-- ==== Proof.TailPool.lean ====
/-
  Mean pooling: the quotient by the bounded node count equals the product with its reciprocal.

  The node count of a graph is zero plus a finite sum of ones, hence a non-negative real number; bounded below by one
  it is a real number that is not zero. Division by a non-zero real is multiplication by its inverse on every extended
  real, so the row sums, whatever they are (they are never opened here), divided by the bounded count equal the row sums
  times one over the bounded count.
-/
import proofs.«105302_j51668456571568_2_alg».proof.Proof.TailDefs
import proofs.«105302_j51668456571568_2_alg».proof.Proof.LibBcast
import proofs.«105302_j51668456571568_2_alg».proof.Proof.LibColumn
import proofs.«105302_j51668456571568_2_alg».proof.Proof.LibRealOps

noncomputable section

namespace Cert.Bridge

open Cert.ReferenceIdeal Cert.ReferenceIdeal.Gen Cert.ReferenceIdeal.ReadP Idealize.ShloMosaic Idealize.ShloMosaic.ValueIdx

/-- The f32 word of one denotes the real number one. -/
theorem ofBits_one_f32 : Ideal.ofBits .f32 0x3F800000#32 = 1 := by
  simp [Ideal.ofBits, Ideal.ieee, -EReal.coe_mul]; norm_num

/-- A scatter-add of ones onto a zero entry is a non-negative real: zero plus as many ones as updates land there. -/
theorem scatterAdd_ones_real {s si su : Shape} {w : Nat} (d : ScatterDims s si su) (x : FVec Ideal s .f32)
    (idx : IVec si w) (upd : FVec Ideal su .f32) (i : s.Idx) (hx : x i = 0) (hu : ∀ j, upd j = 1) :
    ∃ r : ℝ, 0 ≤ r ∧ Host.scatterAdd d x idx upd i = (r : EReal) := by
  have key : ∃ n : ℕ, Host.scatterAdd d x idx upd i = ((n : ℕ) : EReal) := by
    unfold Host.scatterAdd
    rw [Ideal.hostScatterAdd_def]
    unfold Ideal.hostScatterAdd
    rw [hx, zero_add, Finset.sum_congr rfl (fun j _ => hu j), Finset.sum_const, nsmul_one]
    exact ⟨_, rfl⟩
  obtain ⟨n, hn⟩ := key
  exact ⟨(n : ℝ), Nat.cast_nonneg n, hn.trans (by norm_cast)⟩

/-- The node count of a graph is a non-negative real number. -/
theorem cnt_real (bt : BatchV) (g : Fin 512) : ∃ r : ℝ, 0 ≤ r ∧ cnt bt (ix1 g) = (r : EReal) := by
  unfold cnt
  refine scatterAdd_ones_real _ _ _ _ _ ?_ ?_
  · exact (LibBcast.scalar_apply S512 _ bcast_S_S512 (ix1 g)).trans Ideal.ofBits_zero_f32
  · intro j
    exact (LibBcast.scalar_apply S100000 _ bcast_S_S100000 j).trans ofBits_one_f32

/-- The node count bounded below by one is a real number that is not zero. -/
theorem cntMax_real (bt : BatchV) (g : Fin 512) : ∃ m : ℝ, m ≠ 0 ∧ cntMax bt (ix1 g) = (m : EReal) := by
  obtain ⟨r, hr, hc⟩ := cnt_real bt g
  have h1 : onesS512 (ix1 g) = ((1 : ℝ) : EReal) :=
    ((LibBcast.scalar_apply S512 _ bcast_S_S512 (ix1 g)).trans ofBits_one_f32).trans EReal.coe_one.symm
  refine ⟨max r 1, ?_, ?_⟩
  · have : (1 : ℝ) ≤ max r 1 := le_max_right r 1
    intro h0
    rw [h0] at this
    exact absurd this (by norm_num)
  · unfold cntMax
    rw [maximumf_apply, hc, h1, RealOps.max_coe]

/-- The host's quotient at an index is the quotient of the entries. -/
theorem hostDivf_apply {s : Shape} (a b : FVec Ideal s .f32) (i : s.Idx) :
    Host.divf a b i = Ideal.div (a i) (b i) := rfl

/-- A column broadcast across `b` columns by the host reads, at `(p, c)`, the column's entry of row `p`. -/
theorem bcastCol_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  have hp : p.val < a := p.isLt
  refine broadcastInDim_apply ![0, 1] h v (ix2 p c) (ix2 p (0 : Fin 1)) ?_
  intro d
  match d with
  | ⟨0, _⟩ =>
    show p.val = if a = 1 then 0 else p.val
    split
    · omega
    · rfl
  | ⟨1, _⟩ =>
    show 0 = if 1 = 1 then 0 else c.val
    exact (if_pos rfl).symm

/-- The two pooled blocks are equal: the row sums divided by the bounded count are the row sums times its
    reciprocal. -/
theorem pool_eq (h : FVec Ideal S100000x128 .f32) (bt : BatchV) : poolR h bt = poolK h bt := by
  unfold poolR poolK
  generalize seg h bt = S
  funext i
  obtain ⟨g, c, rfl⟩ : ∃ (g : Fin 512) (c : Fin 128), i = ix2 g c := ⟨i 0, i 1, eq_ix2 i⟩
  obtain ⟨m, hm0, hm⟩ := cntMax_real bt g
  have eR : broadcastInDim S512x128 ![0, 1] bcast_S512x1_S512x128_0_1
      (broadcastInDim S512x1 ![0] bcast_S512_S512x1_0 (cntMax bt)) (ix2 g c) = (m : EReal) :=
    (LibBcast.rows_apply (cntMax bt) bcast_S512_S512x1_0 bcast_S512x1_S512x128_0_1 g c).trans hm
  have eK : broadcastInDim S512x128 ![0, 1] bcast_S512x1_S512x128_0_1 (rcK bt) (ix2 g c) = ((1 / m : ℝ) : EReal) := by
    rw [bcastCol_apply (rcK bt) bcast_S512x1_S512x128_0_1 g c]
    unfold rcK
    rw [LibColumn.shapeCast_a_a1_apply (Host.divf onesS512 (cntMax bt)) Cert.KernelIdeal.Gen.shapeCasts_S512_S512x1 g (0 : Fin 1)]
    have h1 : onesS512 (ix1 g) = 1 :=
      (LibBcast.scalar_apply S512 _ bcast_S_S512 (ix1 g)).trans ofBits_one_f32
    rw [hostDivf_apply, hm, Ideal.div_coe hm0, h1, one_mul]
  rw [hostDivf_apply, mulf_apply, eR, eK, Ideal.div_coe hm0]

end Cert.Bridge

end
-- ==== Proof.TailSpec.lean ====
/-
  The two-layer perceptron as a formula: the hidden unit j of graph g is
  max(sum over k of p(g,k) Wl1(k,j) + bl1(j), 0) and the output of graph g is
  sum over j of hidden(g,j) Wl2(j,0) + bl2(0). The zero of the rectifier is kept as the word of zero: it is the same
  word on both sides and is never evaluated.
-/
import proofs.«105302_j51668456571568_2_alg».proof.Proof.TailDefs

noncomputable section

namespace Cert.Bridge

open Cert.ReferenceIdeal Cert.ReferenceIdeal.Gen Cert.ReferenceIdeal.ReadP Idealize.ShloMosaic Idealize.ShloMosaic.ValueIdx

/-- Hidden unit `j` of graph `g`. -/
def hid (p : FVec Ideal S512x640 .f32) (wl1 : FVec Ideal S640x640 .f32) (bl1 : FVec Ideal S640 .f32)
    (g : Fin 512) (j : Fin 640) : EReal :=
  max ((∑ k : Fin 640, p (ix2 g k) * wl1 (ix2 k j)) + bl1 (ix1 j)) (Ideal.ofBits .f32 0x00000000#32)

/-- The hidden layer as an array. -/
def hidV (p : FVec Ideal S512x640 .f32) (wl1 : FVec Ideal S640x640 .f32) (bl1 : FVec Ideal S640 .f32) :
    FVec Ideal S512x640 .f32 :=
  fun i => hid p wl1 bl1 (i 0) (i 1)

/-- The output of graph `g` from a hidden layer `hd`. -/
def outOf (hd : FVec Ideal S512x640 .f32) (wl2 : FVec Ideal S640x1 .f32) (bl2 : FVec Ideal S1 .f32) (g : Fin 512) : EReal :=
  (∑ j : Fin 640, hd (ix2 g j) * wl2 (ix2 j (0 : Fin 1))) + bl2 (ix1 (0 : Fin 1))

end Cert.Bridge

end
-- ==== Proof.TailMlpR.lean ====
/-
  The perceptron written with host products is the formula.

  A host product of a 512 × 640 array with a 640 × n array reads, at (g, j), the sum over k of the products of the
  entries (g, k) and (k, j); a bias broadcast first to one row and then down the rows reads, at (g, j), the bias at j;
  the splat of zero reads the word of zero. So the hidden layer is max(sum + bias, 0) entry by entry, and the output
  column is the sum over the hidden units plus the one output bias.
-/
import proofs.«105302_j51668456571568_2_alg».proof.Proof.TailSpec
import proofs.«105302_j51668456571568_2_alg».proof.Proof.LibDot
import proofs.«105302_j51668456571568_2_alg».proof.Proof.LibBcast

noncomputable section

namespace Cert.Bridge

open Cert.ReferenceIdeal Cert.ReferenceIdeal.Gen Cert.ReferenceIdeal.ReadP Idealize.ShloMosaic Idealize.ShloMosaic.ValueIdx

/-- The hidden layer by the host product is the formula's hidden layer. -/
theorem hidR_eq (p : FVec Ideal S512x640 .f32) (wl1 : FVec Ideal S640x640 .f32) (bl1 : FVec Ideal S640 .f32) :
    maximumf
        (addf (Host.dotGeneral dot_S512x640_S640x640_S512x640_1_0_0_1_n_n none p wl1)
          (broadcastInDim S512x640 ![0, 1] bcast_S1x640_S512x640_0_1 (broadcastInDim S1x640 ![1] bcast_S640_S1x640_1 bl1)))
        (broadcastInDim S512x640 ![] bcast_S_S512x640 (constant (F := Ideal) S_ .f32 0x00000000#32))
      = hidV p wl1 bl1 := by
  funext i
  obtain ⟨g, j, rfl⟩ : ∃ (g : Fin 512) (j : Fin 640), i = ix2 g j := ⟨i 0, i 1, eq_ix2 i⟩
  rw [maximumf_apply, addf_apply]
  unfold Host.dotGeneral
  rw [LibDot.dotGeneral_plain_apply (M := 512) (K := 640) (N := 640) dot_S512x640_S640x640_S512x640_1_0_0_1_n_n
      rfl rfl rfl rfl rfl rfl none .single p wl1 (ix2 g j),
    LibBcast.cols_apply bl1 bcast_S640_S1x640_1 bcast_S1x640_S512x640_0_1 g j,
    LibBcast.scalar_apply S512x640 _ bcast_S_S512x640 (ix2 g j)]
  rfl

/-- The output column by the host product is the formula's output, for any hidden layer. -/
theorem outR_apply (hd : FVec Ideal S512x640 .f32) (wl2 : FVec Ideal S640x1 .f32) (bl2 : FVec Ideal S1 .f32)
    (g : Fin 512) (u : Fin 1) :
    addf (Host.dotGeneral dot_S512x640_S640x1_S512x1_1_0_0_1_n_n none hd wl2)
        (broadcastInDim S512x1 ![0, 1] bcast_S1x1_S512x1_0_1 (broadcastInDim S1x1 ![1] bcast_S1_S1x1_1 bl2)) (ix2 g u)
      = outOf hd wl2 bl2 g := by
  obtain rfl : u = 0 := Subsingleton.elim _ _
  rw [addf_apply]
  unfold Host.dotGeneral
  rw [LibDot.dotGeneral_plain_apply (M := 512) (K := 640) (N := 1) dot_S512x640_S640x1_S512x1_1_0_0_1_n_n
      rfl rfl rfl rfl rfl rfl none .single hd wl2 (ix2 g (0 : Fin 1)),
    LibBcast.cols_apply bl2 bcast_S1_S1x1_1 bcast_S1x1_S512x1_0_1 g (0 : Fin 1)]
  rfl

/-- The perceptron with host products, at an entry. -/
theorem mlpR_apply (p : FVec Ideal S512x640 .f32) (wl1 : FVec Ideal S640x640 .f32) (bl1 : FVec Ideal S640 .f32)
    (wl2 : FVec Ideal S640x1 .f32) (bl2 : FVec Ideal S1 .f32) (g : Fin 512) (u : Fin 1) :
    mlpR p wl1 bl1 wl2 bl2 (ix2 g u) = outOf (hidV p wl1 bl1) wl2 bl2 g := by
  unfold mlpR
  rw [hidR_eq p wl1 bl1]
  exact outR_apply (hidV p wl1 bl1) wl2 bl2 g u

end Cert.Bridge

end
-- ==== Proof.TailMlpK.lean ====
/-
  The perceptron written with matrix products into zero accumulators is the formula.

  A matrix product into the zero accumulator reads, at (g, j), the sum over k of the products of the entries (g, k) and
  (k, j); a change of float format is the identity on the extended reals; a cast of an array to its own shape is the
  array; a bias stored as one row and broadcast down the rows reads, at (g, j), the bias at j. So the hidden layer is
  max(sum + bias, 0) entry by entry, and the output column is the sum over the hidden units plus the one output bias.
-/
import proofs.«105302_j51668456571568_2_alg».proof.Proof.TailSpec
import proofs.«105302_j51668456571568_2_alg».proof.Proof.LibDot
import Idealize.ShloMosaic.Lib.ValueLayout

noncomputable section

namespace Cert.Bridge

open Cert.ReferenceIdeal Cert.ReferenceIdeal.Gen Cert.ReferenceIdeal.ReadP Idealize.ShloMosaic Idealize.ShloMosaic.ValueIdx

/-- The hidden layer by a matrix product into the zero accumulator, the bias a one-row array. -/
def hidK (p : FVec Ideal S512x640 .f32) (wl1 : FVec Ideal S640x640 .f32) (r : FVec Ideal S1x640 .f32) :
    FVec Ideal S512x640 .f32 :=
  maximumf
    (addf
      (matmul Cert.KernelIdeal.dot_S512x640_S640x640_S512x640_1_0_0_1_n_n none
        (truncf .bf16 (shapeCast S512x640 p Cert.KernelIdeal.Gen.shapeCasts_S512x640_S512x640) Cert.KernelIdeal.Gen.bitsLt_bf16_f32)
        (truncf .bf16 wl1 Cert.KernelIdeal.Gen.bitsLt_bf16_f32)
        (constant S512x640 .f32 0x00000000#32))
      (broadcastTo S512x640 (shapeCast S1x640 r Cert.KernelIdeal.Gen.shapeCasts_S1x640_S1x640) Cert.KernelIdeal.Gen.broadcasts_S1x640_S512x640))
    (broadcast S512x640 (Scalar.ofBits (F := Ideal) .f32 0x00000000#32))

/-- The output column by a matrix product into the zero accumulator, the bias a one-entry array. -/
def outK (hd : FVec Ideal S512x640 .f32) (wl2 : FVec Ideal S640x1 .f32) (b : FVec Ideal S1x1 .f32) :
    FVec Ideal S512x1 .f32 :=
  addf
    (matmul Cert.KernelIdeal.dot_S512x640_S640x1_S512x1_1_0_0_1_n_n none
      (truncf .bf16 hd Cert.KernelIdeal.Gen.bitsLt_bf16_f32) (truncf .bf16 wl2 Cert.KernelIdeal.Gen.bitsLt_bf16_f32)
      (constant S512x1 .f32 0x00000000#32))
    (broadcastTo S512x1 (shapeCast S1x1 b Cert.KernelIdeal.Gen.shapeCasts_S1x1_S1x1) Cert.KernelIdeal.Gen.broadcasts_S1x1_S512x1)

/-- The kernel's one stored value is the output column of its hidden layer. -/
theorem k6_eq (p : FVec Ideal S512x640 .f32) (wl1 : FVec Ideal S640x640 .f32) (r : FVec Ideal S1x640 .f32)
    (wl2 : FVec Ideal S640x1 .f32) (b : FVec Ideal S1x1 .f32) :
    Cert.KernelIdeal.Gen.k6_pay1 (F := Ideal) p wl1 r wl2 b = outK (hidK p wl1 r) wl2 b := rfl

/-- The hidden layer by the matrix product is the formula's hidden layer. -/
theorem hidK_eq (p : FVec Ideal S512x640 .f32) (wl1 : FVec Ideal S640x640 .f32) (bl1 : FVec Ideal S640 .f32)
    (h : S640.ShapeCasts S1x640) : hidK p wl1 (shapeCast S1x640 bl1 h) = hidV p wl1 bl1 := by
  funext i
  obtain ⟨g, j, rfl⟩ : ∃ (g : Fin 512) (j : Fin 640), i = ix2 g j := ⟨i 0, i 1, eq_ix2 i⟩
  unfold hidK
  rw [maximumf_apply, addf_apply, shapeCast_self p, shapeCast_self (shapeCast S1x640 bl1 h)]
  unfold matmul
  rw [LibDot.matmul_zero_plain_apply (M := 512) (K := 640) (N := 640) Cert.KernelIdeal.dot_S512x640_S640x640_S512x640_1_0_0_1_n_n
      rfl rfl rfl rfl rfl rfl none (truncf .bf16 p Cert.KernelIdeal.Gen.bitsLt_bf16_f32) (truncf .bf16 wl1 Cert.KernelIdeal.Gen.bitsLt_bf16_f32) (ix2 g j),
    broadcastTo_1b_ab_apply (shapeCast S1x640 bl1 h) Cert.KernelIdeal.Gen.broadcasts_S1x640_S512x640 g j,
    shapeCast_a_1a_apply bl1 h (0 : Fin 1) j]
  rfl

/-- The output column by the matrix product is the formula's output, for any hidden layer. -/
theorem outK_apply (hd : FVec Ideal S512x640 .f32) (wl2 : FVec Ideal S640x1 .f32) (bl2 : FVec Ideal S1 .f32)
    (h : S1.ShapeCasts S1x1) (g : Fin 512) (u : Fin 1) :
    outK hd wl2 (shapeCast S1x1 bl2 h) (ix2 g u) = outOf hd wl2 bl2 g := by
  obtain rfl : u = 0 := Subsingleton.elim _ _
  unfold outK
  rw [addf_apply, shapeCast_self (shapeCast S1x1 bl2 h)]
  unfold matmul
  rw [LibDot.matmul_zero_plain_apply (M := 512) (K := 640) (N := 1) Cert.KernelIdeal.dot_S512x640_S640x1_S512x1_1_0_0_1_n_n
      rfl rfl rfl rfl rfl rfl none (truncf .bf16 hd Cert.KernelIdeal.Gen.bitsLt_bf16_f32) (truncf .bf16 wl2 Cert.KernelIdeal.Gen.bitsLt_bf16_f32)
      (ix2 g (0 : Fin 1)),
    broadcastTo_1b_ab_apply (shapeCast S1x1 bl2 h) Cert.KernelIdeal.Gen.broadcasts_S1x1_S512x1 g (0 : Fin 1),
    shapeCast_a_1a_apply bl2 h (0 : Fin 1) (0 : Fin 1)]
  rfl

/-- The perceptron with matrix products into zero accumulators, at an entry. -/
theorem mlpK_apply (p : FVec Ideal S512x640 .f32) (wl1 : FVec Ideal S640x640 .f32) (bl1 : FVec Ideal S640 .f32)
    (wl2 : FVec Ideal S640x1 .f32) (bl2 : FVec Ideal S1 .f32) (g : Fin 512) (u : Fin 1) :
    mlpK p wl1 bl1 wl2 bl2 (ix2 g u) = outOf (hidV p wl1 bl1) wl2 bl2 g := by
  unfold mlpK
  rw [k6_eq, hidK_eq]
  exact outK_apply (hidV p wl1 bl1) wl2 bl2 _ g u

end Cert.Bridge

end
-- ==== Proof.TailMlp.lean ====
/-
  The two spellings of the perceptron are equal: each is the formula, entry by entry.
-/
import proofs.«105302_j51668456571568_2_alg».proof.Proof.TailMlpR
import proofs.«105302_j51668456571568_2_alg».proof.Proof.TailMlpK

noncomputable section

namespace Cert.Bridge

open Cert.ReferenceIdeal Cert.ReferenceIdeal.Gen Cert.ReferenceIdeal.ReadP Idealize.ShloMosaic Idealize.ShloMosaic.ValueIdx

/-- The perceptron with host products equals the perceptron with matrix products into zero accumulators. -/
theorem mlp_eq (p : FVec Ideal S512x640 .f32) (wl1 : FVec Ideal S640x640 .f32) (bl1 : FVec Ideal S640 .f32)
    (wl2 : FVec Ideal S640x1 .f32) (bl2 : FVec Ideal S1 .f32) :
    mlpR p wl1 bl1 wl2 bl2 = mlpK p wl1 bl1 wl2 bl2 := by
  funext i
  obtain ⟨g, u, rfl⟩ : ∃ (g : Fin 512) (u : Fin 1), i = ix2 g u := ⟨i 0, i 1, eq_ix2 i⟩
  rw [mlpR_apply, mlpK_apply]

end Cert.Bridge

end
-- ==== Proof.TailEq.lean ====
/-
  The two tails are equal: the five pooled blocks are equal one by one (a quotient by a non-zero real is the product with
  its reciprocal), so the two concatenations are the same array, and on one array the two spellings of the perceptron
  agree.
-/
import proofs.«105302_j51668456571568_2_alg».proof.Proof.TailPool
import proofs.«105302_j51668456571568_2_alg».proof.Proof.TailMlp

noncomputable section

namespace Cert.Bridge

open Cert.ReferenceIdeal Cert.ReferenceIdeal.Gen Cert.ReferenceIdeal.ReadP Idealize.ShloMosaic Idealize.ShloMosaic.ValueIdx

/-- The tail by the quotient and host products equals the tail by the reciprocal and matrix products. -/
theorem tail_eq (h1 h2 h3 h4 h5 : FVec Ideal S100000x128 .f32) (bt : BatchV) (wl1 : FVec Ideal S640x640 .f32)
    (bl1 : FVec Ideal S640 .f32) (wl2 : FVec Ideal S640x1 .f32) (bl2 : FVec Ideal S1 .f32) :
    refTail h1 h2 h3 h4 h5 bt wl1 bl1 wl2 bl2 = kerTail h1 h2 h3 h4 h5 bt wl1 bl1 wl2 bl2 := by
  unfold refTail kerTail
  rw [pool_eq h1 bt, pool_eq h2 bt, pool_eq h3 bt, pool_eq h4 bt, pool_eq h5 bt, mlp_eq]

end Cert.Bridge

end
-- ==== Proof.TailRef.lean ====
/-
  The reference's last operations are the tail by the quotient, applied to its five layer outputs.

  Each of its five pooled blocks is the row sums of one layer output divided by the bounded node count (the count is
  recomputed for each block, from the same graph ids, by the same operations); the blocks are laid side by side and the
  perceptron is written with host products. Nothing is computed here: the two sides are the same operations, named
  differently.
-/
import proofs.«105302_j51668456571568_2_alg».proof.Proof.TailDefs

noncomputable section

namespace Cert.Bridge

open Cert.ReferenceIdeal Cert.ReferenceIdeal.Gen Cert.ReferenceIdeal.ReadP Idealize.ShloMosaic Idealize.ShloMosaic.ValueIdx

/-- The pooled block of the layer output `%49`. -/
theorem pool_v133 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) :
    val_main_v133 (F := Ideal) x0 x1 x2 x3 x4 = poolR (val_main_v49 (F := Ideal) x0 x1 x3 x4) x2 := rfl

/-- The pooled block of the layer output `%67`. -/
theorem pool_v145 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v145 (F := Ideal) x0 x1 x2 x3 x4 x5 x6 = poolR (val_main_v67 (F := Ideal) x0 x1 x3 x4 x5 x6) x2 := rfl

/-- The pooled block of the layer output `%85`. -/
theorem pool_v157 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v157 (F := Ideal) x0 x1 x2 x3 x4 x5 x6 x7 x8 = poolR (val_main_v85 (F := Ideal) x0 x1 x3 x4 x5 x6 x7 x8) x2 := rfl

/-- The pooled block of the layer output `%103`. -/
theorem pool_v169 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v169 (F := Ideal) x0 x1 x2 x3 x4 x5 x6 x7 x8 x9 x10 = poolR (val_main_v103 (F := Ideal) x0 x1 x3 x4 x5 x6 x7 x8 x9 x10) x2 := rfl

/-- The pooled block of the layer output `%121`. -/
theorem pool_v181 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v181 (F := Ideal) x0 x1 x2 x3 x4 x5 x6 x7 x8 x9 x10 = poolR (val_main_v121 (F := Ideal) x0 x1 x3 x4 x5 x6 x7 x8 x9 x10) x2 := rfl

/-- The reference's result is the tail by the quotient of its five layer outputs. -/
theorem ref_tail (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S640x640, .f32⟩ : BufTy).Contents (Elt Ideal)) (x12 : (⟨S640, .f32⟩ : BufTy).Contents (Elt Ideal)) (x13 : (⟨S640x1, .f32⟩ : BufTy).Contents (Elt Ideal)) (x14 : (⟨S1, .f32⟩ : BufTy).Contents (Elt Ideal)) :
    val_main_v192 (F := Ideal) x0 x1 x2 x3 x4 x5 x6 x7 x8 x9 x10 x11 x12 x13 x14
      = refTail (val_main_v49 (F := Ideal) x0 x1 x3 x4) (val_main_v67 (F := Ideal) x0 x1 x3 x4 x5 x6) (val_main_v85 (F := Ideal) x0 x1 x3 x4 x5 x6 x7 x8) (val_main_v103 (F := Ideal) x0 x1 x3 x4 x5 x6 x7 x8 x9 x10) (val_main_v121 (F := Ideal) x0 x1 x3 x4 x5 x6 x7 x8 x9 x10) x2 x11 x12 x13 x14 := by
  unfold val_main_v192 val_main_v191 val_main_v188 val_main_v187 val_main_v186 val_main_v183 val_main_v182
  rw [pool_v133, pool_v145, pool_v157, pool_v169, pool_v181]
  unfold refTail
  generalize poolR (val_main_v49 (F := Ideal) x0 x1 x3 x4) x2 = P1
  generalize poolR (val_main_v67 (F := Ideal) x0 x1 x3 x4 x5 x6) x2 = P2
  generalize poolR (val_main_v85 (F := Ideal) x0 x1 x3 x4 x5 x6 x7 x8) x2 = P3
  generalize poolR (val_main_v103 (F := Ideal) x0 x1 x3 x4 x5 x6 x7 x8 x9 x10) x2 = P4
  generalize poolR (val_main_v121 (F := Ideal) x0 x1 x3 x4 x5 x6 x7 x8 x9 x10) x2 = P5
  rfl

end Cert.Bridge

end
-- ==== Proof.DinvReal.lean ====
/-
  The normalisation vector of the graph convolution is a real number at every node.

  The reference takes the degree deg as a scatter-add of ones, at the column indices, into zeros, and the normalisation
  dinv = where(deg > 0, rsqrt(max(deg, 1)), 0). The degree is zero plus a finite sum of ones: a non-negative real
  number, whatever the indices are. Its clamp max(deg, 1) is a real number at least one, whose reciprocal square root
  is a positive real number; the other branch of the selection is zero. So dinv is a non-negative real number at every
  node, for every index array.
-/
import proofs.«105302_j51668456571568_2_alg».proof.Proof.RefReadP
import proofs.«105302_j51668456571568_2_alg».proof.Proof.LibScatterReal
import Idealize.ShloMosaic.Lib.IdealHost

noncomputable section

namespace Cert.Bridge

open Idealize.ShloMosaic Cert.ReferenceIdeal Cert.ReferenceIdeal.Gen Cert.ReferenceIdeal.ReadP

/-- The update of the degree is the real number one at every entry. -/
theorem v7_one (j : S1700000.Idx) : val_main_v7 (F := Ideal) j = ((1 : ℝ) : EReal) := by
  rw [val_main_v7_apply, val_main_cst_apply, Ideal.ofBits_def, Ideal.ofBits_one_f32, EReal.coe_one]

/-- The operand of the degree is the real number zero at every entry. -/
theorem v8_zero (i : S100000.Idx) : val_main_v8 (F := Ideal) i = ((0 : ℝ) : EReal) := by
  rw [val_main_v8_apply, val_main_cst_0_apply, Ideal.ofBits_def, Ideal.ofBits_zero_f32, EReal.coe_zero]

/-- The degree, a scatter-add of ones at the column indices into zeros, is a non-negative real number at every
    node, whatever the indices are. -/
theorem deg_real (x1 : (⟨S2x1600000, .i32⟩ : BufTy).Contents (Elt Ideal)) :
    ∀ i, ∃ r : ℝ, 0 ≤ r ∧ val_main_v10 (F := Ideal) x1 i = (r : EReal) := by
  intro i
  unfold val_main_v10
  exact Cert.LibScatterReal.scatterAdd_nonneg_real _ _ _ _ i ⟨0, le_rfl, v8_zero i⟩
    (fun j => ⟨1, zero_le_one, v7_one j⟩)

/-- The lower bound of the clamped degree is the real number one. -/
theorem v13_one (i : S100000.Idx) : val_main_v13 (F := Ideal) i = ((1 : ℝ) : EReal) := by
  rw [val_main_v13_apply, val_main_cst_2_apply, Ideal.ofBits_def, Ideal.ofBits_one_f32, EReal.coe_one]

/-- The value the normalisation takes where the degree is not positive is the real number zero. -/
theorem call0_v1_zero (i : S100000.Idx) : val_main_call0_v1 (F := Ideal) i = ((0 : ℝ) : EReal) := by
  rw [val_main_call0_v1_apply, val_main_call0_v0_apply, val_main_cst_3_apply, Ideal.ofBits_def,
    Ideal.ofBits_zero_f32, EReal.coe_zero]

/-- The reciprocal square root of a positive real, as a program takes it, is a positive real. -/
theorem rsqrt_coe_of_pos {r : ℝ} (hr : 0 < r) :
    Ideal.rsqrt (r : EReal) = (((Real.sqrt r)⁻¹ : ℝ) : EReal) := by
  rw [Ideal.rsqrt_coe, if_neg (not_lt.2 hr.le), if_neg hr.ne']

/-- The clamped degree max(deg, 1) is a real number at least one. -/
theorem degc_real (x1 : (⟨S2x1600000, .i32⟩ : BufTy).Contents (Elt Ideal)) :
    ∀ i, ∃ r : ℝ, 1 ≤ r ∧ val_main_v14 (F := Ideal) x1 i = (r : EReal) := by
  intro i
  obtain ⟨r, _, er⟩ := deg_real x1 i
  refine ⟨max r 1, le_max_right r 1, ?_⟩
  rw [val_main_v14_apply, Ideal.maximumf_def, er, v13_one]
  exact (EReal.coe_strictMono.monotone.map_max).symm

/-- The reciprocal square root of the clamped degree is a positive real number. -/
theorem rsqrt_degc_real (x1 : (⟨S2x1600000, .i32⟩ : BufTy).Contents (Elt Ideal)) :
    ∀ i, ∃ r : ℝ, 0 < r ∧ val_main_v15 (F := Ideal) x1 i = (r : EReal) := by
  intro i
  obtain ⟨r, hr, er⟩ := degc_real x1 i
  have hr0 : 0 < r := lt_of_lt_of_le zero_lt_one hr
  refine ⟨(Real.sqrt r)⁻¹, inv_pos.2 (Real.sqrt_pos.2 hr0), ?_⟩
  rw [val_main_v15_apply, Ideal.hostUnary_rsqrt_def, er, rsqrt_coe_of_pos hr0]

/-- The normalisation vector where(deg > 0, rsqrt(max(deg, 1)), 0) is a non-negative real number at every node,
    whatever the integer indices are. -/
theorem dinv_nonneg_real (x1 : (⟨S2x1600000, .i32⟩ : BufTy).Contents (Elt Ideal)) :
    ∀ i, ∃ r : ℝ, 0 ≤ r ∧ val_main_v16 (F := Ideal) x1 i = (r : EReal) := by
  intro i
  rw [val_main_v16_apply]
  unfold Scalar.select
  split
  · obtain ⟨r, hr, er⟩ := rsqrt_degc_real x1 i
    exact ⟨r, hr.le, er⟩
  · exact ⟨0, le_rfl, call0_v1_zero i⟩

/-- The normalisation vector is a real number at every node, whatever the integer indices are. -/
theorem dinv_real (x1 : (⟨S2x1600000, .i32⟩ : BufTy).Contents (Elt Ideal)) :
    ∀ i, ∃ r : ℝ, val_main_v16 (F := Ideal) x1 i = (r : EReal) := by
  intro i
  obtain ⟨r, _, er⟩ := dinv_nonneg_real x1 i
  exact ⟨r, er⟩

end Cert.Bridge

end
-- ==== Proof.KChain.lean ====
/-
  The kernel's whole value equals the reference's last stage.

  Layer by layer: a transform stage followed by an epilogue stage is the kernel's layer on the host product of the
  layer's input with its weight; the kernel's layer equals the reference's layer when the product and the normalisation
  vector are real (the scaling factor is taken out of a finite sum of reals); the product of real arrays is real, and
  the reference's layer of real operands is real, which feeds the next layer. So each of the kernel's five layer
  outputs is the reference's, given that the features, the weights and the biases are real. The tail (mean pooling,
  concatenation, perceptron) of equal layer outputs is equal in the two arrangements.
-/
import proofs.«105302_j51668456571568_2_alg».proof.Proof.KGlue
import proofs.«105302_j51668456571568_2_alg».proof.Proof.LayerEq
import proofs.«105302_j51668456571568_2_alg».proof.Proof.LayerRef
import proofs.«105302_j51668456571568_2_alg».proof.Proof.LayerReal
import proofs.«105302_j51668456571568_2_alg».proof.Proof.DotReal
import proofs.«105302_j51668456571568_2_alg».proof.Proof.TailEq
import proofs.«105302_j51668456571568_2_alg».proof.Proof.TailRef
import proofs.«105302_j51668456571568_2_alg».proof.Proof.DinvReal

noncomputable section

namespace Cert.Bridge

open Cert.ReferenceIdeal Cert.ReferenceIdeal.Gen Cert.ReferenceIdeal.ReadP Idealize.ShloMosaic
  Idealize.ShloMosaic.ValueIdx

/-! ## One layer -/

/-- One layer: if the layer's input and weight are real, the kernel's two stages give the reference's layer on the
    host product. -/
theorem kLayer_eq (H : FVec Ideal S100000x128 .f32) (W : FVec Ideal S128x128 .f32) (b : FVec Ideal S128 .f32) (x1 : (⟨S2x1600000, .i32⟩ : BufTy).Contents (Elt Ideal))
    (hH : ∀ i, ∃ r : ℝ, H i = (r : EReal)) (hW : ∀ i, ∃ r : ℝ, W i = (r : EReal)) :
    kH (kT H W x1) b x1
      = refLayer (Host.dotGeneral dot_S100000x128_S128x128_S100000x128_1_0_0_1_n_n none H W) (val_main_v16 (F := Ideal) x1) b
          (val_main_v3 (F := Ideal) x1) (val_main_v6 (F := Ideal) x1) := by
  rw [kH_kT_eq]
  exact (layer_eq _ _ _ _ _ (dot_real H W hH hW) (dinv_real x1)).symm

/-- One layer's output is real when its input, weight and bias are. -/
theorem kLayer_real (H : FVec Ideal S100000x128 .f32) (W : FVec Ideal S128x128 .f32) (b : FVec Ideal S128 .f32) (x1 : (⟨S2x1600000, .i32⟩ : BufTy).Contents (Elt Ideal))
    (hH : ∀ i, ∃ r : ℝ, H i = (r : EReal)) (hW : ∀ i, ∃ r : ℝ, W i = (r : EReal))
    (hb : ∀ i, ∃ r : ℝ, b i = (r : EReal)) :
    ∀ i, ∃ r : ℝ, refLayer (Host.dotGeneral dot_S100000x128_S128x128_S100000x128_1_0_0_1_n_n none H W) (val_main_v16 (F := Ideal) x1) b
          (val_main_v3 (F := Ideal) x1) (val_main_v6 (F := Ideal) x1) i = (r : EReal) :=
  layer_real _ _ _ _ _ (dot_real H W hH hW) (dinv_real x1) hb

/-! ## The five layers -/

theorem kH1_eq (x0 : FVec Ideal S100000x128 .f32) (x1 : (⟨S2x1600000, .i32⟩ : BufTy).Contents (Elt Ideal)) (x3 : FVec Ideal S128x128 .f32) (x4 : FVec Ideal S128 .f32) (hx0 : ∀ i, ∃ r : ℝ, x0 i = (r : EReal)) (hx3 : ∀ i, ∃ r : ℝ, x3 i = (r : EReal)) :
    kH1 x0 x1 x3 x4 = val_main_v49 (F := Ideal) x0 x1 x3 x4 := by
  unfold kH1
  rw [kLayer_eq x0 x3 x4 x1 hx0 hx3, ref_h1]
  rfl

theorem h1_real (x0 : FVec Ideal S100000x128 .f32) (x1 : (⟨S2x1600000, .i32⟩ : BufTy).Contents (Elt Ideal)) (x3 : FVec Ideal S128x128 .f32) (x4 : FVec Ideal S128 .f32) (hx0 : ∀ i, ∃ r : ℝ, x0 i = (r : EReal)) (hx3 : ∀ i, ∃ r : ℝ, x3 i = (r : EReal)) (hx4 : ∀ i, ∃ r : ℝ, x4 i = (r : EReal)) :
    ∀ i, ∃ r : ℝ, val_main_v49 (F := Ideal) x0 x1 x3 x4 i = (r : EReal) := by
  rw [ref_h1]
  exact kLayer_real x0 x3 x4 x1 hx0 hx3 hx4

theorem kH2_eq (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) :
    kH2 x0 x1 x3 x4 x5 x6 = val_main_v67 (F := Ideal) x0 x1 x3 x4 x5 x6 := by
  unfold kH2
  rw [kH1_eq x0 x1 x3 x4 hx0 hx3, kLayer_eq _ x5 x6 x1 (h1_real x0 x1 x3 x4 hx0 hx3 hx4) hx5, ref_h2]
  rfl

theorem h2_real (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) :
    ∀ i, ∃ r : ℝ, val_main_v67 (F := Ideal) x0 x1 x3 x4 x5 x6 i = (r : EReal) := by
  rw [ref_h2]
  exact kLayer_real _ x5 x6 x1 (h1_real x0 x1 x3 x4 hx0 hx3 hx4) hx5 hx6

theorem kH3_eq (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) :
    kH3 x0 x1 x3 x4 x5 x6 x7 x8 = val_main_v85 (F := Ideal) x0 x1 x3 x4 x5 x6 x7 x8 := by
  unfold kH3
  rw [kH2_eq x0 x1 x3 x4 x5 x6 hx0 hx3 hx4 hx5,
    kLayer_eq _ x7 x8 x1 (h2_real x0 x1 x3 x4 x5 x6 hx0 hx3 hx4 hx5 hx6) hx7, ref_h3]
  rfl

theorem h3_real (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) :
    ∀ i, ∃ r : ℝ, val_main_v85 (F := Ideal) x0 x1 x3 x4 x5 x6 x7 x8 i = (r : EReal) := by
  rw [ref_h3]
  exact kLayer_real _ x7 x8 x1 (h2_real x0 x1 x3 x4 x5 x6 hx0 hx3 hx4 hx5 hx6) hx7 hx8

theorem kH4_eq (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) (hx9 : ∀ i, ∃ r : ℝ, x9 i = (r : EReal)) :
    kH4 x0 x1 x3 x4 x5 x6 x7 x8 x9 x10 = val_main_v103 (F := Ideal) x0 x1 x3 x4 x5 x6 x7 x8 x9 x10 := by
  unfold kH4
  rw [kH3_eq x0 x1 x3 x4 x5 x6 x7 x8 hx0 hx3 hx4 hx5 hx6 hx7,
    kLayer_eq _ x9 x10 x1 (h3_real x0 x1 x3 x4 x5 x6 x7 x8 hx0 hx3 hx4 hx5 hx6 hx7 hx8) hx9, ref_h4]
  rfl

theorem h4_real (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) (hx9 : ∀ i, ∃ r : ℝ, x9 i = (r : EReal)) (hx10 : ∀ i, ∃ r : ℝ, x10 i = (r : EReal)) :
    ∀ i, ∃ r : ℝ, val_main_v103 (F := Ideal) x0 x1 x3 x4 x5 x6 x7 x8 x9 x10 i = (r : EReal) := by
  rw [ref_h4]
  exact kLayer_real _ x9 x10 x1 (h3_real x0 x1 x3 x4 x5 x6 x7 x8 hx0 hx3 hx4 hx5 hx6 hx7 hx8) hx9 hx10

theorem kH5_eq (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) (hx9 : ∀ i, ∃ r : ℝ, x9 i = (r : EReal)) (hx10 : ∀ i, ∃ r : ℝ, x10 i = (r : EReal)) :
    kH5 x0 x1 x3 x4 x5 x6 x7 x8 x9 x10 = val_main_v121 (F := Ideal) x0 x1 x3 x4 x5 x6 x7 x8 x9 x10 := by
  unfold kH5
  rw [kH4_eq x0 x1 x3 x4 x5 x6 x7 x8 x9 x10 hx0 hx3 hx4 hx5 hx6 hx7 hx8 hx9,
    kLayer_eq _ x9 x10 x1 (h4_real x0 x1 x3 x4 x5 x6 x7 x8 x9 x10 hx0 hx3 hx4 hx5 hx6 hx7 hx8 hx9 hx10) hx9, ref_h5]
  rfl

theorem h5_real (x0 : FVec Ideal S100000x128 .f32) (x1 : (⟨S2x1600000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) (hx9 : ∀ i, ∃ r : ℝ, x9 i = (r : EReal)) (hx10 : ∀ i, ∃ r : ℝ, x10 i = (r : EReal)) :
    ∀ i, ∃ r : ℝ, val_main_v121 (F := Ideal) x0 x1 x3 x4 x5 x6 x7 x8 x9 x10 i = (r : EReal) := by
  rw [ref_h5]
  exact kLayer_real _ x9 x10 x1 (h4_real x0 x1 x3 x4 x5 x6 x7 x8 x9 x10 hx0 hx3 hx4 hx5 hx6 hx7 hx8 hx9 hx10) hx9 hx10

/-! ## The whole network -/

/-- The kernel's tail on the kernel's five layer outputs is the reference's last stage. -/
theorem kchain (x0 : FVec Ideal S100000x128 .f32) (x1 : (⟨S2x1600000, .i32⟩ : BufTy).Contents (Elt Ideal)) (x2 : (⟨S100000, .i32⟩ : BufTy).Contents (Elt Ideal)) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (x11 : FVec Ideal S640x640 .f32) (x12 : FVec Ideal S640 .f32) (x13 : FVec Ideal S640x1 .f32) (x14 : FVec Ideal S1 .f32)
    (hx0 : ∀ i, ∃ r : ℝ, x0 i = (r : EReal)) (hx3 : ∀ i, ∃ r : ℝ, x3 i = (r : EReal)) (hx4 : ∀ i, ∃ r : ℝ, x4 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) (hx9 : ∀ i, ∃ r : ℝ, x9 i = (r : EReal)) (hx10 : ∀ i, ∃ r : ℝ, x10 i = (r : EReal)) :
    kerTail (kH1 x0 x1 x3 x4) (kH2 x0 x1 x3 x4 x5 x6) (kH3 x0 x1 x3 x4 x5 x6 x7 x8)
        (kH4 x0 x1 x3 x4 x5 x6 x7 x8 x9 x10) (kH5 x0 x1 x3 x4 x5 x6 x7 x8 x9 x10) x2 x11 x12 x13 x14
      = val_main_v192 (F := Ideal) x0 x1 x2 x3 x4 x5 x6 x7 x8 x9 x10 x11 x12 x13 x14 := by
  rw [kH1_eq x0 x1 x3 x4 hx0 hx3, kH2_eq x0 x1 x3 x4 x5 x6 hx0 hx3 hx4 hx5,
    kH3_eq x0 x1 x3 x4 x5 x6 x7 x8 hx0 hx3 hx4 hx5 hx6 hx7,
    kH4_eq x0 x1 x3 x4 x5 x6 x7 x8 x9 x10 hx0 hx3 hx4 hx5 hx6 hx7 hx8 hx9,
    kH5_eq x0 x1 x3 x4 x5 x6 x7 x8 x9 x10 hx0 hx3 hx4 hx5 hx6 hx7 hx8 hx9 hx10, ref_tail]
  exact (tail_eq _ _ _ _ _ _ _ _ _ _).symm

end Cert.Bridge

end
-- ==== Proof.lean ====
/-
  The certificate of a five-layer graph-convolution network with mean pooling and a two-layer perceptron: the kernel program
  (seven pipelined regions among stretches of host operations) against its plain reference.

  Frames.  Each kernel program's @main is run as a chain of segments: a stretch of host operations is a pure step on the
  buffers' contents, a region is entered with its arrays split out of the buffers, runs its grid points (the body loads whole
  blocks, computes, stores whole blocks) and puts the arrays back; no segment writes an argument array.  The reference is a
  straight line of host operations.

  Values, at the exact instance.  Both programs compute the degree normalisation dinv, the edge index vectors and the graph
  counts by the same operations.  A layer of the reference is relu (Σ_{e → n} (h W)[row e] · (dinv[row e] · dinv[col e]) + b);
  the kernel scales h W by dinv row-wise before the edge gather and scales the aggregated sum by dinv[n] after the scatter-add.
  On the edges aggregated into n the col index is n, so the two agree by distributing the real factor dinv[n] over a finite sum
  of reals: every value is a real because the float inputs are finite, sums and products of reals are reals, dinv is a real
  whatever the indices are.  The pooled blocks agree because dividing by a non-zero real count is multiplying by its
  reciprocal, and the perceptron because a matrix product into a zero accumulator is the host's product.
-/
import proofs.«105302_j51668456571568_2_alg».proof.Defs
import proofs.«105302_j51668456571568_2_alg».proof.Proof.Gen.Kernel
import proofs.«105302_j51668456571568_2_alg».proof.Proof.Gen.KernelIdeal
import proofs.«105302_j51668456571568_2_alg».proof.Proof.Gen.ReferenceIdeal
import proofs.«105302_j51668456571568_2_alg».proof.Proof.Gen.Pre_finite_inputs
import proofs.«105302_j51668456571568_2_alg».proof.Proof.K.Run
import proofs.«105302_j51668456571568_2_alg».proof.Proof.KI.Run
import proofs.«105302_j51668456571568_2_alg».proof.Proof.KI.ValsT
import proofs.«105302_j51668456571568_2_alg».proof.Proof.RefRunH
import proofs.«105302_j51668456571568_2_alg».proof.Proof.FiniteInputs
import proofs.«105302_j51668456571568_2_alg».proof.Proof.KChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.H.frame m ρ

/-- The idealized kernel program runs and leaves its arguments as launched. -/
theorem frame_ki : Cert.frame_KernelIdeal := fun m ρ _ => Cert.KernelIdeal.H.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- From memories that agree on the arguments both programs end at one result: the kernel's fold read as the five explicit
    layers and the tail, the reference's term its last stage, the two equal for finite float inputs. -/
theorem algebraic : Cert.algebraic_KernelIdeal_ReferenceIdeal := by
  intro m ρ m' ρ' hpre hagree
  refine ⟨fun c => Cert.KernelIdeal.H.W17 m ρ c (Proc.devRef .tc Cert.KernelIdeal.main_v122), Cert.KernelIdeal.H.run m ρ, ?_⟩
  refine (θ_run Cert.ReferenceIdeal.defs _ _).mono (fun _ h c => ⟨(h c).1.trans ?_, (h c).2⟩)
    (Cert.ReferenceIdeal.RunH.run (F := Ideal) m' ρ')
  obtain ⟨g0, g1, g2, g3, g4, g5, g6, g7, g8, g9, g10, g11, g12, g13, g14⟩ := hagree c
  rw [g0, g1, g2, g3, g4, g5, g6, g7, g8, g9, g10, g11, g12, g13, g14]
  obtain ⟨r0, r3, r4, r5, r6, r7, r8, r9, r10, -, -, -, -⟩ := Cert.Bridge.finite_of_pre _ _ _ _ _ _ _ _ _ _ _ _ _ _ _ (hpre c)
  refine ((Cert.Bridge.kchain _ _ _ _ _ _ _ _ _ _ _ _ _ _ _ r0 r3 r4 r5 r6 r7 r8 r9 r10).symm).trans ?_
  exact (Cert.KernelIdeal.H.w17_v122 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
